-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v241)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S128x10 .f32) (main_arg17 : FVec F S10 .f32) (main_v63 : IVec S_ 1) (main_v67 : IVec S_ 1) : IVec S_ 1 :=
  let main_v68 : IVec S_ 1 := andi main_v63 main_v67
  let main_v69 : FVec F S128x10 .f32 := Host.absf main_arg16
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128x10 .f32) (main_arg17 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S3x128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x10 .f32) (main_arg17 : FVec F S10 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S3x128 .f32) (main_arg7 : FVec F S3x128 .f32) (main_arg8 : FVec F S3x128x128 .f32) (main_arg9 : FVec F S3x128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x10 .f32) (main_arg17 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S128 .f32) (main_arg4 : FVec F S128 .f32) (main_arg5 : FVec F S128x128 .f32) (main_arg6 : FVec F S3x128 .f32) (main_arg7 : FVec F S3x128 .f32) (main_arg8 : FVec F S3x128x128 .f32) (main_arg9 : FVec F S3x128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x10 .f32) (main_arg17 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S1x128x128 : Shape := ⟨3, ![1, 128, 128]⟩
abbrev S850000 : Shape := ⟨1, ![850000]⟩
abbrev S850000x1 : Shape := ⟨2, ![850000, 1]⟩
abbrev S850000x128 : Shape := ⟨2, ![850000, 128]⟩
abbrev S500x128 : Shape := ⟨2, ![500, 128]⟩
abbrev S50000x1 : Shape := ⟨2, ![50000, 1]⟩
abbrev S500x10 : Shape := ⟨2, ![500, 10]⟩
abbrev S1x10 : Shape := ⟨2, ![1, 10]⟩
abbrev S500 : Shape := ⟨1, ![500]⟩
abbrev S500x1 : Shape := ⟨2, ![500, 1]⟩

abbrev nBuf : Space → Nat
  | .hbm => 378
  | .vmem => 67
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x128, .f32⟩
  | 6 => ⟨S3x128, .f32⟩
  | 7 => ⟨S3x128, .f32⟩
  | 8 => ⟨S3x128x128, .f32⟩
  | 9 => ⟨S3x128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S1x128, .f32⟩
  | 23 => ⟨S1x128, .f32⟩
  | 24 => ⟨S_, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S50000x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S50000x128, .f32⟩
  | 54 => ⟨S50000, .i32⟩
  | 55 => ⟨S850000, .i32⟩
  | 56 => ⟨S850000, .i32⟩
  | 57 => ⟨S_, .f32⟩
  | 58 => ⟨S850000, .f32⟩
  | 59 => ⟨S_, .f32⟩
  | 60 => ⟨S50000, .f32⟩
  | 61 => ⟨S850000x1, .i32⟩
  | 62 => ⟨S50000, .f32⟩
  | 63 => ⟨S_, .f32⟩
  | 64 => ⟨S50000, .f32⟩
  | 65 => ⟨S50000, .i1⟩
  | 66 => ⟨S50000, .f32⟩
  | 67 => ⟨S_, .f32⟩
  | 68 => ⟨S_, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S50000, .i32⟩
  | 2 => ⟨S850000, .i32⟩
  | 3 => ⟨S850000, .i32⟩
  | 4 => ⟨S_, .f32⟩
  | 5 => ⟨S850000, .f32⟩
  | 6 => ⟨S_, .f32⟩
  | 7 => ⟨S50000, .f32⟩
  | 8 => ⟨S850000x1, .i32⟩
  | 9 => ⟨S50000, .f32⟩
  | 10 => ⟨S_, .f32⟩
  | 11 => ⟨S50000, .f32⟩
  | 12 => ⟨S50000, .i1⟩
  | 13 => ⟨S50000, .f32⟩
  | 14 => ⟨S_, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x128, .f32⟩
  | 46 => ⟨S850000x1, .f32⟩
  | 47 => ⟨S850000x128, .f32⟩
  | 48 => ⟨S850000x128, .f32⟩
  | 49 => ⟨S_, .f32⟩
  | 50 => ⟨S50000x128, .f32⟩
  | 51 => ⟨S850000x1, .i32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S1x128x128, .f32⟩
  | 74 => ⟨S128x128, .f32⟩
  | 75 => ⟨S50000x128, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x1, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S_, .f32⟩
  | 5 => ⟨S500x128, .f32⟩
  | 6 => ⟨S50000x1, .i32⟩
  | 7 => ⟨S500x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S500x128, .f32⟩
  | 21 => ⟨S500x128, .f32⟩
  | 22 => ⟨S500x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S500x128, .f32⟩
  | 38 => ⟨S500x128, .f32⟩
  | 39 => ⟨S_, .f32⟩
  | 40 => ⟨S128, .f32⟩
  | 41 => ⟨S128, .f32⟩
  | 42 => ⟨S128, .f32⟩
  | 43 => ⟨S1x128, .f32⟩
  | 44 => ⟨S500x128, .f32⟩
  | 45 => ⟨S500x128, .f32⟩
  | 46 => ⟨S1x128, .f32⟩
  | 47 => ⟨S500x128, .f32⟩
  | 48 => ⟨S500x128, .f32⟩
  | 49 => ⟨S1x128, .f32⟩
  | 50 => ⟨S500x128, .f32⟩
  | 51 => ⟨S500x128, .f32⟩
  | 52 => ⟨S500x128, .f32⟩
  | 53 => ⟨S1x128, .f32⟩
  | 54 => ⟨S500x128, .f32⟩
  | 55 => ⟨S500x128, .f32⟩
  | 56 => ⟨S_, .f32⟩
  | 57 => ⟨S500x128, .f32⟩
  | 58 => ⟨S500x128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S500x128, .f32⟩
  | 72 => ⟨S500x128, .f32⟩
  | 73 => ⟨S500x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S500x128, .f32⟩
  | 89 => ⟨S500x128, .f32⟩
  | 90 => ⟨S_, .f32⟩
  | 91 => ⟨S128, .f32⟩
  | 92 => ⟨S128, .f32⟩
  | 93 => ⟨S128, .f32⟩
  | 94 => ⟨S1x128, .f32⟩
  | 95 => ⟨S500x128, .f32⟩
  | 96 => ⟨S500x128, .f32⟩
  | 97 => ⟨S1x128, .f32⟩
  | 98 => ⟨S500x128, .f32⟩
  | 99 => ⟨S500x128, .f32⟩
  | 100 => ⟨S1x128, .f32⟩
  | 101 => ⟨S500x128, .f32⟩
  | 102 => ⟨S500x128, .f32⟩
  | 103 => ⟨S500x10, .f32⟩
  | 104 => ⟨S1x10, .f32⟩
  | 105 => ⟨S500x10, .f32⟩
  | 106 => ⟨S500x10, .f32⟩
  | 107 => ⟨S_, .f32⟩
  | 108 => ⟨S500, .f32⟩
  | 109 => ⟨S_, .f32⟩
  | 110 => ⟨S500, .f32⟩
  | 111 => ⟨S500, .f32⟩
  | 112 => ⟨S500x1, .f32⟩
  | 113 => ⟨S500x10, .f32⟩
  | 114 => ⟨S500x10, .f32⟩
  | 115 => ⟨S500x10, .f32⟩
  | 116 => ⟨S_, .f32⟩
  | 117 => ⟨S500, .f32⟩
  | 118 => ⟨S500x1, .f32⟩
  | 119 => ⟨S500x1, .f32⟩
  | 120 => ⟨S500x10, .f32⟩
  | 121 => ⟨S500x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S128x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_call0_v0 : Ref sig .tc := ⟨.hbm, 68, rfl⟩
abbrev main_call0_v1 : Ref sig .tc := ⟨.hbm, 69, rfl⟩
abbrev main_v40 : Ref sig .tc := ⟨.hbm, 70, rfl⟩
abbrev main_c : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73_0 : Ref sig .tc := ⟨.hbm, 110, rfl⟩
abbrev main_v73_1 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_18 : Ref sig .tc := ⟨.hbm, 142, rfl⟩
abbrev main_call1_v0 : Ref sig .tc := ⟨.hbm, 143, rfl⟩
abbrev main_call1_v1 : Ref sig .tc := ⟨.hbm, 144, rfl⟩
abbrev main_v99 : Ref sig .tc := ⟨.hbm, 145, rfl⟩
abbrev main_c_19 : Ref sig .tc := ⟨.hbm, 146, rfl⟩
abbrev main_v100 : Ref sig .tc := ⟨.hbm, 147, rfl⟩
abbrev main_v101 : Ref sig .tc := ⟨.hbm, 148, rfl⟩
abbrev main_c_20 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_21 : Ref sig .tc := ⟨.hbm, 155, rfl⟩
abbrev main_v107 : Ref sig .tc := ⟨.hbm, 156, rfl⟩
abbrev main_v108 : Ref sig .tc := ⟨.hbm, 157, rfl⟩
abbrev main_c_22 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_c_23 : Ref sig .tc := ⟨.hbm, 165, rfl⟩
abbrev main_v115 : Ref sig .tc := ⟨.hbm, 166, rfl⟩
abbrev main_v116 : Ref sig .tc := ⟨.hbm, 167, rfl⟩
abbrev main_c_24 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_25 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132_0 : Ref sig .tc := ⟨.hbm, 185, rfl⟩
abbrev main_v132_1 : Ref sig .tc := ⟨.hbm, 186, rfl⟩
abbrev main_cst_26 : Ref sig .tc := ⟨.hbm, 187, rfl⟩
abbrev main_v133 : Ref sig .tc := ⟨.hbm, 188, rfl⟩
abbrev main_v134 : Ref sig .tc := ⟨.hbm, 189, rfl⟩
abbrev main_cst_27 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_28 : Ref sig .tc := ⟨.hbm, 207, rfl⟩
abbrev main_v151 : Ref sig .tc := ⟨.hbm, 208, rfl⟩
abbrev main_cst_29 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_30 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_31 : Ref sig .tc := ⟨.hbm, 217, rfl⟩
abbrev main_call2_v0 : Ref sig .tc := ⟨.hbm, 218, rfl⟩
abbrev main_call2_v1 : Ref sig .tc := ⟨.hbm, 219, rfl⟩
abbrev main_v158 : Ref sig .tc := ⟨.hbm, 220, rfl⟩
abbrev main_c_32 : Ref sig .tc := ⟨.hbm, 221, rfl⟩
abbrev main_v159 : Ref sig .tc := ⟨.hbm, 222, rfl⟩
abbrev main_v160 : Ref sig .tc := ⟨.hbm, 223, rfl⟩
abbrev main_c_33 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_c_34 : Ref sig .tc := ⟨.hbm, 230, rfl⟩
abbrev main_v166 : Ref sig .tc := ⟨.hbm, 231, rfl⟩
abbrev main_v167 : Ref sig .tc := ⟨.hbm, 232, rfl⟩
abbrev main_c_35 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_c_36 : Ref sig .tc := ⟨.hbm, 240, rfl⟩
abbrev main_v174 : Ref sig .tc := ⟨.hbm, 241, rfl⟩
abbrev main_v175 : Ref sig .tc := ⟨.hbm, 242, rfl⟩
abbrev main_c_37 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_cst_38 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_39 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_40 : Ref sig .tc := ⟨.hbm, 264, rfl⟩
abbrev main_v194 : Ref sig .tc := ⟨.hbm, 265, rfl⟩
abbrev main_cst_41 : Ref sig .tc := ⟨.hbm, 266, rfl⟩
abbrev main_v195 : Ref sig .tc := ⟨.hbm, 267, rfl⟩
abbrev main_v196 : Ref sig .tc := ⟨.hbm, 268, rfl⟩
abbrev main_c_42 : Ref sig .tc := ⟨.hbm, 269, rfl⟩
abbrev main_call3_cst : Ref sig .tc := ⟨.hbm, 270, rfl⟩
abbrev main_call3_v0 : Ref sig .tc := ⟨.hbm, 271, rfl⟩
abbrev main_call3_v1 : Ref sig .tc := ⟨.hbm, 272, rfl⟩
abbrev main_call3_cst_0 : Ref sig .tc := ⟨.hbm, 273, rfl⟩
abbrev main_call3_v2 : Ref sig .tc := ⟨.hbm, 274, rfl⟩
abbrev main_call3_v3 : Ref sig .tc := ⟨.hbm, 275, rfl⟩
abbrev main_call3_v4 : Ref sig .tc := ⟨.hbm, 276, rfl⟩
abbrev main_call3_v5 : Ref sig .tc := ⟨.hbm, 277, rfl⟩
abbrev main_call3_v6 : Ref sig .tc := ⟨.hbm, 278, rfl⟩
abbrev main_call3_v7 : Ref sig .tc := ⟨.hbm, 279, rfl⟩
abbrev main_call3_cst_1 : Ref sig .tc := ⟨.hbm, 280, rfl⟩
abbrev main_call3_v8 : Ref sig .tc := ⟨.hbm, 281, rfl⟩
abbrev main_call3_cst_2 : Ref sig .tc := ⟨.hbm, 282, rfl⟩
abbrev main_call3_v9 : Ref sig .tc := ⟨.hbm, 283, rfl⟩
abbrev main_call3_v10 : Ref sig .tc := ⟨.hbm, 284, rfl⟩
abbrev main_call3_v11 : Ref sig .tc := ⟨.hbm, 285, rfl⟩
abbrev main_call3_cst_3 : Ref sig .tc := ⟨.hbm, 286, rfl⟩
abbrev main_call3_v12 : Ref sig .tc := ⟨.hbm, 287, rfl⟩
abbrev main_call3_cst_4 : Ref sig .tc := ⟨.hbm, 288, rfl⟩
abbrev main_call3_call0_v0 : Ref sig .tc := ⟨.hbm, 289, rfl⟩
abbrev main_call3_call0_v1 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_cst_43 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_call4_cst : Ref sig .tc := ⟨.hbm, 312, rfl⟩
abbrev main_call4_v0 : Ref sig .tc := ⟨.hbm, 313, rfl⟩
abbrev main_v217 : Ref sig .tc := ⟨.hbm, 314, rfl⟩
abbrev main_cst_44 : Ref sig .tc := ⟨.hbm, 315, rfl⟩
abbrev main_v218 : Ref sig .tc := ⟨.hbm, 316, rfl⟩
abbrev main_cst_45 : Ref sig .tc := ⟨.hbm, 317, rfl⟩
abbrev main_v219 : Ref sig .tc := ⟨.hbm, 318, rfl⟩
abbrev main_v220 : Ref sig .tc := ⟨.hbm, 319, rfl⟩
abbrev main_c_46 : Ref sig .tc := ⟨.hbm, 320, rfl⟩
abbrev main_call5_cst : Ref sig .tc := ⟨.hbm, 321, rfl⟩
abbrev main_call5_v0 : Ref sig .tc := ⟨.hbm, 322, rfl⟩
abbrev main_call5_v1 : Ref sig .tc := ⟨.hbm, 323, rfl⟩
abbrev main_call5_cst_0 : Ref sig .tc := ⟨.hbm, 324, rfl⟩
abbrev main_call5_v2 : Ref sig .tc := ⟨.hbm, 325, rfl⟩
abbrev main_call5_v3 : Ref sig .tc := ⟨.hbm, 326, rfl⟩
abbrev main_call5_v4 : Ref sig .tc := ⟨.hbm, 327, rfl⟩
abbrev main_call5_v5 : Ref sig .tc := ⟨.hbm, 328, rfl⟩
abbrev main_call5_v6 : Ref sig .tc := ⟨.hbm, 329, rfl⟩
abbrev main_call5_v7 : Ref sig .tc := ⟨.hbm, 330, rfl⟩
abbrev main_call5_cst_1 : Ref sig .tc := ⟨.hbm, 331, rfl⟩
abbrev main_call5_v8 : Ref sig .tc := ⟨.hbm, 332, rfl⟩
abbrev main_call5_cst_2 : Ref sig .tc := ⟨.hbm, 333, rfl⟩
abbrev main_call5_v9 : Ref sig .tc := ⟨.hbm, 334, rfl⟩
abbrev main_call5_v10 : Ref sig .tc := ⟨.hbm, 335, rfl⟩
abbrev main_call5_v11 : Ref sig .tc := ⟨.hbm, 336, rfl⟩
abbrev main_call5_cst_3 : Ref sig .tc := ⟨.hbm, 337, rfl⟩
abbrev main_call5_v12 : Ref sig .tc := ⟨.hbm, 338, rfl⟩
abbrev main_call5_cst_4 : Ref sig .tc := ⟨.hbm, 339, rfl⟩
abbrev main_call5_call0_v0 : Ref sig .tc := ⟨.hbm, 340, rfl⟩
abbrev main_call5_call0_v1 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_cst_47 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_call6_cst : Ref sig .tc := ⟨.hbm, 363, rfl⟩
abbrev main_call6_v0 : Ref sig .tc := ⟨.hbm, 364, rfl⟩
abbrev main_call6_cst_0 : Ref sig .tc := ⟨.hbm, 365, rfl⟩
abbrev main_call6_v1 : Ref sig .tc := ⟨.hbm, 366, rfl⟩
abbrev main_call6_v2 : Ref sig .tc := ⟨.hbm, 367, rfl⟩
abbrev main_call6_v3 : Ref sig .tc := ⟨.hbm, 368, rfl⟩
abbrev main_call6_v4 : Ref sig .tc := ⟨.hbm, 369, rfl⟩
abbrev main_call6_v5 : Ref sig .tc := ⟨.hbm, 370, rfl⟩
abbrev main_call6_v6 : Ref sig .tc := ⟨.hbm, 371, rfl⟩
abbrev main_call6_cst_1 : Ref sig .tc := ⟨.hbm, 372, rfl⟩
abbrev main_call6_v7 : Ref sig .tc := ⟨.hbm, 373, rfl⟩
abbrev main_call6_v8 : Ref sig .tc := ⟨.hbm, 374, rfl⟩
abbrev main_call6_v9 : Ref sig .tc := ⟨.hbm, 375, rfl⟩
abbrev main_call6_v10 : Ref sig .tc := ⟨.hbm, 376, rfl⟩
abbrev main_v241 : Ref sig .tc := ⟨.hbm, 377, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc6_stg6_0 : Ref sig .tc := ⟨.vmem, 42, rfl⟩
abbrev cc6_stg6_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg5_0 : Ref sig .tc := ⟨.vmem, 59, rfl⟩
abbrev cc9_stg6_0 : Ref sig .tc := ⟨.vmem, 60, rfl⟩
abbrev cc9_stg6_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg2_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41
abbrev cc6_sem6_0 : DmaSem sig := 42
abbrev cc6_sem6_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc9_sem0_0 : DmaSem sig := 53
abbrev cc9_sem0_1 : DmaSem sig := 54
abbrev cc9_sem1_0 : DmaSem sig := 55
abbrev cc9_sem2_0 : DmaSem sig := 56
abbrev cc9_sem3_0 : DmaSem sig := 57
abbrev cc9_sem4_0 : DmaSem sig := 58
abbrev cc9_sem5_0 : DmaSem sig := 59
abbrev cc9_sem6_0 : DmaSem sig := 60
abbrev cc9_sem6_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem2_1 : DmaSem sig := 66

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S_S500x128 : S_.BroadcastsInDim S500x128 (![] : Fin 0 → Fin S500x128.rank)
  bcast_S50000_S50000x1_0 : S50000.BroadcastsInDim S50000x1 (![0] : Fin 1 → Fin S50000x1.rank)
  reducesTo_S500x128_S128_d0 : S500x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S500x128_0_1 : S1x128.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v13) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v29) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v72) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v88) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v127) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v131) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v131) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v132_0) S1x128.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v132_1) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v131) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v134) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v138) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v141) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v144) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v146) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v147) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v186) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v189) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v190) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S1x128x128 : Shape := ⟨3, ![1, 128, 128]⟩
abbrev S850000 : Shape := ⟨1, ![850000]⟩
abbrev S850000x1 : Shape := ⟨2, ![850000, 1]⟩
abbrev S850000x128 : Shape := ⟨2, ![850000, 128]⟩
abbrev S500x128 : Shape := ⟨2, ![500, 128]⟩
abbrev S50000x1 : Shape := ⟨2, ![50000, 1]⟩
abbrev S500x10 : Shape := ⟨2, ![500, 10]⟩
abbrev S1x10 : Shape := ⟨2, ![1, 10]⟩
abbrev S500 : Shape := ⟨1, ![500]⟩
abbrev S500x1 : Shape := ⟨2, ![500, 1]⟩

abbrev nBuf : Space → Nat
  | .hbm => 524
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x128, .f32⟩
  | 6 => ⟨S3x128, .f32⟩
  | 7 => ⟨S3x128, .f32⟩
  | 8 => ⟨S3x128x128, .f32⟩
  | 9 => ⟨S3x128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S1x128x128, .f32⟩
  | 119 => ⟨S128x128, .f32⟩
  | 120 => ⟨S1x128, .f32⟩
  | 121 => ⟨S128, .f32⟩
  | 122 => ⟨S50000x128, .f32⟩
  | 123 => ⟨S50000, .i32⟩
  | 124 => ⟨S850000, .i32⟩
  | 125 => ⟨S850000, .i32⟩
  | 126 => ⟨S_, .f32⟩
  | 127 => ⟨S850000, .f32⟩
  | _ => ⟨S50000x128, .f32⟩

abbrev hbmTy0_1 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000x128, .f32⟩
  | 41 => ⟨S850000x1, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S50000x128, .f32⟩
  | 107 => ⟨S50000, .i32⟩
  | 108 => ⟨S850000, .i32⟩
  | 109 => ⟨S850000, .i32⟩
  | 110 => ⟨S_, .f32⟩
  | 111 => ⟨S850000, .f32⟩
  | 112 => ⟨S_, .f32⟩
  | 113 => ⟨S50000, .f32⟩
  | 114 => ⟨S850000x1, .i32⟩
  | 115 => ⟨S50000, .f32⟩
  | 116 => ⟨S_, .f32⟩
  | 117 => ⟨S50000, .f32⟩
  | 118 => ⟨S50000, .i1⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S850000, .i32⟩
  | 126 => ⟨S850000, .i1⟩
  | 127 => ⟨S_, .i32⟩
  | _ => ⟨S50000x128, .f32⟩

abbrev hbmTy0_2 (i : Nat) : BufTy := match i % 128 with
  | 0 => ⟨S850000, .i32⟩
  | 1 => ⟨S850000, .i32⟩
  | 2 => ⟨S850000, .i32⟩
  | 3 => ⟨S850000x1, .i32⟩
  | 4 => ⟨S850000, .f32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000, .f32⟩
  | 15 => ⟨S850000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x128, .f32⟩
  | 25 => ⟨S850000x1, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S50000, .i32⟩
  | 92 => ⟨S850000, .i32⟩
  | 93 => ⟨S850000, .i32⟩
  | 94 => ⟨S_, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S_, .f32⟩
  | 101 => ⟨S50000, .f32⟩
  | 102 => ⟨S50000, .i1⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x128, .f32⟩

abbrev hbmTy0_3 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x128, .f32⟩
  | 9 => ⟨S850000x1, .f32⟩
  | 10 => ⟨S850000x128, .f32⟩
  | 11 => ⟨S850000x128, .f32⟩
  | 12 => ⟨S_, .f32⟩
  | 13 => ⟨S50000x128, .f32⟩
  | 14 => ⟨S850000x1, .i32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S500x128, .f32⟩
  | 24 => ⟨S50000x1, .i32⟩
  | 25 => ⟨S500x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S500x128, .f32⟩
  | 39 => ⟨S500x128, .f32⟩
  | 40 => ⟨S500x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S500x128, .f32⟩
  | 56 => ⟨S500x128, .f32⟩
  | 57 => ⟨S_, .f32⟩
  | 58 => ⟨S128, .f32⟩
  | 59 => ⟨S128, .f32⟩
  | 60 => ⟨S128, .f32⟩
  | 61 => ⟨S1x128, .f32⟩
  | 62 => ⟨S500x128, .f32⟩
  | 63 => ⟨S500x128, .f32⟩
  | 64 => ⟨S1x128, .f32⟩
  | 65 => ⟨S500x128, .f32⟩
  | 66 => ⟨S500x128, .f32⟩
  | 67 => ⟨S1x128, .f32⟩
  | 68 => ⟨S500x128, .f32⟩
  | 69 => ⟨S500x128, .f32⟩
  | 70 => ⟨S500x128, .f32⟩
  | 71 => ⟨S1x128, .f32⟩
  | 72 => ⟨S500x128, .f32⟩
  | 73 => ⟨S500x128, .f32⟩
  | 74 => ⟨S_, .f32⟩
  | 75 => ⟨S500x128, .f32⟩
  | 76 => ⟨S500x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S500x128, .f32⟩
  | 90 => ⟨S500x128, .f32⟩
  | 91 => ⟨S500x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S500x128, .f32⟩
  | 107 => ⟨S500x128, .f32⟩
  | 108 => ⟨S_, .f32⟩
  | 109 => ⟨S128, .f32⟩
  | 110 => ⟨S128, .f32⟩
  | 111 => ⟨S128, .f32⟩
  | 112 => ⟨S1x128, .f32⟩
  | 113 => ⟨S500x128, .f32⟩
  | 114 => ⟨S500x128, .f32⟩
  | 115 => ⟨S1x128, .f32⟩
  | 116 => ⟨S500x128, .f32⟩
  | 117 => ⟨S500x128, .f32⟩
  | 118 => ⟨S1x128, .f32⟩
  | 119 => ⟨S500x128, .f32⟩
  | 120 => ⟨S500x128, .f32⟩
  | 121 => ⟨S500x10, .f32⟩
  | 122 => ⟨S1x10, .f32⟩
  | 123 => ⟨S500x10, .f32⟩
  | 124 => ⟨S500x10, .f32⟩
  | 125 => ⟨S_, .f32⟩
  | 126 => ⟨S500, .f32⟩
  | 127 => ⟨S_, .f32⟩
  | _ => ⟨S50000x128, .f32⟩

abbrev hbmTy0_4 (i : Nat) : BufTy := match i % 128 with
  | 0 => ⟨S500, .f32⟩
  | 1 => ⟨S500, .f32⟩
  | 2 => ⟨S500x1, .f32⟩
  | 3 => ⟨S500x10, .f32⟩
  | 4 => ⟨S500x10, .f32⟩
  | 5 => ⟨S500x10, .f32⟩
  | 6 => ⟨S_, .f32⟩
  | 7 => ⟨S500, .f32⟩
  | 8 => ⟨S500x1, .f32⟩
  | 9 => ⟨S500x1, .f32⟩
  | 10 => ⟨S500x10, .f32⟩
  | 11 => ⟨S500x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_call1_cst : Ref sig .tc := ⟨.hbm, 67, rfl⟩
abbrev main_call1_v0 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_2 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_v31 : Ref sig .tc := ⟨.hbm, 78, rfl⟩
abbrev main_c_4 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_5 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_6 : Ref sig .tc := ⟨.hbm, 126, rfl⟩
abbrev main_v56 : Ref sig .tc := ⟨.hbm, 127, rfl⟩
abbrev main_cst_7 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_8 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_9 : Ref sig .tc := ⟨.hbm, 136, rfl⟩
abbrev main_call3_v0 : Ref sig .tc := ⟨.hbm, 137, rfl⟩
abbrev main_call3_v1 : Ref sig .tc := ⟨.hbm, 138, rfl⟩
abbrev main_v63 : Ref sig .tc := ⟨.hbm, 139, rfl⟩
abbrev main_c_10 : Ref sig .tc := ⟨.hbm, 140, rfl⟩
abbrev main_v64 : Ref sig .tc := ⟨.hbm, 141, rfl⟩
abbrev main_v65 : Ref sig .tc := ⟨.hbm, 142, rfl⟩
abbrev main_c_11 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_c_12 : Ref sig .tc := ⟨.hbm, 150, rfl⟩
abbrev main_v72 : Ref sig .tc := ⟨.hbm, 151, rfl⟩
abbrev main_v73 : Ref sig .tc := ⟨.hbm, 152, rfl⟩
abbrev main_c_13 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_c_14 : Ref sig .tc := ⟨.hbm, 160, rfl⟩
abbrev main_v80 : Ref sig .tc := ⟨.hbm, 161, rfl⟩
abbrev main_v81 : Ref sig .tc := ⟨.hbm, 162, rfl⟩
abbrev main_c_15 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_16 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_call4_cst : Ref sig .tc := ⟨.hbm, 179, rfl⟩
abbrev main_call4_v0 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_cst_17 : Ref sig .tc := ⟨.hbm, 186, rfl⟩
abbrev main_v101 : Ref sig .tc := ⟨.hbm, 187, rfl⟩
abbrev main_cst_18 : Ref sig .tc := ⟨.hbm, 188, rfl⟩
abbrev main_v102 : Ref sig .tc := ⟨.hbm, 189, rfl⟩
abbrev main_v103 : Ref sig .tc := ⟨.hbm, 190, rfl⟩
abbrev main_c_19 : Ref sig .tc := ⟨.hbm, 191, rfl⟩
abbrev main_call5_cst : Ref sig .tc := ⟨.hbm, 192, rfl⟩
abbrev main_call5_v0 : Ref sig .tc := ⟨.hbm, 193, rfl⟩
abbrev main_call5_v1 : Ref sig .tc := ⟨.hbm, 194, rfl⟩
abbrev main_call5_cst_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_v7 : Ref sig .tc := ⟨.hbm, 201, rfl⟩
abbrev main_call5_cst_1 : Ref sig .tc := ⟨.hbm, 202, rfl⟩
abbrev main_call5_v8 : Ref sig .tc := ⟨.hbm, 203, rfl⟩
abbrev main_call5_cst_2 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_cst_3 : Ref sig .tc := ⟨.hbm, 208, rfl⟩
abbrev main_call5_v12 : Ref sig .tc := ⟨.hbm, 209, rfl⟩
abbrev main_call5_cst_4 : Ref sig .tc := ⟨.hbm, 210, rfl⟩
abbrev main_call5_call0_v0 : Ref sig .tc := ⟨.hbm, 211, rfl⟩
abbrev main_call5_call0_v1 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_cst_20 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_cst_21 : Ref sig .tc := ⟨.hbm, 238, rfl⟩
abbrev main_v128 : Ref sig .tc := ⟨.hbm, 239, rfl⟩
abbrev main_cst_22 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_cst_23 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_cst_24 : Ref sig .tc := ⟨.hbm, 248, rfl⟩
abbrev main_call6_v0 : Ref sig .tc := ⟨.hbm, 249, rfl⟩
abbrev main_call6_v1 : Ref sig .tc := ⟨.hbm, 250, rfl⟩
abbrev main_v135 : Ref sig .tc := ⟨.hbm, 251, rfl⟩
abbrev main_c_25 : Ref sig .tc := ⟨.hbm, 252, rfl⟩
abbrev main_v136 : Ref sig .tc := ⟨.hbm, 253, rfl⟩
abbrev main_v137 : Ref sig .tc := ⟨.hbm, 254, rfl⟩
abbrev main_c_26 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_c_27 : Ref sig .tc := ⟨.hbm, 262, rfl⟩
abbrev main_v144 : Ref sig .tc := ⟨.hbm, 263, rfl⟩
abbrev main_v145 : Ref sig .tc := ⟨.hbm, 264, rfl⟩
abbrev main_c_28 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_c_29 : Ref sig .tc := ⟨.hbm, 272, rfl⟩
abbrev main_v152 : Ref sig .tc := ⟨.hbm, 273, rfl⟩
abbrev main_v153 : Ref sig .tc := ⟨.hbm, 274, rfl⟩
abbrev main_c_30 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_cst_31 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_call7_cst : Ref sig .tc := ⟨.hbm, 291, rfl⟩
abbrev main_call7_v0 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_32 : Ref sig .tc := ⟨.hbm, 298, rfl⟩
abbrev main_v173 : Ref sig .tc := ⟨.hbm, 299, rfl⟩
abbrev main_cst_33 : Ref sig .tc := ⟨.hbm, 300, rfl⟩
abbrev main_v174 : Ref sig .tc := ⟨.hbm, 301, rfl⟩
abbrev main_v175 : Ref sig .tc := ⟨.hbm, 302, rfl⟩
abbrev main_c_34 : Ref sig .tc := ⟨.hbm, 303, rfl⟩
abbrev main_call8_cst : Ref sig .tc := ⟨.hbm, 304, rfl⟩
abbrev main_call8_v0 : Ref sig .tc := ⟨.hbm, 305, rfl⟩
abbrev main_call8_v1 : Ref sig .tc := ⟨.hbm, 306, rfl⟩
abbrev main_call8_cst_0 : Ref sig .tc := ⟨.hbm, 307, rfl⟩
abbrev main_call8_v2 : Ref sig .tc := ⟨.hbm, 308, rfl⟩
abbrev main_call8_v3 : Ref sig .tc := ⟨.hbm, 309, rfl⟩
abbrev main_call8_v4 : Ref sig .tc := ⟨.hbm, 310, rfl⟩
abbrev main_call8_v5 : Ref sig .tc := ⟨.hbm, 311, rfl⟩
abbrev main_call8_v6 : Ref sig .tc := ⟨.hbm, 312, rfl⟩
abbrev main_call8_v7 : Ref sig .tc := ⟨.hbm, 313, rfl⟩
abbrev main_call8_cst_1 : Ref sig .tc := ⟨.hbm, 314, rfl⟩
abbrev main_call8_v8 : Ref sig .tc := ⟨.hbm, 315, rfl⟩
abbrev main_call8_cst_2 : Ref sig .tc := ⟨.hbm, 316, rfl⟩
abbrev main_call8_v9 : Ref sig .tc := ⟨.hbm, 317, rfl⟩
abbrev main_call8_v10 : Ref sig .tc := ⟨.hbm, 318, rfl⟩
abbrev main_call8_v11 : Ref sig .tc := ⟨.hbm, 319, rfl⟩
abbrev main_call8_cst_3 : Ref sig .tc := ⟨.hbm, 320, rfl⟩
abbrev main_call8_v12 : Ref sig .tc := ⟨.hbm, 321, rfl⟩
abbrev main_call8_cst_4 : Ref sig .tc := ⟨.hbm, 322, rfl⟩
abbrev main_call8_call0_v0 : Ref sig .tc := ⟨.hbm, 323, rfl⟩
abbrev main_call8_call0_v1 : Ref sig .tc := ⟨.hbm, 324, rfl⟩
abbrev main_v176 : Ref sig .tc := ⟨.hbm, 325, rfl⟩
abbrev main_v177 : Ref sig .tc := ⟨.hbm, 326, rfl⟩
abbrev main_v178 : Ref sig .tc := ⟨.hbm, 327, rfl⟩
abbrev main_v179 : Ref sig .tc := ⟨.hbm, 328, rfl⟩
abbrev main_cst_35 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_v191 : Ref sig .tc := ⟨.hbm, 341, rfl⟩
abbrev main_v192 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_cst_36 : Ref sig .tc := ⟨.hbm, 350, rfl⟩
abbrev main_v200 : Ref sig .tc := ⟨.hbm, 351, rfl⟩
abbrev main_cst_37 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_cst_38 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_cst_39 : Ref sig .tc := ⟨.hbm, 360, rfl⟩
abbrev main_call9_v0 : Ref sig .tc := ⟨.hbm, 361, rfl⟩
abbrev main_call9_v1 : Ref sig .tc := ⟨.hbm, 362, rfl⟩
abbrev main_v207 : Ref sig .tc := ⟨.hbm, 363, rfl⟩
abbrev main_c_40 : Ref sig .tc := ⟨.hbm, 364, rfl⟩
abbrev main_v208 : Ref sig .tc := ⟨.hbm, 365, rfl⟩
abbrev main_v209 : Ref sig .tc := ⟨.hbm, 366, rfl⟩
abbrev main_c_41 : Ref sig .tc := ⟨.hbm, 367, rfl⟩
abbrev main_v210 : Ref sig .tc := ⟨.hbm, 368, rfl⟩
abbrev main_v211 : Ref sig .tc := ⟨.hbm, 369, rfl⟩
abbrev main_v212 : Ref sig .tc := ⟨.hbm, 370, rfl⟩
abbrev main_v213 : Ref sig .tc := ⟨.hbm, 371, rfl⟩
abbrev main_v214 : Ref sig .tc := ⟨.hbm, 372, rfl⟩
abbrev main_v215 : Ref sig .tc := ⟨.hbm, 373, rfl⟩
abbrev main_c_42 : Ref sig .tc := ⟨.hbm, 374, rfl⟩
abbrev main_v216 : Ref sig .tc := ⟨.hbm, 375, rfl⟩
abbrev main_v217 : Ref sig .tc := ⟨.hbm, 376, rfl⟩
abbrev main_c_43 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_c_44 : Ref sig .tc := ⟨.hbm, 384, rfl⟩
abbrev main_v224 : Ref sig .tc := ⟨.hbm, 385, rfl⟩
abbrev main_v225 : Ref sig .tc := ⟨.hbm, 386, rfl⟩
abbrev main_c_45 : Ref sig .tc := ⟨.hbm, 387, rfl⟩
abbrev main_v226 : Ref sig .tc := ⟨.hbm, 388, rfl⟩
abbrev main_v227 : Ref sig .tc := ⟨.hbm, 389, rfl⟩
abbrev main_v228 : Ref sig .tc := ⟨.hbm, 390, rfl⟩
abbrev main_v229 : Ref sig .tc := ⟨.hbm, 391, rfl⟩
abbrev main_v230 : Ref sig .tc := ⟨.hbm, 392, rfl⟩
abbrev main_v231 : Ref sig .tc := ⟨.hbm, 393, rfl⟩
abbrev main_v232 : Ref sig .tc := ⟨.hbm, 394, rfl⟩
abbrev main_v233 : Ref sig .tc := ⟨.hbm, 395, rfl⟩
abbrev main_cst_46 : Ref sig .tc := ⟨.hbm, 396, rfl⟩
abbrev main_v234 : Ref sig .tc := ⟨.hbm, 397, rfl⟩
abbrev main_v235 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_call10_cst : Ref sig .tc := ⟨.hbm, 403, rfl⟩
abbrev main_call10_v0 : Ref sig .tc := ⟨.hbm, 404, rfl⟩
abbrev main_v240 : Ref sig .tc := ⟨.hbm, 405, rfl⟩
abbrev main_cst_47 : Ref sig .tc := ⟨.hbm, 406, rfl⟩
abbrev main_v241 : Ref sig .tc := ⟨.hbm, 407, rfl⟩
abbrev main_v242 : Ref sig .tc := ⟨.hbm, 408, rfl⟩
abbrev main_v243 : Ref sig .tc := ⟨.hbm, 409, rfl⟩
abbrev main_cst_48 : Ref sig .tc := ⟨.hbm, 410, rfl⟩
abbrev main_v244 : Ref sig .tc := ⟨.hbm, 411, rfl⟩
abbrev main_cst_49 : Ref sig .tc := ⟨.hbm, 412, rfl⟩
abbrev main_v245 : Ref sig .tc := ⟨.hbm, 413, rfl⟩
abbrev main_v246 : Ref sig .tc := ⟨.hbm, 414, rfl⟩
abbrev main_c_50 : Ref sig .tc := ⟨.hbm, 415, rfl⟩
abbrev main_call11_cst : Ref sig .tc := ⟨.hbm, 416, rfl⟩
abbrev main_call11_v0 : Ref sig .tc := ⟨.hbm, 417, rfl⟩
abbrev main_call11_v1 : Ref sig .tc := ⟨.hbm, 418, rfl⟩
abbrev main_call11_cst_0 : Ref sig .tc := ⟨.hbm, 419, rfl⟩
abbrev main_call11_v2 : Ref sig .tc := ⟨.hbm, 420, rfl⟩
abbrev main_call11_v3 : Ref sig .tc := ⟨.hbm, 421, rfl⟩
abbrev main_call11_v4 : Ref sig .tc := ⟨.hbm, 422, rfl⟩
abbrev main_call11_v5 : Ref sig .tc := ⟨.hbm, 423, rfl⟩
abbrev main_call11_v6 : Ref sig .tc := ⟨.hbm, 424, rfl⟩
abbrev main_call11_v7 : Ref sig .tc := ⟨.hbm, 425, rfl⟩
abbrev main_call11_cst_1 : Ref sig .tc := ⟨.hbm, 426, rfl⟩
abbrev main_call11_v8 : Ref sig .tc := ⟨.hbm, 427, rfl⟩
abbrev main_call11_cst_2 : Ref sig .tc := ⟨.hbm, 428, rfl⟩
abbrev main_call11_v9 : Ref sig .tc := ⟨.hbm, 429, rfl⟩
abbrev main_call11_v10 : Ref sig .tc := ⟨.hbm, 430, rfl⟩
abbrev main_call11_v11 : Ref sig .tc := ⟨.hbm, 431, rfl⟩
abbrev main_call11_cst_3 : Ref sig .tc := ⟨.hbm, 432, rfl⟩
abbrev main_call11_v12 : Ref sig .tc := ⟨.hbm, 433, rfl⟩
abbrev main_call11_cst_4 : Ref sig .tc := ⟨.hbm, 434, rfl⟩
abbrev main_call11_call0_v0 : Ref sig .tc := ⟨.hbm, 435, rfl⟩
abbrev main_call11_call0_v1 : Ref sig .tc := ⟨.hbm, 436, rfl⟩
abbrev main_v247 : Ref sig .tc := ⟨.hbm, 437, rfl⟩
abbrev main_v248 : Ref sig .tc := ⟨.hbm, 438, rfl⟩
abbrev main_v249 : Ref sig .tc := ⟨.hbm, 439, rfl⟩
abbrev main_v250 : Ref sig .tc := ⟨.hbm, 440, rfl⟩
abbrev main_cst_51 : Ref sig .tc := ⟨.hbm, 441, rfl⟩
abbrev main_v251 : Ref sig .tc := ⟨.hbm, 442, rfl⟩
abbrev main_v252 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_v261 : Ref sig .tc := ⟨.hbm, 452, rfl⟩
abbrev main_v262 : Ref sig .tc := ⟨.hbm, 453, rfl⟩
abbrev main_v263 : Ref sig .tc := ⟨.hbm, 454, rfl⟩
abbrev main_v264 : Ref sig .tc := ⟨.hbm, 455, rfl⟩
abbrev main_v265 : Ref sig .tc := ⟨.hbm, 456, rfl⟩
abbrev main_v266 : Ref sig .tc := ⟨.hbm, 457, rfl⟩
abbrev main_call12_cst : Ref sig .tc := ⟨.hbm, 458, rfl⟩
abbrev main_call12_v0 : Ref sig .tc := ⟨.hbm, 459, rfl⟩
abbrev main_v267 : Ref sig .tc := ⟨.hbm, 460, rfl⟩
abbrev main_cst_52 : Ref sig .tc := ⟨.hbm, 461, rfl⟩
abbrev main_v268 : Ref sig .tc := ⟨.hbm, 462, rfl⟩
abbrev main_cst_53 : Ref sig .tc := ⟨.hbm, 463, rfl⟩
abbrev main_v269 : Ref sig .tc := ⟨.hbm, 464, rfl⟩
abbrev main_v270 : Ref sig .tc := ⟨.hbm, 465, rfl⟩
abbrev main_c_54 : Ref sig .tc := ⟨.hbm, 466, rfl⟩
abbrev main_call13_cst : Ref sig .tc := ⟨.hbm, 467, rfl⟩
abbrev main_call13_v0 : Ref sig .tc := ⟨.hbm, 468, rfl⟩
abbrev main_call13_v1 : Ref sig .tc := ⟨.hbm, 469, rfl⟩
abbrev main_call13_cst_0 : Ref sig .tc := ⟨.hbm, 470, rfl⟩
abbrev main_call13_v2 : Ref sig .tc := ⟨.hbm, 471, rfl⟩
abbrev main_call13_v3 : Ref sig .tc := ⟨.hbm, 472, rfl⟩
abbrev main_call13_v4 : Ref sig .tc := ⟨.hbm, 473, rfl⟩
abbrev main_call13_v5 : Ref sig .tc := ⟨.hbm, 474, rfl⟩
abbrev main_call13_v6 : Ref sig .tc := ⟨.hbm, 475, rfl⟩
abbrev main_call13_v7 : Ref sig .tc := ⟨.hbm, 476, rfl⟩
abbrev main_call13_cst_1 : Ref sig .tc := ⟨.hbm, 477, rfl⟩
abbrev main_call13_v8 : Ref sig .tc := ⟨.hbm, 478, rfl⟩
abbrev main_call13_cst_2 : Ref sig .tc := ⟨.hbm, 479, rfl⟩
abbrev main_call13_v9 : Ref sig .tc := ⟨.hbm, 480, rfl⟩
abbrev main_call13_v10 : Ref sig .tc := ⟨.hbm, 481, rfl⟩
abbrev main_call13_v11 : Ref sig .tc := ⟨.hbm, 482, rfl⟩
abbrev main_call13_cst_3 : Ref sig .tc := ⟨.hbm, 483, rfl⟩
abbrev main_call13_v12 : Ref sig .tc := ⟨.hbm, 484, rfl⟩
abbrev main_call13_cst_4 : Ref sig .tc := ⟨.hbm, 485, rfl⟩
abbrev main_call13_call0_v0 : Ref sig .tc := ⟨.hbm, 486, rfl⟩
abbrev main_call13_call0_v1 : Ref sig .tc := ⟨.hbm, 487, rfl⟩
abbrev main_v271 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩
abbrev main_cst_55 : Ref sig .tc := ⟨.hbm, 492, rfl⟩
abbrev main_v275 : Ref sig .tc := ⟨.hbm, 493, rfl⟩
abbrev main_v276 : Ref sig .tc := ⟨.hbm, 494, rfl⟩
abbrev main_v277 : Ref sig .tc := ⟨.hbm, 495, rfl⟩
abbrev main_v278 : Ref sig .tc := ⟨.hbm, 496, rfl⟩
abbrev main_v279 : Ref sig .tc := ⟨.hbm, 497, rfl⟩
abbrev main_v280 : Ref sig .tc := ⟨.hbm, 498, rfl⟩
abbrev main_v281 : Ref sig .tc := ⟨.hbm, 499, rfl⟩
abbrev main_v282 : Ref sig .tc := ⟨.hbm, 500, rfl⟩
abbrev main_v283 : Ref sig .tc := ⟨.hbm, 501, rfl⟩
abbrev main_v284 : Ref sig .tc := ⟨.hbm, 502, rfl⟩
abbrev main_v285 : Ref sig .tc := ⟨.hbm, 503, rfl⟩
abbrev main_v286 : Ref sig .tc := ⟨.hbm, 504, rfl⟩
abbrev main_v287 : Ref sig .tc := ⟨.hbm, 505, rfl⟩
abbrev main_v288 : Ref sig .tc := ⟨.hbm, 506, rfl⟩
abbrev main_v289 : Ref sig .tc := ⟨.hbm, 507, rfl⟩
abbrev main_v290 : Ref sig .tc := ⟨.hbm, 508, rfl⟩
abbrev main_call14_cst : Ref sig .tc := ⟨.hbm, 509, rfl⟩
abbrev main_call14_v0 : Ref sig .tc := ⟨.hbm, 510, rfl⟩
abbrev main_call14_cst_0 : Ref sig .tc := ⟨.hbm, 511, rfl⟩
abbrev main_call14_v1 : Ref sig .tc := ⟨.hbm, 512, rfl⟩
abbrev main_call14_v2 : Ref sig .tc := ⟨.hbm, 513, rfl⟩
abbrev main_call14_v3 : Ref sig .tc := ⟨.hbm, 514, rfl⟩
abbrev main_call14_v4 : Ref sig .tc := ⟨.hbm, 515, rfl⟩
abbrev main_call14_v5 : Ref sig .tc := ⟨.hbm, 516, rfl⟩
abbrev main_call14_v6 : Ref sig .tc := ⟨.hbm, 517, rfl⟩
abbrev main_call14_cst_1 : Ref sig .tc := ⟨.hbm, 518, rfl⟩
abbrev main_call14_v7 : Ref sig .tc := ⟨.hbm, 519, rfl⟩
abbrev main_call14_v8 : Ref sig .tc := ⟨.hbm, 520, rfl⟩
abbrev main_call14_v9 : Ref sig .tc := ⟨.hbm, 521, rfl⟩
abbrev main_call14_v10 : Ref sig .tc := ⟨.hbm, 522, rfl⟩
abbrev main_v291 : Ref sig .tc := ⟨.hbm, 523, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S_S500x128 : S_.BroadcastsInDim S500x128 (![] : Fin 0 → Fin S500x128.rank)
  bcast_S50000_S50000x1_0 : S50000.BroadcastsInDim S50000x1 (![0] : Fin 1 → Fin S50000x1.rank)
  reducesTo_S500x128_S128_d0 : S500x128.ReducesTo [0] S128
  bcast_S1x128_S500x128_0_1 : S1x128.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

class Facts : Prop extends Facts₀ where

variable [Facts]
-- ==== Proof.KernelRun.lean ====
/-
  The idealized kernel program's run with its result named.

  The program is eleven launches among stretches of host operations. Its run ends with every unscoped buffer of a
  TensorCore at the contents the last boundary of that chain holds; read at the result buffer this names the result, and
  read at an argument it is the argument as launched. The argument of termination and of absence of faults is the
  one of the frame; only the final read is extended by the result buffer.
-/
import proofs.«169240_j69947837383264_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v241) = W33 m ρ c (Proc.devRef .tc main_v241)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v241 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c),
       (h c _ (mem_uc main_arg17 (by decide))).trans (W33_main_arg17 m ρ c)⟩)

end Cert.KernelIdeal.RunValue

end
-- ==== Proof.BiasRelu4.lean ====
/-
  The bias-and-rectify launch number 4: what it leaves in its output array.

  The launch walks ten row tiles of 5000 rows. At a tile it loads the tile of the (50000, 128) operand and the one row
  of 128 biases, adds the bias of a column to every entry of that column, and keeps the larger of the sum and zero.
  A tile's block of the output is therefore the same function of the operand at the same rows, the ten tiles cover
  the 50000 rows, and the output array ends as  max (x[r, c] + b[0, c]) 0  at every (r, c).
-/
import proofs.«169240_j69947837383264_1_alg».proof.Proof.Gen.KernelIdeal.Frame
import Idealize.ShloMosaic.Lib.Pipeline.Value
import Idealize.ShloMosaic.Lib.ValueIdx

set_option maxRecDepth 16384

noncomputable section

namespace Cert.KernelIdeal.BiasRelu4

open Idealize.ShloMosaic Idealize.ShloMosaic.TcCoe Idealize.ShloMosaic.ValueIdx
open Idealize.ShloMosaic.Pipeline (Dat Cfg Window)
open Cert.KernelIdeal Cert.KernelIdeal.Gen

/-- One entry: the bias added, then the larger of the sum and zero. -/
def biasEntry (x b : EReal) : EReal := max (x + b) (Ideal.ofBits .f32 0x00000000#32)

/-- Bias added column by column, then the maximum with the pattern of zero. -/
def biasRelu (x : S50000x128.Idx → EReal) (b : S1x128.Idx → EReal) : S50000x128.Idx → EReal :=
  fun i => biasEntry (x i) (b (ix2 (0 : Fin 1) (⟨(i 1).val, idx2_lt1 i⟩ : Fin 128)))

theorem biasRelu_apply (x : S50000x128.Idx → EReal) (b : S1x128.Idx → EReal) (r : Fin 50000) (q : Fin 128) :
    biasRelu x b (ix2 r q) = biasEntry (x (ix2 r q)) (b (ix2 (0 : Fin 1) q)) := rfl

theorem hz : (![0, 0] : Fin 2 → Nat) = fun _ => 0 := funext fun a => by fin_cases a <;> rfl

/-- The body's arithmetic at row p, column q of a tile. -/
theorem pay_apply (x0 : Vec Ideal S5000x128 .f32) (x1 : Vec Ideal S1x128 .f32) (p : Fin 5000) (q : Fin 128) :
    k4_pay1 x0 x1 (ix2 p q) = biasEntry (x0 (ix2 p q)) (x1 (ix2 (0 : Fin 1) q)) := by
  unfold k4_pay1
  rw [shapeCast_self, shapeCast_self, maximumf_apply, addf_apply, broadcast_apply,
    broadcastTo_apply x1 broadcasts_S1x128_S5000x128 (ix2 p q) (ix2 (0 : Fin 1) q)
      (fun a => by match a with | ⟨0, _⟩ => rfl | ⟨1, _⟩ => rfl)]
  rfl

/-- Where the windows' blocks sit at tile t: the operand's and the output's at row block t, the bias row at the origin. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What tile t writes back is tile t of the whole-array function. -/
theorem flushed_eq (c : Dev nD) (t : Fin cfg4.N) :
    (dat4 V c).flushed 2 t
      = ((cfg4.win 2).blk t).view.read (Elt Ideal) (biasRelu (V c main_v68) (V c main_v71)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_apply (iblk4 V c 0 t) (iblk4 V c 1 t) p q).trans ?_
  have hp : p.val < 5000 := p.isLt
  have hq : q.val < 128 := q.isLt
  have ht : t.val < 10 := lt_of_lt_of_eq t.isLt N_4
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have h1 : ((cfg4.win 1).blk t).view.emb (ix2 (0 : Fin 1) q)
      = ix2 (0 : Fin 1) (⟨((((cfg4.win 2).blk t).view.emb (ix2 p q)) 1).val, idx2_lt1 _⟩ : Fin 128) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  show biasEntry (V c main_v68 (((cfg4.win 0).blk t).view.emb (ix2 p q)))
      (V c main_v71 (((cfg4.win 1).blk t).view.emb (ix2 (0 : Fin 1) q)))
    = biasRelu (V c main_v68) (V c main_v71) (((cfg4.win 2).blk t).view.emb (ix2 p q))
  rw [h0, h1]
  rfl

/-- An index of the output array is in tile t's block iff its row lies in the tile's range. -/
theorem mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v72).slice (win4_2.rect t)).set ↔ _
  rw [View.set_slice_whole, Rect.mem_set_unit]
  exact Iff.rfl

/-- The ten tiles cover the array: row r lies in tile r / 5000. -/
theorem cover (i : S50000x128.Idx) :
    ∃ t : Fin cfg4.N, (cfg4.win 2).flush t = true ∧ i ∈ ((cfg4.win 2).blk t).view.set := by
  have hi0 : (i 0).val < 50000 := idx2_lt0 i
  have hi1 : (i 1).val < 128 := idx2_lt1 i
  let t : Fin cfg4.N := ⟨(i 0).val / 5000, lt_of_lt_of_eq (by omega : (i 0).val / 5000 < 10) N_4.symm⟩
  obtain ⟨e0, e1, e2, e3, e4, e5⟩ := idx_facts t
  have htv : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE OUTPUT ARRAY after the launch, as one function of the operand arrays as the launch finds them. -/
theorem final (c : Dev nD) :
    (dat4 V c).arrAt 2 cfg4.N = biasRelu (V c main_v68) (V c main_v71) :=
  (dat4 V c).arrAt_eq_of_cover 2 _ (fun t _ => flushed_eq V c t) cover

end Cert.KernelIdeal.BiasRelu4

end
-- ==== Proof.BiasRelu7.lean ====
/-
  The bias-and-rectify launch number 7: what it leaves in its output array.

  The launch walks ten row tiles of 5000 rows. At a tile it loads the tile of the (50000, 128) operand and the one row
  of 128 biases, adds the bias of a column to every entry of that column, and keeps the larger of the sum and zero.
  A tile's block of the output is therefore the same function of the operand at the same rows, the ten tiles cover
  the 50000 rows, and the output array ends as  max (x[r, c] + b[0, c]) 0  at every (r, c).
-/
import proofs.«169240_j69947837383264_1_alg».proof.Proof.Gen.KernelIdeal.Frame
import Idealize.ShloMosaic.Lib.Pipeline.Value
import Idealize.ShloMosaic.Lib.ValueIdx

set_option maxRecDepth 16384

noncomputable section

namespace Cert.KernelIdeal.BiasRelu7

open Idealize.ShloMosaic Idealize.ShloMosaic.TcCoe Idealize.ShloMosaic.ValueIdx
open Idealize.ShloMosaic.Pipeline (Dat Cfg Window)
open Cert.KernelIdeal Cert.KernelIdeal.Gen

/-- One entry: the bias added, then the larger of the sum and zero. -/
def biasEntry (x b : EReal) : EReal := max (x + b) (Ideal.ofBits .f32 0x00000000#32)

/-- Bias added column by column, then the maximum with the pattern of zero. -/
def biasRelu (x : S50000x128.Idx → EReal) (b : S1x128.Idx → EReal) : S50000x128.Idx → EReal :=
  fun i => biasEntry (x i) (b (ix2 (0 : Fin 1) (⟨(i 1).val, idx2_lt1 i⟩ : Fin 128)))

theorem biasRelu_apply (x : S50000x128.Idx → EReal) (b : S1x128.Idx → EReal) (r : Fin 50000) (q : Fin 128) :
    biasRelu x b (ix2 r q) = biasEntry (x (ix2 r q)) (b (ix2 (0 : Fin 1) q)) := rfl

theorem hz : (![0, 0] : Fin 2 → Nat) = fun _ => 0 := funext fun a => by fin_cases a <;> rfl

/-- The body's arithmetic at row p, column q of a tile. -/
theorem pay_apply (x0 : Vec Ideal S5000x128 .f32) (x1 : Vec Ideal S1x128 .f32) (p : Fin 5000) (q : Fin 128) :
    k7_pay1 x0 x1 (ix2 p q) = biasEntry (x0 (ix2 p q)) (x1 (ix2 (0 : Fin 1) q)) := by
  unfold k7_pay1
  rw [shapeCast_self, shapeCast_self, maximumf_apply, addf_apply, broadcast_apply,
    broadcastTo_apply x1 broadcasts_S1x128_S5000x128 (ix2 p q) (ix2 (0 : Fin 1) q)
      (fun a => by match a with | ⟨0, _⟩ => rfl | ⟨1, _⟩ => rfl)]
  rfl

/-- Where the windows' blocks sit at tile t: the operand's and the output's at row block t, the bias row at the origin. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- What tile t writes back is tile t of the whole-array function. -/
theorem flushed_eq (c : Dev nD) (t : Fin cfg7.N) :
    (dat7 V c).flushed 2 t
      = ((cfg7.win 2).blk t).view.read (Elt Ideal) (biasRelu (V c main_v127) (V c main_v130)) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_apply (iblk7 V c 0 t) (iblk7 V c 1 t) p q).trans ?_
  have hp : p.val < 5000 := p.isLt
  have hq : q.val < 128 := q.isLt
  have ht : t.val < 10 := lt_of_lt_of_eq t.isLt N_7
  have h0 : ((cfg7.win 0).blk t).view.emb (ix2 p q) = ((cfg7.win 2).blk t).view.emb (ix2 p q) := by
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * 128 + 1 * q.val = win7_2.index t (1 : Fin 2) * 128 + 1 * q.val; omega
  have h1 : ((cfg7.win 1).blk t).view.emb (ix2 (0 : Fin 1) q)
      = ix2 (0 : Fin 1) (⟨((((cfg7.win 2).blk t).view.emb (ix2 p q)) 1).val, idx2_lt1 _⟩ : Fin 128) := by
    funext a; apply Fin.ext
    match a with
    | ⟨0, _⟩ => show win7_1.index t (0 : Fin 2) * 1 + 1 * 0 = 0; omega
    | ⟨1, _⟩ => show win7_1.index t (1 : Fin 2) * 128 + 1 * q.val = win7_2.index t (1 : Fin 2) * 128 + 1 * q.val; omega
  show biasEntry (V c main_v127 (((cfg7.win 0).blk t).view.emb (ix2 p q)))
      (V c main_v130 (((cfg7.win 1).blk t).view.emb (ix2 (0 : Fin 1) q)))
    = biasRelu (V c main_v127) (V c main_v130) (((cfg7.win 2).blk t).view.emb (ix2 p q))
  rw [h0, h1]
  rfl

/-- An index of the output array is in tile t's block iff its row lies in the tile's range. -/
theorem mem_blk (t : Fin cfg7.N) (i : S50000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v131).slice (win7_2.rect t)).set ↔ _
  rw [View.set_slice_whole, Rect.mem_set_unit]
  exact Iff.rfl

/-- The ten tiles cover the array: row r lies in tile r / 5000. -/
theorem cover (i : S50000x128.Idx) :
    ∃ t : Fin cfg7.N, (cfg7.win 2).flush t = true ∧ i ∈ ((cfg7.win 2).blk t).view.set := by
  have hi0 : (i 0).val < 50000 := idx2_lt0 i
  have hi1 : (i 1).val < 128 := idx2_lt1 i
  let t : Fin cfg7.N := ⟨(i 0).val / 5000, lt_of_lt_of_eq (by omega : (i 0).val / 5000 < 10) N_7.symm⟩
  obtain ⟨e0, e1, e2, e3, e4, e5⟩ := idx_facts t
  have htv : t.val = (i 0).val / 5000 := rfl
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- THE OUTPUT ARRAY after the launch, as one function of the operand arrays as the launch finds them. -/
theorem final (c : Dev nD) :
    (dat7 V c).arrAt 2 cfg7.N = biasRelu (V c main_v127) (V c main_v130) :=
  (dat7 V c).arrAt_eq_of_cover 2 _ (fun t _ => flushed_eq V c t) cover

end Cert.KernelIdeal.BiasRelu7

end
-- ==== Proof.BiasRelu10.lean ====
/-
  The bias-and-rectify launch number 10: what it leaves in its output array.

  The launch walks ten row tiles of 5000 rows. At a tile it loads the tile of the (50000, 128) operand and the one row
  of 128 biases, adds the bias of a column to every entry of that column, and keeps the larger of the sum and zero.
  A tile's block of the output is therefore the same function of the operand at the same rows, the ten tiles cover
  the 50000 rows, and the output array ends as  max (x[r, c] + b[0, c]) 0  at every (r, c).
-/
import proofs.«169240_j69947837383264_1_alg».proof.Proof.Gen.KernelIdeal.Frame
import Idealize.ShloMosaic.Lib.Pipeline.Value
import Idealize.ShloMosaic.Lib.ValueIdx

set_option maxRecDepth 16384

noncomputable section

namespace Cert.KernelIdeal.BiasRelu10

open Idealize.ShloMosaic Idealize.ShloMosaic.TcCoe Idealize.ShloMosaic.ValueIdx
open Idealize.ShloMosaic.Pipeline (Dat Cfg Window)
open Cert.KernelIdeal Cert.KernelIdeal.Gen

/-- One entry: the bias added, then the larger of the sum and zero. -/
def biasEntry (x b : EReal) : EReal := max (x + b) (Ideal.ofBits .f32 0x00000000#32)

/-- Bias added column by column, then the maximum with the pattern of zero. -/
def biasRelu (x : S50000x128.Idx → EReal) (b : S1x128.Idx → EReal) : S50000x128.Idx → EReal :=
  fun i => biasEntry (x i) (b (ix2 (0 : Fin 1) (⟨(i 1).val, idx2_lt1 i⟩ : Fin 128)))

theorem biasRelu_apply (x : S50000x128.Idx → EReal) (b : S1x128.Idx → EReal) (r : Fin 50000) (q : Fin 128) :
    biasRelu x b (ix2 r q) = biasEntry (x (ix2 r q)) (b (ix2 (0 : Fin 1) q)) := rfl

theorem hz : (![0, 0] : Fin 2 → Nat) = fun _ => 0 := funext fun a => by fin_cases a <;> rfl

/-- The body's arithmetic at row p, column q of a tile. -/
theorem pay_apply (x0 : Vec Ideal S5000x128 .f32) (x1 : Vec Ideal S1x128 .f32) (p : Fin 5000) (q : Fin 128) :
    k10_pay1 x0 x1 (ix2 p q) = biasEntry (x0 (ix2 p q)) (x1 (ix2 (0 : Fin 1) q)) := by
  unfold k10_pay1
  rw [shapeCast_self, shapeCast_self, maximumf_apply, addf_apply, broadcast_apply,
    broadcastTo_apply x1 broadcasts_S1x128_S5000x128 (ix2 p q) (ix2 (0 : Fin 1) q)
      (fun a => by match a with | ⟨0, _⟩ => rfl | ⟨1, _⟩ => rfl)]
  rfl

/-- Where the windows' blocks sit at tile t: the operand's and the output's at row block t, the bias row at the origin. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

variable (V : (c : Dev nD) → (b : Ref sig .tc) → Buf (Elt Ideal) ((c : Thread nD τ).loc b))

/-- What tile t writes back is tile t of the whole-array function. -/
theorem flushed_eq (c : Dev nD) (t : Fin cfg10.N) :
    (dat10 V c).flushed 2 t
      = ((cfg10.win 2).blk t).view.read (Elt Ideal) (biasRelu (V c main_v186) (V c main_v189)) := by
  show (cfg10.win 2).cut (grid10.coords t) ((dat10 V c).after 2 t) = _
  rw [after10_2]
  unfold out10_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_apply (iblk10 V c 0 t) (iblk10 V c 1 t) p q).trans ?_
  have hp : p.val < 5000 := p.isLt
  have hq : q.val < 128 := q.isLt
  have ht : t.val < 10 := lt_of_lt_of_eq t.isLt N_10
  have h0 : ((cfg10.win 0).blk t).view.emb (ix2 p q) = ((cfg10.win 2).blk t).view.emb (ix2 p q) := by
    funext a; apply Fin.ext
    match a with
    | ⟨0, _⟩ => show win10_0.index t (0 : Fin 2) * 5000 + 1 * p.val = win10_2.index t (0 : Fin 2) * 5000 + 1 * p.val; omega
    | ⟨1, _⟩ => show win10_0.index t (1 : Fin 2) * 128 + 1 * q.val = win10_2.index t (1 : Fin 2) * 128 + 1 * q.val; omega
  have h1 : ((cfg10.win 1).blk t).view.emb (ix2 (0 : Fin 1) q)
      = ix2 (0 : Fin 1) (⟨((((cfg10.win 2).blk t).view.emb (ix2 p q)) 1).val, idx2_lt1 _⟩ : Fin 128) := by
    funext a; apply Fin.ext
    match a with
    | ⟨0, _⟩ => show win10_1.index t (0 : Fin 2) * 1 + 1 * 0 = 0; omega
    | ⟨1, _⟩ => show win10_1.index t (1 : Fin 2) * 128 + 1 * q.val = win10_2.index t (1 : Fin 2) * 128 + 1 * q.val; omega
  show biasEntry (V c main_v186 (((cfg10.win 0).blk t).view.emb (ix2 p q)))
      (V c main_v189 (((cfg10.win 1).blk t).view.emb (ix2 (0 : Fin 1) q)))
    = biasRelu (V c main_v186) (V c main_v189) (((cfg10.win 2).blk t).view.emb (ix2 p q))
  rw [h0, h1]
  rfl

/-- An index of the output array is in tile t's block iff its row lies in the tile's range. -/
theorem mem_blk (t : Fin cfg10.N) (i : S50000x128.Idx) :
    i ∈ ((cfg10.win 2).blk t).view.set ↔ ∀ a : Fin 2, win10_2.index t a * S5000x128.size a ≤ (i a).val
      ∧ (i a).val < win10_2.index t a * S5000x128.size a + S5000x128.size a := by
  show i ∈ ((View.whole main_v190).slice (win10_2.rect t)).set ↔ _
  rw [View.set_slice_whole, Rect.mem_set_unit]
  exact Iff.rfl

/-- The ten tiles cover the array: row r lies in tile r / 5000. -/
theorem cover (i : S50000x128.Idx) :
    ∃ t : Fin cfg10.N, (cfg10.win 2).flush t = true ∧ i ∈ ((cfg10.win 2).blk t).view.set := by
  have hi0 : (i 0).val < 50000 := idx2_lt0 i
  have hi1 : (i 1).val < 128 := idx2_lt1 i
  let t : Fin cfg10.N := ⟨(i 0).val / 5000, lt_of_lt_of_eq (by omega : (i 0).val / 5000 < 10) N_10.symm⟩
  obtain ⟨e0, e1, e2, e3, e4, e5⟩ := idx_facts t
  have htv : t.val = (i 0).val / 5000 := rfl
  refine ⟨t, flush10_2 t, ?_⟩
  rw [mem_blk]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 128 ≤ (i 1).val ∧ (i 1).val < win10_2.index t (1 : Fin 2) * 128 + 128; omega

/-- THE OUTPUT ARRAY after the launch, as one function of the operand arrays as the launch finds them. -/
theorem final (c : Dev nD) :
    (dat10 V c).arrAt 2 cfg10.N = biasRelu (V c main_v186) (V c main_v189) :=
  (dat10 V c).arrAt_eq_of_cover 2 _ (fun t _ => flushed_eq V c t) cover

end Cert.KernelIdeal.BiasRelu10

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.NormLinear1.lean ====
/-
  The normalise-and-multiply launch number 1: what it leaves in its output array.

  The launch walks ten row tiles of 5000 rows. At a tile it loads the tile of the (50000, 128) operand, four rows of 128
  numbers (a mean, a variance, a gain and a shift per column) and a 128 by 128 matrix. Every entry of the tile is
  centred by its column's mean, scaled by the reciprocal square root of its column's variance plus a small constant,
  multiplied by the gain and shifted; the change of float format before the product is the identity on exact values;
  the product with the matrix, accumulated into zeros, is the plain sum over the 128 columns; the larger of that sum and zero is kept.
  A tile's block of the output is the same function of the operand at the same rows, the ten tiles cover the 50000
  rows, and so the output array is that function at every (r, c).
-/
import proofs.«169240_j69947837383264_1_alg».proof.Proof.Gen.KernelIdeal.Frame
import proofs.«169240_j69947837383264_1_alg».proof.Proof.LibPlainProduct
import Idealize.ShloMosaic.Lib.Pipeline.Value
import Idealize.ShloMosaic.Lib.ValueIdx

set_option maxRecDepth 16384

noncomputable section

namespace Cert.KernelIdeal.NormLinear1

open Idealize.ShloMosaic Idealize.ShloMosaic.TcCoe Idealize.ShloMosaic.ValueIdx
open Idealize.ShloMosaic.Pipeline (Dat Cfg Window)
open Cert.KernelIdeal Cert.KernelIdeal.Gen

/-- One normalised entry: centred, scaled by the reciprocal root of the variance plus the small constant, times the gain,
    plus the shift. -/
def normEntry (x mu var g b : EReal) : EReal :=
  (x - mu) * Ideal.rsqrt (var + Ideal.ofBits .f32 0x3727C5AC#32) * g + b

/-- One term of the product's sum: a normalised entry times a matrix entry. -/
def normTerm (x mu var g b w : EReal) : EReal := normEntry x mu var g b * w

/-- The launch's whole-array function: row r of the normalised operand times column c of the matrix, rectified. -/
def normLinear (x : S50000x128.Idx → EReal) (mu var g b : S1x128.Idx → EReal) (W : S128x128.Idx → EReal) :
    S50000x128.Idx → EReal :=
  fun i => max (∑ k : Fin 128, normEntry (x (ix2 (⟨(i 0).val, idx2_lt0 i⟩ : Fin 50000) k)) (mu (ix2 (0 : Fin 1) k)) (var (ix2 (0 : Fin 1) k)) (g (ix2 (0 : Fin 1) k)) (b (ix2 (0 : Fin 1) k)) * W (ix2 k (⟨(i 1).val, idx2_lt1 i⟩ : Fin 128))) (Ideal.ofBits .f32 0x00000000#32)

theorem normLinear_apply (x : S50000x128.Idx → EReal) (mu var g b : S1x128.Idx → EReal) (W : S128x128.Idx → EReal)
    (r : Fin 50000) (q : Fin 128) :
    normLinear x mu var g b W (ix2 r q)
      = max (∑ k : Fin 128, normEntry (x (ix2 r k)) (mu (ix2 (0 : Fin 1) k)) (var (ix2 (0 : Fin 1) k)) (g (ix2 (0 : Fin 1) k)) (b (ix2 (0 : Fin 1) k)) * W (ix2 k q)) (Ideal.ofBits .f32 0x00000000#32) := rfl

theorem hz : (![0, 0] : Fin 2 → Nat) = fun _ => 0 := funext fun a => by fin_cases a <;> rfl

/-- A row of 128 numbers broadcast over the 5000 rows of a tile, read at (p, k), is the row's entry k. -/
theorem row_bcast (v : S1x128.Idx → EReal) (p : Fin 5000) (k : Fin 128) :
    broadcastTo S5000x128 v broadcasts_S1x128_S5000x128 (ix2 p k) = v (ix2 (0 : Fin 1) k) :=
  broadcastTo_apply v broadcasts_S1x128_S5000x128 (ix2 p k) (ix2 (0 : Fin 1) k)
    (fun a => by match a with | ⟨0, _⟩ => rfl | ⟨1, _⟩ => rfl)

/-- The body's arithmetic at row p, column q of a tile. -/
theorem pay_apply (x0 : Vec Ideal S5000x128 .f32) (x1 x2 x3 x4 : Vec Ideal S1x128 .f32) (x5 : Vec Ideal S128x128 .f32)
    (p : Fin 5000) (q : Fin 128) :
    k1_pay1 x0 x1 x2 x3 x4 x5 (ix2 p q)
      = max (∑ k : Fin 128, normEntry (x0 (ix2 p k)) (x1 (ix2 (0 : Fin 1) k)) (x2 (ix2 (0 : Fin 1) k)) (x3 (ix2 (0 : Fin 1) k)) (x4 (ix2 (0 : Fin 1) k)) * x5 (ix2 k q)) (Ideal.ofBits .f32 0x00000000#32) := by
  unfold k1_pay1
  simp only [shapeCast_self]
  rw [maximumf_apply, broadcast_apply]
  refine congrArg (fun z => max z (Ideal.ofBits .f32 0x00000000#32)) ?_
  refine (PlainProduct.matmul_zero_apply (M := 5000) (K := 128) (P := 128) _ none _ _ p q).trans ?_
  refine Finset.sum_congr rfl fun k _ => ?_
  simp only [truncf_apply, addf_apply, mulf_apply, subf_apply, row_bcast]
  rfl

/-- Where the windows' blocks sit at tile t: the operand's and the output's at row block t, everything else at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What tile t writes back is tile t of the whole-array function. -/
theorem flushed_eq (c : Dev nD) (t : Fin cfg1.N) :
    (dat1 V c).flushed 6 t
      = ((cfg1.win 6).blk t).view.read (Elt Ideal)
          (normLinear (V c main_arg0) (V c main_v6) (V c main_v10) (V c main_v11) (V c main_v12) (V c main_arg5)) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S128x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) (iblk1 V c 4 t) (iblk1 V c 5 t) p q).trans ?_
  have hp : p.val < 5000 := p.isLt
  have hq : q.val < 128 := q.isLt
  have ht : t.val < 10 := lt_of_lt_of_eq t.isLt N_1
  have h0 : ∀ k : Fin 128, ((cfg1.win 0).blk t).view.emb (ix2 p k)
      = ix2 (⟨((((cfg1.win 6).blk t).view.emb (ix2 p q)) 0).val, idx2_lt0 _⟩ : Fin 50000) k := fun k => by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  have h1 : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ k : Fin 128, ((cfg1.win 4).blk t).view.emb (ix2 (0 : Fin 1) k) = ix2 (0 : Fin 1) k := fun k => by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, ((cfg1.win 5).blk t).view.emb (ix2 k q)
      = ix2 k (⟨((((cfg1.win 6).blk t).view.emb (ix2 p q)) 1).val, idx2_lt1 _⟩ : Fin 128) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega
  show max (∑ k : Fin 128, normTerm (V c main_arg0 (((cfg1.win 0).blk t).view.emb (ix2 p k)))
        (V c main_v6 (((cfg1.win 1).blk t).view.emb (ix2 (0 : Fin 1) k)))
        (V c main_v10 (((cfg1.win 2).blk t).view.emb (ix2 (0 : Fin 1) k)))
        (V c main_v11 (((cfg1.win 3).blk t).view.emb (ix2 (0 : Fin 1) k)))
        (V c main_v12 (((cfg1.win 4).blk t).view.emb (ix2 (0 : Fin 1) k)))
        (V c main_arg5 (((cfg1.win 5).blk t).view.emb (ix2 k q)))) (Ideal.ofBits .f32 0x00000000#32)
    = normLinear (V c main_arg0) (V c main_v6) (V c main_v10) (V c main_v11) (V c main_v12) (V c main_arg5) (((cfg1.win 6).blk t).view.emb (ix2 p q))
  refine congrArg (fun z => max z (Ideal.ofBits .f32 0x00000000#32)) ?_
  refine Finset.sum_congr rfl fun k _ => ?_
  rw [h0 k, h1 k, h2 k, h3 k, h4 k, h5 k]
  rfl

/-- An index of the output array is in tile t's block iff its row lies in the tile's range. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v13).slice (win1_6.rect t)).set ↔ _
  rw [View.set_slice_whole, Rect.mem_set_unit]
  exact Iff.rfl

/-- The ten tiles cover the array: row r lies in tile r / 5000. -/
theorem cover (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  let t : Fin cfg1.N := ⟨(i 0).val / 5000, lt_of_lt_of_eq (by omega : (i 0).val / 5000 < 10) N_1.symm⟩
  obtain ⟨e0, e1, e2, e3, e4, e5, e6, e7, e8, e9, e10, e11, e12, e13⟩ := idx_facts t
  have htv : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the launch, as one function of the operand arrays as the launch finds them. -/
theorem final (c : Dev nD) :
    (dat1 V c).arrAt 6 cfg1.N
      = normLinear (V c main_arg0) (V c main_v6) (V c main_v10) (V c main_v11) (V c main_v12) (V c main_arg5) :=
  (dat1 V c).arrAt_eq_of_cover 6 _ (fun t _ => flushed_eq V c t) cover

end Cert.KernelIdeal.NormLinear1

end
-- ==== Proof.NormLinear3.lean ====
/-
  The normalise-and-multiply launch number 3: what it leaves in its output array.

  The launch walks ten row tiles of 5000 rows. At a tile it loads the tile of the (50000, 128) operand, four rows of 128
  numbers (a mean, a variance, a gain and a shift per column) and a 128 by 128 matrix. Every entry of the tile is
  centred by its column's mean, scaled by the reciprocal square root of its column's variance plus a small constant,
  multiplied by the gain and shifted; the change of float format before the product is the identity on exact values;
  the product with the matrix, accumulated into zeros, is the plain sum over the 128 columns.
  A tile's block of the output is the same function of the operand at the same rows, the ten tiles cover the 50000
  rows, and so the output array is that function at every (r, c).
-/
import proofs.«169240_j69947837383264_1_alg».proof.Proof.Gen.KernelIdeal.Frame
import proofs.«169240_j69947837383264_1_alg».proof.Proof.LibPlainProduct
import Idealize.ShloMosaic.Lib.Pipeline.Value
import Idealize.ShloMosaic.Lib.ValueIdx

set_option maxRecDepth 16384

noncomputable section

namespace Cert.KernelIdeal.NormLinear3

open Idealize.ShloMosaic Idealize.ShloMosaic.TcCoe Idealize.ShloMosaic.ValueIdx
open Idealize.ShloMosaic.Pipeline (Dat Cfg Window)
open Cert.KernelIdeal Cert.KernelIdeal.Gen

/-- One normalised entry: centred, scaled by the reciprocal root of the variance plus the small constant, times the gain,
    plus the shift. -/
def normEntry (x mu var g b : EReal) : EReal :=
  (x - mu) * Ideal.rsqrt (var + Ideal.ofBits .f32 0x3727C5AC#32) * g + b

/-- One term of the product's sum: a normalised entry times a matrix entry. -/
def normTerm (x mu var g b w : EReal) : EReal := normEntry x mu var g b * w

/-- The launch's whole-array function: row r of the normalised operand times column c of the matrix. -/
def normLinear (x : S50000x128.Idx → EReal) (mu var g b : S1x128.Idx → EReal) (W : S128x128.Idx → EReal) :
    S50000x128.Idx → EReal :=
  fun i => ∑ k : Fin 128, normEntry (x (ix2 (⟨(i 0).val, idx2_lt0 i⟩ : Fin 50000) k)) (mu (ix2 (0 : Fin 1) k)) (var (ix2 (0 : Fin 1) k)) (g (ix2 (0 : Fin 1) k)) (b (ix2 (0 : Fin 1) k)) * W (ix2 k (⟨(i 1).val, idx2_lt1 i⟩ : Fin 128))

theorem normLinear_apply (x : S50000x128.Idx → EReal) (mu var g b : S1x128.Idx → EReal) (W : S128x128.Idx → EReal)
    (r : Fin 50000) (q : Fin 128) :
    normLinear x mu var g b W (ix2 r q)
      = ∑ k : Fin 128, normEntry (x (ix2 r k)) (mu (ix2 (0 : Fin 1) k)) (var (ix2 (0 : Fin 1) k)) (g (ix2 (0 : Fin 1) k)) (b (ix2 (0 : Fin 1) k)) * W (ix2 k q) := rfl

theorem hz : (![0, 0] : Fin 2 → Nat) = fun _ => 0 := funext fun a => by fin_cases a <;> rfl

/-- A row of 128 numbers broadcast over the 5000 rows of a tile, read at (p, k), is the row's entry k. -/
theorem row_bcast (v : S1x128.Idx → EReal) (p : Fin 5000) (k : Fin 128) :
    broadcastTo S5000x128 v broadcasts_S1x128_S5000x128 (ix2 p k) = v (ix2 (0 : Fin 1) k) :=
  broadcastTo_apply v broadcasts_S1x128_S5000x128 (ix2 p k) (ix2 (0 : Fin 1) k)
    (fun a => by match a with | ⟨0, _⟩ => rfl | ⟨1, _⟩ => rfl)

/-- The body's arithmetic at row p, column q of a tile. -/
theorem pay_apply (x0 : Vec Ideal S5000x128 .f32) (x1 x2 x3 x4 : Vec Ideal S1x128 .f32) (x5 : Vec Ideal S128x128 .f32)
    (p : Fin 5000) (q : Fin 128) :
    k3_pay1 x0 x1 x2 x3 x4 x5 (ix2 p q)
      = ∑ k : Fin 128, normEntry (x0 (ix2 p k)) (x1 (ix2 (0 : Fin 1) k)) (x2 (ix2 (0 : Fin 1) k)) (x3 (ix2 (0 : Fin 1) k)) (x4 (ix2 (0 : Fin 1) k)) * x5 (ix2 k q) := by
  unfold k3_pay1
  simp only [shapeCast_self]
  refine (PlainProduct.matmul_zero_apply (M := 5000) (K := 128) (P := 128) _ none _ _ p q).trans ?_
  refine Finset.sum_congr rfl fun k _ => ?_
  simp only [truncf_apply, addf_apply, mulf_apply, subf_apply, row_bcast]
  rfl

/-- Where the windows' blocks sit at tile t: the operand's and the output's at row block t, everything else at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- What tile t writes back is tile t of the whole-array function. -/
theorem flushed_eq (c : Dev nD) (t : Fin cfg3.N) :
    (dat3 V c).flushed 6 t
      = ((cfg3.win 6).blk t).view.read (Elt Ideal)
          (normLinear (V c main_v13) (V c main_v16) (V c main_v20) (V c main_v23) (V c main_v26) (V c main_v28)) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz, View.ld_unit_zero (S := S128x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  refine (pay_apply (iblk3 V c 0 t) (iblk3 V c 1 t) (iblk3 V c 2 t) (iblk3 V c 3 t) (iblk3 V c 4 t) (iblk3 V c 5 t) p q).trans ?_
  have hp : p.val < 5000 := p.isLt
  have hq : q.val < 128 := q.isLt
  have ht : t.val < 10 := lt_of_lt_of_eq t.isLt N_3
  have h0 : ∀ k : Fin 128, ((cfg3.win 0).blk t).view.emb (ix2 p k)
      = ix2 (⟨((((cfg3.win 6).blk t).view.emb (ix2 p q)) 0).val, idx2_lt0 _⟩ : Fin 50000) k := fun k => by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * k.val = k.val; omega
  have h1 : ∀ k : Fin 128, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 128 + 1 * k.val = k.val; omega
  have h2 : ∀ k : Fin 128, ((cfg3.win 2).blk t).view.emb (ix2 (0 : Fin 1) k) = ix2 (0 : Fin 1) k := fun k => by
    funext a; apply Fin.ext
    match a with
    | ⟨0, _⟩ => show win3_2.index t (0 : Fin 2) * 1 + 1 * 0 = 0; omega
    | ⟨1, _⟩ => show win3_2.index t (1 : Fin 2) * 128 + 1 * k.val = k.val; omega
  have h3 : ∀ k : Fin 128, ((cfg3.win 3).blk t).view.emb (ix2 (0 : Fin 1) k) = ix2 (0 : Fin 1) k := fun k => by
    funext a; apply Fin.ext
    match a with
    | ⟨0, _⟩ => show win3_3.index t (0 : Fin 2) * 1 + 1 * 0 = 0; omega
    | ⟨1, _⟩ => show win3_3.index t (1 : Fin 2) * 128 + 1 * k.val = k.val; omega
  have h4 : ∀ k : Fin 128, ((cfg3.win 4).blk t).view.emb (ix2 (0 : Fin 1) k) = ix2 (0 : Fin 1) k := fun k => by
    funext a; apply Fin.ext
    match a with
    | ⟨0, _⟩ => show win3_4.index t (0 : Fin 2) * 1 + 1 * 0 = 0; omega
    | ⟨1, _⟩ => show win3_4.index t (1 : Fin 2) * 128 + 1 * k.val = k.val; omega
  have h5 : ∀ k : Fin 128, ((cfg3.win 5).blk t).view.emb (ix2 k q)
      = ix2 k (⟨((((cfg3.win 6).blk t).view.emb (ix2 p q)) 1).val, idx2_lt1 _⟩ : Fin 128) := fun k => by
    funext a; apply Fin.ext
    match a with
    | ⟨0, _⟩ => show win3_5.index t (0 : Fin 2) * 128 + 1 * k.val = k.val; omega
    | ⟨1, _⟩ => show win3_5.index t (1 : Fin 2) * 128 + 1 * q.val = win3_6.index t (1 : Fin 2) * 128 + 1 * q.val; omega
  show ∑ k : Fin 128, normTerm (V c main_v13 (((cfg3.win 0).blk t).view.emb (ix2 p k)))
        (V c main_v16 (((cfg3.win 1).blk t).view.emb (ix2 (0 : Fin 1) k)))
        (V c main_v20 (((cfg3.win 2).blk t).view.emb (ix2 (0 : Fin 1) k)))
        (V c main_v23 (((cfg3.win 3).blk t).view.emb (ix2 (0 : Fin 1) k)))
        (V c main_v26 (((cfg3.win 4).blk t).view.emb (ix2 (0 : Fin 1) k)))
        (V c main_v28 (((cfg3.win 5).blk t).view.emb (ix2 k q)))
    = normLinear (V c main_v13) (V c main_v16) (V c main_v20) (V c main_v23) (V c main_v26) (V c main_v28) (((cfg3.win 6).blk t).view.emb (ix2 p q))
  refine Finset.sum_congr rfl fun k _ => ?_
  rw [h0 k, h1 k, h2 k, h3 k, h4 k, h5 k]
  rfl

/-- An index of the output array is in tile t's block iff its row lies in the tile's range. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v29).slice (win3_6.rect t)).set ↔ _
  rw [View.set_slice_whole, Rect.mem_set_unit]
  exact Iff.rfl

/-- The ten tiles cover the array: row r lies in tile r / 5000. -/
theorem cover (i : S50000x128.Idx) :
    ∃ t : Fin cfg3.N, (cfg3.win 6).flush t = true ∧ i ∈ ((cfg3.win 6).blk t).view.set := by
  have hi0 : (i 0).val < 50000 := idx2_lt0 i
  have hi1 : (i 1).val < 128 := idx2_lt1 i
  let t : Fin cfg3.N := ⟨(i 0).val / 5000, lt_of_lt_of_eq (by omega : (i 0).val / 5000 < 10) N_3.symm⟩
  obtain ⟨e0, e1, e2, e3, e4, e5, e6, e7, e8, e9, e10, e11, e12, e13⟩ := idx_facts t
  have htv : t.val = (i 0).val / 5000 := rfl
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE OUTPUT ARRAY after the launch, as one function of the operand arrays as the launch finds them. -/
theorem final (c : Dev nD) :
    (dat3 V c).arrAt 6 cfg3.N
      = normLinear (V c main_v13) (V c main_v16) (V c main_v20) (V c main_v23) (V c main_v26) (V c main_v28) :=
  (dat3 V c).arrAt_eq_of_cover 6 _ (fun t _ => flushed_eq V c t) cover

end Cert.KernelIdeal.NormLinear3

end
-- ==== Proof.NormLinear6.lean ====
/-
  The normalise-and-multiply launch number 6: what it leaves in its output array.

  The launch walks ten row tiles of 5000 rows. At a tile it loads the tile of the (50000, 128) operand, four rows of 128
  numbers (a mean, a variance, a gain and a shift per column) and a 128 by 128 matrix. Every entry of the tile is
  centred by its column's mean, scaled by the reciprocal square root of its column's variance plus a small constant,
  multiplied by the gain and shifted; the change of float format before the product is the identity on exact values;
  the product with the matrix, accumulated into zeros, is the plain sum over the 128 columns.
  A tile's block of the output is the same function of the operand at the same rows, the ten tiles cover the 50000
  rows, and so the output array is that function at every (r, c).
-/
import proofs.«169240_j69947837383264_1_alg».proof.Proof.Gen.KernelIdeal.Frame
import proofs.«169240_j69947837383264_1_alg».proof.Proof.LibPlainProduct
import Idealize.ShloMosaic.Lib.Pipeline.Value
import Idealize.ShloMosaic.Lib.ValueIdx

set_option maxRecDepth 16384

noncomputable section

namespace Cert.KernelIdeal.NormLinear6

open Idealize.ShloMosaic Idealize.ShloMosaic.TcCoe Idealize.ShloMosaic.ValueIdx
open Idealize.ShloMosaic.Pipeline (Dat Cfg Window)
open Cert.KernelIdeal Cert.KernelIdeal.Gen

/-- One normalised entry: centred, scaled by the reciprocal root of the variance plus the small constant, times the gain,
    plus the shift. -/
def normEntry (x mu var g b : EReal) : EReal :=
  (x - mu) * Ideal.rsqrt (var + Ideal.ofBits .f32 0x3727C5AC#32) * g + b

/-- One term of the product's sum: a normalised entry times a matrix entry. -/
def normTerm (x mu var g b w : EReal) : EReal := normEntry x mu var g b * w

/-- The launch's whole-array function: row r of the normalised operand times column c of the matrix. -/
def normLinear (x : S50000x128.Idx → EReal) (mu var g b : S1x128.Idx → EReal) (W : S128x128.Idx → EReal) :
    S50000x128.Idx → EReal :=
  fun i => ∑ k : Fin 128, normEntry (x (ix2 (⟨(i 0).val, idx2_lt0 i⟩ : Fin 50000) k)) (mu (ix2 (0 : Fin 1) k)) (var (ix2 (0 : Fin 1) k)) (g (ix2 (0 : Fin 1) k)) (b (ix2 (0 : Fin 1) k)) * W (ix2 k (⟨(i 1).val, idx2_lt1 i⟩ : Fin 128))

theorem normLinear_apply (x : S50000x128.Idx → EReal) (mu var g b : S1x128.Idx → EReal) (W : S128x128.Idx → EReal)
    (r : Fin 50000) (q : Fin 128) :
    normLinear x mu var g b W (ix2 r q)
      = ∑ k : Fin 128, normEntry (x (ix2 r k)) (mu (ix2 (0 : Fin 1) k)) (var (ix2 (0 : Fin 1) k)) (g (ix2 (0 : Fin 1) k)) (b (ix2 (0 : Fin 1) k)) * W (ix2 k q) := rfl

theorem hz : (![0, 0] : Fin 2 → Nat) = fun _ => 0 := funext fun a => by fin_cases a <;> rfl

/-- A row of 128 numbers broadcast over the 5000 rows of a tile, read at (p, k), is the row's entry k. -/
theorem row_bcast (v : S1x128.Idx → EReal) (p : Fin 5000) (k : Fin 128) :
    broadcastTo S5000x128 v broadcasts_S1x128_S5000x128 (ix2 p k) = v (ix2 (0 : Fin 1) k) :=
  broadcastTo_apply v broadcasts_S1x128_S5000x128 (ix2 p k) (ix2 (0 : Fin 1) k)
    (fun a => by match a with | ⟨0, _⟩ => rfl | ⟨1, _⟩ => rfl)

/-- The body's arithmetic at row p, column q of a tile. -/
theorem pay_apply (x0 : Vec Ideal S5000x128 .f32) (x1 x2 x3 x4 : Vec Ideal S1x128 .f32) (x5 : Vec Ideal S128x128 .f32)
    (p : Fin 5000) (q : Fin 128) :
    k6_pay1 x0 x1 x2 x3 x4 x5 (ix2 p q)
      = ∑ k : Fin 128, normEntry (x0 (ix2 p k)) (x1 (ix2 (0 : Fin 1) k)) (x2 (ix2 (0 : Fin 1) k)) (x3 (ix2 (0 : Fin 1) k)) (x4 (ix2 (0 : Fin 1) k)) * x5 (ix2 k q) := by
  unfold k6_pay1
  simp only [shapeCast_self]
  refine (PlainProduct.matmul_zero_apply (M := 5000) (K := 128) (P := 128) _ none _ _ p q).trans ?_
  refine Finset.sum_congr rfl fun k _ => ?_
  simp only [truncf_apply, addf_apply, mulf_apply, subf_apply, row_bcast]
  rfl

/-- Where the windows' blocks sit at tile t: the operand's and the output's at row block t, everything else at the origin. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

variable (V : (c : Dev nD) → (b : Ref sig .tc) → Buf (Elt Ideal) ((c : Thread nD τ).loc b))

/-- What tile t writes back is tile t of the whole-array function. -/
theorem flushed_eq (c : Dev nD) (t : Fin cfg6.N) :
    (dat6 V c).flushed 6 t
      = ((cfg6.win 6).blk t).view.read (Elt Ideal)
          (normLinear (V c main_v72) (V c main_v75) (V c main_v79) (V c main_v82) (V c main_v85) (V c main_v87)) := by
  show (cfg6.win 6).cut (grid6.coords t) ((dat6 V c).after 6 t) = _
  rw [after6_6]
  unfold out6_6
  rw [View.canon_unit_zero hz]
  simp only [View.ld_unit_zero (S := S5000x128) hz, View.ld_unit_zero (S := S1x128) hz, View.ld_unit_zero (S := S128x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  refine (pay_apply (iblk6 V c 0 t) (iblk6 V c 1 t) (iblk6 V c 2 t) (iblk6 V c 3 t) (iblk6 V c 4 t) (iblk6 V c 5 t) p q).trans ?_
  have hp : p.val < 5000 := p.isLt
  have hq : q.val < 128 := q.isLt
  have ht : t.val < 10 := lt_of_lt_of_eq t.isLt N_6
  have h0 : ∀ k : Fin 128, ((cfg6.win 0).blk t).view.emb (ix2 p k)
      = ix2 (⟨((((cfg6.win 6).blk t).view.emb (ix2 p q)) 0).val, idx2_lt0 _⟩ : Fin 50000) k := fun k => by
    funext a; apply Fin.ext
    match a with
    | ⟨0, _⟩ => show win6_0.index t (0 : Fin 2) * 5000 + 1 * p.val = win6_6.index t (0 : Fin 2) * 5000 + 1 * p.val; omega
    | ⟨1, _⟩ => show win6_0.index t (1 : Fin 2) * 128 + 1 * k.val = k.val; omega
  have h1 : ∀ k : Fin 128, ((cfg6.win 1).blk t).view.emb (ix2 (0 : Fin 1) k) = ix2 (0 : Fin 1) k := fun k => by
    funext a; apply Fin.ext
    match a with
    | ⟨0, _⟩ => show win6_1.index t (0 : Fin 2) * 1 + 1 * 0 = 0; omega
    | ⟨1, _⟩ => show win6_1.index t (1 : Fin 2) * 128 + 1 * k.val = k.val; omega
  have h2 : ∀ k : Fin 128, ((cfg6.win 2).blk t).view.emb (ix2 (0 : Fin 1) k) = ix2 (0 : Fin 1) k := fun k => by
    funext a; apply Fin.ext
    match a with
    | ⟨0, _⟩ => show win6_2.index t (0 : Fin 2) * 1 + 1 * 0 = 0; omega
    | ⟨1, _⟩ => show win6_2.index t (1 : Fin 2) * 128 + 1 * k.val = k.val; omega
  have h3 : ∀ k : Fin 128, ((cfg6.win 3).blk t).view.emb (ix2 (0 : Fin 1) k) = ix2 (0 : Fin 1) k := fun k => by
    funext a; apply Fin.ext
    match a with
    | ⟨0, _⟩ => show win6_3.index t (0 : Fin 2) * 1 + 1 * 0 = 0; omega
    | ⟨1, _⟩ => show win6_3.index t (1 : Fin 2) * 128 + 1 * k.val = k.val; omega
  have h4 : ∀ k : Fin 128, ((cfg6.win 4).blk t).view.emb (ix2 (0 : Fin 1) k) = ix2 (0 : Fin 1) k := fun k => by
    funext a; apply Fin.ext
    match a with
    | ⟨0, _⟩ => show win6_4.index t (0 : Fin 2) * 1 + 1 * 0 = 0; omega
    | ⟨1, _⟩ => show win6_4.index t (1 : Fin 2) * 128 + 1 * k.val = k.val; omega
  have h5 : ∀ k : Fin 128, ((cfg6.win 5).blk t).view.emb (ix2 k q)
      = ix2 k (⟨((((cfg6.win 6).blk t).view.emb (ix2 p q)) 1).val, idx2_lt1 _⟩ : Fin 128) := fun k => by
    funext a; apply Fin.ext
    match a with
    | ⟨0, _⟩ => show win6_5.index t (0 : Fin 2) * 128 + 1 * k.val = k.val; omega
    | ⟨1, _⟩ => show win6_5.index t (1 : Fin 2) * 128 + 1 * q.val = win6_6.index t (1 : Fin 2) * 128 + 1 * q.val; omega
  show ∑ k : Fin 128, normTerm (V c main_v72 (((cfg6.win 0).blk t).view.emb (ix2 p k)))
        (V c main_v75 (((cfg6.win 1).blk t).view.emb (ix2 (0 : Fin 1) k)))
        (V c main_v79 (((cfg6.win 2).blk t).view.emb (ix2 (0 : Fin 1) k)))
        (V c main_v82 (((cfg6.win 3).blk t).view.emb (ix2 (0 : Fin 1) k)))
        (V c main_v85 (((cfg6.win 4).blk t).view.emb (ix2 (0 : Fin 1) k)))
        (V c main_v87 (((cfg6.win 5).blk t).view.emb (ix2 k q)))
    = normLinear (V c main_v72) (V c main_v75) (V c main_v79) (V c main_v82) (V c main_v85) (V c main_v87) (((cfg6.win 6).blk t).view.emb (ix2 p q))
  refine Finset.sum_congr rfl fun k _ => ?_
  rw [h0 k, h1 k, h2 k, h3 k, h4 k, h5 k]
  rfl

/-- An index of the output array is in tile t's block iff its row lies in the tile's range. -/
theorem mem_blk (t : Fin cfg6.N) (i : S50000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v88).slice (win6_6.rect t)).set ↔ _
  rw [View.set_slice_whole, Rect.mem_set_unit]
  exact Iff.rfl

/-- The ten tiles cover the array: row r lies in tile r / 5000. -/
theorem cover (i : S50000x128.Idx) :
    ∃ t : Fin cfg6.N, (cfg6.win 6).flush t = true ∧ i ∈ ((cfg6.win 6).blk t).view.set := by
  have hi0 : (i 0).val < 50000 := idx2_lt0 i
  have hi1 : (i 1).val < 128 := idx2_lt1 i
  let t : Fin cfg6.N := ⟨(i 0).val / 5000, lt_of_lt_of_eq (by omega : (i 0).val / 5000 < 10) N_6.symm⟩
  obtain ⟨e0, e1, e2, e3, e4, e5, e6, e7, e8, e9, e10, e11, e12, e13⟩ := idx_facts t
  have htv : t.val = (i 0).val / 5000 := rfl
  refine ⟨t, flush6_6 t, ?_⟩
  rw [mem_blk]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

/-- THE OUTPUT ARRAY after the launch, as one function of the operand arrays as the launch finds them. -/
theorem final (c : Dev nD) :
    (dat6 V c).arrAt 6 cfg6.N
      = normLinear (V c main_v72) (V c main_v75) (V c main_v79) (V c main_v82) (V c main_v85) (V c main_v87) :=
  (dat6 V c).arrAt_eq_of_cover 6 _ (fun t _ => flushed_eq V c t) cover

end Cert.KernelIdeal.NormLinear6

end
-- ==== Proof.NormLinear9.lean ====
/-
  The normalise-and-multiply launch number 9: what it leaves in its output array.

  The launch walks ten row tiles of 5000 rows. At a tile it loads the tile of the (50000, 128) operand, four rows of 128
  numbers (a mean, a variance, a gain and a shift per column) and a 128 by 128 matrix. Every entry of the tile is
  centred by its column's mean, scaled by the reciprocal square root of its column's variance plus a small constant,
  multiplied by the gain and shifted; the change of float format before the product is the identity on exact values;
  the product with the matrix, accumulated into zeros, is the plain sum over the 128 columns.
  A tile's block of the output is the same function of the operand at the same rows, the ten tiles cover the 50000
  rows, and so the output array is that function at every (r, c).
-/
import proofs.«169240_j69947837383264_1_alg».proof.Proof.Gen.KernelIdeal.Frame
import proofs.«169240_j69947837383264_1_alg».proof.Proof.LibPlainProduct
import Idealize.ShloMosaic.Lib.Pipeline.Value
import Idealize.ShloMosaic.Lib.ValueIdx

set_option maxRecDepth 16384

noncomputable section

namespace Cert.KernelIdeal.NormLinear9

open Idealize.ShloMosaic Idealize.ShloMosaic.TcCoe Idealize.ShloMosaic.ValueIdx
open Idealize.ShloMosaic.Pipeline (Dat Cfg Window)
open Cert.KernelIdeal Cert.KernelIdeal.Gen

/-- One normalised entry: centred, scaled by the reciprocal root of the variance plus the small constant, times the gain,
    plus the shift. -/
def normEntry (x mu var g b : EReal) : EReal :=
  (x - mu) * Ideal.rsqrt (var + Ideal.ofBits .f32 0x3727C5AC#32) * g + b

/-- One term of the product's sum: a normalised entry times a matrix entry. -/
def normTerm (x mu var g b w : EReal) : EReal := normEntry x mu var g b * w

/-- The launch's whole-array function: row r of the normalised operand times column c of the matrix. -/
def normLinear (x : S50000x128.Idx → EReal) (mu var g b : S1x128.Idx → EReal) (W : S128x128.Idx → EReal) :
    S50000x128.Idx → EReal :=
  fun i => ∑ k : Fin 128, normEntry (x (ix2 (⟨(i 0).val, idx2_lt0 i⟩ : Fin 50000) k)) (mu (ix2 (0 : Fin 1) k)) (var (ix2 (0 : Fin 1) k)) (g (ix2 (0 : Fin 1) k)) (b (ix2 (0 : Fin 1) k)) * W (ix2 k (⟨(i 1).val, idx2_lt1 i⟩ : Fin 128))

theorem normLinear_apply (x : S50000x128.Idx → EReal) (mu var g b : S1x128.Idx → EReal) (W : S128x128.Idx → EReal)
    (r : Fin 50000) (q : Fin 128) :
    normLinear x mu var g b W (ix2 r q)
      = ∑ k : Fin 128, normEntry (x (ix2 r k)) (mu (ix2 (0 : Fin 1) k)) (var (ix2 (0 : Fin 1) k)) (g (ix2 (0 : Fin 1) k)) (b (ix2 (0 : Fin 1) k)) * W (ix2 k q) := rfl

theorem hz : (![0, 0] : Fin 2 → Nat) = fun _ => 0 := funext fun a => by fin_cases a <;> rfl

/-- A row of 128 numbers broadcast over the 5000 rows of a tile, read at (p, k), is the row's entry k. -/
theorem row_bcast (v : S1x128.Idx → EReal) (p : Fin 5000) (k : Fin 128) :
    broadcastTo S5000x128 v broadcasts_S1x128_S5000x128 (ix2 p k) = v (ix2 (0 : Fin 1) k) :=
  broadcastTo_apply v broadcasts_S1x128_S5000x128 (ix2 p k) (ix2 (0 : Fin 1) k)
    (fun a => by match a with | ⟨0, _⟩ => rfl | ⟨1, _⟩ => rfl)

/-- The body's arithmetic at row p, column q of a tile. -/
theorem pay_apply (x0 : Vec Ideal S5000x128 .f32) (x1 x2 x3 x4 : Vec Ideal S1x128 .f32) (x5 : Vec Ideal S128x128 .f32)
    (p : Fin 5000) (q : Fin 128) :
    k9_pay1 x0 x1 x2 x3 x4 x5 (ix2 p q)
      = ∑ k : Fin 128, normEntry (x0 (ix2 p k)) (x1 (ix2 (0 : Fin 1) k)) (x2 (ix2 (0 : Fin 1) k)) (x3 (ix2 (0 : Fin 1) k)) (x4 (ix2 (0 : Fin 1) k)) * x5 (ix2 k q) := by
  unfold k9_pay1
  simp only [shapeCast_self]
  refine (PlainProduct.matmul_zero_apply (M := 5000) (K := 128) (P := 128) _ none _ _ p q).trans ?_
  refine Finset.sum_congr rfl fun k _ => ?_
  simp only [truncf_apply, addf_apply, mulf_apply, subf_apply, row_bcast]
  rfl

/-- Where the windows' blocks sit at tile t: the operand's and the output's at row block t, everything else at the origin. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

variable (V : (c : Dev nD) → (b : Ref sig .tc) → Buf (Elt Ideal) ((c : Thread nD τ).loc b))

/-- What tile t writes back is tile t of the whole-array function. -/
theorem flushed_eq (c : Dev nD) (t : Fin cfg9.N) :
    (dat9 V c).flushed 6 t
      = ((cfg9.win 6).blk t).view.read (Elt Ideal)
          (normLinear (V c main_v131) (V c main_v134) (V c main_v138) (V c main_v141) (V c main_v144) (V c main_v146)) := by
  show (cfg9.win 6).cut (grid9.coords t) ((dat9 V c).after 6 t) = _
  rw [after9_6]
  unfold out9_6
  rw [View.canon_unit_zero hz]
  simp only [View.ld_unit_zero (S := S5000x128) hz, View.ld_unit_zero (S := S1x128) hz, View.ld_unit_zero (S := S128x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  refine (pay_apply (iblk9 V c 0 t) (iblk9 V c 1 t) (iblk9 V c 2 t) (iblk9 V c 3 t) (iblk9 V c 4 t) (iblk9 V c 5 t) p q).trans ?_
  have hp : p.val < 5000 := p.isLt
  have hq : q.val < 128 := q.isLt
  have ht : t.val < 10 := lt_of_lt_of_eq t.isLt N_9
  have h0 : ∀ k : Fin 128, ((cfg9.win 0).blk t).view.emb (ix2 p k)
      = ix2 (⟨((((cfg9.win 6).blk t).view.emb (ix2 p q)) 0).val, idx2_lt0 _⟩ : Fin 50000) k := fun k => by
    funext a; apply Fin.ext
    match a with
    | ⟨0, _⟩ => show win9_0.index t (0 : Fin 2) * 5000 + 1 * p.val = win9_6.index t (0 : Fin 2) * 5000 + 1 * p.val; omega
    | ⟨1, _⟩ => show win9_0.index t (1 : Fin 2) * 128 + 1 * k.val = k.val; omega
  have h1 : ∀ k : Fin 128, ((cfg9.win 1).blk t).view.emb (ix2 (0 : Fin 1) k) = ix2 (0 : Fin 1) k := fun k => by
    funext a; apply Fin.ext
    match a with
    | ⟨0, _⟩ => show win9_1.index t (0 : Fin 2) * 1 + 1 * 0 = 0; omega
    | ⟨1, _⟩ => show win9_1.index t (1 : Fin 2) * 128 + 1 * k.val = k.val; omega
  have h2 : ∀ k : Fin 128, ((cfg9.win 2).blk t).view.emb (ix2 (0 : Fin 1) k) = ix2 (0 : Fin 1) k := fun k => by
    funext a; apply Fin.ext
    match a with
    | ⟨0, _⟩ => show win9_2.index t (0 : Fin 2) * 1 + 1 * 0 = 0; omega
    | ⟨1, _⟩ => show win9_2.index t (1 : Fin 2) * 128 + 1 * k.val = k.val; omega
  have h3 : ∀ k : Fin 128, ((cfg9.win 3).blk t).view.emb (ix2 (0 : Fin 1) k) = ix2 (0 : Fin 1) k := fun k => by
    funext a; apply Fin.ext
    match a with
    | ⟨0, _⟩ => show win9_3.index t (0 : Fin 2) * 1 + 1 * 0 = 0; omega
    | ⟨1, _⟩ => show win9_3.index t (1 : Fin 2) * 128 + 1 * k.val = k.val; omega
  have h4 : ∀ k : Fin 128, ((cfg9.win 4).blk t).view.emb (ix2 (0 : Fin 1) k) = ix2 (0 : Fin 1) k := fun k => by
    funext a; apply Fin.ext
    match a with
    | ⟨0, _⟩ => show win9_4.index t (0 : Fin 2) * 1 + 1 * 0 = 0; omega
    | ⟨1, _⟩ => show win9_4.index t (1 : Fin 2) * 128 + 1 * k.val = k.val; omega
  have h5 : ∀ k : Fin 128, ((cfg9.win 5).blk t).view.emb (ix2 k q)
      = ix2 k (⟨((((cfg9.win 6).blk t).view.emb (ix2 p q)) 1).val, idx2_lt1 _⟩ : Fin 128) := fun k => by
    funext a; apply Fin.ext
    match a with
    | ⟨0, _⟩ => show win9_5.index t (0 : Fin 2) * 128 + 1 * k.val = k.val; omega
    | ⟨1, _⟩ => show win9_5.index t (1 : Fin 2) * 128 + 1 * q.val = win9_6.index t (1 : Fin 2) * 128 + 1 * q.val; omega
  show ∑ k : Fin 128, normTerm (V c main_v131 (((cfg9.win 0).blk t).view.emb (ix2 p k)))
        (V c main_v134 (((cfg9.win 1).blk t).view.emb (ix2 (0 : Fin 1) k)))
        (V c main_v138 (((cfg9.win 2).blk t).view.emb (ix2 (0 : Fin 1) k)))
        (V c main_v141 (((cfg9.win 3).blk t).view.emb (ix2 (0 : Fin 1) k)))
        (V c main_v144 (((cfg9.win 4).blk t).view.emb (ix2 (0 : Fin 1) k)))
        (V c main_v146 (((cfg9.win 5).blk t).view.emb (ix2 k q)))
    = normLinear (V c main_v131) (V c main_v134) (V c main_v138) (V c main_v141) (V c main_v144) (V c main_v146) (((cfg9.win 6).blk t).view.emb (ix2 p q))
  refine Finset.sum_congr rfl fun k _ => ?_
  rw [h0 k, h1 k, h2 k, h3 k, h4 k, h5 k]
  rfl

/-- An index of the output array is in tile t's block iff its row lies in the tile's range. -/
theorem mem_blk (t : Fin cfg9.N) (i : S50000x128.Idx) :
    i ∈ ((cfg9.win 6).blk t).view.set ↔ ∀ a : Fin 2, win9_6.index t a * S5000x128.size a ≤ (i a).val
      ∧ (i a).val < win9_6.index t a * S5000x128.size a + S5000x128.size a := by
  show i ∈ ((View.whole main_v147).slice (win9_6.rect t)).set ↔ _
  rw [View.set_slice_whole, Rect.mem_set_unit]
  exact Iff.rfl

/-- The ten tiles cover the array: row r lies in tile r / 5000. -/
theorem cover (i : S50000x128.Idx) :
    ∃ t : Fin cfg9.N, (cfg9.win 6).flush t = true ∧ i ∈ ((cfg9.win 6).blk t).view.set := by
  have hi0 : (i 0).val < 50000 := idx2_lt0 i
  have hi1 : (i 1).val < 128 := idx2_lt1 i
  let t : Fin cfg9.N := ⟨(i 0).val / 5000, lt_of_lt_of_eq (by omega : (i 0).val / 5000 < 10) N_9.symm⟩
  obtain ⟨e0, e1, e2, e3, e4, e5, e6, e7, e8, e9, e10, e11, e12, e13⟩ := idx_facts t
  have htv : t.val = (i 0).val / 5000 := rfl
  refine ⟨t, flush9_6 t, ?_⟩
  rw [mem_blk]
  intro a
  match a with
  | ⟨0, _⟩ => show win9_6.index t (0 : Fin 2) * 5000 ≤ (i 0).val ∧ (i 0).val < win9_6.index t (0 : Fin 2) * 5000 + 5000; omega
  | ⟨1, _⟩ => show win9_6.index t (1 : Fin 2) * 128 ≤ (i 1).val ∧ (i 1).val < win9_6.index t (1 : Fin 2) * 128 + 128; omega

/-- THE OUTPUT ARRAY after the launch, as one function of the operand arrays as the launch finds them. -/
theorem final (c : Dev nD) :
    (dat9 V c).arrAt 6 cfg9.N
      = normLinear (V c main_v131) (V c main_v134) (V c main_v138) (V c main_v141) (V c main_v144) (V c main_v146) :=
  (dat9 V c).arrAt_eq_of_cover 6 _ (fun t _ => flushed_eq V c t) cover

end Cert.KernelIdeal.NormLinear9

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.Stats0.lean ====
/-
  The column-statistics launch number 0: what it leaves in its two output rows.

  The launch walks ten row tiles of 5000 rows of a (50000, 128) operand and keeps two rows of 128 running totals. At
  the first tile it stores zeros in both rows; at every tile it adds to the first row the tile's column sums and to the
  second the column sums of the tile's squares. The rows are written back once, after the last tile. Addition on the
  extended reals is associative, so after tile n a running total is zero plus the sum over the tiles up to n of the
  tile's column sum; the ten tiles partition the 50000 rows, so the rows written back hold, at column q, zero plus the sum
  over all rows of the operand, and of its square, at column q.
-/
import proofs.«169240_j69947837383264_1_alg».proof.Proof.Gen.KernelIdeal.Frame
import proofs.«169240_j69947837383264_1_alg».proof.Proof.LibMoments
import Idealize.ShloMosaic.Lib.Pipeline.Value
import Idealize.ShloMosaic.Lib.ValueIdx
import Idealize.ShloMosaic.PureOps.Ideal.Laws

set_option maxRecDepth 16384

noncomputable section

namespace Cert.KernelIdeal.Stats0

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-! ## What each control case leaves in the two rows -/

section Pieces

variable {F : FTy → Type} [FloatOps F]

/-- First tile, first row: zeros stored, read back, the tile's column sums added. -/
theorem first_sum (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond0_0 i) (x0 : Vec F S5000x128 .f32) :
    out0_A_1 (F := F) c i arg1 harg1 arg2 harg2 arg3 harg3 hc0 x0 = k0_pay3 x0 k0_pay1 := by
  unfold out0_A_1
  rw [View.read_writes_eq_canon _ _ _ (cover0_A_1 c i arg1 harg1 arg2 harg2 arg3 harg3 hc0 x0)]
  unfold kernelRun0_A
  dsimp only
  rw [View.canon_cons_unit_zero hz]
  sl_unfold_words
  rw [View.readCov_unit_zero _ hz]
  simp only [View.readAt_eq_ld, harg1.read_unread, View.ld_unit_zero (S := S5000x128) hz]

/-- First tile, second row: zeros stored, read back, the column sums of the tile's squares added. -/
theorem first_sumsq (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond0_0 i) (x0 : Vec F S5000x128 .f32) :
    out0_A_2 (F := F) c i arg1 harg1 arg2 harg2 arg3 harg3 hc0 x0 = k0_pay4 x0 k0_pay2 := by
  unfold out0_A_2
  rw [View.read_writes_eq_canon _ _ _ (cover0_A_2 c i arg1 harg1 arg2 harg2 arg3 harg3 hc0 x0)]
  unfold kernelRun0_A
  dsimp only
  rw [View.canon_cons_unit_zero hz]
  sl_unfold_words
  rw [View.readCov_unit_zero _ hz]
  simp only [View.readAt_eq_ld, harg1.read_unread, View.ld_unit_zero (S := S5000x128) hz]

/-- A later tile, first row: the tile's column sums added to what the row held. -/
theorem later_sum (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond0_0 i) (x0 : Vec F S5000x128 .f32) (xo1 xo2 : Vec F S1x128 .f32) :
    out0_B_1 (F := F) c i arg1 harg1 arg2 harg2 arg3 harg3 hc0 x0 xo1 xo2 = k0_pay3 x0 xo1 := by
  unfold out0_B_1
  rw [View.read_writes_eq_canon _ _ _ (cover0_B_1 c i arg1 harg1 arg2 harg2 arg3 harg3 hc0 x0 xo1 xo2)]
  unfold kernelRun0_B
  dsimp only
  rw [View.canon_unit_zero hz]
  simp only [View.readAt_eq_ld, harg1.read_unread, harg2.read_unread, View.ld_unit_zero (S := S5000x128) hz, View.ld_unit_zero (S := S1x128) hz]

/-- A later tile, second row: the column sums of the tile's squares added to what the row held. -/
theorem later_sumsq (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond0_0 i) (x0 : Vec F S5000x128 .f32) (xo1 xo2 : Vec F S1x128 .f32) :
    out0_B_2 (F := F) c i arg1 harg1 arg2 harg2 arg3 harg3 hc0 x0 xo1 xo2 = k0_pay4 x0 xo2 := by
  unfold out0_B_2
  rw [View.read_writes_eq_canon _ _ _ (cover0_B_2 c i arg1 harg1 arg2 harg2 arg3 harg3 hc0 x0 xo1 xo2)]
  unfold kernelRun0_B
  dsimp only
  rw [View.canon_unit_zero hz]
  simp only [View.readAt_eq_ld, harg1.read_unread, harg3.read_unread, View.ld_unit_zero (S := S5000x128) hz, View.ld_unit_zero (S := S1x128) hz]

end Pieces

/-! ## The body's arithmetic at a column -/

/-- A vector of 128 numbers recast as one row of 128, read at (0, q), is its entry q. -/
theorem row_cast (v : S128.Idx → EReal) (q : Fin 128) :
    shapeCast S1x128 v shapeCasts_S128_S1x128 (ix2 (0 : Fin 1) q) = v (ix1 q) :=
  shapeCast_apply v shapeCasts_S128_S1x128 (ix2 (0 : Fin 1) q) (ix1 q)
    (by rw [Shape.rowMajor_val_one, Shape.rowMajor_val_two]; show q.val = 0 * 128 + q.val; omega)

/-- The sum of a tile over its 5000 rows, read at column q. -/
theorem lane_sum (x : Vec Ideal S5000x128 .f32) (hφ : FKind.Formats .f32)
    (hacc : (0x00000000#32 : BitVec 32) = 0x00000000#32) (q : Fin 128) :
    multiReduction (F := Ideal) .add [0] S128 x 0x00000000#32 reduces_S5000x128_S128 hφ hacc (ix1 q)
      = ∑ p : Fin 5000, x (ix2 p q) :=
  (Ideal.multiReduction_add_single x 0x00000000#32 reduces_S5000x128_S128 hφ hacc (ix1 q)).trans
    (Finset.sum_congr rfl fun p _ => congrArg x (funext fun a => by match a with | ⟨0, _⟩ => rfl | ⟨1, _⟩ => rfl))

/-- The running column sum after a tile: what the row held plus the tile's column sum. -/
theorem sum_apply (x0 : Vec Ideal S5000x128 .f32) (v : Vec Ideal S1x128 .f32) (q : Fin 128) :
    k0_pay3 x0 v (ix2 (0 : Fin 1) q) = v (ix2 (0 : Fin 1) q) + ∑ p : Fin 5000, x0 (ix2 p q) := by
  unfold k0_pay3
  simp only [shapeCast_self]
  rw [addf_apply, row_cast]
  exact congrArg (fun z => v (ix2 (0 : Fin 1) q) + z) (lane_sum x0 _ _ q)

/-- The running column sum of squares after a tile. -/
theorem sumsq_apply (x0 : Vec Ideal S5000x128 .f32) (v : Vec Ideal S1x128 .f32) (q : Fin 128) :
    k0_pay4 x0 v (ix2 (0 : Fin 1) q) = v (ix2 (0 : Fin 1) q) + ∑ p : Fin 5000, x0 (ix2 p q) * x0 (ix2 p q) := by
  unfold k0_pay4
  simp only [shapeCast_self]
  rw [addf_apply, row_cast]
  exact congrArg (fun z => v (ix2 (0 : Fin 1) q) + z) ((lane_sum (mulf (F := Ideal) x0 x0) _ _ q).trans rfl)

/-! ## Totals over tiles -/

/-- The column sum of tile t of a (50000, 128) array: rows 5000 t … 5000 t + 4999. -/
def tileSum (X : S50000x128.Idx → EReal) (q : Fin 128) (t : Fin 10) : EReal :=
  ∑ p : Fin 5000, X (ix2 (⟨5000 * t.val + p.val, by have := t.isLt; have := p.isLt; omega⟩ : Fin 50000) q)

/-- Zero plus the column sums of the tiles up to tile n. -/
def accSum (X : S50000x128.Idx → EReal) (q : Fin 128) (n : ℕ) : EReal :=
  Ideal.ofBits .f32 0x00000000#32 + ∑ t : Fin 10, if t.val ≤ n then tileSum X q t else 0

theorem accSum_zero (X : S50000x128.Idx → EReal) (q : Fin 128) :
    accSum X q 0 = Ideal.ofBits .f32 0x00000000#32 + tileSum X q (0 : Fin 10) := by
  unfold accSum
  congr 1
  rw [Finset.sum_eq_single (0 : Fin 10)]
  · rfl
  · intro t _ ht
    have : ¬ t.val ≤ 0 := fun h => ht (Fin.ext (Nat.le_zero.mp h))
    rw [if_neg this]
  · intro h; exact absurd (Finset.mem_univ _) h

theorem accSum_succ (X : S50000x128.Idx → EReal) (q : Fin 128) (n : ℕ) (hn : n + 1 < 10) :
    accSum X q (n + 1) = accSum X q n + tileSum X q (⟨n + 1, hn⟩ : Fin 10) := by
  unfold accSum
  rw [add_assoc]
  congr 1
  have h1 : ∑ t : Fin 10, (if t = (⟨n + 1, hn⟩ : Fin 10) then tileSum X q t else 0) = tileSum X q ⟨n + 1, hn⟩ := by
    rw [Finset.sum_ite_eq' Finset.univ (⟨n + 1, hn⟩ : Fin 10) (tileSum X q), if_pos (Finset.mem_univ _)]
  rw [← h1, ← Finset.sum_add_distrib]
  refine Finset.sum_congr rfl fun t _ => ?_
  by_cases ht : t.val ≤ n
  · have hne : t ≠ (⟨n + 1, hn⟩ : Fin 10) := fun h => by rw [h] at ht; exact absurd ht (by simp)
    rw [if_pos ht, if_pos (Nat.le_succ_of_le ht), if_neg hne, add_zero]
  · by_cases he : t = (⟨n + 1, hn⟩ : Fin 10)
    · have h2 : t.val ≤ n + 1 := by rw [he]
      rw [if_pos h2, if_neg ht, if_pos he, zero_add]
    · have h2 : ¬ t.val ≤ n + 1 := fun h => he (Fin.ext (by show t.val = n + 1; omega))
      rw [if_neg h2, if_neg ht, if_neg he, add_zero]

/-- A sum over the 50000 rows, tile by tile. -/
theorem sum_rows (f : Fin 50000 → EReal) :
    ∑ r : Fin 50000, f r
      = ∑ t : Fin 10, ∑ p : Fin 5000, f ⟨5000 * t.val + p.val, by have := t.isLt; have := p.isLt; omega⟩ :=
  Cert.LibMoments.sum_fin_mul 10 5000 f

/-- After the last tile the total is zero plus the sum over all 50000 rows. -/
theorem accSum_last (X : S50000x128.Idx → EReal) (q : Fin 128) :
    accSum X q 9 = Ideal.ofBits .f32 0x00000000#32 + ∑ r : Fin 50000, X (ix2 r q) := by
  unfold accSum
  rw [sum_rows (fun r => X (ix2 r q))]
  refine congrArg₂ (· + ·) rfl (Finset.sum_congr rfl fun t _ => ?_)
  have := t.isLt
  rw [if_pos (by omega)]
  rfl

/-- The entrywise square of an array. -/
def sq (X : S50000x128.Idx → EReal) : S50000x128.Idx → EReal := fun i => X i * X i

/-- The two rows written back, as functions of the operand: zero plus the column sums, and zero plus the column sums of
    squares. -/
def colSum (X : S50000x128.Idx → EReal) : S1x128.Idx → EReal :=
  fun i => Ideal.ofBits .f32 0x00000000#32 + ∑ r : Fin 50000, X (ix2 r (⟨(i 1).val, idx2_lt1 i⟩ : Fin 128))

def colSumSq (X : S50000x128.Idx → EReal) : S1x128.Idx → EReal := colSum (sq X)

/-! ## The launch -/

/-- Where the windows' blocks sit at tile t: the operand's at row block t, the two rows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- Tile t's block of the operand, read at (p, q), is the operand at row 5000 t + p. -/
theorem blk_read (c : Dev nD) (t : Fin cfg0.N) (p : Fin 5000) (q : Fin 128) :
    iblk0 V c 0 t (ix2 p q)
      = (V c main_arg0 : S50000x128.Idx → EReal)
          (ix2 (⟨5000 * t.val + p.val, by have := lt_of_lt_of_eq t.isLt N_0; have := p.isLt; omega⟩ : Fin 50000) q) := by
  obtain ⟨e0, e1, -⟩ := idx_facts t
  have hp : p.val < 5000 := p.isLt
  show (V c main_arg0 : S50000x128.Idx → EReal) (((cfg0.win 0).blk t).view.emb (ix2 p q)) = _
  refine congrArg (V c main_arg0 : S50000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * q.val = q.val; omega

/-- THE RUNNING TOTALS: after tile n the rows hold, at column q, the totals over the tiles up to n. -/
theorem totals (c : Dev nD) (q : Fin 128) : ∀ (n : ℕ) (hn : n < cfg0.N),
    (outsAt0 V c n hn).1 (ix2 (0 : Fin 1) q) = accSum (V c main_arg0) q n
    ∧ (outsAt0 V c n hn).2 (ix2 (0 : Fin 1) q) = accSum (sq (V c main_arg0)) q n := by
  intro n
  induction n with
  | zero =>
    intro hn
    have hA : outsAt0 V c 0 hn = _ := outsAt0_A V c ⟨0, hn⟩ rfl
    rw [hA]
    dsimp only
    rw [first_sum, first_sumsq, accSum_zero, accSum_zero]
    refine ⟨(sum_apply _ _ q).trans ?_, (sumsq_apply _ _ q).trans ?_⟩
    · refine congrArg₂ (· + ·) rfl (Finset.sum_congr rfl fun p _ => ?_)
      exact blk_read V c ⟨0, hn⟩ p q
    · refine congrArg₂ (· + ·) rfl (Finset.sum_congr rfl fun p _ => ?_)
      rw [blk_read V c ⟨0, hn⟩ p q]
      rfl
  | succ n ih =>
    intro hn
    have hn10 : n + 1 < 10 := lt_of_lt_of_eq hn N_0
    have h0 : ¬ (n + 1) % 10 = 0 := by omega
    obtain ⟨ih1, ih2⟩ := ih (Nat.lt_of_succ_lt hn)
    have hB : outsAt0 V c (n + 1) hn = _ := outsAt0_B V c ⟨n + 1, hn⟩ h0
    rw [hB]
    dsimp only
    rw [later_sum, later_sumsq, accSum_succ _ q n hn10, accSum_succ _ q n hn10]
    refine ⟨(sum_apply _ _ q).trans ?_, (sumsq_apply _ _ q).trans ?_⟩
    · refine congrArg₂ (· + ·) ih1 (Finset.sum_congr rfl fun p _ => ?_)
      exact blk_read V c ⟨n + 1, hn⟩ p q
    · refine congrArg₂ (· + ·) ih2 (Finset.sum_congr rfl fun p _ => ?_)
      rw [blk_read V c ⟨n + 1, hn⟩ p q]
      rfl

/-- Row 1's block sits at the origin at every tile. -/
theorem emb1 (t : Fin cfg0.N) (q : Fin 128) :
    ((cfg0.win 1).blk t).view.emb (ix2 (0 : Fin 1) q) = ix2 (0 : Fin 1) q := by
  obtain ⟨e0, e1, e2, e3, e4, e5⟩ := idx_facts t
  funext a; apply Fin.ext
  match a with
  | ⟨0, _⟩ => show win0_1.index t (0 : Fin 2) * 1 + 1 * 0 = 0; omega
  | ⟨1, _⟩ => show win0_1.index t (1 : Fin 2) * 128 + 1 * q.val = q.val; omega

/-- What the last tile writes back to output row 1 is the whole-array function's one block. -/
theorem flushed1_eq (c : Dev nD) (t : Fin cfg0.N) (hf : (cfg0.win 1).flush t = true) :
    (dat0 V c).flushed 1 t = ((cfg0.win 1).blk t).view.read (Elt Ideal) (colSum (V c main_arg0)) := by
  have ht : t.val < 10 := lt_of_lt_of_eq t.isLt N_0
  have ht9 : t.val = 9 := by have := (flush0_1 t).mp hf; omega
  show (cfg0.win 1).cut (grid0.coords t) ((dat0 V c).after 1 t) = _
  rw [after0_1]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).1).trans ?_
  rw [ht9, accSum_last]
  show _ = colSum (V c main_arg0) (((cfg0.win 1).blk t).view.emb (ix2 (0 : Fin 1) q))
  rw [emb1 t q]
  rfl

theorem mem_blk1 (t : Fin cfg0.N) (i : S1x128.Idx) :
    i ∈ ((cfg0.win 1).blk t).view.set ↔ ∀ a : Fin 2, win0_1.index t a * S1x128.size a ≤ (i a).val
      ∧ (i a).val < win0_1.index t a * S1x128.size a + S1x128.size a := by
  show i ∈ ((View.whole main_v4_0).slice (win0_1.rect t)).set ↔ _
  rw [View.set_slice_whole, Rect.mem_set_unit]
  exact Iff.rfl

/-- The one block written back covers the row. -/
theorem cover1 (i : S1x128.Idx) :
    ∃ t : Fin cfg0.N, (cfg0.win 1).flush t = true ∧ i ∈ ((cfg0.win 1).blk t).view.set := by
  have hi0 : (i 0).val < 1 := idx2_lt0 i
  have hi1 : (i 1).val < 128 := idx2_lt1 i
  let t : Fin cfg0.N := ⟨9, lt_of_lt_of_eq (by omega : 9 < 10) N_0.symm⟩
  obtain ⟨e0, e1, e2, e3, e4, e5⟩ := idx_facts t
  refine ⟨t, (flush0_1 t).mpr rfl, ?_⟩
  rw [mem_blk1]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 128 ≤ (i 1).val ∧ (i 1).val < win0_1.index t (1 : Fin 2) * 128 + 128; omega

/-- OUTPUT ROW 1 after the launch, as a function of the operand array as the launch finds it. -/
theorem final1 (c : Dev nD) : (dat0 V c).arrAt 1 cfg0.N = colSum (V c main_arg0) :=
  (dat0 V c).arrAt_eq_of_cover 1 _ (fun t hf => flushed1_eq V c t hf) cover1

/-- Row 2's block sits at the origin at every tile. -/
theorem emb2 (t : Fin cfg0.N) (q : Fin 128) :
    ((cfg0.win 2).blk t).view.emb (ix2 (0 : Fin 1) q) = ix2 (0 : Fin 1) q := by
  obtain ⟨e0, e1, e2, e3, e4, e5⟩ := idx_facts t
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- What the last tile writes back to output row 2 is the whole-array function's one block. -/
theorem flushed2_eq (c : Dev nD) (t : Fin cfg0.N) (hf : (cfg0.win 2).flush t = true) :
    (dat0 V c).flushed 2 t = ((cfg0.win 2).blk t).view.read (Elt Ideal) (colSumSq (V c main_arg0)) := by
  have ht : t.val < 10 := lt_of_lt_of_eq t.isLt N_0
  have ht9 : t.val = 9 := by have := (flush0_2 t).mp hf; omega
  show (cfg0.win 2).cut (grid0.coords t) ((dat0 V c).after 2 t) = _
  rw [after0_2]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).2).trans ?_
  rw [ht9, accSum_last]
  show _ = colSumSq (V c main_arg0) (((cfg0.win 2).blk t).view.emb (ix2 (0 : Fin 1) q))
  rw [emb2 t q]
  rfl

theorem mem_blk2 (t : Fin cfg0.N) (i : S1x128.Idx) :
    i ∈ ((cfg0.win 2).blk t).view.set ↔ ∀ a : Fin 2, win0_2.index t a * S1x128.size a ≤ (i a).val
      ∧ (i a).val < win0_2.index t a * S1x128.size a + S1x128.size a := by
  show i ∈ ((View.whole main_v4_1).slice (win0_2.rect t)).set ↔ _
  rw [View.set_slice_whole, Rect.mem_set_unit]
  exact Iff.rfl

/-- The one block written back covers the row. -/
theorem cover2 (i : S1x128.Idx) :
    ∃ t : Fin cfg0.N, (cfg0.win 2).flush t = true ∧ i ∈ ((cfg0.win 2).blk t).view.set := by
  have hi0 : (i 0).val < 1 := idx2_lt0 i
  have hi1 : (i 1).val < 128 := idx2_lt1 i
  let t : Fin cfg0.N := ⟨9, lt_of_lt_of_eq (by omega : 9 < 10) N_0.symm⟩
  obtain ⟨e0, e1, e2, e3, e4, e5⟩ := idx_facts t
  refine ⟨t, (flush0_2 t).mpr rfl, ?_⟩
  rw [mem_blk2]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 128 ≤ (i 1).val ∧ (i 1).val < win0_2.index t (1 : Fin 2) * 128 + 128; omega

/-- OUTPUT ROW 2 after the launch, as a function of the operand array as the launch finds it. -/
theorem final2 (c : Dev nD) : (dat0 V c).arrAt 2 cfg0.N = colSumSq (V c main_arg0) :=
  (dat0 V c).arrAt_eq_of_cover 2 _ (fun t hf => flushed2_eq V c t hf) cover2

end Cert.KernelIdeal.Stats0

end
-- ==== Proof.Stats2.lean ====
/-
  The column-statistics launch number 2: what it leaves in its two output rows.

  The launch walks ten row tiles of 5000 rows of a (50000, 128) operand and keeps two rows of 128 running totals. At
  the first tile it stores zeros in both rows; at every tile it adds to the first row the tile's column sums and to the
  second the column sums of the tile's squares. The rows are written back once, after the last tile. Addition on the
  extended reals is associative, so after tile n a running total is zero plus the sum over the tiles up to n of the
  tile's column sum; the ten tiles partition the 50000 rows, so the rows written back hold, at column q, zero plus the sum
  over all rows of the operand, and of its square, at column q.
-/
import proofs.«169240_j69947837383264_1_alg».proof.Proof.Gen.KernelIdeal.Frame
import proofs.«169240_j69947837383264_1_alg».proof.Proof.LibMoments
import Idealize.ShloMosaic.Lib.Pipeline.Value
import Idealize.ShloMosaic.Lib.ValueIdx
import Idealize.ShloMosaic.PureOps.Ideal.Laws

set_option maxRecDepth 16384

noncomputable section

namespace Cert.KernelIdeal.Stats2

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-! ## What each control case leaves in the two rows -/

section Pieces

variable {F : FTy → Type} [FloatOps F]

/-- First tile, first row: zeros stored, read back, the tile's column sums added. -/
theorem first_sum (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (x0 : Vec F S5000x128 .f32) :
    out2_A_1 (F := F) c i arg1 harg1 arg2 harg2 arg3 harg3 hc0 x0 = k2_pay4 x0 k2_pay1 := by
  unfold out2_A_1
  rw [View.read_writes_eq_canon _ _ _ (cover2_A_1 c i arg1 harg1 arg2 harg2 arg3 harg3 hc0 x0)]
  unfold kernelRun2_A
  dsimp only
  rw [View.canon_cons_unit_zero hz]
  sl_unfold_words
  rw [View.readCov_unit_zero _ hz]
  simp only [View.readAt_eq_ld, harg1.read_unread, View.ld_unit_zero (S := S5000x128) hz]

/-- First tile, second row: zeros stored, read back, the column sums of the tile's squares added. -/
theorem first_sumsq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond2_0 i) (x0 : Vec F S5000x128 .f32) :
    out2_A_2 (F := F) c i arg1 harg1 arg2 harg2 arg3 harg3 hc0 x0 = k2_pay5 x0 k2_pay2 := by
  unfold out2_A_2
  rw [View.read_writes_eq_canon _ _ _ (cover2_A_2 c i arg1 harg1 arg2 harg2 arg3 harg3 hc0 x0)]
  unfold kernelRun2_A
  dsimp only
  rw [View.canon_cons_unit_zero hz]
  sl_unfold_words
  rw [View.readCov_unit_zero _ hz]
  simp only [View.readAt_eq_ld, harg1.read_unread, View.ld_unit_zero (S := S5000x128) hz]

/-- A later tile, first row: the tile's column sums added to what the row held. -/
theorem later_sum (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond2_0 i) (x0 : Vec F S5000x128 .f32) (xo1 xo2 : Vec F S1x128 .f32) :
    out2_B_1 (F := F) c i arg1 harg1 arg2 harg2 arg3 harg3 hc0 x0 xo1 xo2 = k2_pay4 x0 xo1 := by
  unfold out2_B_1
  rw [View.read_writes_eq_canon _ _ _ (cover2_B_1 c i arg1 harg1 arg2 harg2 arg3 harg3 hc0 x0 xo1 xo2)]
  unfold kernelRun2_B
  dsimp only
  rw [View.canon_unit_zero hz]
  simp only [View.readAt_eq_ld, harg1.read_unread, harg2.read_unread, View.ld_unit_zero (S := S5000x128) hz, View.ld_unit_zero (S := S1x128) hz]

/-- A later tile, second row: the column sums of the tile's squares added to what the row held. -/
theorem later_sumsq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond2_0 i) (x0 : Vec F S5000x128 .f32) (xo1 xo2 : Vec F S1x128 .f32) :
    out2_B_2 (F := F) c i arg1 harg1 arg2 harg2 arg3 harg3 hc0 x0 xo1 xo2 = k2_pay5 x0 xo2 := by
  unfold out2_B_2
  rw [View.read_writes_eq_canon _ _ _ (cover2_B_2 c i arg1 harg1 arg2 harg2 arg3 harg3 hc0 x0 xo1 xo2)]
  unfold kernelRun2_B
  dsimp only
  rw [View.canon_unit_zero hz]
  simp only [View.readAt_eq_ld, harg1.read_unread, harg3.read_unread, View.ld_unit_zero (S := S5000x128) hz, View.ld_unit_zero (S := S1x128) hz]

end Pieces

/-! ## The body's arithmetic at a column -/

/-- A vector of 128 numbers recast as one row of 128, read at (0, q), is its entry q. -/
theorem row_cast (v : S128.Idx → EReal) (q : Fin 128) :
    shapeCast S1x128 v shapeCasts_S128_S1x128 (ix2 (0 : Fin 1) q) = v (ix1 q) :=
  shapeCast_apply v shapeCasts_S128_S1x128 (ix2 (0 : Fin 1) q) (ix1 q)
    (by rw [Shape.rowMajor_val_one, Shape.rowMajor_val_two]; show q.val = 0 * 128 + q.val; omega)

/-- The sum of a tile over its 5000 rows, read at column q. -/
theorem lane_sum (x : Vec Ideal S5000x128 .f32) (hφ : FKind.Formats .f32)
    (hacc : (0x00000000#32 : BitVec 32) = 0x00000000#32) (q : Fin 128) :
    multiReduction (F := Ideal) .add [0] S128 x 0x00000000#32 reduces_S5000x128_S128 hφ hacc (ix1 q)
      = ∑ p : Fin 5000, x (ix2 p q) :=
  (Ideal.multiReduction_add_single x 0x00000000#32 reduces_S5000x128_S128 hφ hacc (ix1 q)).trans
    (Finset.sum_congr rfl fun p _ => congrArg x (funext fun a => by match a with | ⟨0, _⟩ => rfl | ⟨1, _⟩ => rfl))

/-- The running column sum after a tile: what the row held plus the tile's column sum. -/
theorem sum_apply (x0 : Vec Ideal S5000x128 .f32) (v : Vec Ideal S1x128 .f32) (q : Fin 128) :
    k2_pay4 x0 v (ix2 (0 : Fin 1) q) = v (ix2 (0 : Fin 1) q) + ∑ p : Fin 5000, x0 (ix2 p q) := by
  unfold k2_pay4
  unfold k2_pay3
  simp only [shapeCast_self]
  rw [addf_apply, row_cast]
  exact congrArg (fun z => v (ix2 (0 : Fin 1) q) + z) (lane_sum x0 _ _ q)

/-- The running column sum of squares after a tile. -/
theorem sumsq_apply (x0 : Vec Ideal S5000x128 .f32) (v : Vec Ideal S1x128 .f32) (q : Fin 128) :
    k2_pay5 x0 v (ix2 (0 : Fin 1) q) = v (ix2 (0 : Fin 1) q) + ∑ p : Fin 5000, x0 (ix2 p q) * x0 (ix2 p q) := by
  unfold k2_pay5
  unfold k2_pay3
  simp only [shapeCast_self]
  rw [addf_apply, row_cast]
  exact congrArg (fun z => v (ix2 (0 : Fin 1) q) + z) ((lane_sum (mulf (F := Ideal) x0 x0) _ _ q).trans rfl)

/-! ## Totals over tiles -/

/-- The column sum of tile t of a (50000, 128) array: rows 5000 t … 5000 t + 4999. -/
def tileSum (X : S50000x128.Idx → EReal) (q : Fin 128) (t : Fin 10) : EReal :=
  ∑ p : Fin 5000, X (ix2 (⟨5000 * t.val + p.val, by have := t.isLt; have := p.isLt; omega⟩ : Fin 50000) q)

/-- Zero plus the column sums of the tiles up to tile n. -/
def accSum (X : S50000x128.Idx → EReal) (q : Fin 128) (n : ℕ) : EReal :=
  Ideal.ofBits .f32 0x00000000#32 + ∑ t : Fin 10, if t.val ≤ n then tileSum X q t else 0

theorem accSum_zero (X : S50000x128.Idx → EReal) (q : Fin 128) :
    accSum X q 0 = Ideal.ofBits .f32 0x00000000#32 + tileSum X q (0 : Fin 10) := by
  unfold accSum
  congr 1
  rw [Finset.sum_eq_single (0 : Fin 10)]
  · rfl
  · intro t _ ht
    have : ¬ t.val ≤ 0 := fun h => ht (Fin.ext (Nat.le_zero.mp h))
    rw [if_neg this]
  · intro h; exact absurd (Finset.mem_univ _) h

theorem accSum_succ (X : S50000x128.Idx → EReal) (q : Fin 128) (n : ℕ) (hn : n + 1 < 10) :
    accSum X q (n + 1) = accSum X q n + tileSum X q (⟨n + 1, hn⟩ : Fin 10) := by
  unfold accSum
  rw [add_assoc]
  congr 1
  have h1 : ∑ t : Fin 10, (if t = (⟨n + 1, hn⟩ : Fin 10) then tileSum X q t else 0) = tileSum X q ⟨n + 1, hn⟩ := by
    rw [Finset.sum_ite_eq' Finset.univ (⟨n + 1, hn⟩ : Fin 10) (tileSum X q), if_pos (Finset.mem_univ _)]
  rw [← h1, ← Finset.sum_add_distrib]
  refine Finset.sum_congr rfl fun t _ => ?_
  by_cases ht : t.val ≤ n
  · have hne : t ≠ (⟨n + 1, hn⟩ : Fin 10) := fun h => by rw [h] at ht; exact absurd ht (by simp)
    rw [if_pos ht, if_pos (Nat.le_succ_of_le ht), if_neg hne, add_zero]
  · by_cases he : t = (⟨n + 1, hn⟩ : Fin 10)
    · have h2 : t.val ≤ n + 1 := by rw [he]
      rw [if_pos h2, if_neg ht, if_pos he, zero_add]
    · have h2 : ¬ t.val ≤ n + 1 := fun h => he (Fin.ext (by show t.val = n + 1; omega))
      rw [if_neg h2, if_neg ht, if_neg he, add_zero]

/-- A sum over the 50000 rows, tile by tile. -/
theorem sum_rows (f : Fin 50000 → EReal) :
    ∑ r : Fin 50000, f r
      = ∑ t : Fin 10, ∑ p : Fin 5000, f ⟨5000 * t.val + p.val, by have := t.isLt; have := p.isLt; omega⟩ :=
  Cert.LibMoments.sum_fin_mul 10 5000 f

/-- After the last tile the total is zero plus the sum over all 50000 rows. -/
theorem accSum_last (X : S50000x128.Idx → EReal) (q : Fin 128) :
    accSum X q 9 = Ideal.ofBits .f32 0x00000000#32 + ∑ r : Fin 50000, X (ix2 r q) := by
  unfold accSum
  rw [sum_rows (fun r => X (ix2 r q))]
  refine congrArg₂ (· + ·) rfl (Finset.sum_congr rfl fun t _ => ?_)
  have := t.isLt
  rw [if_pos (by omega)]
  rfl

/-- The entrywise square of an array. -/
def sq (X : S50000x128.Idx → EReal) : S50000x128.Idx → EReal := fun i => X i * X i

/-- The two rows written back, as functions of the operand: zero plus the column sums, and zero plus the column sums of
    squares. -/
def colSum (X : S50000x128.Idx → EReal) : S1x128.Idx → EReal :=
  fun i => Ideal.ofBits .f32 0x00000000#32 + ∑ r : Fin 50000, X (ix2 r (⟨(i 1).val, idx2_lt1 i⟩ : Fin 128))

def colSumSq (X : S50000x128.Idx → EReal) : S1x128.Idx → EReal := colSum (sq X)

/-! ## The launch -/

/-- Where the windows' blocks sit at tile t: the operand's at row block t, the two rows at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- Tile t's block of the operand, read at (p, q), is the operand at row 5000 t + p. -/
theorem blk_read (c : Dev nD) (t : Fin cfg2.N) (p : Fin 5000) (q : Fin 128) :
    iblk2 V c 0 t (ix2 p q)
      = (V c main_v13 : S50000x128.Idx → EReal)
          (ix2 (⟨5000 * t.val + p.val, by have := lt_of_lt_of_eq t.isLt N_2; have := p.isLt; omega⟩ : Fin 50000) q) := by
  obtain ⟨e0, e1, -⟩ := idx_facts t
  have hp : p.val < 5000 := p.isLt
  show (V c main_v13 : S50000x128.Idx → EReal) (((cfg2.win 0).blk t).view.emb (ix2 p q)) = _
  refine congrArg (V c main_v13 : S50000x128.Idx → EReal) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * q.val = q.val; omega

/-- THE RUNNING TOTALS: after tile n the rows hold, at column q, the totals over the tiles up to n. -/
theorem totals (c : Dev nD) (q : Fin 128) : ∀ (n : ℕ) (hn : n < cfg2.N),
    (outsAt2 V c n hn).1 (ix2 (0 : Fin 1) q) = accSum (V c main_v13) q n
    ∧ (outsAt2 V c n hn).2 (ix2 (0 : Fin 1) q) = accSum (sq (V c main_v13)) q n := by
  intro n
  induction n with
  | zero =>
    intro hn
    have hA : outsAt2 V c 0 hn = _ := outsAt2_A V c ⟨0, hn⟩ rfl
    rw [hA]
    dsimp only
    rw [first_sum, first_sumsq, accSum_zero, accSum_zero]
    refine ⟨(sum_apply _ _ q).trans ?_, (sumsq_apply _ _ q).trans ?_⟩
    · refine congrArg₂ (· + ·) rfl (Finset.sum_congr rfl fun p _ => ?_)
      exact blk_read V c ⟨0, hn⟩ p q
    · refine congrArg₂ (· + ·) rfl (Finset.sum_congr rfl fun p _ => ?_)
      rw [blk_read V c ⟨0, hn⟩ p q]
      rfl
  | succ n ih =>
    intro hn
    have hn10 : n + 1 < 10 := lt_of_lt_of_eq hn N_2
    have h0 : ¬ (n + 1) % 10 = 0 := by omega
    obtain ⟨ih1, ih2⟩ := ih (Nat.lt_of_succ_lt hn)
    have hB : outsAt2 V c (n + 1) hn = _ := outsAt2_B V c ⟨n + 1, hn⟩ h0
    rw [hB]
    dsimp only
    rw [later_sum, later_sumsq, accSum_succ _ q n hn10, accSum_succ _ q n hn10]
    refine ⟨(sum_apply _ _ q).trans ?_, (sumsq_apply _ _ q).trans ?_⟩
    · refine congrArg₂ (· + ·) ih1 (Finset.sum_congr rfl fun p _ => ?_)
      exact blk_read V c ⟨n + 1, hn⟩ p q
    · refine congrArg₂ (· + ·) ih2 (Finset.sum_congr rfl fun p _ => ?_)
      rw [blk_read V c ⟨n + 1, hn⟩ p q]
      rfl

/-- Row 1's block sits at the origin at every tile. -/
theorem emb1 (t : Fin cfg2.N) (q : Fin 128) :
    ((cfg2.win 1).blk t).view.emb (ix2 (0 : Fin 1) q) = ix2 (0 : Fin 1) q := by
  obtain ⟨e0, e1, e2, e3, e4, e5⟩ := idx_facts t
  funext a; apply Fin.ext
  match a with
  | ⟨0, _⟩ => show win2_1.index t (0 : Fin 2) * 1 + 1 * 0 = 0; omega
  | ⟨1, _⟩ => show win2_1.index t (1 : Fin 2) * 128 + 1 * q.val = q.val; omega

/-- What the last tile writes back to output row 1 is the whole-array function's one block. -/
theorem flushed1_eq (c : Dev nD) (t : Fin cfg2.N) (hf : (cfg2.win 1).flush t = true) :
    (dat2 V c).flushed 1 t = ((cfg2.win 1).blk t).view.read (Elt Ideal) (colSum (V c main_v13)) := by
  have ht : t.val < 10 := lt_of_lt_of_eq t.isLt N_2
  have ht9 : t.val = 9 := by have := (flush2_1 t).mp hf; omega
  show (cfg2.win 1).cut (grid2.coords t) ((dat2 V c).after 1 t) = _
  rw [after2_1]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).1).trans ?_
  rw [ht9, accSum_last]
  show _ = colSum (V c main_v13) (((cfg2.win 1).blk t).view.emb (ix2 (0 : Fin 1) q))
  rw [emb1 t q]
  rfl

theorem mem_blk1 (t : Fin cfg2.N) (i : S1x128.Idx) :
    i ∈ ((cfg2.win 1).blk t).view.set ↔ ∀ a : Fin 2, win2_1.index t a * S1x128.size a ≤ (i a).val
      ∧ (i a).val < win2_1.index t a * S1x128.size a + S1x128.size a := by
  show i ∈ ((View.whole main_v14_0).slice (win2_1.rect t)).set ↔ _
  rw [View.set_slice_whole, Rect.mem_set_unit]
  exact Iff.rfl

/-- The one block written back covers the row. -/
theorem cover1 (i : S1x128.Idx) :
    ∃ t : Fin cfg2.N, (cfg2.win 1).flush t = true ∧ i ∈ ((cfg2.win 1).blk t).view.set := by
  have hi0 : (i 0).val < 1 := idx2_lt0 i
  have hi1 : (i 1).val < 128 := idx2_lt1 i
  let t : Fin cfg2.N := ⟨9, lt_of_lt_of_eq (by omega : 9 < 10) N_2.symm⟩
  obtain ⟨e0, e1, e2, e3, e4, e5⟩ := idx_facts t
  refine ⟨t, (flush2_1 t).mpr rfl, ?_⟩
  rw [mem_blk1]
  intro a
  match a with
  | ⟨0, _⟩ => show win2_1.index t (0 : Fin 2) * 1 ≤ (i 0).val ∧ (i 0).val < win2_1.index t (0 : Fin 2) * 1 + 1; omega
  | ⟨1, _⟩ => show win2_1.index t (1 : Fin 2) * 128 ≤ (i 1).val ∧ (i 1).val < win2_1.index t (1 : Fin 2) * 128 + 128; omega

/-- OUTPUT ROW 1 after the launch, as a function of the operand array as the launch finds it. -/
theorem final1 (c : Dev nD) : (dat2 V c).arrAt 1 cfg2.N = colSum (V c main_v13) :=
  (dat2 V c).arrAt_eq_of_cover 1 _ (fun t hf => flushed1_eq V c t hf) cover1

/-- Row 2's block sits at the origin at every tile. -/
theorem emb2 (t : Fin cfg2.N) (q : Fin 128) :
    ((cfg2.win 2).blk t).view.emb (ix2 (0 : Fin 1) q) = ix2 (0 : Fin 1) q := by
  obtain ⟨e0, e1, e2, e3, e4, e5⟩ := idx_facts t
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- What the last tile writes back to output row 2 is the whole-array function's one block. -/
theorem flushed2_eq (c : Dev nD) (t : Fin cfg2.N) (hf : (cfg2.win 2).flush t = true) :
    (dat2 V c).flushed 2 t = ((cfg2.win 2).blk t).view.read (Elt Ideal) (colSumSq (V c main_v13)) := by
  have ht : t.val < 10 := lt_of_lt_of_eq t.isLt N_2
  have ht9 : t.val = 9 := by have := (flush2_2 t).mp hf; omega
  show (cfg2.win 2).cut (grid2.coords t) ((dat2 V c).after 2 t) = _
  rw [after2_2]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).2).trans ?_
  rw [ht9, accSum_last]
  show _ = colSumSq (V c main_v13) (((cfg2.win 2).blk t).view.emb (ix2 (0 : Fin 1) q))
  rw [emb2 t q]
  rfl

theorem mem_blk2 (t : Fin cfg2.N) (i : S1x128.Idx) :
    i ∈ ((cfg2.win 2).blk t).view.set ↔ ∀ a : Fin 2, win2_2.index t a * S1x128.size a ≤ (i a).val
      ∧ (i a).val < win2_2.index t a * S1x128.size a + S1x128.size a := by
  show i ∈ ((View.whole main_v14_1).slice (win2_2.rect t)).set ↔ _
  rw [View.set_slice_whole, Rect.mem_set_unit]
  exact Iff.rfl

/-- The one block written back covers the row. -/
theorem cover2 (i : S1x128.Idx) :
    ∃ t : Fin cfg2.N, (cfg2.win 2).flush t = true ∧ i ∈ ((cfg2.win 2).blk t).view.set := by
  have hi0 : (i 0).val < 1 := idx2_lt0 i
  have hi1 : (i 1).val < 128 := idx2_lt1 i
  let t : Fin cfg2.N := ⟨9, lt_of_lt_of_eq (by omega : 9 < 10) N_2.symm⟩
  obtain ⟨e0, e1, e2, e3, e4, e5⟩ := idx_facts t
  refine ⟨t, (flush2_2 t).mpr rfl, ?_⟩
  rw [mem_blk2]
  intro a
  match a with
  | ⟨0, _⟩ => show win2_2.index t (0 : Fin 2) * 1 ≤ (i 0).val ∧ (i 0).val < win2_2.index t (0 : Fin 2) * 1 + 1; omega
  | ⟨1, _⟩ => show win2_2.index t (1 : Fin 2) * 128 ≤ (i 1).val ∧ (i 1).val < win2_2.index t (1 : Fin 2) * 128 + 128; omega

/-- OUTPUT ROW 2 after the launch, as a function of the operand array as the launch finds it. -/
theorem final2 (c : Dev nD) : (dat2 V c).arrAt 2 cfg2.N = colSumSq (V c main_v13) :=
  (dat2 V c).arrAt_eq_of_cover 2 _ (fun t hf => flushed2_eq V c t hf) cover2

end Cert.KernelIdeal.Stats2

end
-- ==== Proof.Stats5.lean ====
/-
  The column-statistics launch number 5: what it leaves in its two output rows.

  The launch walks ten row tiles of 5000 rows of a (50000, 128) operand and keeps two rows of 128 running totals. At
  the first tile it stores zeros in both rows; at every tile it adds to the first row the tile's column sums and to the
  second the column sums of the tile's squares. The rows are written back once, after the last tile. Addition on the
  extended reals is associative, so after tile n a running total is zero plus the sum over the tiles up to n of the
  tile's column sum; the ten tiles partition the 50000 rows, so the rows written back hold, at column q, zero plus the sum
  over all rows of the operand, and of its square, at column q.
-/
import proofs.«169240_j69947837383264_1_alg».proof.Proof.Gen.KernelIdeal.Frame
import proofs.«169240_j69947837383264_1_alg».proof.Proof.LibMoments
import Idealize.ShloMosaic.Lib.Pipeline.Value
import Idealize.ShloMosaic.Lib.ValueIdx
import Idealize.ShloMosaic.PureOps.Ideal.Laws

set_option maxRecDepth 16384

noncomputable section

namespace Cert.KernelIdeal.Stats5

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-! ## What each control case leaves in the two rows -/

section Pieces

variable {F : FTy → Type} [FloatOps F]

/-- First tile, first row: zeros stored, read back, the tile's column sums added. -/
theorem first_sum (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond5_0 i) (x0 : Vec F S5000x128 .f32) :
    out5_A_1 (F := F) c i arg1 harg1 arg2 harg2 arg3 harg3 hc0 x0 = k5_pay4 x0 k5_pay1 := by
  unfold out5_A_1
  rw [View.read_writes_eq_canon _ _ _ (cover5_A_1 c i arg1 harg1 arg2 harg2 arg3 harg3 hc0 x0)]
  unfold kernelRun5_A
  dsimp only
  rw [View.canon_cons_unit_zero hz]
  sl_unfold_words
  rw [View.readCov_unit_zero _ hz]
  simp only [View.readAt_eq_ld, harg1.read_unread, View.ld_unit_zero (S := S5000x128) hz]

/-- First tile, second row: zeros stored, read back, the column sums of the tile's squares added. -/
theorem first_sumsq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond5_0 i) (x0 : Vec F S5000x128 .f32) :
    out5_A_2 (F := F) c i arg1 harg1 arg2 harg2 arg3 harg3 hc0 x0 = k5_pay5 x0 k5_pay2 := by
  unfold out5_A_2
  rw [View.read_writes_eq_canon _ _ _ (cover5_A_2 c i arg1 harg1 arg2 harg2 arg3 harg3 hc0 x0)]
  unfold kernelRun5_A
  dsimp only
  rw [View.canon_cons_unit_zero hz]
  sl_unfold_words
  rw [View.readCov_unit_zero _ hz]
  simp only [View.readAt_eq_ld, harg1.read_unread, View.ld_unit_zero (S := S5000x128) hz]

/-- A later tile, first row: the tile's column sums added to what the row held. -/
theorem later_sum (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond5_0 i) (x0 : Vec F S5000x128 .f32) (xo1 xo2 : Vec F S1x128 .f32) :
    out5_B_1 (F := F) c i arg1 harg1 arg2 harg2 arg3 harg3 hc0 x0 xo1 xo2 = k5_pay4 x0 xo1 := by
  unfold out5_B_1
  rw [View.read_writes_eq_canon _ _ _ (cover5_B_1 c i arg1 harg1 arg2 harg2 arg3 harg3 hc0 x0 xo1 xo2)]
  unfold kernelRun5_B
  dsimp only
  rw [View.canon_unit_zero hz]
  simp only [View.readAt_eq_ld, harg1.read_unread, harg2.read_unread, View.ld_unit_zero (S := S5000x128) hz, View.ld_unit_zero (S := S1x128) hz]

/-- A later tile, second row: the column sums of the tile's squares added to what the row held. -/
theorem later_sumsq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond5_0 i) (x0 : Vec F S5000x128 .f32) (xo1 xo2 : Vec F S1x128 .f32) :
    out5_B_2 (F := F) c i arg1 harg1 arg2 harg2 arg3 harg3 hc0 x0 xo1 xo2 = k5_pay5 x0 xo2 := by
  unfold out5_B_2
  rw [View.read_writes_eq_canon _ _ _ (cover5_B_2 c i arg1 harg1 arg2 harg2 arg3 harg3 hc0 x0 xo1 xo2)]
  unfold kernelRun5_B
  dsimp only
  rw [View.canon_unit_zero hz]
  simp only [View.readAt_eq_ld, harg1.read_unread, harg3.read_unread, View.ld_unit_zero (S := S5000x128) hz, View.ld_unit_zero (S := S1x128) hz]

end Pieces

/-! ## The body's arithmetic at a column -/

/-- A vector of 128 numbers recast as one row of 128, read at (0, q), is its entry q. -/
theorem row_cast (v : S128.Idx → EReal) (q : Fin 128) :
    shapeCast S1x128 v shapeCasts_S128_S1x128 (ix2 (0 : Fin 1) q) = v (ix1 q) :=
  shapeCast_apply v shapeCasts_S128_S1x128 (ix2 (0 : Fin 1) q) (ix1 q)
    (by rw [Shape.rowMajor_val_one, Shape.rowMajor_val_two]; show q.val = 0 * 128 + q.val; omega)

/-- The sum of a tile over its 5000 rows, read at column q. -/
theorem lane_sum (x : Vec Ideal S5000x128 .f32) (hφ : FKind.Formats .f32)
    (hacc : (0x00000000#32 : BitVec 32) = 0x00000000#32) (q : Fin 128) :
    multiReduction (F := Ideal) .add [0] S128 x 0x00000000#32 reduces_S5000x128_S128 hφ hacc (ix1 q)
      = ∑ p : Fin 5000, x (ix2 p q) :=
  (Ideal.multiReduction_add_single x 0x00000000#32 reduces_S5000x128_S128 hφ hacc (ix1 q)).trans
    (Finset.sum_congr rfl fun p _ => congrArg x (funext fun a => by match a with | ⟨0, _⟩ => rfl | ⟨1, _⟩ => rfl))

/-- The running column sum after a tile: what the row held plus the tile's column sum. -/
theorem sum_apply (x0 : Vec Ideal S5000x128 .f32) (v : Vec Ideal S1x128 .f32) (q : Fin 128) :
    k5_pay4 x0 v (ix2 (0 : Fin 1) q) = v (ix2 (0 : Fin 1) q) + ∑ p : Fin 5000, x0 (ix2 p q) := by
  unfold k5_pay4
  unfold k5_pay3
  simp only [shapeCast_self]
  rw [addf_apply, row_cast]
  exact congrArg (fun z => v (ix2 (0 : Fin 1) q) + z) (lane_sum x0 _ _ q)

/-- The running column sum of squares after a tile. -/
theorem sumsq_apply (x0 : Vec Ideal S5000x128 .f32) (v : Vec Ideal S1x128 .f32) (q : Fin 128) :
    k5_pay5 x0 v (ix2 (0 : Fin 1) q) = v (ix2 (0 : Fin 1) q) + ∑ p : Fin 5000, x0 (ix2 p q) * x0 (ix2 p q) := by
  unfold k5_pay5
  unfold k5_pay3
  simp only [shapeCast_self]
  rw [addf_apply, row_cast]
  exact congrArg (fun z => v (ix2 (0 : Fin 1) q) + z) ((lane_sum (mulf (F := Ideal) x0 x0) _ _ q).trans rfl)

/-! ## Totals over tiles -/

/-- The column sum of tile t of a (50000, 128) array: rows 5000 t … 5000 t + 4999. -/
def tileSum (X : S50000x128.Idx → EReal) (q : Fin 128) (t : Fin 10) : EReal :=
  ∑ p : Fin 5000, X (ix2 (⟨5000 * t.val + p.val, by have := t.isLt; have := p.isLt; omega⟩ : Fin 50000) q)

/-- Zero plus the column sums of the tiles up to tile n. -/
def accSum (X : S50000x128.Idx → EReal) (q : Fin 128) (n : ℕ) : EReal :=
  Ideal.ofBits .f32 0x00000000#32 + ∑ t : Fin 10, if t.val ≤ n then tileSum X q t else 0

theorem accSum_zero (X : S50000x128.Idx → EReal) (q : Fin 128) :
    accSum X q 0 = Ideal.ofBits .f32 0x00000000#32 + tileSum X q (0 : Fin 10) := by
  unfold accSum
  congr 1
  rw [Finset.sum_eq_single (0 : Fin 10)]
  · rfl
  · intro t _ ht
    have : ¬ t.val ≤ 0 := fun h => ht (Fin.ext (Nat.le_zero.mp h))
    rw [if_neg this]
  · intro h; exact absurd (Finset.mem_univ _) h

theorem accSum_succ (X : S50000x128.Idx → EReal) (q : Fin 128) (n : ℕ) (hn : n + 1 < 10) :
    accSum X q (n + 1) = accSum X q n + tileSum X q (⟨n + 1, hn⟩ : Fin 10) := by
  unfold accSum
  rw [add_assoc]
  congr 1
  have h1 : ∑ t : Fin 10, (if t = (⟨n + 1, hn⟩ : Fin 10) then tileSum X q t else 0) = tileSum X q ⟨n + 1, hn⟩ := by
    rw [Finset.sum_ite_eq' Finset.univ (⟨n + 1, hn⟩ : Fin 10) (tileSum X q), if_pos (Finset.mem_univ _)]
  rw [← h1, ← Finset.sum_add_distrib]
  refine Finset.sum_congr rfl fun t _ => ?_
  by_cases ht : t.val ≤ n
  · have hne : t ≠ (⟨n + 1, hn⟩ : Fin 10) := fun h => by rw [h] at ht; exact absurd ht (by simp)
    rw [if_pos ht, if_pos (Nat.le_succ_of_le ht), if_neg hne, add_zero]
  · by_cases he : t = (⟨n + 1, hn⟩ : Fin 10)
    · have h2 : t.val ≤ n + 1 := by rw [he]
      rw [if_pos h2, if_neg ht, if_pos he, zero_add]
    · have h2 : ¬ t.val ≤ n + 1 := fun h => he (Fin.ext (by show t.val = n + 1; omega))
      rw [if_neg h2, if_neg ht, if_neg he, add_zero]

/-- A sum over the 50000 rows, tile by tile. -/
theorem sum_rows (f : Fin 50000 → EReal) :
    ∑ r : Fin 50000, f r
      = ∑ t : Fin 10, ∑ p : Fin 5000, f ⟨5000 * t.val + p.val, by have := t.isLt; have := p.isLt; omega⟩ :=
  Cert.LibMoments.sum_fin_mul 10 5000 f

/-- After the last tile the total is zero plus the sum over all 50000 rows. -/
theorem accSum_last (X : S50000x128.Idx → EReal) (q : Fin 128) :
    accSum X q 9 = Ideal.ofBits .f32 0x00000000#32 + ∑ r : Fin 50000, X (ix2 r q) := by
  unfold accSum
  rw [sum_rows (fun r => X (ix2 r q))]
  refine congrArg₂ (· + ·) rfl (Finset.sum_congr rfl fun t _ => ?_)
  have := t.isLt
  rw [if_pos (by omega)]
  rfl

/-- The entrywise square of an array. -/
def sq (X : S50000x128.Idx → EReal) : S50000x128.Idx → EReal := fun i => X i * X i

/-- The two rows written back, as functions of the operand: zero plus the column sums, and zero plus the column sums of
    squares. -/
def colSum (X : S50000x128.Idx → EReal) : S1x128.Idx → EReal :=
  fun i => Ideal.ofBits .f32 0x00000000#32 + ∑ r : Fin 50000, X (ix2 r (⟨(i 1).val, idx2_lt1 i⟩ : Fin 128))

def colSumSq (X : S50000x128.Idx → EReal) : S1x128.Idx → EReal := colSum (sq X)

/-! ## The launch -/

/-- Where the windows' blocks sit at tile t: the operand's at row block t, the two rows at the origin. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

variable (V : (c : Dev nD) → (b : Ref sig .tc) → Buf (Elt Ideal) ((c : Thread nD τ).loc b))

/-- Tile t's block of the operand, read at (p, q), is the operand at row 5000 t + p. -/
theorem blk_read (c : Dev nD) (t : Fin cfg5.N) (p : Fin 5000) (q : Fin 128) :
    iblk5 V c 0 t (ix2 p q)
      = (V c main_v72 : S50000x128.Idx → EReal)
          (ix2 (⟨5000 * t.val + p.val, by have := lt_of_lt_of_eq t.isLt N_5; have := p.isLt; omega⟩ : Fin 50000) q) := by
  obtain ⟨e0, e1, -⟩ := idx_facts t
  have hp : p.val < 5000 := p.isLt
  show (V c main_v72 : S50000x128.Idx → EReal) (((cfg5.win 0).blk t).view.emb (ix2 p q)) = _
  refine congrArg (V c main_v72 : S50000x128.Idx → EReal) (funext fun a => Fin.ext ?_)
  match a with
  | ⟨0, _⟩ => show win5_0.index t (0 : Fin 2) * 5000 + 1 * p.val = 5000 * t.val + p.val; omega
  | ⟨1, _⟩ => show win5_0.index t (1 : Fin 2) * 128 + 1 * q.val = q.val; omega

/-- THE RUNNING TOTALS: after tile n the rows hold, at column q, the totals over the tiles up to n. -/
theorem totals (c : Dev nD) (q : Fin 128) : ∀ (n : ℕ) (hn : n < cfg5.N),
    (outsAt5 V c n hn).1 (ix2 (0 : Fin 1) q) = accSum (V c main_v72) q n
    ∧ (outsAt5 V c n hn).2 (ix2 (0 : Fin 1) q) = accSum (sq (V c main_v72)) q n := by
  intro n
  induction n with
  | zero =>
    intro hn
    have hA : outsAt5 V c 0 hn = _ := outsAt5_A V c ⟨0, hn⟩ rfl
    rw [hA]
    dsimp only
    rw [first_sum, first_sumsq, accSum_zero, accSum_zero]
    refine ⟨(sum_apply _ _ q).trans ?_, (sumsq_apply _ _ q).trans ?_⟩
    · refine congrArg₂ (· + ·) rfl (Finset.sum_congr rfl fun p _ => ?_)
      exact blk_read V c ⟨0, hn⟩ p q
    · refine congrArg₂ (· + ·) rfl (Finset.sum_congr rfl fun p _ => ?_)
      rw [blk_read V c ⟨0, hn⟩ p q]
      rfl
  | succ n ih =>
    intro hn
    have hn10 : n + 1 < 10 := lt_of_lt_of_eq hn N_5
    have h0 : ¬ (n + 1) % 10 = 0 := by omega
    obtain ⟨ih1, ih2⟩ := ih (Nat.lt_of_succ_lt hn)
    have hB : outsAt5 V c (n + 1) hn = _ := outsAt5_B V c ⟨n + 1, hn⟩ h0
    rw [hB]
    dsimp only
    rw [later_sum, later_sumsq, accSum_succ _ q n hn10, accSum_succ _ q n hn10]
    refine ⟨(sum_apply _ _ q).trans ?_, (sumsq_apply _ _ q).trans ?_⟩
    · refine congrArg₂ (· + ·) ih1 (Finset.sum_congr rfl fun p _ => ?_)
      exact blk_read V c ⟨n + 1, hn⟩ p q
    · refine congrArg₂ (· + ·) ih2 (Finset.sum_congr rfl fun p _ => ?_)
      rw [blk_read V c ⟨n + 1, hn⟩ p q]
      rfl

/-- Row 1's block sits at the origin at every tile. -/
theorem emb1 (t : Fin cfg5.N) (q : Fin 128) :
    ((cfg5.win 1).blk t).view.emb (ix2 (0 : Fin 1) q) = ix2 (0 : Fin 1) q := by
  obtain ⟨e0, e1, e2, e3, e4, e5⟩ := idx_facts t
  funext a; apply Fin.ext
  match a with
  | ⟨0, _⟩ => show win5_1.index t (0 : Fin 2) * 1 + 1 * 0 = 0; omega
  | ⟨1, _⟩ => show win5_1.index t (1 : Fin 2) * 128 + 1 * q.val = q.val; omega

/-- What the last tile writes back to output row 1 is the whole-array function's one block. -/
theorem flushed1_eq (c : Dev nD) (t : Fin cfg5.N) (hf : (cfg5.win 1).flush t = true) :
    (dat5 V c).flushed 1 t = ((cfg5.win 1).blk t).view.read (Elt Ideal) (colSum (V c main_v72)) := by
  have ht : t.val < 10 := lt_of_lt_of_eq t.isLt N_5
  have ht9 : t.val = 9 := by have := (flush5_1 t).mp hf; omega
  show (cfg5.win 1).cut (grid5.coords t) ((dat5 V c).after 1 t) = _
  rw [after5_1]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).1).trans ?_
  rw [ht9, accSum_last]
  show _ = colSum (V c main_v72) (((cfg5.win 1).blk t).view.emb (ix2 (0 : Fin 1) q))
  rw [emb1 t q]
  rfl

theorem mem_blk1 (t : Fin cfg5.N) (i : S1x128.Idx) :
    i ∈ ((cfg5.win 1).blk t).view.set ↔ ∀ a : Fin 2, win5_1.index t a * S1x128.size a ≤ (i a).val
      ∧ (i a).val < win5_1.index t a * S1x128.size a + S1x128.size a := by
  show i ∈ ((View.whole main_v73_0).slice (win5_1.rect t)).set ↔ _
  rw [View.set_slice_whole, Rect.mem_set_unit]
  exact Iff.rfl

/-- The one block written back covers the row. -/
theorem cover1 (i : S1x128.Idx) :
    ∃ t : Fin cfg5.N, (cfg5.win 1).flush t = true ∧ i ∈ ((cfg5.win 1).blk t).view.set := by
  have hi0 : (i 0).val < 1 := idx2_lt0 i
  have hi1 : (i 1).val < 128 := idx2_lt1 i
  let t : Fin cfg5.N := ⟨9, lt_of_lt_of_eq (by omega : 9 < 10) N_5.symm⟩
  obtain ⟨e0, e1, e2, e3, e4, e5⟩ := idx_facts t
  refine ⟨t, (flush5_1 t).mpr rfl, ?_⟩
  rw [mem_blk1]
  intro a
  match a with
  | ⟨0, _⟩ => show win5_1.index t (0 : Fin 2) * 1 ≤ (i 0).val ∧ (i 0).val < win5_1.index t (0 : Fin 2) * 1 + 1; omega
  | ⟨1, _⟩ => show win5_1.index t (1 : Fin 2) * 128 ≤ (i 1).val ∧ (i 1).val < win5_1.index t (1 : Fin 2) * 128 + 128; omega

/-- OUTPUT ROW 1 after the launch, as a function of the operand array as the launch finds it. -/
theorem final1 (c : Dev nD) : (dat5 V c).arrAt 1 cfg5.N = colSum (V c main_v72) :=
  (dat5 V c).arrAt_eq_of_cover 1 _ (fun t hf => flushed1_eq V c t hf) cover1

/-- Row 2's block sits at the origin at every tile. -/
theorem emb2 (t : Fin cfg5.N) (q : Fin 128) :
    ((cfg5.win 2).blk t).view.emb (ix2 (0 : Fin 1) q) = ix2 (0 : Fin 1) q := by
  obtain ⟨e0, e1, e2, e3, e4, e5⟩ := idx_facts t
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- What the last tile writes back to output row 2 is the whole-array function's one block. -/
theorem flushed2_eq (c : Dev nD) (t : Fin cfg5.N) (hf : (cfg5.win 2).flush t = true) :
    (dat5 V c).flushed 2 t = ((cfg5.win 2).blk t).view.read (Elt Ideal) (colSumSq (V c main_v72)) := by
  have ht : t.val < 10 := lt_of_lt_of_eq t.isLt N_5
  have ht9 : t.val = 9 := by have := (flush5_2 t).mp hf; omega
  show (cfg5.win 2).cut (grid5.coords t) ((dat5 V c).after 2 t) = _
  rw [after5_2]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).2).trans ?_
  rw [ht9, accSum_last]
  show _ = colSumSq (V c main_v72) (((cfg5.win 2).blk t).view.emb (ix2 (0 : Fin 1) q))
  rw [emb2 t q]
  rfl

theorem mem_blk2 (t : Fin cfg5.N) (i : S1x128.Idx) :
    i ∈ ((cfg5.win 2).blk t).view.set ↔ ∀ a : Fin 2, win5_2.index t a * S1x128.size a ≤ (i a).val
      ∧ (i a).val < win5_2.index t a * S1x128.size a + S1x128.size a := by
  show i ∈ ((View.whole main_v73_1).slice (win5_2.rect t)).set ↔ _
  rw [View.set_slice_whole, Rect.mem_set_unit]
  exact Iff.rfl

/-- The one block written back covers the row. -/
theorem cover2 (i : S1x128.Idx) :
    ∃ t : Fin cfg5.N, (cfg5.win 2).flush t = true ∧ i ∈ ((cfg5.win 2).blk t).view.set := by
  have hi0 : (i 0).val < 1 := idx2_lt0 i
  have hi1 : (i 1).val < 128 := idx2_lt1 i
  let t : Fin cfg5.N := ⟨9, lt_of_lt_of_eq (by omega : 9 < 10) N_5.symm⟩
  obtain ⟨e0, e1, e2, e3, e4, e5⟩ := idx_facts t
  refine ⟨t, (flush5_2 t).mpr rfl, ?_⟩
  rw [mem_blk2]
  intro a
  match a with
  | ⟨0, _⟩ => show win5_2.index t (0 : Fin 2) * 1 ≤ (i 0).val ∧ (i 0).val < win5_2.index t (0 : Fin 2) * 1 + 1; omega
  | ⟨1, _⟩ => show win5_2.index t (1 : Fin 2) * 128 ≤ (i 1).val ∧ (i 1).val < win5_2.index t (1 : Fin 2) * 128 + 128; omega

/-- OUTPUT ROW 2 after the launch, as a function of the operand array as the launch finds it. -/
theorem final2 (c : Dev nD) : (dat5 V c).arrAt 2 cfg5.N = colSumSq (V c main_v72) :=
  (dat5 V c).arrAt_eq_of_cover 2 _ (fun t hf => flushed2_eq V c t hf) cover2

end Cert.KernelIdeal.Stats5

end
-- ==== Proof.Stats8.lean ====
/-
  The column-statistics launch number 8: what it leaves in its two output rows.

  The launch walks ten row tiles of 5000 rows of a (50000, 128) operand and keeps two rows of 128 running totals. At
  the first tile it stores zeros in both rows; at every tile it adds to the first row the tile's column sums and to the
  second the column sums of the tile's squares. The rows are written back once, after the last tile. Addition on the
  extended reals is associative, so after tile n a running total is zero plus the sum over the tiles up to n of the
  tile's column sum; the ten tiles partition the 50000 rows, so the rows written back hold, at column q, zero plus the sum
  over all rows of the operand, and of its square, at column q.
-/
import proofs.«169240_j69947837383264_1_alg».proof.Proof.Gen.KernelIdeal.Frame
import proofs.«169240_j69947837383264_1_alg».proof.Proof.LibMoments
import Idealize.ShloMosaic.Lib.Pipeline.Value
import Idealize.ShloMosaic.Lib.ValueIdx
import Idealize.ShloMosaic.PureOps.Ideal.Laws

set_option maxRecDepth 16384

noncomputable section

namespace Cert.KernelIdeal.Stats8

open Idealize.ShloMosaic Idealize.ShloMosaic.TcCoe Idealize.ShloMosaic.ValueIdx Idealize.ShloMosaic.Tactic
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-! ## What each control case leaves in the two rows -/

section Pieces

variable {F : FTy → Type} [FloatOps F]

/-- First tile, first row: zeros stored, read back, the tile's column sums added. -/
theorem first_sum (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond8_0 i) (x0 : Vec F S5000x128 .f32) :
    out8_A_1 (F := F) c i arg1 harg1 arg2 harg2 arg3 harg3 hc0 x0 = k8_pay4 x0 k8_pay1 := by
  unfold out8_A_1
  rw [View.read_writes_eq_canon _ _ _ (cover8_A_1 c i arg1 harg1 arg2 harg2 arg3 harg3 hc0 x0)]
  unfold kernelRun8_A
  dsimp only
  rw [View.canon_cons_unit_zero hz]
  sl_unfold_words
  rw [View.readCov_unit_zero _ hz]
  simp only [View.readAt_eq_ld, harg1.read_unread, View.ld_unit_zero (S := S5000x128) hz]

/-- First tile, second row: zeros stored, read back, the column sums of the tile's squares added. -/
theorem first_sumsq (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond8_0 i) (x0 : Vec F S5000x128 .f32) :
    out8_A_2 (F := F) c i arg1 harg1 arg2 harg2 arg3 harg3 hc0 x0 = k8_pay5 x0 k8_pay2 := by
  unfold out8_A_2
  rw [View.read_writes_eq_canon _ _ _ (cover8_A_2 c i arg1 harg1 arg2 harg2 arg3 harg3 hc0 x0)]
  unfold kernelRun8_A
  dsimp only
  rw [View.canon_cons_unit_zero hz]
  sl_unfold_words
  rw [View.readCov_unit_zero _ hz]
  simp only [View.readAt_eq_ld, harg1.read_unread, View.ld_unit_zero (S := S5000x128) hz]

/-- A later tile, first row: the tile's column sums added to what the row held. -/
theorem later_sum (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond8_0 i) (x0 : Vec F S5000x128 .f32) (xo1 xo2 : Vec F S1x128 .f32) :
    out8_B_1 (F := F) c i arg1 harg1 arg2 harg2 arg3 harg3 hc0 x0 xo1 xo2 = k8_pay4 x0 xo1 := by
  unfold out8_B_1
  rw [View.read_writes_eq_canon _ _ _ (cover8_B_1 c i arg1 harg1 arg2 harg2 arg3 harg3 hc0 x0 xo1 xo2)]
  unfold kernelRun8_B
  dsimp only
  rw [View.canon_unit_zero hz]
  simp only [View.readAt_eq_ld, harg1.read_unread, harg2.read_unread, View.ld_unit_zero (S := S5000x128) hz, View.ld_unit_zero (S := S1x128) hz]

/-- A later tile, second row: the column sums of the tile's squares added to what the row held. -/
theorem later_sumsq (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬ cond8_0 i) (x0 : Vec F S5000x128 .f32) (xo1 xo2 : Vec F S1x128 .f32) :
    out8_B_2 (F := F) c i arg1 harg1 arg2 harg2 arg3 harg3 hc0 x0 xo1 xo2 = k8_pay5 x0 xo2 := by
  unfold out8_B_2
  rw [View.read_writes_eq_canon _ _ _ (cover8_B_2 c i arg1 harg1 arg2 harg2 arg3 harg3 hc0 x0 xo1 xo2)]
  unfold kernelRun8_B
  dsimp only
  rw [View.canon_unit_zero hz]
  simp only [View.readAt_eq_ld, harg1.read_unread, harg3.read_unread, View.ld_unit_zero (S := S5000x128) hz, View.ld_unit_zero (S := S1x128) hz]

end Pieces

/-! ## The body's arithmetic at a column -/

/-- A vector of 128 numbers recast as one row of 128, read at (0, q), is its entry q. -/
theorem row_cast (v : S128.Idx → EReal) (q : Fin 128) :
    shapeCast S1x128 v shapeCasts_S128_S1x128 (ix2 (0 : Fin 1) q) = v (ix1 q) :=
  shapeCast_apply v shapeCasts_S128_S1x128 (ix2 (0 : Fin 1) q) (ix1 q)
    (by rw [Shape.rowMajor_val_one, Shape.rowMajor_val_two]; show q.val = 0 * 128 + q.val; omega)

/-- The sum of a tile over its 5000 rows, read at column q. -/
theorem lane_sum (x : Vec Ideal S5000x128 .f32) (hφ : FKind.Formats .f32)
    (hacc : (0x00000000#32 : BitVec 32) = 0x00000000#32) (q : Fin 128) :
    multiReduction (F := Ideal) .add [0] S128 x 0x00000000#32 reduces_S5000x128_S128 hφ hacc (ix1 q)
      = ∑ p : Fin 5000, x (ix2 p q) :=
  (Ideal.multiReduction_add_single x 0x00000000#32 reduces_S5000x128_S128 hφ hacc (ix1 q)).trans
    (Finset.sum_congr rfl fun p _ => congrArg x (funext fun a => by match a with | ⟨0, _⟩ => rfl | ⟨1, _⟩ => rfl))

/-- The running column sum after a tile: what the row held plus the tile's column sum. -/
theorem sum_apply (x0 : Vec Ideal S5000x128 .f32) (v : Vec Ideal S1x128 .f32) (q : Fin 128) :
    k8_pay4 x0 v (ix2 (0 : Fin 1) q) = v (ix2 (0 : Fin 1) q) + ∑ p : Fin 5000, x0 (ix2 p q) := by
  unfold k8_pay4
  unfold k8_pay3
  simp only [shapeCast_self]
  rw [addf_apply, row_cast]
  exact congrArg (fun z => v (ix2 (0 : Fin 1) q) + z) (lane_sum x0 _ _ q)

/-- The running column sum of squares after a tile. -/
theorem sumsq_apply (x0 : Vec Ideal S5000x128 .f32) (v : Vec Ideal S1x128 .f32) (q : Fin 128) :
    k8_pay5 x0 v (ix2 (0 : Fin 1) q) = v (ix2 (0 : Fin 1) q) + ∑ p : Fin 5000, x0 (ix2 p q) * x0 (ix2 p q) := by
  unfold k8_pay5
  unfold k8_pay3
  simp only [shapeCast_self]
  rw [addf_apply, row_cast]
  exact congrArg (fun z => v (ix2 (0 : Fin 1) q) + z) ((lane_sum (mulf (F := Ideal) x0 x0) _ _ q).trans rfl)

/-! ## Totals over tiles -/

/-- The column sum of tile t of a (50000, 128) array: rows 5000 t … 5000 t + 4999. -/
def tileSum (X : S50000x128.Idx → EReal) (q : Fin 128) (t : Fin 10) : EReal :=
  ∑ p : Fin 5000, X (ix2 (⟨5000 * t.val + p.val, by have := t.isLt; have := p.isLt; omega⟩ : Fin 50000) q)

/-- Zero plus the column sums of the tiles up to tile n. -/
def accSum (X : S50000x128.Idx → EReal) (q : Fin 128) (n : ℕ) : EReal :=
  Ideal.ofBits .f32 0x00000000#32 + ∑ t : Fin 10, if t.val ≤ n then tileSum X q t else 0

theorem accSum_zero (X : S50000x128.Idx → EReal) (q : Fin 128) :
    accSum X q 0 = Ideal.ofBits .f32 0x00000000#32 + tileSum X q (0 : Fin 10) := by
  unfold accSum
  congr 1
  rw [Finset.sum_eq_single (0 : Fin 10)]
  · rfl
  · intro t _ ht
    have : ¬ t.val ≤ 0 := fun h => ht (Fin.ext (Nat.le_zero.mp h))
    rw [if_neg this]
  · intro h; exact absurd (Finset.mem_univ _) h

theorem accSum_succ (X : S50000x128.Idx → EReal) (q : Fin 128) (n : ℕ) (hn : n + 1 < 10) :
    accSum X q (n + 1) = accSum X q n + tileSum X q (⟨n + 1, hn⟩ : Fin 10) := by
  unfold accSum
  rw [add_assoc]
  congr 1
  have h1 : ∑ t : Fin 10, (if t = (⟨n + 1, hn⟩ : Fin 10) then tileSum X q t else 0) = tileSum X q ⟨n + 1, hn⟩ := by
    rw [Finset.sum_ite_eq' Finset.univ (⟨n + 1, hn⟩ : Fin 10) (tileSum X q), if_pos (Finset.mem_univ _)]
  rw [← h1, ← Finset.sum_add_distrib]
  refine Finset.sum_congr rfl fun t _ => ?_
  by_cases ht : t.val ≤ n
  · have hne : t ≠ (⟨n + 1, hn⟩ : Fin 10) := fun h => by rw [h] at ht; exact absurd ht (by simp)
    rw [if_pos ht, if_pos (Nat.le_succ_of_le ht), if_neg hne, add_zero]
  · by_cases he : t = (⟨n + 1, hn⟩ : Fin 10)
    · have h2 : t.val ≤ n + 1 := by rw [he]
      rw [if_pos h2, if_neg ht, if_pos he, zero_add]
    · have h2 : ¬ t.val ≤ n + 1 := fun h => he (Fin.ext (by show t.val = n + 1; omega))
      rw [if_neg h2, if_neg ht, if_neg he, add_zero]

/-- A sum over the 50000 rows, tile by tile. -/
theorem sum_rows (f : Fin 50000 → EReal) :
    ∑ r : Fin 50000, f r
      = ∑ t : Fin 10, ∑ p : Fin 5000, f ⟨5000 * t.val + p.val, by have := t.isLt; have := p.isLt; omega⟩ :=
  Cert.LibMoments.sum_fin_mul 10 5000 f

/-- After the last tile the total is zero plus the sum over all 50000 rows. -/
theorem accSum_last (X : S50000x128.Idx → EReal) (q : Fin 128) :
    accSum X q 9 = Ideal.ofBits .f32 0x00000000#32 + ∑ r : Fin 50000, X (ix2 r q) := by
  unfold accSum
  rw [sum_rows (fun r => X (ix2 r q))]
  refine congrArg₂ (· + ·) rfl (Finset.sum_congr rfl fun t _ => ?_)
  have := t.isLt
  rw [if_pos (by omega)]
  rfl

/-- The entrywise square of an array. -/
def sq (X : S50000x128.Idx → EReal) : S50000x128.Idx → EReal := fun i => X i * X i

/-- The two rows written back, as functions of the operand: zero plus the column sums, and zero plus the column sums of
    squares. -/
def colSum (X : S50000x128.Idx → EReal) : S1x128.Idx → EReal :=
  fun i => Ideal.ofBits .f32 0x00000000#32 + ∑ r : Fin 50000, X (ix2 r (⟨(i 1).val, idx2_lt1 i⟩ : Fin 128))

def colSumSq (X : S50000x128.Idx → EReal) : S1x128.Idx → EReal := colSum (sq X)

/-! ## The launch -/

/-- Where the windows' blocks sit at tile t: the operand's at row block t, the two rows at the origin. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

variable (V : (c : Dev nD) → (b : Ref sig .tc) → Buf (Elt Ideal) ((c : Thread nD τ).loc b))

/-- Tile t's block of the operand, read at (p, q), is the operand at row 5000 t + p. -/
theorem blk_read (c : Dev nD) (t : Fin cfg8.N) (p : Fin 5000) (q : Fin 128) :
    iblk8 V c 0 t (ix2 p q)
      = (V c main_v131 : S50000x128.Idx → EReal)
          (ix2 (⟨5000 * t.val + p.val, by have := lt_of_lt_of_eq t.isLt N_8; have := p.isLt; omega⟩ : Fin 50000) q) := by
  obtain ⟨e0, e1, -⟩ := idx_facts t
  have hp : p.val < 5000 := p.isLt
  show (V c main_v131 : S50000x128.Idx → EReal) (((cfg8.win 0).blk t).view.emb (ix2 p q)) = _
  refine congrArg (V c main_v131 : S50000x128.Idx → EReal) (funext fun a => Fin.ext ?_)
  match a with
  | ⟨0, _⟩ => show win8_0.index t (0 : Fin 2) * 5000 + 1 * p.val = 5000 * t.val + p.val; omega
  | ⟨1, _⟩ => show win8_0.index t (1 : Fin 2) * 128 + 1 * q.val = q.val; omega

/-- THE RUNNING TOTALS: after tile n the rows hold, at column q, the totals over the tiles up to n. -/
theorem totals (c : Dev nD) (q : Fin 128) : ∀ (n : ℕ) (hn : n < cfg8.N),
    (outsAt8 V c n hn).1 (ix2 (0 : Fin 1) q) = accSum (V c main_v131) q n
    ∧ (outsAt8 V c n hn).2 (ix2 (0 : Fin 1) q) = accSum (sq (V c main_v131)) q n := by
  intro n
  induction n with
  | zero =>
    intro hn
    have hA : outsAt8 V c 0 hn = _ := outsAt8_A V c ⟨0, hn⟩ rfl
    rw [hA]
    dsimp only
    rw [first_sum, first_sumsq, accSum_zero, accSum_zero]
    refine ⟨(sum_apply _ _ q).trans ?_, (sumsq_apply _ _ q).trans ?_⟩
    · refine congrArg₂ (· + ·) rfl (Finset.sum_congr rfl fun p _ => ?_)
      exact blk_read V c ⟨0, hn⟩ p q
    · refine congrArg₂ (· + ·) rfl (Finset.sum_congr rfl fun p _ => ?_)
      rw [blk_read V c ⟨0, hn⟩ p q]
      rfl
  | succ n ih =>
    intro hn
    have hn10 : n + 1 < 10 := lt_of_lt_of_eq hn N_8
    have h0 : ¬ (n + 1) % 10 = 0 := by omega
    obtain ⟨ih1, ih2⟩ := ih (Nat.lt_of_succ_lt hn)
    have hB : outsAt8 V c (n + 1) hn = _ := outsAt8_B V c ⟨n + 1, hn⟩ h0
    rw [hB]
    dsimp only
    rw [later_sum, later_sumsq, accSum_succ _ q n hn10, accSum_succ _ q n hn10]
    refine ⟨(sum_apply _ _ q).trans ?_, (sumsq_apply _ _ q).trans ?_⟩
    · refine congrArg₂ (· + ·) ih1 (Finset.sum_congr rfl fun p _ => ?_)
      exact blk_read V c ⟨n + 1, hn⟩ p q
    · refine congrArg₂ (· + ·) ih2 (Finset.sum_congr rfl fun p _ => ?_)
      rw [blk_read V c ⟨n + 1, hn⟩ p q]
      rfl

/-- Row 1's block sits at the origin at every tile. -/
theorem emb1 (t : Fin cfg8.N) (q : Fin 128) :
    ((cfg8.win 1).blk t).view.emb (ix2 (0 : Fin 1) q) = ix2 (0 : Fin 1) q := by
  obtain ⟨e0, e1, e2, e3, e4, e5⟩ := idx_facts t
  funext a; apply Fin.ext
  match a with
  | ⟨0, _⟩ => show win8_1.index t (0 : Fin 2) * 1 + 1 * 0 = 0; omega
  | ⟨1, _⟩ => show win8_1.index t (1 : Fin 2) * 128 + 1 * q.val = q.val; omega

/-- What the last tile writes back to output row 1 is the whole-array function's one block. -/
theorem flushed1_eq (c : Dev nD) (t : Fin cfg8.N) (hf : (cfg8.win 1).flush t = true) :
    (dat8 V c).flushed 1 t = ((cfg8.win 1).blk t).view.read (Elt Ideal) (colSum (V c main_v131)) := by
  have ht : t.val < 10 := lt_of_lt_of_eq t.isLt N_8
  have ht9 : t.val = 9 := by have := (flush8_1 t).mp hf; omega
  show (cfg8.win 1).cut (grid8.coords t) ((dat8 V c).after 1 t) = _
  rw [after8_1]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).1).trans ?_
  rw [ht9, accSum_last]
  show _ = colSum (V c main_v131) (((cfg8.win 1).blk t).view.emb (ix2 (0 : Fin 1) q))
  rw [emb1 t q]
  rfl

theorem mem_blk1 (t : Fin cfg8.N) (i : S1x128.Idx) :
    i ∈ ((cfg8.win 1).blk t).view.set ↔ ∀ a : Fin 2, win8_1.index t a * S1x128.size a ≤ (i a).val
      ∧ (i a).val < win8_1.index t a * S1x128.size a + S1x128.size a := by
  show i ∈ ((View.whole main_v132_0).slice (win8_1.rect t)).set ↔ _
  rw [View.set_slice_whole, Rect.mem_set_unit]
  exact Iff.rfl

/-- The one block written back covers the row. -/
theorem cover1 (i : S1x128.Idx) :
    ∃ t : Fin cfg8.N, (cfg8.win 1).flush t = true ∧ i ∈ ((cfg8.win 1).blk t).view.set := by
  have hi0 : (i 0).val < 1 := idx2_lt0 i
  have hi1 : (i 1).val < 128 := idx2_lt1 i
  let t : Fin cfg8.N := ⟨9, lt_of_lt_of_eq (by omega : 9 < 10) N_8.symm⟩
  obtain ⟨e0, e1, e2, e3, e4, e5⟩ := idx_facts t
  refine ⟨t, (flush8_1 t).mpr rfl, ?_⟩
  rw [mem_blk1]
  intro a
  match a with
  | ⟨0, _⟩ => show win8_1.index t (0 : Fin 2) * 1 ≤ (i 0).val ∧ (i 0).val < win8_1.index t (0 : Fin 2) * 1 + 1; omega
  | ⟨1, _⟩ => show win8_1.index t (1 : Fin 2) * 128 ≤ (i 1).val ∧ (i 1).val < win8_1.index t (1 : Fin 2) * 128 + 128; omega

/-- OUTPUT ROW 1 after the launch, as a function of the operand array as the launch finds it. -/
theorem final1 (c : Dev nD) : (dat8 V c).arrAt 1 cfg8.N = colSum (V c main_v131) :=
  (dat8 V c).arrAt_eq_of_cover 1 _ (fun t hf => flushed1_eq V c t hf) cover1

/-- Row 2's block sits at the origin at every tile. -/
theorem emb2 (t : Fin cfg8.N) (q : Fin 128) :
    ((cfg8.win 2).blk t).view.emb (ix2 (0 : Fin 1) q) = ix2 (0 : Fin 1) q := by
  obtain ⟨e0, e1, e2, e3, e4, e5⟩ := idx_facts t
  funext a; apply Fin.ext
  match a with
  | ⟨0, _⟩ => show win8_2.index t (0 : Fin 2) * 1 + 1 * 0 = 0; omega
  | ⟨1, _⟩ => show win8_2.index t (1 : Fin 2) * 128 + 1 * q.val = q.val; omega

/-- What the last tile writes back to output row 2 is the whole-array function's one block. -/
theorem flushed2_eq (c : Dev nD) (t : Fin cfg8.N) (hf : (cfg8.win 2).flush t = true) :
    (dat8 V c).flushed 2 t = ((cfg8.win 2).blk t).view.read (Elt Ideal) (colSumSq (V c main_v131)) := by
  have ht : t.val < 10 := lt_of_lt_of_eq t.isLt N_8
  have ht9 : t.val = 9 := by have := (flush8_2 t).mp hf; omega
  show (cfg8.win 2).cut (grid8.coords t) ((dat8 V c).after 2 t) = _
  rw [after8_2]
  funext j
  obtain ⟨a, q, rfl⟩ : ∃ (a : Fin 1) (q : Fin 128), j = ix2 a q := ⟨j 0, j 1, eq_ix2 j⟩
  obtain rfl : a = 0 := Subsingleton.elim _ _
  refine ((totals V c q t.val t.isLt).2).trans ?_
  rw [ht9, accSum_last]
  show _ = colSumSq (V c main_v131) (((cfg8.win 2).blk t).view.emb (ix2 (0 : Fin 1) q))
  rw [emb2 t q]
  rfl

theorem mem_blk2 (t : Fin cfg8.N) (i : S1x128.Idx) :
    i ∈ ((cfg8.win 2).blk t).view.set ↔ ∀ a : Fin 2, win8_2.index t a * S1x128.size a ≤ (i a).val
      ∧ (i a).val < win8_2.index t a * S1x128.size a + S1x128.size a := by
  show i ∈ ((View.whole main_v132_1).slice (win8_2.rect t)).set ↔ _
  rw [View.set_slice_whole, Rect.mem_set_unit]
  exact Iff.rfl

/-- The one block written back covers the row. -/
theorem cover2 (i : S1x128.Idx) :
    ∃ t : Fin cfg8.N, (cfg8.win 2).flush t = true ∧ i ∈ ((cfg8.win 2).blk t).view.set := by
  have hi0 : (i 0).val < 1 := idx2_lt0 i
  have hi1 : (i 1).val < 128 := idx2_lt1 i
  let t : Fin cfg8.N := ⟨9, lt_of_lt_of_eq (by omega : 9 < 10) N_8.symm⟩
  obtain ⟨e0, e1, e2, e3, e4, e5⟩ := idx_facts t
  refine ⟨t, (flush8_2 t).mpr rfl, ?_⟩
  rw [mem_blk2]
  intro a
  match a with
  | ⟨0, _⟩ => show win8_2.index t (0 : Fin 2) * 1 ≤ (i 0).val ∧ (i 0).val < win8_2.index t (0 : Fin 2) * 1 + 1; omega
  | ⟨1, _⟩ => show win8_2.index t (1 : Fin 2) * 128 ≤ (i 1).val ∧ (i 1).val < win8_2.index t (1 : Fin 2) * 128 + 128; omega

/-- OUTPUT ROW 2 after the launch, as a function of the operand array as the launch finds it. -/
theorem final2 (c : Dev nD) : (dat8 V c).arrAt 2 cfg8.N = colSumSq (V c main_v131) :=
  (dat8 V c).arrAt_eq_of_cover 2 _ (fun t hf => flushed2_eq V c t hf) cover2

end Cert.KernelIdeal.Stats8

end
-- ==== Proof.KSpec.lean ====
/-
  The kernel program's host glue between its launches, as whole-array functions: a row of column totals divided by the
  row count (the mean), the mean of squares less the squared mean (the variance in its second form), and a vector of 128
  numbers recast as one row.
-/
import proofs.«169240_j69947837383264_1_alg».proof.Proof.Gen.KernelIdeal
import Idealize.ShloMosaic.PureOps.Ideal

noncomputable section

namespace Cert.KernelIdeal.KSpec

open Cert.KernelIdeal Cert.KernelIdeal.Gen Idealize.ShloMosaic Idealize.ShloMosaic.TcCoe

variable {F : FTy → Type} [FloatOps F]

/-- The row of column means from the row of column sums. -/
def meanK (s : (⟨S1x128, .f32⟩ : BufTy).Contents (Elt F)) : (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) s ((broadcastInDim S1x128 ![] bcast_S_S1x128 : (⟨S_, .f32⟩ : BufTy).Contents (Elt F) → (⟨S1x128, .f32⟩ : BufTy).Contents (Elt F)) ((constant (F := F) S_ .f32 0x47435000#32) : (⟨S_, .f32⟩ : BufTy).Contents (Elt F))))

/-- The row of column variances from the rows of column sums and of column sums of squares: the mean of the squares less
    the square of the mean. -/
def varK (s : (⟨S1x128, .f32⟩ : BufTy).Contents (Elt F)) (q : (⟨S1x128, .f32⟩ : BufTy).Contents (Elt F)) : (⟨S1x128, .f32⟩ : BufTy).Contents (Elt F) :=
  ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) q ((broadcastInDim S1x128 ![] bcast_S_S1x128 : (⟨S_, .f32⟩ : BufTy).Contents (Elt F) → (⟨S1x128, .f32⟩ : BufTy).Contents (Elt F)) ((constant (F := F) S_ .f32 0x47435000#32) : (⟨S_, .f32⟩ : BufTy).Contents (Elt F)))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) s ((broadcastInDim S1x128 ![] bcast_S_S1x128 : (⟨S_, .f32⟩ : BufTy).Contents (Elt F) → (⟨S1x128, .f32⟩ : BufTy).Contents (Elt F)) ((constant (F := F) S_ .f32 0x47435000#32) : (⟨S_, .f32⟩ : BufTy).Contents (Elt F)))) ((Host.divf : (⟨S1x128, .f32⟩ : BufTy).Contents (Elt F) → (⟨S1x128, .f32⟩ : BufTy).Contents (Elt F) → (⟨S1x128, .f32⟩ : BufTy).Contents (Elt F)) s ((broadcastInDim S1x128 ![] bcast_S_S1x128 : (⟨S_, .f32⟩ : BufTy).Contents (Elt F) → (⟨S1x128, .f32⟩ : BufTy).Contents (Elt F)) ((constant (F := F) S_ .f32 0x47435000#32) : (⟨S_, .f32⟩ : BufTy).Contents (Elt F))))))

/-- A vector of 128 numbers as one row. -/
def rowUp (g : (⟨S128, .f32⟩ : BufTy).Contents (Elt F)) : (⟨S1x128, .f32⟩ : BufTy).Contents (Elt F) :=
  (shapeCast S1x128 g shapeCasts_S128_S1x128 : (⟨S1x128, .f32⟩ : BufTy).Contents (Elt F))

end Cert.KernelIdeal.KSpec

end
-- ==== Proof.RefSpec.lean ====
/-
  The reference computation, stage by stage, as whole-array functions of the arguments.

  A graph network: the input rows are normalised column by column (mean and variance over the 50000 rows), multiplied by
  a matrix and rectified; three graph layers follow, each normalising, multiplying, propagating along the edges with the
  symmetric degree scaling, adding a bias and rectifying; the nodes' rows are then summed per graph and pass through two
  small normalisations, a dense layer, a classifier and the logarithm of the softmax. Each definition below is the
  composition of the reference program's own host operations for that stage.
-/
import proofs.«169240_j69947837383264_1_alg».proof.Proof.Gen.ReferenceIdeal
import Idealize.ShloMosaic.PureOps.Ideal

noncomputable section

namespace Cert.ReferenceIdeal.Spec

open Cert.ReferenceIdeal Cert.ReferenceIdeal.Gen Idealize.ShloMosaic Idealize.ShloMosaic.TcCoe

variable {F : FTy → Type} [FloatOps F]

/-- The first row of the edge table: the edges' sources. -/
def srcR (e : (⟨S2x800000, .i32⟩ : BufTy).Contents (Elt F)) : (⟨S800000, .i32⟩ : BufTy).Contents (Elt F) :=
  (shapeCast S800000 (((extractStridedSlice S1x800000 ![0, 0] · slices_S2x800000_S1x800000_0_0) : (⟨S2x800000, .i32⟩ : BufTy).Contents (Elt F) → (⟨S1x800000, .i32⟩ : BufTy).Contents (Elt F)) e) shapeCasts_S1x800000_S800000 : (⟨S800000, .i32⟩ : BufTy).Contents (Elt F))

/-- The second row of the edge table: the edges' targets. -/
def dstR (e : (⟨S2x800000, .i32⟩ : BufTy).Contents (Elt F)) : (⟨S800000, .i32⟩ : BufTy).Contents (Elt F) :=
  (shapeCast S800000 (((extractStridedSlice S1x800000 ![1, 0] · slices_S2x800000_S1x800000_1_0) : (⟨S2x800000, .i32⟩ : BufTy).Contents (Elt F) → (⟨S1x800000, .i32⟩ : BufTy).Contents (Elt F)) e) shapeCasts_S1x800000_S800000 : (⟨S800000, .i32⟩ : BufTy).Contents (Elt F))

/-- The column means of a (50000, 128) array: column sums divided by the row count. -/
def meanR (x : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x ((constant (F := F) S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant (F := F) S_ .f32 0x47435000#32) : (⟨S_, .f32⟩ : BufTy).Contents (Elt F))))

/-- The column means kept as one row. -/
def meanRowR (x : (⟨S50000x128, .f32⟩ : BufTy).Contents (Elt F)) : (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) x ((constant (F := F) S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant (F := F) S_ .f32 0x47435000#32) : (⟨S_, .f32⟩ : BufTy).Contents (Elt F))))

/-- The deviations from the column means. -/
def devR (x : (⟨S50000x128, .f32⟩ : BufTy).Contents (Elt F)) : (⟨S50000x128, .f32⟩ : BufTy).Contents (Elt F) :=
  ((subf : (⟨S50000x128, .f32⟩ : BufTy).Contents (Elt F) → (⟨S50000x128, .f32⟩ : BufTy).Contents (Elt F) → (⟨S50000x128, .f32⟩ : BufTy).Contents (Elt F)) x (((broadcastInDim S50000x128 ![0, 1] bcast_S1x128_S50000x128_0_1) : (⟨S1x128, .f32⟩ : BufTy).Contents (Elt F) → (⟨S50000x128, .f32⟩ : BufTy).Contents (Elt F)) (meanRowR x)))

/-- The count a variance is divided by: 50000 less a zero correction. -/
def cntR : (⟨S_, .f32⟩ : BufTy).Contents (Elt F) :=
  ((subf : (⟨S_, .f32⟩ : BufTy).Contents (Elt F) → (⟨S_, .f32⟩ : BufTy).Contents (Elt F) → (⟨S_, .f32⟩ : BufTy).Contents (Elt F)) ((constant (F := F) S_ .f32 0x47435000#32) : (⟨S_, .f32⟩ : BufTy).Contents (Elt F)) (((sitofp (F := F) .f32) : (⟨S_, .i32⟩ : BufTy).Contents (Elt F) → (⟨S_, .f32⟩ : BufTy).Contents (Elt F)) ((constantI S_ 32 0#32) : (⟨S_, .i32⟩ : BufTy).Contents (Elt F))))

/-- The column variances: the mean of the squared deviations from the column mean (the count is positive, so the selection keeps the quotient). -/
def varR (x : (⟨S50000x128, .f32⟩ : BufTy).Contents (Elt F)) : (⟨S128, .f32⟩ : BufTy).Contents (Elt F) :=
  (((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) cntR ((constant (F := F) S_ .f32 0x00000000#32) : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) (devR x) (devR x)) ((constant (F := F) S_ .f32 0x00000000#32) : (⟨S_, .f32⟩ : BufTy).Contents (Elt F))) (((broadcastInDim S128 ![] bcast_S_S128) : (⟨S_, .f32⟩ : BufTy).Contents (Elt F) → (⟨S128, .f32⟩ : BufTy).Contents (Elt F)) cntR)) (((broadcastInDim S128 ![] bcast_S_S128) : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant (F := F) S_ .f32 0x7FC00000#32) : (⟨S_, .f32⟩ : BufTy).Contents (Elt F)))))

/-- The normalisation: centred by the column mean, scaled by the reciprocal root of the column variance plus the small constant, times the gain, plus the shift. -/
def bnR (x : (⟨S50000x128, .f32⟩ : BufTy).Contents (Elt F)) (g : (⟨S128, .f32⟩ : BufTy).Contents (Elt F)) (b : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (meanR x)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (varR x) ((broadcastInDim S128 ![] bcast_S_S128 : (⟨S_, .f32⟩ : BufTy).Contents (Elt F) → (⟨S128, .f32⟩ : BufTy).Contents (Elt F)) ((constant (F := F) S_ .f32 0x3727C5AC#32) : (⟨S_, .f32⟩ : BufTy).Contents (Elt F)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- Rows times a 128 by 128 matrix. -/
def dotR (x : (⟨S50000x128, .f32⟩ : BufTy).Contents (Elt F)) (W : (⟨S128x128, .f32⟩ : BufTy).Contents (Elt F)) : (⟨S50000x128, .f32⟩ : BufTy).Contents (Elt F) :=
  (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x W)

/-- The larger of each entry and zero. -/
def reluR (x : (⟨S50000x128, .f32⟩ : BufTy).Contents (Elt F)) : (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents (Elt F)) x (((broadcastInDim S50000x128 ![] bcast_S_S50000x128) : (⟨S_, .f32⟩ : BufTy).Contents (Elt F) → (⟨S50000x128, .f32⟩ : BufTy).Contents (Elt F)) ((constant (F := F) S_ .f32 0x00000000#32) : (⟨S_, .f32⟩ : BufTy).Contents (Elt F))))

/-- Row 0 of a (3, 128) table as a vector of 128. -/
def row0 (A : (⟨S3x128, .f32⟩ : BufTy).Contents (Elt F)) : (⟨S128, .f32⟩ : BufTy).Contents (Elt F) :=
  (shapeCast S128 (((extractStridedSlice S1x128 ![0, 0] · slices_S3x128_S1x128_0_0) : (⟨S3x128, .f32⟩ : BufTy).Contents (Elt F) → (⟨S1x128, .f32⟩ : BufTy).Contents (Elt F)) A) shapeCasts_S1x128_S128 : (⟨S128, .f32⟩ : BufTy).Contents (Elt F))

/-- Row 1 of a (3, 128) table as a vector of 128. -/
def row1 (A : (⟨S3x128, .f32⟩ : BufTy).Contents (Elt F)) : (⟨S128, .f32⟩ : BufTy).Contents (Elt F) :=
  (shapeCast S128 (((extractStridedSlice S1x128 ![1, 0] · slices_S3x128_S1x128_1_0) : (⟨S3x128, .f32⟩ : BufTy).Contents (Elt F) → (⟨S1x128, .f32⟩ : BufTy).Contents (Elt F)) A) shapeCasts_S1x128_S128 : (⟨S128, .f32⟩ : BufTy).Contents (Elt F))

/-- Row 2 of a (3, 128) table as a vector of 128. -/
def row2 (A : (⟨S3x128, .f32⟩ : BufTy).Contents (Elt F)) : (⟨S128, .f32⟩ : BufTy).Contents (Elt F) :=
  (shapeCast S128 (((extractStridedSlice S1x128 ![2, 0] · slices_S3x128_S1x128_2_0) : (⟨S3x128, .f32⟩ : BufTy).Contents (Elt F) → (⟨S1x128, .f32⟩ : BufTy).Contents (Elt F)) A) shapeCasts_S1x128_S128 : (⟨S128, .f32⟩ : BufTy).Contents (Elt F))

/-- Matrix 0 of a (3, 128, 128) table. -/
def mat0 (A : (⟨S3x128x128, .f32⟩ : BufTy).Contents (Elt F)) : (⟨S128x128, .f32⟩ : BufTy).Contents (Elt F) :=
  (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) A) shapeCasts_S1x128x128_S128x128 : (⟨S128x128, .f32⟩ : BufTy).Contents (Elt F))

/-- Matrix 1 of a (3, 128, 128) table. -/
def mat1 (A : (⟨S3x128x128, .f32⟩ : BufTy).Contents (Elt F)) : (⟨S128x128, .f32⟩ : BufTy).Contents (Elt F) :=
  (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) A) shapeCasts_S1x128x128_S128x128 : (⟨S128x128, .f32⟩ : BufTy).Contents (Elt F))

/-- Matrix 2 of a (3, 128, 128) table. -/
def mat2 (A : (⟨S3x128x128, .f32⟩ : BufTy).Contents (Elt F)) : (⟨S128x128, .f32⟩ : BufTy).Contents (Elt F) :=
  (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) A) shapeCasts_S1x128x128_S128x128 : (⟨S128x128, .f32⟩ : BufTy).Contents (Elt F))

/-- The degree of every node: the number of edges and self-loops whose source it is. -/
def degR (s : (⟨S800000, .i32⟩ : BufTy).Contents (Elt F)) : (⟨S50000, .f32⟩ : BufTy).Contents (Elt F) :=
  (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32) : (⟨S_, .f32⟩ : BufTy).Contents (Elt F))) ((broadcastInDim S850000x1 ![0] bcast_S850000_S850000x1_0 : (⟨S850000, .i32⟩ : BufTy).Contents (Elt F) → (⟨S850000x1, .i32⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F)))) ((broadcastInDim S850000 ![] bcast_S_S850000 : (⟨S_, .f32⟩ : BufTy).Contents (Elt F) → (⟨S850000, .f32⟩ : BufTy).Contents (Elt F)) ((constant (F := F) S_ .f32 0x3F800000#32) : (⟨S_, .f32⟩ : BufTy).Contents (Elt F))))

/-- The reciprocal root of every node's degree, zero where the degree is zero. -/
def dinvR (s : (⟨S800000, .i32⟩ : BufTy).Contents (Elt F)) : (⟨S50000, .f32⟩ : BufTy).Contents (Elt F) :=
  ((select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ((cmpf .ogt : (⟨S50000, .f32⟩ : BufTy).Contents (Elt F) → (⟨S50000, .f32⟩ : BufTy).Contents (Elt F) → (⟨S50000, .i1⟩ : BufTy).Contents (Elt F)) (degR s) ((broadcastInDim S50000 ![] bcast_S_S50000 : (⟨S_, .f32⟩ : BufTy).Contents (Elt F) → (⟨S50000, .f32⟩ : BufTy).Contents (Elt F)) ((constant (F := F) S_ .f32 0x00000000#32) : (⟨S_, .f32⟩ : BufTy).Contents (Elt F)))) ((Host.rsqrt : (⟨S50000, .f32⟩ : BufTy).Contents (Elt F) → (⟨S50000, .f32⟩ : BufTy).Contents (Elt F)) (degR s)) (((broadcastInDim S50000 ![] bcast_S_S50000) : (⟨S_, .f32⟩ : BufTy).Contents (Elt F) → (⟨S50000, .f32⟩ : BufTy).Contents (Elt F)) ((id : (⟨S_, .f32⟩ : BufTy).Contents (Elt F) → (⟨S_, .f32⟩ : BufTy).Contents (Elt F)) ((constant (F := F) S_ .f32 0x00000000#32) : (⟨S_, .f32⟩ : BufTy).Contents (Elt F)))))

/-- For every edge and self-loop, the reciprocal root of its source's degree. -/
def gSrcR (s : (⟨S800000, .i32⟩ : BufTy).Contents (Elt F)) : (⟨S850000, .f32⟩ : BufTy).Contents (Elt F) :=
  (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvR s) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F))))))

/-- For every edge and self-loop, the reciprocal root of its target's degree. -/
def gDstR (s : (⟨S800000, .i32⟩ : BufTy).Contents (Elt F)) (d : (⟨S800000, .i32⟩ : BufTy).Contents (Elt F)) : (⟨S850000, .f32⟩ : BufTy).Contents (Elt F) :=
  (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvR s) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) d ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) d ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) d ((iotaInDim S50000 32 0) : (⟨S50000, .i32⟩ : BufTy).Contents (Elt F))))))

/-- The edge scaling: the source's factor times a unit edge weight times the target's factor. -/
def normR (s : (⟨S800000, .i32⟩ : BufTy).Contents (Elt F)) (d : (⟨S800000, .i32⟩ : BufTy).Contents (Elt F)) : (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) ((mulf : (⟨S850000, .f32⟩ : BufTy).Contents (Elt F) → (⟨S850000, .f32⟩ : BufTy).Contents (Elt F) → (⟨S850000, .f32⟩ : BufTy).Contents (Elt F)) (gSrcR s) ((broadcastInDim S850000 ![] bcast_S_S850000 : (⟨S_, .f32⟩ : BufTy).Contents (Elt F) → (⟨S850000, .f32⟩ : BufTy).Contents (Elt F)) ((constant (F := F) S_ .f32 0x3F800000#32) : (⟨S_, .f32⟩ : BufTy).Contents (Elt F)))) (gDstR s d))

/-- The graph propagation with a given edge scaling: every node's row is the sum, over the edges and loops that point to it, of the source's row times the edge's scaling. -/
def propWith (xw : (⟨S50000x128, .f32⟩ : BufTy).Contents (Elt F)) (s : (⟨S800000, .i32⟩ : BufTy).Contents (Elt F)) (d : (⟨S800000, .i32⟩ : BufTy).Contents (Elt F)) (nm : (⟨S850000, .f32⟩ : BufTy).Contents (Elt F)) : (⟨S50000x128, .f32⟩ : BufTy).Contents (Elt F) :=
  (((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant (F := F) S_ .f32 0x00000000#32) : (⟨S_, .f32⟩ : BufTy).Contents (Elt F))) ((broadcastInDim S850000x1 ![0] bcast_S850000_S850000x1_0 : (⟨S850000, .i32⟩ : BufTy).Contents (Elt F) → (⟨S850000x1, .i32⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) d ((iotaInDim S50000 32 0) : (⟨S50000, .i32⟩ : BufTy).Contents (Elt F)))) ((mulf : (⟨S850000x128, .f32⟩ : BufTy).Contents (Elt F) → (⟨S850000x128, .f32⟩ : BufTy).Contents (Elt F) → (⟨S850000x128, .f32⟩ : BufTy).Contents (Elt F)) (((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) xw ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F))) ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s ((iotaInDim S50000 32 0) : (⟨S50000, .i32⟩ : BufTy).Contents (Elt F)))))) ((broadcastInDim S850000x128 ![0, 1] bcast_S850000x1_S850000x128_0_1 : (⟨S850000x1, .f32⟩ : BufTy).Contents (Elt F) → (⟨S850000x128, .f32⟩ : BufTy).Contents (Elt F)) ((broadcastInDim S850000x1 ![0] bcast_S850000_S850000x1_0 : (⟨S850000, .f32⟩ : BufTy).Contents (Elt F) → (⟨S850000x1, .f32⟩ : BufTy).Contents (Elt F)) nm))))

/-- The graph propagation with the symmetric degree scaling. -/
def propR (xw : (⟨S50000x128, .f32⟩ : BufTy).Contents (Elt F)) (s : (⟨S800000, .i32⟩ : BufTy).Contents (Elt F)) (d : (⟨S800000, .i32⟩ : BufTy).Contents (Elt F)) : (⟨S50000x128, .f32⟩ : BufTy).Contents (Elt F) :=
  propWith xw s d (normR s d)

/-- A bias vector added to every row. -/
def addBiasR (x : (⟨S50000x128, .f32⟩ : BufTy).Contents (Elt F)) (b : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) x ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The nodes' rows summed per graph. -/
def poolR (h : (⟨S50000x128, .f32⟩ : BufTy).Contents (Elt F)) (bt : (⟨S50000, .i32⟩ : BufTy).Contents (Elt F)) : (⟨S500x128, .f32⟩ : BufTy).Contents (Elt F) :=
  (((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)) ((broadcastInDim S500x128 ![] bcast_S_S500x128 : (⟨S_, .f32⟩ : BufTy).Contents (Elt F) → (⟨S500x128, .f32⟩ : BufTy).Contents (Elt F)) ((constant (F := F) S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) bt) h)

/-- The column means of a (500, 128) array. -/
def meanS (x : (⟨S500x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)) x ((constant (F := F) S_ .f32 0x00000000#32) : (⟨S_, .f32⟩ : BufTy).Contents (Elt F))) ((broadcastInDim S128 ![] bcast_S_S128 : (⟨S_, .f32⟩ : BufTy).Contents (Elt F) → (⟨S128, .f32⟩ : BufTy).Contents (Elt F)) ((constant (F := F) S_ .f32 0x43FA0000#32) : (⟨S_, .f32⟩ : BufTy).Contents (Elt F))))

/-- The column variances of a (500, 128) array. -/
def varS (x : (⟨S500x128, .f32⟩ : BufTy).Contents (Elt F)) : (⟨S128, .f32⟩ : BufTy).Contents (Elt F) :=
  (((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant (F := F) S_ .f32 0x43FA0000#32) : (⟨S_, .f32⟩ : BufTy).Contents (Elt F)) (((sitofp (F := F) .f32) : (⟨S_, .i32⟩ : BufTy).Contents (Elt F) → (⟨S_, .f32⟩ : BufTy).Contents (Elt F)) ((constantI S_ 32 0#32) : (⟨S_, .i32⟩ : BufTy).Contents (Elt F)))) ((constant (F := F) S_ .f32 0x00000000#32) : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) (((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)) ((mulf : (⟨S500x128, .f32⟩ : BufTy).Contents (Elt F) → (⟨S500x128, .f32⟩ : BufTy).Contents (Elt F) → (⟨S500x128, .f32⟩ : BufTy).Contents (Elt F)) ((subf : (⟨S500x128, .f32⟩ : BufTy).Contents (Elt F) → (⟨S500x128, .f32⟩ : BufTy).Contents (Elt F) → (⟨S500x128, .f32⟩ : BufTy).Contents (Elt F)) x (((broadcastInDim S500x128 ![0, 1] bcast_S1x128_S500x128_0_1) : (⟨S1x128, .f32⟩ : BufTy).Contents (Elt F) → (⟨S500x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)) x ((constant (F := F) S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant (F := F) S_ .f32 0x43FA0000#32) : (⟨S_, .f32⟩ : BufTy).Contents (Elt F)))))) ((subf : (⟨S500x128, .f32⟩ : BufTy).Contents (Elt F) → (⟨S500x128, .f32⟩ : BufTy).Contents (Elt F) → (⟨S500x128, .f32⟩ : BufTy).Contents (Elt F)) x (((broadcastInDim S500x128 ![0, 1] bcast_S1x128_S500x128_0_1) : (⟨S1x128, .f32⟩ : BufTy).Contents (Elt F) → (⟨S500x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)) x ((constant (F := F) S_ .f32 0x00000000#32) : (⟨S_, .f32⟩ : BufTy).Contents (Elt F)))) (((broadcastInDim S1x128 ![] bcast_S_S1x128) : (⟨S_, .f32⟩ : BufTy).Contents (Elt F) → (⟨S1x128, .f32⟩ : BufTy).Contents (Elt F)) ((constant (F := F) S_ .f32 0x43FA0000#32) : (⟨S_, .f32⟩ : BufTy).Contents (Elt F))))))) ((constant (F := F) S_ .f32 0x00000000#32) : (⟨S_, .f32⟩ : BufTy).Contents (Elt F))) (((broadcastInDim S128 ![] bcast_S_S128) : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) ((constant (F := F) S_ .f32 0x43FA0000#32) : (⟨S_, .f32⟩ : BufTy).Contents (Elt F)) (((sitofp (F := F) .f32) : (⟨S_, .i32⟩ : BufTy).Contents (Elt F) → (⟨S_, .f32⟩ : BufTy).Contents (Elt F)) ((constantI S_ 32 0#32) : (⟨S_, .i32⟩ : BufTy).Contents (Elt F)))))) (((broadcastInDim S128 ![] bcast_S_S128) : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant (F := F) S_ .f32 0x7FC00000#32) : (⟨S_, .f32⟩ : BufTy).Contents (Elt F)))))

/-- The normalisation of a (500, 128) array. -/
def bnS (x : (⟨S500x128, .f32⟩ : BufTy).Contents (Elt F)) (g : (⟨S128, .f32⟩ : BufTy).Contents (Elt F)) (b : (⟨S128, .f32⟩ : BufTy).Contents (Elt F)) : (⟨S500x128, .f32⟩ : BufTy).Contents (Elt F) :=
  ((addf : (⟨S500x128, .f32⟩ : BufTy).Contents (Elt F) → (⟨S500x128, .f32⟩ : BufTy).Contents (Elt F) → (⟨S500x128, .f32⟩ : BufTy).Contents (Elt F)) ((mulf : (⟨S500x128, .f32⟩ : BufTy).Contents (Elt F) → (⟨S500x128, .f32⟩ : BufTy).Contents (Elt F) → (⟨S500x128, .f32⟩ : BufTy).Contents (Elt F)) ((mulf : (⟨S500x128, .f32⟩ : BufTy).Contents (Elt F) → (⟨S500x128, .f32⟩ : BufTy).Contents (Elt F) → (⟨S500x128, .f32⟩ : BufTy).Contents (Elt F)) ((subf : (⟨S500x128, .f32⟩ : BufTy).Contents (Elt F) → (⟨S500x128, .f32⟩ : BufTy).Contents (Elt F) → (⟨S500x128, .f32⟩ : BufTy).Contents (Elt F)) x ((broadcastInDim S500x128 ![0, 1] bcast_S1x128_S500x128_0_1 : (⟨S1x128, .f32⟩ : BufTy).Contents (Elt F) → (⟨S500x128, .f32⟩ : BufTy).Contents (Elt F)) ((broadcastInDim S1x128 ![1] bcast_S128_S1x128_1 : (⟨S128, .f32⟩ : BufTy).Contents (Elt F) → (⟨S1x128, .f32⟩ : BufTy).Contents (Elt F)) (meanS x)))) ((broadcastInDim S500x128 ![0, 1] bcast_S1x128_S500x128_0_1 : (⟨S1x128, .f32⟩ : BufTy).Contents (Elt F) → (⟨S500x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (varS x) ((broadcastInDim S128 ![] bcast_S_S128 : (⟨S_, .f32⟩ : BufTy).Contents (Elt F) → (⟨S128, .f32⟩ : BufTy).Contents (Elt F)) ((constant (F := F) S_ .f32 0x3727C5AC#32) : (⟨S_, .f32⟩ : BufTy).Contents (Elt F)))))))) ((broadcastInDim S500x128 ![0, 1] bcast_S1x128_S500x128_0_1 : (⟨S1x128, .f32⟩ : BufTy).Contents (Elt F) → (⟨S500x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S500x128 ![0, 1] bcast_S1x128_S500x128_0_1 : (⟨S1x128, .f32⟩ : BufTy).Contents (Elt F) → (⟨S500x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- A dense layer on (500, 128): the product with a 128 by 128 matrix plus a bias, rectified. -/
def denseS (x : (⟨S500x128, .f32⟩ : BufTy).Contents (Elt F)) (W : (⟨S128x128, .f32⟩ : BufTy).Contents (Elt F)) (b : (⟨S128, .f32⟩ : BufTy).Contents (Elt F)) : (⟨S500x128, .f32⟩ : BufTy).Contents (Elt F) :=
  ((maximumf : (⟨S500x128, .f32⟩ : BufTy).Contents (Elt F) → (⟨S500x128, .f32⟩ : BufTy).Contents (Elt F) → (⟨S500x128, .f32⟩ : BufTy).Contents (Elt F)) ((addf : (⟨S500x128, .f32⟩ : BufTy).Contents (Elt F) → (⟨S500x128, .f32⟩ : BufTy).Contents (Elt F) → (⟨S500x128, .f32⟩ : BufTy).Contents (Elt F)) (((fun l r => Host.dotGeneral dot_S500x128_S128x128_S500x128_1_0_0_1_n_n none l r) : (⟨S500x128, .f32⟩ : BufTy).Contents (Elt F) → (⟨S128x128, .f32⟩ : BufTy).Contents (Elt F) → (⟨S500x128, .f32⟩ : BufTy).Contents (Elt F)) x W) ((broadcastInDim S500x128 ![0, 1] bcast_S1x128_S500x128_0_1 : (⟨S1x128, .f32⟩ : BufTy).Contents (Elt F) → (⟨S500x128, .f32⟩ : BufTy).Contents (Elt F)) ((broadcastInDim S1x128 ![1] bcast_S128_S1x128_1 : (⟨S128, .f32⟩ : BufTy).Contents (Elt F) → (⟨S1x128, .f32⟩ : BufTy).Contents (Elt F)) b))) (((broadcastInDim S500x128 ![] bcast_S_S500x128) : (⟨S_, .f32⟩ : BufTy).Contents (Elt F) → (⟨S500x128, .f32⟩ : BufTy).Contents (Elt F)) ((constant (F := F) S_ .f32 0x00000000#32) : (⟨S_, .f32⟩ : BufTy).Contents (Elt F))))

/-- The classifier: the product with a 128 by 10 matrix plus a bias. -/
def logitsS (x : (⟨S500x128, .f32⟩ : BufTy).Contents (Elt F)) (W : (⟨S128x10, .f32⟩ : BufTy).Contents (Elt F)) (b : (⟨S10, .f32⟩ : BufTy).Contents (Elt F)) : (⟨S500x10, .f32⟩ : BufTy).Contents (Elt F) :=
  ((addf : (⟨S500x10, .f32⟩ : BufTy).Contents (Elt F) → (⟨S500x10, .f32⟩ : BufTy).Contents (Elt F) → (⟨S500x10, .f32⟩ : BufTy).Contents (Elt F)) (((fun l r => Host.dotGeneral dot_S500x128_S128x10_S500x10_1_0_0_1_n_n none l r) : (⟨S500x128, .f32⟩ : BufTy).Contents (Elt F) → (⟨S128x10, .f32⟩ : BufTy).Contents (Elt F) → (⟨S500x10, .f32⟩ : BufTy).Contents (Elt F)) x W) ((broadcastInDim S500x10 ![0, 1] bcast_S1x10_S500x10_0_1 : (⟨S1x10, .f32⟩ : BufTy).Contents (Elt F) → (⟨S500x10, .f32⟩ : BufTy).Contents (Elt F)) ((broadcastInDim S1x10 ![1] bcast_S10_S1x10_1 : (⟨S10, .f32⟩ : BufTy).Contents (Elt F) → (⟨S1x10, .f32⟩ : BufTy).Contents (Elt F)) b)))

/-- The logarithm of the softmax along the ten classes. -/
def lsmS (x : (⟨S500x10, .f32⟩ : BufTy).Contents (Elt F)) : (⟨S500x10, .f32⟩ : BufTy).Contents (Elt F) :=
  ((subf : (⟨S500x10, .f32⟩ : BufTy).Contents (Elt F) → (⟨S500x10, .f32⟩ : BufTy).Contents (Elt F) → (⟨S500x10, .f32⟩ : BufTy).Contents (Elt F)) ((subf : (⟨S500x10, .f32⟩ : BufTy).Contents (Elt F) → (⟨S500x10, .f32⟩ : BufTy).Contents (Elt F) → (⟨S500x10, .f32⟩ : BufTy).Contents (Elt F)) x (((broadcastInDim S500x10 ![0, 1] bcast_S500x1_S500x10_0_1) : (⟨S500x1, .f32⟩ : BufTy).Contents (Elt F) → (⟨S500x10, .f32⟩ : BufTy).Contents (Elt F)) (((broadcastInDim S500x1 ![0] bcast_S500_S500x1_0) : (⟨S500, .f32⟩ : BufTy).Contents (Elt F) → (⟨S500x1, .f32⟩ : BufTy).Contents (Elt F)) ((maximumf : (⟨S500, .f32⟩ : BufTy).Contents (Elt F) → (⟨S500, .f32⟩ : BufTy).Contents (Elt F) → (⟨S500, .f32⟩ : BufTy).Contents (Elt F)) (((broadcastInDim S500 ![] bcast_S_S500) : (⟨S_, .f32⟩ : BufTy).Contents (Elt F) → (⟨S500, .f32⟩ : BufTy).Contents (Elt F)) ((constant (F := F) S_ .f32 0xFF800000#32) : (⟨S_, .f32⟩ : BufTy).Contents (Elt F))) (((fun x v => Host.reduce FloatOps.maximumf x v reducesTo_S500x10_S500_d1 h_S_) : (⟨S500x10, .f32⟩ : BufTy).Contents (Elt F) → (⟨S_, .f32⟩ : BufTy).Contents (Elt F) → (⟨S500, .f32⟩ : BufTy).Contents (Elt F)) x ((constant (F := F) S_ .f32 0xFF800000#32) : (⟨S_, .f32⟩ : BufTy).Contents (Elt F))))))) (((broadcastInDim S500x10 ![0, 1] bcast_S500x1_S500x10_0_1) : (⟨S500x1, .f32⟩ : BufTy).Contents (Elt F) → (⟨S500x10, .f32⟩ : BufTy).Contents (Elt F)) ((Host.log : (⟨S500x1, .f32⟩ : BufTy).Contents (Elt F) → (⟨S500x1, .f32⟩ : BufTy).Contents (Elt F)) (((broadcastInDim S500x1 ![0] bcast_S500_S500x1_0) : (⟨S500, .f32⟩ : BufTy).Contents (Elt F) → (⟨S500x1, .f32⟩ : BufTy).Contents (Elt F)) (((fun x v => Host.reduceAdd x v reducesTo_S500x10_S500_d1 h_S_) : (⟨S500x10, .f32⟩ : BufTy).Contents (Elt F) → (⟨S_, .f32⟩ : BufTy).Contents (Elt F) → (⟨S500, .f32⟩ : BufTy).Contents (Elt F)) ((Host.exp : (⟨S500x10, .f32⟩ : BufTy).Contents (Elt F) → (⟨S500x10, .f32⟩ : BufTy).Contents (Elt F)) ((subf : (⟨S500x10, .f32⟩ : BufTy).Contents (Elt F) → (⟨S500x10, .f32⟩ : BufTy).Contents (Elt F) → (⟨S500x10, .f32⟩ : BufTy).Contents (Elt F)) x (((broadcastInDim S500x10 ![0, 1] bcast_S500x1_S500x10_0_1) : (⟨S500x1, .f32⟩ : BufTy).Contents (Elt F) → (⟨S500x10, .f32⟩ : BufTy).Contents (Elt F)) (((broadcastInDim S500x1 ![0] bcast_S500_S500x1_0) : (⟨S500, .f32⟩ : BufTy).Contents (Elt F) → (⟨S500x1, .f32⟩ : BufTy).Contents (Elt F)) ((maximumf : (⟨S500, .f32⟩ : BufTy).Contents (Elt F) → (⟨S500, .f32⟩ : BufTy).Contents (Elt F) → (⟨S500, .f32⟩ : BufTy).Contents (Elt F)) (((broadcastInDim S500 ![] bcast_S_S500) : (⟨S_, .f32⟩ : BufTy).Contents (Elt F) → (⟨S500, .f32⟩ : BufTy).Contents (Elt F)) ((constant (F := F) S_ .f32 0xFF800000#32) : (⟨S_, .f32⟩ : BufTy).Contents (Elt F))) (((fun x v => Host.reduce FloatOps.maximumf x v reducesTo_S500x10_S500_d1 h_S_) : (⟨S500x10, .f32⟩ : BufTy).Contents (Elt F) → (⟨S_, .f32⟩ : BufTy).Contents (Elt F) → (⟨S500, .f32⟩ : BufTy).Contents (Elt F)) x ((constant (F := F) S_ .f32 0xFF800000#32) : (⟨S_, .f32⟩ : BufTy).Contents (Elt F)))))))) ((constant (F := F) S_ .f32 0x00000000#32) : (⟨S_, .f32⟩ : BufTy).Contents (Elt F)))))))

/-- Everything after the last graph layer: the nodes' rows summed per graph, two normalisations around a dense layer, the classifier, and the logarithm of the softmax. -/
def tailR (h : (⟨S50000x128, .f32⟩ : BufTy).Contents (Elt F)) (bt : (⟨S50000, .i32⟩ : BufTy).Contents (Elt F)) (a10 a11 : (⟨S128, .f32⟩ : BufTy).Contents (Elt F)) (a12 : (⟨S128x128, .f32⟩ : BufTy).Contents (Elt F)) (a13 a14 a15 : (⟨S128, .f32⟩ : BufTy).Contents (Elt F)) (a16 : (⟨S128x10, .f32⟩ : BufTy).Contents (Elt F)) (a17 : (⟨S10, .f32⟩ : BufTy).Contents (Elt F)) : (⟨S500x10, .f32⟩ : BufTy).Contents (Elt F) :=
  lsmS (logitsS (bnS (denseS (bnS (poolR h bt) a10 a11) a12 a13) a14 a15) a16 a17)

/-- The arguments of the two programs. -/
structure Args (F : FTy → Type) where
  a0 : (⟨S50000x128, .f32⟩ : BufTy).Contents (Elt F)
  a1 : (⟨S2x800000, .i32⟩ : BufTy).Contents (Elt F)
  a2 : (⟨S50000, .i32⟩ : BufTy).Contents (Elt F)
  a3 : (⟨S128, .f32⟩ : BufTy).Contents (Elt F)
  a4 : (⟨S128, .f32⟩ : BufTy).Contents (Elt F)
  a5 : (⟨S128x128, .f32⟩ : BufTy).Contents (Elt F)
  a6 : (⟨S3x128, .f32⟩ : BufTy).Contents (Elt F)
  a7 : (⟨S3x128, .f32⟩ : BufTy).Contents (Elt F)
  a8 : (⟨S3x128x128, .f32⟩ : BufTy).Contents (Elt F)
  a9 : (⟨S3x128, .f32⟩ : BufTy).Contents (Elt F)
  a10 : (⟨S128, .f32⟩ : BufTy).Contents (Elt F)
  a11 : (⟨S128, .f32⟩ : BufTy).Contents (Elt F)
  a12 : (⟨S128x128, .f32⟩ : BufTy).Contents (Elt F)
  a13 : (⟨S128, .f32⟩ : BufTy).Contents (Elt F)
  a14 : (⟨S128, .f32⟩ : BufTy).Contents (Elt F)
  a15 : (⟨S128, .f32⟩ : BufTy).Contents (Elt F)
  a16 : (⟨S128x10, .f32⟩ : BufTy).Contents (Elt F)
  a17 : (⟨S10, .f32⟩ : BufTy).Contents (Elt F)

/-- The first hidden array: the normalised input times a matrix, rectified. -/
def H1 (A : Args F) : (⟨S50000x128, .f32⟩ : BufTy).Contents (Elt F) := reluR (dotR (bnR A.a0 A.a3 A.a4) A.a5)
/-- The normalised, multiplied array that enters graph layer 1. -/
def XW1 (A : Args F) : (⟨S50000x128, .f32⟩ : BufTy).Contents (Elt F) := dotR (bnR (H1 A) (row0 A.a6) (row0 A.a7)) (mat0 A.a8)
def H2 (A : Args F) : (⟨S50000x128, .f32⟩ : BufTy).Contents (Elt F) := reluR (addBiasR (propR (XW1 A) (srcR A.a1) (dstR A.a1)) (row0 A.a9))
def XW2 (A : Args F) : (⟨S50000x128, .f32⟩ : BufTy).Contents (Elt F) := dotR (bnR (H2 A) (row1 A.a6) (row1 A.a7)) (mat1 A.a8)
def H3 (A : Args F) : (⟨S50000x128, .f32⟩ : BufTy).Contents (Elt F) := reluR (addBiasR (propR (XW2 A) (srcR A.a1) (dstR A.a1)) (row1 A.a9))
def XW3 (A : Args F) : (⟨S50000x128, .f32⟩ : BufTy).Contents (Elt F) := dotR (bnR (H3 A) (row2 A.a6) (row2 A.a7)) (mat2 A.a8)
def H4 (A : Args F) : (⟨S50000x128, .f32⟩ : BufTy).Contents (Elt F) := reluR (addBiasR (propR (XW3 A) (srcR A.a1) (dstR A.a1)) (row2 A.a9))
/-- The result. -/
def OUT (A : Args F) : (⟨S500x10, .f32⟩ : BufTy).Contents (Elt F) := tailR (H4 A) A.a2 A.a10 A.a11 A.a12 A.a13 A.a14 A.a15 A.a16 A.a17

end Cert.ReferenceIdeal.Spec

end
-- ==== Proof.KHost.lean ====
/-
  The kernel program's stretches of host operations, read one stretch (or one run of consecutive stretches) at a time from
  any contents before it: what each buffer that a later launch or stretch reads ends holding, as the stage functions of
  what the stretch found; and that a buffer no operation of a stretch writes keeps its contents.
-/
import proofs.«169240_j69947837383264_1_alg».proof.Proof.Gen.KernelIdeal.Launch
import proofs.«169240_j69947837383264_1_alg».proof.Proof.KSpec
import proofs.«169240_j69947837383264_1_alg».proof.Proof.RefSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
open Cert.KernelIdeal.KSpec

variable {F : FTy → Type} [FloatOps F]

/-! ## The buffers each stretch writes -/

abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [hostOps0, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps0 (X : Valuation τ sig (Elt F)) (r : Ref sig .tc) (h : r ∉ hostOps0_W) :
    after hostOps0 X (Proc.devRef .tc r) = X (Proc.devRef .tc r) :=
  after_of_writes_sub hostOps0 X hostOps0_writes h

abbrev hostOps1_W : List (Ref sig .tc) := [main_cst, main_v5, main_v6, main_cst_0, main_v7, main_v8, main_v9, main_v10, main_v11, main_v12]
theorem hostOps1_writes : (hostOps1 : List (HloOp τ sig (Elt F))).Forall fun op => op.writes ⊆ (hostOps1_W.map (Proc.devRef (τ := τ) .tc)).toFinset := by
  simp only [hostOps1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps1 (X : Valuation τ sig (Elt F)) (r : Ref sig .tc) (h : r ∉ hostOps1_W) :
    after hostOps1 X (Proc.devRef .tc r) = X (Proc.devRef .tc r) :=
  after_of_writes_sub hostOps1 X hostOps1_writes h

abbrev hostOps3_W : List (Ref sig .tc) := [main_cst_1, main_v15, main_v16, main_cst_2, main_v17, main_v18, main_v19, main_v20, main_v21, main_v22, main_v23, main_v24, main_v25, main_v26, main_v27, main_v28]
theorem hostOps3_writes : (hostOps3 : List (HloOp τ sig (Elt F))).Forall fun op => op.writes ⊆ (hostOps3_W.map (Proc.devRef (τ := τ) .tc)).toFinset := by
  simp only [hostOps3, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps3 (X : Valuation τ sig (Elt F)) (r : Ref sig .tc) (h : r ∉ hostOps3_W) :
    after hostOps3 X (Proc.devRef .tc r) = X (Proc.devRef .tc r) :=
  after_of_writes_sub hostOps3 X hostOps3_writes h

abbrev hostOps4_W : List (Ref sig .tc) := [main_v30, main_v31, main_v32, main_cst_3, main_v33, main_cst_4, main_v34, main_v35, main_v36, main_cst_5, main_v37, main_v38, main_v39, main_cst_6]
theorem hostOps4_writes : (hostOps4 : List (HloOp τ sig (Elt F))).Forall fun op => op.writes ⊆ (hostOps4_W.map (Proc.devRef (τ := τ) .tc)).toFinset := by
  simp only [hostOps4, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps4 (X : Valuation τ sig (Elt F)) (r : Ref sig .tc) (h : r ∉ hostOps4_W) :
    after hostOps4 X (Proc.devRef .tc r) = X (Proc.devRef .tc r) :=
  after_of_writes_sub hostOps4 X hostOps4_writes h

abbrev hostOps4_1_W : List (Ref sig .tc) := [main_call0_v0, main_call0_v1, main_v40]
theorem hostOps4_1_writes : (hostOps4_1 : List (HloOp τ sig (Elt F))).Forall fun op => op.writes ⊆ (hostOps4_1_W.map (Proc.devRef (τ := τ) .tc)).toFinset := by
  simp only [hostOps4_1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps4_1 (X : Valuation τ sig (Elt F)) (r : Ref sig .tc) (h : r ∉ hostOps4_1_W) :
    after hostOps4_1 X (Proc.devRef .tc r) = X (Proc.devRef .tc r) :=
  after_of_writes_sub hostOps4_1 X hostOps4_1_writes h

abbrev hostOps4_2_W : List (Ref sig .tc) := [main_c, main_v41, main_v42, main_c_7, main_v43, main_v44, main_v45, main_v46, main_v47, main_c_8, main_v48, main_v49, main_c_9, main_v50, main_v51, main_v52, main_v53, main_v54, main_v55, main_c_10, main_v56, main_v57, main_c_11, main_v58, main_v59, main_v60, main_v61, main_v62, main_v63, main_v64, main_v65, main_cst_12, main_v66, main_v67, main_v68, main_v69, main_v70, main_v71]
theorem hostOps4_2_writes : (hostOps4_2 : List (HloOp τ sig (Elt F))).Forall fun op => op.writes ⊆ (hostOps4_2_W.map (Proc.devRef (τ := τ) .tc)).toFinset := by
  simp only [hostOps4_2, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps4_2 (X : Valuation τ sig (Elt F)) (r : Ref sig .tc) (h : r ∉ hostOps4_2_W) :
    after hostOps4_2 X (Proc.devRef .tc r) = X (Proc.devRef .tc r) :=
  after_of_writes_sub hostOps4_2 X hostOps4_2_writes h

abbrev hostOps6_W : List (Ref sig .tc) := [main_cst_13, main_v74, main_v75, main_cst_14, main_v76, main_v77, main_v78, main_v79, main_v80, main_v81, main_v82, main_v83, main_v84, main_v85, main_v86, main_v87]
theorem hostOps6_writes : (hostOps6 : List (HloOp τ sig (Elt F))).Forall fun op => op.writes ⊆ (hostOps6_W.map (Proc.devRef (τ := τ) .tc)).toFinset := by
  simp only [hostOps6, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps6 (X : Valuation τ sig (Elt F)) (r : Ref sig .tc) (h : r ∉ hostOps6_W) :
    after hostOps6 X (Proc.devRef .tc r) = X (Proc.devRef .tc r) :=
  after_of_writes_sub hostOps6 X hostOps6_writes h

abbrev hostOps7_W : List (Ref sig .tc) := [main_v89, main_v90, main_v91, main_cst_15, main_v92, main_cst_16, main_v93, main_v94, main_v95, main_cst_17, main_v96, main_v97, main_v98, main_cst_18]
theorem hostOps7_writes : (hostOps7 : List (HloOp τ sig (Elt F))).Forall fun op => op.writes ⊆ (hostOps7_W.map (Proc.devRef (τ := τ) .tc)).toFinset := by
  simp only [hostOps7, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps7 (X : Valuation τ sig (Elt F)) (r : Ref sig .tc) (h : r ∉ hostOps7_W) :
    after hostOps7 X (Proc.devRef .tc r) = X (Proc.devRef .tc r) :=
  after_of_writes_sub hostOps7 X hostOps7_writes h

abbrev hostOps7_1_W : List (Ref sig .tc) := [main_call1_v0, main_call1_v1, main_v99]
theorem hostOps7_1_writes : (hostOps7_1 : List (HloOp τ sig (Elt F))).Forall fun op => op.writes ⊆ (hostOps7_1_W.map (Proc.devRef (τ := τ) .tc)).toFinset := by
  simp only [hostOps7_1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps7_1 (X : Valuation τ sig (Elt F)) (r : Ref sig .tc) (h : r ∉ hostOps7_1_W) :
    after hostOps7_1 X (Proc.devRef .tc r) = X (Proc.devRef .tc r) :=
  after_of_writes_sub hostOps7_1 X hostOps7_1_writes h

abbrev hostOps7_2_W : List (Ref sig .tc) := [main_c_19, main_v100, main_v101, main_c_20, main_v102, main_v103, main_v104, main_v105, main_v106, main_c_21, main_v107, main_v108, main_c_22, main_v109, main_v110, main_v111, main_v112, main_v113, main_v114, main_c_23, main_v115, main_v116, main_c_24, main_v117, main_v118, main_v119, main_v120, main_v121, main_v122, main_v123, main_v124, main_cst_25, main_v125, main_v126, main_v127, main_v128, main_v129, main_v130]
theorem hostOps7_2_writes : (hostOps7_2 : List (HloOp τ sig (Elt F))).Forall fun op => op.writes ⊆ (hostOps7_2_W.map (Proc.devRef (τ := τ) .tc)).toFinset := by
  simp only [hostOps7_2, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps7_2 (X : Valuation τ sig (Elt F)) (r : Ref sig .tc) (h : r ∉ hostOps7_2_W) :
    after hostOps7_2 X (Proc.devRef .tc r) = X (Proc.devRef .tc r) :=
  after_of_writes_sub hostOps7_2 X hostOps7_2_writes h

abbrev hostOps9_W : List (Ref sig .tc) := [main_cst_26, main_v133, main_v134, main_cst_27, main_v135, main_v136, main_v137, main_v138, main_v139, main_v140, main_v141, main_v142, main_v143, main_v144, main_v145, main_v146]
theorem hostOps9_writes : (hostOps9 : List (HloOp τ sig (Elt F))).Forall fun op => op.writes ⊆ (hostOps9_W.map (Proc.devRef (τ := τ) .tc)).toFinset := by
  simp only [hostOps9, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps9 (X : Valuation τ sig (Elt F)) (r : Ref sig .tc) (h : r ∉ hostOps9_W) :
    after hostOps9 X (Proc.devRef .tc r) = X (Proc.devRef .tc r) :=
  after_of_writes_sub hostOps9 X hostOps9_writes h

abbrev hostOps10_W : List (Ref sig .tc) := [main_v148, main_v149, main_v150, main_cst_28, main_v151, main_cst_29, main_v152, main_v153, main_v154, main_cst_30, main_v155, main_v156, main_v157, main_cst_31]
theorem hostOps10_writes : (hostOps10 : List (HloOp τ sig (Elt F))).Forall fun op => op.writes ⊆ (hostOps10_W.map (Proc.devRef (τ := τ) .tc)).toFinset := by
  simp only [hostOps10, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps10 (X : Valuation τ sig (Elt F)) (r : Ref sig .tc) (h : r ∉ hostOps10_W) :
    after hostOps10 X (Proc.devRef .tc r) = X (Proc.devRef .tc r) :=
  after_of_writes_sub hostOps10 X hostOps10_writes h

abbrev hostOps10_1_W : List (Ref sig .tc) := [main_call2_v0, main_call2_v1, main_v158]
theorem hostOps10_1_writes : (hostOps10_1 : List (HloOp τ sig (Elt F))).Forall fun op => op.writes ⊆ (hostOps10_1_W.map (Proc.devRef (τ := τ) .tc)).toFinset := by
  simp only [hostOps10_1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps10_1 (X : Valuation τ sig (Elt F)) (r : Ref sig .tc) (h : r ∉ hostOps10_1_W) :
    after hostOps10_1 X (Proc.devRef .tc r) = X (Proc.devRef .tc r) :=
  after_of_writes_sub hostOps10_1 X hostOps10_1_writes h

abbrev hostOps10_2_W : List (Ref sig .tc) := [main_c_32, main_v159, main_v160, main_c_33, main_v161, main_v162, main_v163, main_v164, main_v165, main_c_34, main_v166, main_v167, main_c_35, main_v168, main_v169, main_v170, main_v171, main_v172, main_v173, main_c_36, main_v174, main_v175, main_c_37, main_v176, main_v177, main_v178, main_v179, main_v180, main_v181, main_v182, main_v183, main_cst_38, main_v184, main_v185, main_v186, main_v187, main_v188, main_v189]
theorem hostOps10_2_writes : (hostOps10_2 : List (HloOp τ sig (Elt F))).Forall fun op => op.writes ⊆ (hostOps10_2_W.map (Proc.devRef (τ := τ) .tc)).toFinset := by
  simp only [hostOps10_2, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps10_2 (X : Valuation τ sig (Elt F)) (r : Ref sig .tc) (h : r ∉ hostOps10_2_W) :
    after hostOps10_2 X (Proc.devRef .tc r) = X (Proc.devRef .tc r) :=
  after_of_writes_sub hostOps10_2 X hostOps10_2_writes h

abbrev hostOps11_W : List (Ref sig .tc) := [main_cst_39, main_v191, main_v192, main_v193, main_cst_40, main_v194, main_cst_41, main_v195, main_v196, main_c_42]
theorem hostOps11_writes : (hostOps11 : List (HloOp τ sig (Elt F))).Forall fun op => op.writes ⊆ (hostOps11_W.map (Proc.devRef (τ := τ) .tc)).toFinset := by
  simp only [hostOps11, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11 (X : Valuation τ sig (Elt F)) (r : Ref sig .tc) (h : r ∉ hostOps11_W) :
    after hostOps11 X (Proc.devRef .tc r) = X (Proc.devRef .tc r) :=
  after_of_writes_sub hostOps11 X hostOps11_writes h

abbrev hostOps11_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v197]
theorem hostOps11_1_writes : (hostOps11_1 : List (HloOp τ sig (Elt F))).Forall fun op => op.writes ⊆ (hostOps11_1_W.map (Proc.devRef (τ := τ) .tc)).toFinset := by
  simp only [hostOps11_1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_1 (X : Valuation τ sig (Elt F)) (r : Ref sig .tc) (h : r ∉ hostOps11_1_W) :
    after hostOps11_1 X (Proc.devRef .tc r) = X (Proc.devRef .tc r) :=
  after_of_writes_sub hostOps11_1 X hostOps11_1_writes h

abbrev hostOps11_2_W : List (Ref sig .tc) := [main_v198, main_v199, main_v200, main_cst_43, main_v201, main_v202, main_v203, main_v204, main_v205, main_v206, main_v207, main_v208, main_v209, main_v210, main_v211, main_v212, main_v213, main_v214, main_v215, main_v216]
theorem hostOps11_2_writes : (hostOps11_2 : List (HloOp τ sig (Elt F))).Forall fun op => op.writes ⊆ (hostOps11_2_W.map (Proc.devRef (τ := τ) .tc)).toFinset := by
  simp only [hostOps11_2, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_2 (X : Valuation τ sig (Elt F)) (r : Ref sig .tc) (h : r ∉ hostOps11_2_W) :
    after hostOps11_2 X (Proc.devRef .tc r) = X (Proc.devRef .tc r) :=
  after_of_writes_sub hostOps11_2 X hostOps11_2_writes h

abbrev hostOps11_3_W : List (Ref sig .tc) := [main_call4_cst, main_call4_v0, main_v217]
theorem hostOps11_3_writes : (hostOps11_3 : List (HloOp τ sig (Elt F))).Forall fun op => op.writes ⊆ (hostOps11_3_W.map (Proc.devRef (τ := τ) .tc)).toFinset := by
  simp only [hostOps11_3, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_3 (X : Valuation τ sig (Elt F)) (r : Ref sig .tc) (h : r ∉ hostOps11_3_W) :
    after hostOps11_3 X (Proc.devRef .tc r) = X (Proc.devRef .tc r) :=
  after_of_writes_sub hostOps11_3 X hostOps11_3_writes h

abbrev hostOps11_4_W : List (Ref sig .tc) := [main_cst_44, main_v218, main_cst_45, main_v219, main_v220, main_c_46]
theorem hostOps11_4_writes : (hostOps11_4 : List (HloOp τ sig (Elt F))).Forall fun op => op.writes ⊆ (hostOps11_4_W.map (Proc.devRef (τ := τ) .tc)).toFinset := by
  simp only [hostOps11_4, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_4 (X : Valuation τ sig (Elt F)) (r : Ref sig .tc) (h : r ∉ hostOps11_4_W) :
    after hostOps11_4 X (Proc.devRef .tc r) = X (Proc.devRef .tc r) :=
  after_of_writes_sub hostOps11_4 X hostOps11_4_writes h

abbrev hostOps11_5_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v221]
theorem hostOps11_5_writes : (hostOps11_5 : List (HloOp τ sig (Elt F))).Forall fun op => op.writes ⊆ (hostOps11_5_W.map (Proc.devRef (τ := τ) .tc)).toFinset := by
  simp only [hostOps11_5, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_5 (X : Valuation τ sig (Elt F)) (r : Ref sig .tc) (h : r ∉ hostOps11_5_W) :
    after hostOps11_5 X (Proc.devRef .tc r) = X (Proc.devRef .tc r) :=
  after_of_writes_sub hostOps11_5 X hostOps11_5_writes h

abbrev hostOps11_6_W : List (Ref sig .tc) := [main_v222, main_v223, main_v224, main_cst_47, main_v225, main_v226, main_v227, main_v228, main_v229, main_v230, main_v231, main_v232, main_v233, main_v234, main_v235, main_v236, main_v237, main_v238, main_v239, main_v240]
theorem hostOps11_6_writes : (hostOps11_6 : List (HloOp τ sig (Elt F))).Forall fun op => op.writes ⊆ (hostOps11_6_W.map (Proc.devRef (τ := τ) .tc)).toFinset := by
  simp only [hostOps11_6, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_6 (X : Valuation τ sig (Elt F)) (r : Ref sig .tc) (h : r ∉ hostOps11_6_W) :
    after hostOps11_6 X (Proc.devRef .tc r) = X (Proc.devRef .tc r) :=
  after_of_writes_sub hostOps11_6 X hostOps11_6_writes h

abbrev hostOps11_7_W : List (Ref sig .tc) := [main_call6_cst, main_call6_v0, main_call6_cst_0, main_call6_v1, main_call6_v2, main_call6_v3, main_call6_v4, main_call6_v5, main_call6_v6, main_call6_cst_1, main_call6_v7, main_call6_v8, main_call6_v9, main_call6_v10, main_v241]
theorem hostOps11_7_writes : (hostOps11_7 : List (HloOp τ sig (Elt F))).Forall fun op => op.writes ⊆ (hostOps11_7_W.map (Proc.devRef (τ := τ) .tc)).toFinset := by
  simp only [hostOps11_7, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem keep_hostOps11_7 (X : Valuation τ sig (Elt F)) (r : Ref sig .tc) (h : r ∉ hostOps11_7_W) :
    after hostOps11_7 X (Proc.devRef .tc r) = X (Proc.devRef .tc r) :=
  after_of_writes_sub hostOps11_7 X hostOps11_7_writes h

/-! ## What the stretches compute -/

set_option maxHeartbeats 4000000 in
theorem g0_src (X : Valuation τ sig (Elt F)) : (after hostOps0 X) (Proc.devRef .tc main_v1) = Cert.ReferenceIdeal.Spec.srcR (X (Proc.devRef .tc main_arg1)) := by
  simp only [hostOps0]; after_results_simp; rfl

set_option maxHeartbeats 4000000 in
theorem g0_dst (X : Valuation τ sig (Elt F)) : (after hostOps0 X) (Proc.devRef .tc main_v3) = Cert.ReferenceIdeal.Spec.dstR (X (Proc.devRef .tc main_arg1)) := by
  simp only [hostOps0]; after_results_simp; rfl

set_option maxHeartbeats 4000000 in
theorem g1_mean (X : Valuation τ sig (Elt F)) : (after hostOps1 X) (Proc.devRef .tc main_v6) = meanK (X (Proc.devRef .tc main_v4_0)) := by
  simp only [hostOps1]; after_results_simp; rfl

set_option maxHeartbeats 4000000 in
theorem g1_var (X : Valuation τ sig (Elt F)) : (after hostOps1 X) (Proc.devRef .tc main_v10) = varK (X (Proc.devRef .tc main_v4_0)) (X (Proc.devRef .tc main_v4_1)) := by
  simp only [hostOps1]; after_results_simp; rfl

set_option maxHeartbeats 4000000 in
theorem g1_gain (X : Valuation τ sig (Elt F)) : (after hostOps1 X) (Proc.devRef .tc main_v11) = rowUp (X (Proc.devRef .tc main_arg3)) := by
  simp only [hostOps1]; after_results_simp; rfl

set_option maxHeartbeats 4000000 in
theorem g1_shift (X : Valuation τ sig (Elt F)) : (after hostOps1 X) (Proc.devRef .tc main_v12) = rowUp (X (Proc.devRef .tc main_arg4)) := by
  simp only [hostOps1]; after_results_simp; rfl

set_option maxHeartbeats 4000000 in
theorem l1_mean (X : Valuation τ sig (Elt F)) : (after hostOps3 X) (Proc.devRef .tc main_v16) = meanK (X (Proc.devRef .tc main_v14_0)) := by
  simp only [hostOps3]; after_results_simp; rfl

set_option maxHeartbeats 4000000 in
theorem l1_var (X : Valuation τ sig (Elt F)) : (after hostOps3 X) (Proc.devRef .tc main_v20) = varK (X (Proc.devRef .tc main_v14_0)) (X (Proc.devRef .tc main_v14_1)) := by
  simp only [hostOps3]; after_results_simp; rfl

set_option maxHeartbeats 4000000 in
theorem l1_gain (X : Valuation τ sig (Elt F)) : (after hostOps3 X) (Proc.devRef .tc main_v23) = rowUp (Cert.ReferenceIdeal.Spec.row0 (X (Proc.devRef .tc main_arg6))) := by
  simp only [hostOps3]; after_results_simp; rfl

set_option maxHeartbeats 4000000 in
theorem l1_shift (X : Valuation τ sig (Elt F)) : (after hostOps3 X) (Proc.devRef .tc main_v26) = rowUp (Cert.ReferenceIdeal.Spec.row0 (X (Proc.devRef .tc main_arg7))) := by
  simp only [hostOps3]; after_results_simp; rfl

set_option maxHeartbeats 4000000 in
theorem l1_mat (X : Valuation τ sig (Elt F)) : (after hostOps3 X) (Proc.devRef .tc main_v28) = Cert.ReferenceIdeal.Spec.mat0 (X (Proc.devRef .tc main_arg8)) := by
  simp only [hostOps3]; after_results_simp; rfl

set_option maxHeartbeats 8000000 in
theorem l1_prop (X : Valuation τ sig (Elt F)) : (after hostOps4_2 (after hostOps4_1 (after hostOps4 X))) (Proc.devRef .tc main_v68) = Cert.ReferenceIdeal.Spec.propWith (X (Proc.devRef .tc main_v29)) (X (Proc.devRef .tc main_v1)) (X (Proc.devRef .tc main_v3)) (mulf (Cert.ReferenceIdeal.Spec.gSrcR (X (Proc.devRef .tc main_v1))) (Cert.ReferenceIdeal.Spec.gDstR (X (Proc.devRef .tc main_v1)) (X (Proc.devRef .tc main_v3)))) := by
  simp only [hostOps4, hostOps4_1, hostOps4_2]; after_results_simp; rfl

set_option maxHeartbeats 4000000 in
theorem l1_bias (X : Valuation τ sig (Elt F)) : (after hostOps4_2 (after hostOps4_1 (after hostOps4 X))) (Proc.devRef .tc main_v71) = rowUp (Cert.ReferenceIdeal.Spec.row0 (X (Proc.devRef .tc main_arg9))) := by
  simp only [hostOps4, hostOps4_1, hostOps4_2]; after_results_simp; rfl

set_option maxHeartbeats 4000000 in
theorem l2_mean (X : Valuation τ sig (Elt F)) : (after hostOps6 X) (Proc.devRef .tc main_v75) = meanK (X (Proc.devRef .tc main_v73_0)) := by
  simp only [hostOps6]; after_results_simp; rfl

set_option maxHeartbeats 4000000 in
theorem l2_var (X : Valuation τ sig (Elt F)) : (after hostOps6 X) (Proc.devRef .tc main_v79) = varK (X (Proc.devRef .tc main_v73_0)) (X (Proc.devRef .tc main_v73_1)) := by
  simp only [hostOps6]; after_results_simp; rfl

set_option maxHeartbeats 4000000 in
theorem l2_gain (X : Valuation τ sig (Elt F)) : (after hostOps6 X) (Proc.devRef .tc main_v82) = rowUp (Cert.ReferenceIdeal.Spec.row1 (X (Proc.devRef .tc main_arg6))) := by
  simp only [hostOps6]; after_results_simp; rfl

set_option maxHeartbeats 4000000 in
theorem l2_shift (X : Valuation τ sig (Elt F)) : (after hostOps6 X) (Proc.devRef .tc main_v85) = rowUp (Cert.ReferenceIdeal.Spec.row1 (X (Proc.devRef .tc main_arg7))) := by
  simp only [hostOps6]; after_results_simp; rfl

set_option maxHeartbeats 4000000 in
theorem l2_mat (X : Valuation τ sig (Elt F)) : (after hostOps6 X) (Proc.devRef .tc main_v87) = Cert.ReferenceIdeal.Spec.mat1 (X (Proc.devRef .tc main_arg8)) := by
  simp only [hostOps6]; after_results_simp; rfl

set_option maxHeartbeats 8000000 in
theorem l2_prop (X : Valuation τ sig (Elt F)) : (after hostOps7_2 (after hostOps7_1 (after hostOps7 X))) (Proc.devRef .tc main_v127) = Cert.ReferenceIdeal.Spec.propWith (X (Proc.devRef .tc main_v88)) (X (Proc.devRef .tc main_v1)) (X (Proc.devRef .tc main_v3)) (mulf (Cert.ReferenceIdeal.Spec.gSrcR (X (Proc.devRef .tc main_v1))) (Cert.ReferenceIdeal.Spec.gDstR (X (Proc.devRef .tc main_v1)) (X (Proc.devRef .tc main_v3)))) := by
  simp only [hostOps7, hostOps7_1, hostOps7_2]; after_results_simp; rfl

set_option maxHeartbeats 4000000 in
theorem l2_bias (X : Valuation τ sig (Elt F)) : (after hostOps7_2 (after hostOps7_1 (after hostOps7 X))) (Proc.devRef .tc main_v130) = rowUp (Cert.ReferenceIdeal.Spec.row1 (X (Proc.devRef .tc main_arg9))) := by
  simp only [hostOps7, hostOps7_1, hostOps7_2]; after_results_simp; rfl

set_option maxHeartbeats 4000000 in
theorem l3_mean (X : Valuation τ sig (Elt F)) : (after hostOps9 X) (Proc.devRef .tc main_v134) = meanK (X (Proc.devRef .tc main_v132_0)) := by
  simp only [hostOps9]; after_results_simp; rfl

set_option maxHeartbeats 4000000 in
theorem l3_var (X : Valuation τ sig (Elt F)) : (after hostOps9 X) (Proc.devRef .tc main_v138) = varK (X (Proc.devRef .tc main_v132_0)) (X (Proc.devRef .tc main_v132_1)) := by
  simp only [hostOps9]; after_results_simp; rfl

set_option maxHeartbeats 4000000 in
theorem l3_gain (X : Valuation τ sig (Elt F)) : (after hostOps9 X) (Proc.devRef .tc main_v141) = rowUp (Cert.ReferenceIdeal.Spec.row2 (X (Proc.devRef .tc main_arg6))) := by
  simp only [hostOps9]; after_results_simp; rfl

set_option maxHeartbeats 4000000 in
theorem l3_shift (X : Valuation τ sig (Elt F)) : (after hostOps9 X) (Proc.devRef .tc main_v144) = rowUp (Cert.ReferenceIdeal.Spec.row2 (X (Proc.devRef .tc main_arg7))) := by
  simp only [hostOps9]; after_results_simp; rfl

set_option maxHeartbeats 4000000 in
theorem l3_mat (X : Valuation τ sig (Elt F)) : (after hostOps9 X) (Proc.devRef .tc main_v146) = Cert.ReferenceIdeal.Spec.mat2 (X (Proc.devRef .tc main_arg8)) := by
  simp only [hostOps9]; after_results_simp; rfl

set_option maxHeartbeats 8000000 in
theorem l3_prop (X : Valuation τ sig (Elt F)) : (after hostOps10_2 (after hostOps10_1 (after hostOps10 X))) (Proc.devRef .tc main_v186) = Cert.ReferenceIdeal.Spec.propWith (X (Proc.devRef .tc main_v147)) (X (Proc.devRef .tc main_v1)) (X (Proc.devRef .tc main_v3)) (mulf (Cert.ReferenceIdeal.Spec.gSrcR (X (Proc.devRef .tc main_v1))) (Cert.ReferenceIdeal.Spec.gDstR (X (Proc.devRef .tc main_v1)) (X (Proc.devRef .tc main_v3)))) := by
  simp only [hostOps10, hostOps10_1, hostOps10_2]; after_results_simp; rfl

set_option maxHeartbeats 4000000 in
theorem l3_bias (X : Valuation τ sig (Elt F)) : (after hostOps10_2 (after hostOps10_1 (after hostOps10 X))) (Proc.devRef .tc main_v189) = rowUp (Cert.ReferenceIdeal.Spec.row2 (X (Proc.devRef .tc main_arg9))) := by
  simp only [hostOps10, hostOps10_1, hostOps10_2]; after_results_simp; rfl

set_option maxHeartbeats 16000000 in
theorem tail_out (X : Valuation τ sig (Elt F)) : (after hostOps11_7 (after hostOps11_6 (after hostOps11_5 (after hostOps11_4 (after hostOps11_3 (after hostOps11_2 (after hostOps11_1 (after hostOps11 X)))))))) (Proc.devRef .tc main_v241) = Cert.ReferenceIdeal.Spec.tailR (X (Proc.devRef .tc main_v190)) (X (Proc.devRef .tc main_arg2)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16)) (X (Proc.devRef .tc main_arg17)) := by
  simp only [hostOps11, hostOps11_1, hostOps11_2, hostOps11_3, hostOps11_4, hostOps11_5, hostOps11_6, hostOps11_7]; after_results_simp; rfl

end Cert.KernelIdeal.KHost

end
-- ==== Proof.Consts.lean ====
/-
  The float constants the two programs spell, as the extended reals their binary patterns denote: zero, one, the
  row count 50000, and the small positive number added to a variance before the reciprocal square root is taken.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `50000.0` denotes the real `50000`. -/
theorem ofBits_50000 : Ideal.ofBits .f32 0x47435000#32 = ((50000 : ℝ) : EReal) := by
  simp [Ideal.ofBits, Ideal.ieee, -EReal.coe_mul]; norm_num

/-- The pattern `0x3727C5AC` (the single-precision number nearest to one hundred-thousandth) denotes a positive
    real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Consts

end
-- ==== Proof.LayerMath.lean ====
/-
  The mathematics of one normalise-and-multiply layer, on the extended reals.

  Two programs normalise the columns of a (50000, 128) array h. One takes a column's variance as the mean of the squared
  deviations from the column mean; the other keeps the column sums of h and of its squares and takes the mean of the
  squares less the square of the mean. On real data the two variances are one number, so the normalised arrays agree
  entry by entry, and so do their products with a matrix. The reading of each side at an index comes first; the variance
  identity (for real entries) joins them.
-/
import proofs.«169240_j69947837383264_1_alg».proof.Proof.RefSpec
import proofs.«169240_j69947837383264_1_alg».proof.Proof.KSpec
import proofs.«169240_j69947837383264_1_alg».proof.Proof.LibMoments
import proofs.«169240_j69947837383264_1_alg».proof.Proof.LibPlainProduct
import proofs.«169240_j69947837383264_1_alg».proof.Proof.Consts
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.LayerMath

open Idealize.ShloMosaic Idealize.ShloMosaic.ValueIdx Cert.LibMoments
open Cert.ReferenceIdeal Cert.ReferenceIdeal.Gen Cert.ReferenceIdeal.Spec
open scoped BigOperators

/-- The pattern of zero. -/
abbrev zW : EReal := Ideal.ofBits .f32 0x00000000#32
/-- The pattern of 50000. -/
abbrev nW : EReal := Ideal.ofBits .f32 0x47435000#32
/-- The pattern of the small constant. -/
abbrev eW : EReal := Ideal.ofBits .f32 0x3727C5AC#32

/-! ## Reading the host operations at an index -/

theorem red0 : S50000x128.Reduces [0] S128 := by decide

/-- A host sum over the rows, read at column k: the initial value plus the sum of the column. -/
theorem colsum_apply (x : S50000x128.Idx → EReal) (init : S_.Idx → EReal) (k : Fin 128) :
    Host.reduceAdd (F := Ideal) (φ := .f32) x init reducesTo_S50000x128_S128_d0 h_S_ (ix1 k)
      = init ix0 + ∑ r : Fin 50000, x (ix2 r k) := by
  show Ideal.hostReduceAdd reducesTo_S50000x128_S128_d0 x (init (Shape.Idx.first h_S_)) (ix1 k) = _
  rw [Ideal.hostReduceAdd_single reducesTo_S50000x128_S128_d0 red0 x _ (ix1 k)]
  refine congrArg₂ (· + ·) (congrArg init (eq_ix0 _)) (Finset.sum_congr rfl fun r _ => congrArg x ?_)
  funext a
  match a with
  | ⟨0, _⟩ => rfl
  | ⟨1, _⟩ => rfl

/-- A vector of 128 numbers broadcast to one row and then to 50000 rows, read at (r, k), is its entry k. -/
theorem bc2_apply (v : S128.Idx → EReal) (r : Fin 50000) (k : Fin 128) :
    broadcastInDim S50000x128 ![0, 1] bcast_S1x128_S50000x128_0_1 (broadcastInDim S1x128 ![1] bcast_S128_S1x128_1 v) (ix2 r k)
      = v (ix1 k) := by
  rw [broadcastInDim_apply ![0, 1] bcast_S1x128_S50000x128_0_1 _ (ix2 r k) (ix2 (0 : Fin 1) k)
      (fun a => by match a with | ⟨0, _⟩ => rfl | ⟨1, _⟩ => rfl),
    broadcastInDim_apply ![1] bcast_S128_S1x128_1 v (ix2 (0 : Fin 1) k) (ix1 k)
      (fun a => by match a with | ⟨0, _⟩ => rfl)]

/-- The same one step short: a vector of 128 as one row, read at (0, k). -/
theorem bc1_apply (v : S128.Idx → EReal) (k : Fin 128) :
    broadcastInDim S1x128 ![1] bcast_S128_S1x128_1 v (ix2 (0 : Fin 1) k) = v (ix1 k) :=
  broadcastInDim_apply ![1] bcast_S128_S1x128_1 v (ix2 (0 : Fin 1) k) (ix1 k)
    (fun a => by match a with | ⟨0, _⟩ => rfl)

/-- One row broadcast to 50000 rows, read at (r, k). -/
theorem bcRow_apply (v : S1x128.Idx → EReal) (r : Fin 50000) (k : Fin 128) :
    broadcastInDim S50000x128 ![0, 1] bcast_S1x128_S50000x128_0_1 v (ix2 r k) = v (ix2 (0 : Fin 1) k) :=
  broadcastInDim_apply ![0, 1] bcast_S1x128_S50000x128_0_1 v (ix2 r k) (ix2 (0 : Fin 1) k)
    (fun a => by match a with | ⟨0, _⟩ => rfl | ⟨1, _⟩ => rfl)

/-! ## The reference's normalisation at an index -/

/-- The column mean. -/
def mu (x : S50000x128.Idx → EReal) (k : Fin 128) : EReal := Ideal.div (zW + ∑ r : Fin 50000, x (ix2 r k)) nW

theorem meanR_apply (x : S50000x128.Idx → EReal) (k : Fin 128) : meanR (F := Ideal) x (ix1 k) = mu x k := by
  unfold meanR mu
  show Ideal.div (Host.reduceAdd (F := Ideal) (φ := .f32) x _ reducesTo_S50000x128_S128_d0 h_S_ (ix1 k))
      (broadcastInDim S128 ![] bcast_S_S128 (constant (F := Ideal) S_ .f32 0x47435000#32) (ix1 k)) = _
  rw [colsum_apply, broadcastInDim_scalar_apply]
  rfl

/-- The count the reference divides a variance by: 50000 less the (zero) correction. -/
abbrev cnt : EReal := nW - ((((0#32 : BitVec 32).toInt : ℝ)) : EReal)

theorem cnt_eq : cnt = ((50000 : ℝ) : EReal) := by
  unfold cnt nW
  rw [Cert.Consts.ofBits_50000]
  have h0 : (((0#32 : BitVec 32).toInt : ℝ)) = 0 := by norm_num
  rw [h0, EReal.coe_zero, sub_zero]

theorem cnt_pos : Ideal.cmp .ogt cnt zW = 1#1 := by
  rw [cnt_eq]
  unfold zW
  rw [Cert.Consts.ofBits_zero]
  unfold Ideal.cmp
  have h : (0 : EReal) < ((50000 : ℝ) : EReal) := by exact_mod_cast (by norm_num : (0 : ℝ) < 50000)
  simp [h]

/-- The reference's column variance: the mean of the squared deviations. -/
def sigR (x : S50000x128.Idx → EReal) (k : Fin 128) : EReal :=
  Ideal.div (zW + ∑ r : Fin 50000, (x (ix2 r k) - mu x k) * (x (ix2 r k) - mu x k)) cnt

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

theorem meanRowR_apply (x : S50000x128.Idx → EReal) (k : Fin 128) :
    meanRowR (F := Ideal) x (ix2 (0 : Fin 1) k) = mu x k := by
  unfold meanRowR mu
  beta_reduce
  rw [hdivf_apply, bc1_apply, colsum_apply, broadcastInDim_scalar_apply]
  rfl

theorem devR_apply (x : S50000x128.Idx → EReal) (r : Fin 50000) (k : Fin 128) :
    devR (F := Ideal) x (ix2 r k) = x (ix2 r k) - mu x k := by
  unfold devR
  rw [subf_apply, bcRow_apply, meanRowR_apply]

theorem cntR_apply : cntR (F := Ideal) ix0 = cnt := rfl

theorem varR_apply (x : S50000x128.Idx → EReal) (k : Fin 128) : varR (F := Ideal) x (ix1 k) = sigR x k := by
  unfold varR sigR
  beta_reduce
  rw [select_apply]
  have hp : (cmpf (F := Ideal) .ogt (cntR (F := Ideal)) (constant (F := Ideal) S_ .f32 0x00000000#32)) ix0 = 1#1 := cnt_pos
  rw [broadcastInDim_scalar_apply bcast_S_S128 (cmpf (F := Ideal) .ogt (cntR (F := Ideal)) (constant (F := Ideal) S_ .f32 0x00000000#32)) (ix1 k),
    hp, select_one, hdivf_apply, colsum_apply, broadcastInDim_scalar_apply bcast_S_S128 (cntR (F := Ideal)) (ix1 k)]
  refine congrArg₂ Ideal.div (congrArg₂ (· + ·) rfl (Finset.sum_congr rfl fun r _ => ?_)) rfl
  rw [mulf_apply, devR_apply]

theorem bnR_apply (x : S50000x128.Idx → EReal) (g b : S128.Idx → EReal) (r : Fin 50000) (k : Fin 128) :
    bnR (F := Ideal) x g b (ix2 r k)
      = (x (ix2 r k) - mu x k) * Ideal.rsqrt (sigR x k + eW) * g (ix1 k) + b (ix1 k) := by
  unfold bnR
  rw [addf_apply, mulf_apply, mulf_apply, subf_apply, bc2_apply, bc2_apply, bc2_apply, bc2_apply, meanR_apply,
    hrsqrt_apply, addf_apply, varR_apply, broadcastInDim_scalar_apply]
  rfl

theorem dotR_apply (x : S50000x128.Idx → EReal) (W : S128x128.Idx → EReal) (r : Fin 50000) (q : Fin 128) :
    dotR (F := Ideal) x W (ix2 r q) = ∑ k : Fin 128, x (ix2 r k) * W (ix2 k q) := by
  unfold dotR
  beta_reduce
  exact PlainProduct.dotGeneral_apply (M := 50000) (K := 128) (P := 128) _ none x W r q

theorem reluR_apply (x : S50000x128.Idx → EReal) (i : S50000x128.Idx) : reluR (F := Ideal) x i = max (x i) zW := by
  unfold reluR
  rw [maximumf_apply, broadcastInDim_scalar_apply]
  rfl

theorem addBiasR_apply (x : S50000x128.Idx → EReal) (b : S128.Idx → EReal) (r : Fin 50000) (q : Fin 128) :
    addBiasR (F := Ideal) x b (ix2 r q) = x (ix2 r q) + b (ix1 q) := by
  unfold addBiasR
  rw [addf_apply, bc2_apply]

/-! ## The kernel program's host glue at an index -/

theorem meanK_apply (s : S1x128.Idx → EReal) (k : Fin 128) :
    Cert.KernelIdeal.KSpec.meanK (F := Ideal) s (ix2 (0 : Fin 1) k) = Ideal.div (s (ix2 (0 : Fin 1) k)) nW := by
  unfold Cert.KernelIdeal.KSpec.meanK
  rw [hdivf_apply, broadcastInDim_scalar_apply]
  rfl

theorem varK_apply (s q : S1x128.Idx → EReal) (k : Fin 128) :
    Cert.KernelIdeal.KSpec.varK (F := Ideal) s q (ix2 (0 : Fin 1) k)
      = Ideal.div (q (ix2 (0 : Fin 1) k)) nW
        - Ideal.div (s (ix2 (0 : Fin 1) k)) nW * Ideal.div (s (ix2 (0 : Fin 1) k)) nW := by
  unfold Cert.KernelIdeal.KSpec.varK
  simp only [subf_apply, mulf_apply, hdivf_apply, broadcastInDim_scalar_apply]
  rfl

theorem rowUp_apply (g : S128.Idx → EReal) (k : Fin 128) :
    Cert.KernelIdeal.KSpec.rowUp (F := Ideal) g (ix2 (0 : Fin 1) k) = g (ix1 k) := by
  unfold Cert.KernelIdeal.KSpec.rowUp
  exact shapeCast_apply g _ (ix2 (0 : Fin 1) k) (ix1 k)
    (by rw [Shape.rowMajor_val_one, Shape.rowMajor_val_two]; show k.val = 0 * 128 + k.val; omega)

/-! ## The two variances are one number on real data -/

theorem var_bridge (x : S50000x128.Idx → EReal) (hx : ∀ i, IsReal (x i)) (k : Fin 128) :
    Ideal.div (zW + ∑ r : Fin 50000, x (ix2 r k) * x (ix2 r k)) nW - mu x k * mu x k = sigR x k := by
  unfold sigR mu
  rw [cnt_eq]
  unfold zW nW
  rw [Cert.Consts.ofBits_zero, Cert.Consts.ofBits_50000]
  exact (variance_ereal (fun r : Fin 50000 => x (ix2 r k)) (fun r => hx _) 50000
    (by rw [Fintype.card_fin]; norm_num) (by norm_num)).symm

/-! ## The kernel's launches as whole-array functions, and the layer -/

def normEntryC (x mu var g b : EReal) : EReal := (x - mu) * Ideal.rsqrt (var + eW) * g + b

/-- The normalise-and-multiply launch's function. -/
def normLinC (x : S50000x128.Idx → EReal) (mu var g b : S1x128.Idx → EReal) (W : S128x128.Idx → EReal) :
    S50000x128.Idx → EReal :=
  fun i => ∑ k : Fin 128, normEntryC (x (ix2 (⟨(i 0).val, idx2_lt0 i⟩ : Fin 50000) k)) (mu (ix2 (0 : Fin 1) k)) (var (ix2 (0 : Fin 1) k)) (g (ix2 (0 : Fin 1) k)) (b (ix2 (0 : Fin 1) k)) * W (ix2 k (⟨(i 1).val, idx2_lt1 i⟩ : Fin 128))

/-- The statistics launch's two rows. -/
def colSumC (X : S50000x128.Idx → EReal) : S1x128.Idx → EReal :=
  fun i => zW + ∑ r : Fin 50000, X (ix2 r (⟨(i 1).val, idx2_lt1 i⟩ : Fin 128))
def sqC (X : S50000x128.Idx → EReal) : S50000x128.Idx → EReal := fun i => X i * X i

/-- ONE LAYER: on real data, the launch's function of the two rows of column totals is the reference's normalisation
    followed by the product with the matrix. -/
theorem layer_eq (x : S50000x128.Idx → EReal) (hx : ∀ i, IsReal (x i)) (g b : S128.Idx → EReal) (W : S128x128.Idx → EReal) :
    normLinC x (Cert.KernelIdeal.KSpec.meanK (F := Ideal) (colSumC x))
        (Cert.KernelIdeal.KSpec.varK (F := Ideal) (colSumC x) (colSumC (sqC x)))
        (Cert.KernelIdeal.KSpec.rowUp (F := Ideal) g) (Cert.KernelIdeal.KSpec.rowUp (F := Ideal) b) W
      = dotR (F := Ideal) (bnR (F := Ideal) x g b) W := by
  funext i
  obtain ⟨r, q, rfl⟩ : ∃ (r : Fin 50000) (q : Fin 128), i = ix2 r q := ⟨i 0, i 1, eq_ix2 i⟩
  rw [dotR_apply]
  refine Finset.sum_congr rfl fun k _ => ?_
  rw [bnR_apply, meanK_apply, varK_apply, rowUp_apply, rowUp_apply]
  unfold normEntryC
  have hv := var_bridge x hx k
  refine congrArg₂ (· * ·) (congrArg₂ (· + ·) (congrArg₂ (· * ·) (congrArg₂ (· * ·) rfl (congrArg (fun v => Ideal.rsqrt (v + eW)) hv)) rfl) rfl) rfl

/-- The same with the rectifier after the product. -/
theorem layer_relu_eq (x : S50000x128.Idx → EReal) (hx : ∀ i, IsReal (x i)) (g b : S128.Idx → EReal) (W : S128x128.Idx → EReal) :
    (fun i => max (normLinC x (Cert.KernelIdeal.KSpec.meanK (F := Ideal) (colSumC x))
        (Cert.KernelIdeal.KSpec.varK (F := Ideal) (colSumC x) (colSumC (sqC x)))
        (Cert.KernelIdeal.KSpec.rowUp (F := Ideal) g) (Cert.KernelIdeal.KSpec.rowUp (F := Ideal) b) W i) zW)
      = reluR (F := Ideal) (dotR (F := Ideal) (bnR (F := Ideal) x g b) W) := by
  funext i
  rw [reluR_apply, layer_eq x hx g b W]

/-! ## The edge scaling, and the bias-and-rectify launch -/

/-- The kernel's edge scaling (the two end points' factors multiplied) is the reference's (which also multiplies by a unit
    edge weight). -/
theorem norm_eq (s : (⟨S800000, .i32⟩ : BufTy).Contents (Elt Ideal)) (d : (⟨S800000, .i32⟩ : BufTy).Contents (Elt Ideal)) :
    mulf (F := Ideal) (s := S850000) (φ := .f32) (gSrcR (F := Ideal) s) (gDstR (F := Ideal) s d) = normR (F := Ideal) s d := by
  unfold normR
  funext e
  rw [mulf_apply, mulf_apply, mulf_apply, broadcastInDim_scalar_apply, constant_apply, Cert.Consts.ofBits_one, mul_one]

/-- The bias-and-rectify launch's function. -/
def biasReluC (x : S50000x128.Idx → EReal) (b : S1x128.Idx → EReal) : S50000x128.Idx → EReal :=
  fun i => max (x i + b (ix2 (0 : Fin 1) (⟨(i 1).val, idx2_lt1 i⟩ : Fin 128))) zW

theorem bias_relu_eq (x : S50000x128.Idx → EReal) (b : S128.Idx → EReal) :
    biasReluC x (Cert.KernelIdeal.KSpec.rowUp (F := Ideal) b) = reluR (F := Ideal) (addBiasR (F := Ideal) x b) := by
  funext i
  obtain ⟨r, q, rfl⟩ : ∃ (r : Fin 50000) (q : Fin 128), i = ix2 r q := ⟨i 0, i 1, eq_ix2 i⟩
  rw [reluR_apply, addBiasR_apply]
  show max (x (ix2 r q) + Cert.KernelIdeal.KSpec.rowUp (F := Ideal) b (ix2 (0 : Fin 1) q)) zW = _
  rw [rowUp_apply]

/-! ## Real data stay real -/

theorem zW_real : IsReal zW := by unfold zW; rw [Cert.Consts.ofBits_zero]; exact IsReal.zero

theorem mu_real (x : S50000x128.Idx → EReal) (hx : ∀ i, IsReal (x i)) (k : Fin 128) : IsReal (mu x k) := by
  unfold mu nW
  rw [Cert.Consts.ofBits_50000]
  exact (zW_real.add (IsReal.fintype_sum _ fun r => hx _)).div_const (by norm_num)

/-- On real data a column variance is a nonnegative real. -/
theorem sigR_nonneg (x : S50000x128.Idx → EReal) (hx : ∀ i, IsReal (x i)) (k : Fin 128) :
    ∃ v : ℝ, 0 ≤ v ∧ sigR x k = (v : EReal) := by
  obtain ⟨μ, hμ⟩ := mu_real x hx k
  choose a ha using fun r : Fin 50000 => hx (ix2 r k)
  refine ⟨(∑ r : Fin 50000, (a r - μ) * (a r - μ)) / 50000, div_nonneg (Finset.sum_nonneg fun r _ => mul_self_nonneg _) (by norm_num), ?_⟩
  unfold sigR
  rw [cnt_eq, hμ]
  unfold zW
  rw [Cert.Consts.ofBits_zero, zero_add]
  simp only [ha, ← EReal.coe_sub, ← EReal.coe_mul]
  rw [coe_fintype_sum, div_coe_coe _ (by norm_num : (50000 : ℝ) ≠ 0)]

theorem eW_pos : ∃ e : ℝ, 0 < e ∧ eW = (e : EReal) := Cert.Consts.ofBits_eps_pos

theorem scale_real (x : S50000x128.Idx → EReal) (hx : ∀ i, IsReal (x i)) (k : Fin 128) :
    IsReal (Ideal.rsqrt (sigR x k + eW)) := by
  obtain ⟨v, hv, hs⟩ := sigR_nonneg x hx k
  obtain ⟨e, he, hee⟩ := eW_pos
  rw [hs, hee, ← EReal.coe_add]
  exact (IsReal.coe _).rsqrt_of_pos (by exact_mod_cast (by linarith : (0 : ℝ) < v + e))

theorem bnR_real (x : S50000x128.Idx → EReal) (hx : ∀ i, IsReal (x i)) (g b : S128.Idx → EReal)
    (hg : ∀ i, IsReal (g i)) (hb : ∀ i, IsReal (b i)) (i : S50000x128.Idx) : IsReal (bnR (F := Ideal) x g b i) := by
  obtain ⟨r, k, rfl⟩ : ∃ (r : Fin 50000) (k : Fin 128), i = ix2 r k := ⟨i 0, i 1, eq_ix2 i⟩
  rw [bnR_apply]
  exact ((((hx _).sub (mu_real x hx k)).mul (scale_real x hx k)).mul (hg _)).add (hb _)

theorem dotR_real (x : S50000x128.Idx → EReal) (hx : ∀ i, IsReal (x i)) (W : S128x128.Idx → EReal)
    (hW : ∀ i, IsReal (W i)) (i : S50000x128.Idx) : IsReal (dotR (F := Ideal) x W i) := by
  obtain ⟨r, q, rfl⟩ : ∃ (r : Fin 50000) (q : Fin 128), i = ix2 r q := ⟨i 0, i 1, eq_ix2 i⟩
  rw [dotR_apply]
  exact IsReal.fintype_sum _ fun k => (hx _).mul (hW _)

theorem reluR_real (x : S50000x128.Idx → EReal) (hx : ∀ i, IsReal (x i)) (i : S50000x128.Idx) :
    IsReal (reluR (F := Ideal) x i) := by
  rw [reluR_apply]
  exact (hx i).max zW_real

theorem addBiasR_real (x : S50000x128.Idx → EReal) (hx : ∀ i, IsReal (x i)) (b : S128.Idx → EReal)
    (hb : ∀ i, IsReal (b i)) (i : S50000x128.Idx) : IsReal (addBiasR (F := Ideal) x b i) := by
  obtain ⟨r, q, rfl⟩ : ∃ (r : Fin 50000) (q : Fin 128), i = ix2 r q := ⟨i 0, i 1, eq_ix2 i⟩
  rw [addBiasR_apply]
  exact (hx _).add (hb _)

end Cert.LayerMath

end
-- ==== Proof.LayerReal.lean ====
/-
  Real data stay real through the graph propagation: degrees are counts, their reciprocal roots are taken only where
  the degree is positive, the edge scalings are products of such roots, and a node's propagated row is a finite sum of
  real rows times real scalings.
-/
import proofs.«169240_j69947837383264_1_alg».proof.Proof.LayerMath

set_option maxRecDepth 16384

noncomputable section

namespace Cert.LayerMath

open Idealize.ShloMosaic Idealize.ShloMosaic.ValueIdx Cert.LibMoments
open Cert.ReferenceIdeal Cert.ReferenceIdeal.Gen Cert.ReferenceIdeal.Spec
open scoped BigOperators

/-- Whatever holds of an array at every index holds of any broadcast of it at every index. -/
theorem bc_of_forall {s t : Shape} {α : Type} (dims : Fin s.rank → Fin t.rank) (h : s.BroadcastsInDim t dims)
    (x : s.Idx → α) (P : α → Prop) (hP : ∀ i, P (x i)) (j : t.Idx) : P (broadcastInDim t dims h x j) := hP _

/-- An accumulating scatter of real updates into a real operand is real at every index. -/
theorem scatterAdd_real {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  IsReal.hostScatterAdd d x idx upd hx hu i

/-- A gather of a real array is real at every index. -/
theorem gather_real {s si t : Shape} {w : Nat} (d : GatherDims s si t) (x : FVec Ideal s .f32) (idx : IVec si w)
    (h : ∀ i, IsReal (x i)) (j : t.Idx) : IsReal (Host.gather d x idx j) := h _

theorem const_zero_real (i : S_.Idx) : IsReal (constant (F := Ideal) S_ .f32 0x00000000#32 i) := zW_real
theorem const_one_real (i : S_.Idx) : IsReal (constant (F := Ideal) S_ .f32 0x3F800000#32 i) := by
  rw [constant_apply, Cert.Consts.ofBits_one]; exact IsReal.one

theorem degR_real (s : (⟨S800000, .i32⟩ : BufTy).Contents (Elt Ideal)) (i : S50000.Idx) : IsReal (degR (F := Ideal) s i) := by
  unfold degR
  beta_reduce
  exact scatterAdd_real _ _ _ _ (fun i => bc_of_forall _ _ _ IsReal const_zero_real i)
    (fun j => bc_of_forall _ _ _ IsReal const_one_real j) i

/-- A selection between two arrays is real where the chosen branch is. -/
theorem select_real {s : Shape} (cnd : IVec s 1) (a b : s.Idx → EReal) (i : s.Idx)
    (ha : cnd i = 1#1 → IsReal (a i)) (hb : IsReal (b i)) : IsReal (select cnd a b i) := by
  rw [select_apply]
  rcases BitVec.eq_zero_or_eq_one (cnd i) with h | h
  · rw [h, select_zero]; exact hb
  · rw [h, select_one]; exact ha h

theorem dinvR_real (s : (⟨S800000, .i32⟩ : BufTy).Contents (Elt Ideal)) (i : S50000.Idx) : IsReal (dinvR (F := Ideal) s i) := by
  unfold dinvR
  refine select_real _ _ _ i (fun h => ?_) (bc_of_forall _ _ _ IsReal const_zero_real i)
  rw [hrsqrt_apply]
  have hpos : (0 : EReal) < degR (F := Ideal) s i := by
    rw [cmpf_apply, broadcastInDim_scalar_apply, constant_apply, Cert.Consts.ofBits_zero] at h
    change Ideal.cmp .ogt _ _ = 1#1 at h
    unfold Ideal.cmp at h
    by_contra hn
    simp [hn] at h
  exact (degR_real s i).rsqrt_of_pos hpos

theorem gSrcR_real (s : (⟨S800000, .i32⟩ : BufTy).Contents (Elt Ideal)) (e : S850000.Idx) : IsReal (gSrcR (F := Ideal) s e) := by
  unfold gSrcR
  beta_reduce
  exact gather_real _ _ _ (dinvR_real s) e

theorem gDstR_real (s d : (⟨S800000, .i32⟩ : BufTy).Contents (Elt Ideal)) (e : S850000.Idx) : IsReal (gDstR (F := Ideal) s d e) := by
  unfold gDstR
  beta_reduce
  exact gather_real _ _ _ (dinvR_real s) e

theorem normR_real (s d : (⟨S800000, .i32⟩ : BufTy).Contents (Elt Ideal)) (e : S850000.Idx) : IsReal (normR (F := Ideal) s d e) := by
  rw [← norm_eq, mulf_apply]
  exact (gSrcR_real s e).mul (gDstR_real s d e)

theorem propR_real (xw : S50000x128.Idx → EReal) (hx : ∀ i, IsReal (xw i))
    (s d : (⟨S800000, .i32⟩ : BufTy).Contents (Elt Ideal)) (i : S50000x128.Idx) : IsReal (propR (F := Ideal) xw s d i) := by
  unfold propR propWith
  beta_reduce
  refine scatterAdd_real _ _ _ _ (fun i => bc_of_forall _ _ _ IsReal const_zero_real i) (fun j => ?_) i
  rw [mulf_apply]
  exact (gather_real _ _ _ hx j).mul (bc_of_forall _ _ _ IsReal (fun i => bc_of_forall _ _ _ IsReal (normR_real s d) i) j)

end Cert.LayerMath

end
-- ==== Proof.KChain.lean ====
/-
  The idealized kernel program's result as the composition of the reference's stages.

  The program's buffer contents are followed from the launch to the end, boundary by boundary: a stretch of host
  operations computes its stage functions of what it finds; a launch leaves in its output arrays the whole-array function
  of its operand arrays; a buffer that a stretch or a launch does not write keeps its contents. On real input data every
  hidden array is real, the two forms of the column variance agree, and each boundary's live arrays are the reference's
  stage values at the arguments; so the result buffer ends at the reference's result function of the arguments.
-/
import proofs.«169240_j69947837383264_1_alg».proof.Proof.Gen.KernelIdeal.Frame
import proofs.«169240_j69947837383264_1_alg».proof.Proof.BiasRelu4
import proofs.«169240_j69947837383264_1_alg».proof.Proof.BiasRelu7
import proofs.«169240_j69947837383264_1_alg».proof.Proof.BiasRelu10
import proofs.«169240_j69947837383264_1_alg».proof.Proof.NormLinear1
import proofs.«169240_j69947837383264_1_alg».proof.Proof.NormLinear3
import proofs.«169240_j69947837383264_1_alg».proof.Proof.NormLinear6
import proofs.«169240_j69947837383264_1_alg».proof.Proof.NormLinear9
import proofs.«169240_j69947837383264_1_alg».proof.Proof.Stats0
import proofs.«169240_j69947837383264_1_alg».proof.Proof.Stats2
import proofs.«169240_j69947837383264_1_alg».proof.Proof.Stats5
import proofs.«169240_j69947837383264_1_alg».proof.Proof.Stats8
import proofs.«169240_j69947837383264_1_alg».proof.Proof.KHost
import proofs.«169240_j69947837383264_1_alg».proof.Proof.LayerMath
import proofs.«169240_j69947837383264_1_alg».proof.Proof.LayerReal

set_option maxRecDepth 16384

noncomputable section

namespace Cert.KernelIdeal.KChain

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.KHost Cert.KernelIdeal.KSpec Cert.LibMoments

variable (m : (ℓ : Loc nD τ sig) → Buf (Elt Ideal) ℓ) (ρ : Dev nD → PrngReg) (c : Dev nD)

/-- The arguments as launched, on core c. -/
def argsK : Cert.ReferenceIdeal.Spec.Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩

/-- The float arguments the hidden arrays depend on are real. -/
structure ArgsReal (A : Cert.ReferenceIdeal.Spec.Args Ideal) : Prop where
  h0 : ∀ i, IsReal (A.a0 i)
  h3 : ∀ i, IsReal (A.a3 i)
  h4 : ∀ i, IsReal (A.a4 i)
  h5 : ∀ i, IsReal (A.a5 i)
  h6 : ∀ i, IsReal (A.a6 i)
  h7 : ∀ i, IsReal (A.a7 i)
  h8 : ∀ i, IsReal (A.a8 i)
  h9 : ∀ i, IsReal (A.a9 i)

/-! ## The edge table's two rows -/

theorem src1 : W1 m ρ c (Proc.devRef .tc main_v1) = Cert.ReferenceIdeal.Spec.srcR (argsK m c).a1 := g0_src (W0 m ρ c)
theorem dst1 : W1 m ρ c (Proc.devRef .tc main_v3) = Cert.ReferenceIdeal.Spec.dstR (argsK m c).a1 := g0_dst (W0 m ρ c)
theorem src7 : W7 m ρ c (Proc.devRef .tc main_v1) = Cert.ReferenceIdeal.Spec.srcR (argsK m c).a1 := (((W7_of_ne m ρ c main_v1 (by decide)).trans ((keep_hostOps3 (W5 m ρ c) main_v1 (by decide)).trans ((W5_of_ne m ρ c main_v1 (by decide)).trans ((W4_of_ne m ρ c main_v1 (by decide)).trans ((keep_hostOps1 (W2 m ρ c) main_v1 (by decide)).trans (W2_of_ne m ρ c main_v1 (by decide)))))))).trans (src1 m ρ c)
theorem dst7 : W7 m ρ c (Proc.devRef .tc main_v3) = Cert.ReferenceIdeal.Spec.dstR (argsK m c).a1 := (((W7_of_ne m ρ c main_v3 (by decide)).trans ((keep_hostOps3 (W5 m ρ c) main_v3 (by decide)).trans ((W5_of_ne m ρ c main_v3 (by decide)).trans ((W4_of_ne m ρ c main_v3 (by decide)).trans ((keep_hostOps1 (W2 m ρ c) main_v3 (by decide)).trans (W2_of_ne m ρ c main_v3 (by decide)))))))).trans (dst1 m ρ c)
theorem src14 : W14 m ρ c (Proc.devRef .tc main_v1) = Cert.ReferenceIdeal.Spec.srcR (argsK m c).a1 := (((W14_of_ne m ρ c main_v1 (by decide)).trans ((keep_hostOps6 (W12 m ρ c) main_v1 (by decide)).trans ((W12_of_ne m ρ c main_v1 (by decide)).trans ((W11_of_ne m ρ c main_v1 (by decide)).trans ((keep_hostOps4_2 (W9 m ρ c) main_v1 (by decide)).trans ((keep_hostOps4_1 (W8 m ρ c) main_v1 (by decide)).trans ((keep_hostOps4 (W7 m ρ c) main_v1 (by decide)).trans ((W7_of_ne m ρ c main_v1 (by decide)).trans ((keep_hostOps3 (W5 m ρ c) main_v1 (by decide)).trans ((W5_of_ne m ρ c main_v1 (by decide)).trans ((W4_of_ne m ρ c main_v1 (by decide)).trans ((keep_hostOps1 (W2 m ρ c) main_v1 (by decide)).trans (W2_of_ne m ρ c main_v1 (by decide))))))))))))))).trans (src1 m ρ c)
theorem dst14 : W14 m ρ c (Proc.devRef .tc main_v3) = Cert.ReferenceIdeal.Spec.dstR (argsK m c).a1 := (((W14_of_ne m ρ c main_v3 (by decide)).trans ((keep_hostOps6 (W12 m ρ c) main_v3 (by decide)).trans ((W12_of_ne m ρ c main_v3 (by decide)).trans ((W11_of_ne m ρ c main_v3 (by decide)).trans ((keep_hostOps4_2 (W9 m ρ c) main_v3 (by decide)).trans ((keep_hostOps4_1 (W8 m ρ c) main_v3 (by decide)).trans ((keep_hostOps4 (W7 m ρ c) main_v3 (by decide)).trans ((W7_of_ne m ρ c main_v3 (by decide)).trans ((keep_hostOps3 (W5 m ρ c) main_v3 (by decide)).trans ((W5_of_ne m ρ c main_v3 (by decide)).trans ((W4_of_ne m ρ c main_v3 (by decide)).trans ((keep_hostOps1 (W2 m ρ c) main_v3 (by decide)).trans (W2_of_ne m ρ c main_v3 (by decide))))))))))))))).trans (dst1 m ρ c)
theorem src21 : W21 m ρ c (Proc.devRef .tc main_v1) = Cert.ReferenceIdeal.Spec.srcR (argsK m c).a1 := (((W21_of_ne m ρ c main_v1 (by decide)).trans ((keep_hostOps9 (W19 m ρ c) main_v1 (by decide)).trans ((W19_of_ne m ρ c main_v1 (by decide)).trans ((W18_of_ne m ρ c main_v1 (by decide)).trans ((keep_hostOps7_2 (W16 m ρ c) main_v1 (by decide)).trans ((keep_hostOps7_1 (W15 m ρ c) main_v1 (by decide)).trans ((keep_hostOps7 (W14 m ρ c) main_v1 (by decide)).trans ((W14_of_ne m ρ c main_v1 (by decide)).trans ((keep_hostOps6 (W12 m ρ c) main_v1 (by decide)).trans ((W12_of_ne m ρ c main_v1 (by decide)).trans ((W11_of_ne m ρ c main_v1 (by decide)).trans ((keep_hostOps4_2 (W9 m ρ c) main_v1 (by decide)).trans ((keep_hostOps4_1 (W8 m ρ c) main_v1 (by decide)).trans ((keep_hostOps4 (W7 m ρ c) main_v1 (by decide)).trans ((W7_of_ne m ρ c main_v1 (by decide)).trans ((keep_hostOps3 (W5 m ρ c) main_v1 (by decide)).trans ((W5_of_ne m ρ c main_v1 (by decide)).trans ((W4_of_ne m ρ c main_v1 (by decide)).trans ((keep_hostOps1 (W2 m ρ c) main_v1 (by decide)).trans (W2_of_ne m ρ c main_v1 (by decide)))))))))))))))))))))).trans (src1 m ρ c)
theorem dst21 : W21 m ρ c (Proc.devRef .tc main_v3) = Cert.ReferenceIdeal.Spec.dstR (argsK m c).a1 := (((W21_of_ne m ρ c main_v3 (by decide)).trans ((keep_hostOps9 (W19 m ρ c) main_v3 (by decide)).trans ((W19_of_ne m ρ c main_v3 (by decide)).trans ((W18_of_ne m ρ c main_v3 (by decide)).trans ((keep_hostOps7_2 (W16 m ρ c) main_v3 (by decide)).trans ((keep_hostOps7_1 (W15 m ρ c) main_v3 (by decide)).trans ((keep_hostOps7 (W14 m ρ c) main_v3 (by decide)).trans ((W14_of_ne m ρ c main_v3 (by decide)).trans ((keep_hostOps6 (W12 m ρ c) main_v3 (by decide)).trans ((W12_of_ne m ρ c main_v3 (by decide)).trans ((W11_of_ne m ρ c main_v3 (by decide)).trans ((keep_hostOps4_2 (W9 m ρ c) main_v3 (by decide)).trans ((keep_hostOps4_1 (W8 m ρ c) main_v3 (by decide)).trans ((keep_hostOps4 (W7 m ρ c) main_v3 (by decide)).trans ((W7_of_ne m ρ c main_v3 (by decide)).trans ((keep_hostOps3 (W5 m ρ c) main_v3 (by decide)).trans ((W5_of_ne m ρ c main_v3 (by decide)).trans ((W4_of_ne m ρ c main_v3 (by decide)).trans ((keep_hostOps1 (W2 m ρ c) main_v3 (by decide)).trans (W2_of_ne m ρ c main_v3 (by decide)))))))))))))))))))))).trans (dst1 m ρ c)

/-! ## The first layer -/

theorem sum0 : W2 m ρ c (Proc.devRef .tc main_v4_0) = Stats0.colSum (argsK m c).a0 :=
  (W2_arr m ρ c 1).trans ((Stats0.final1 (V1 m ρ) c).trans (congrArg Stats0.colSum ((keep_hostOps0 (W0 m ρ c) main_arg0 (by decide)))))
theorem sumsq0 : W2 m ρ c (Proc.devRef .tc main_v4_1) = Stats0.colSumSq (argsK m c).a0 :=
  (W2_arr m ρ c 2).trans ((Stats0.final2 (V1 m ρ) c).trans (congrArg Stats0.colSumSq ((keep_hostOps0 (W0 m ρ c) main_arg0 (by decide)))))
theorem mean0 : W3 m ρ c (Proc.devRef .tc main_v6) = meanK (Stats0.colSum (argsK m c).a0) :=
  (g1_mean (W2 m ρ c)).trans (congrArg meanK (sum0 m ρ c))
theorem var0 : W3 m ρ c (Proc.devRef .tc main_v10) = varK (Stats0.colSum (argsK m c).a0) (Stats0.colSumSq (argsK m c).a0) :=
  (g1_var (W2 m ρ c)).trans (congrArg₂ varK (sum0 m ρ c) (sumsq0 m ρ c))
theorem gain0 : W3 m ρ c (Proc.devRef .tc main_v11) = rowUp (argsK m c).a3 :=
  (g1_gain (W2 m ρ c)).trans (congrArg rowUp (((W2_of_ne m ρ c main_arg3 (by decide)).trans (keep_hostOps0 (W0 m ρ c) main_arg3 (by decide)))))
theorem shift0 : W3 m ρ c (Proc.devRef .tc main_v12) = rowUp (argsK m c).a4 :=
  (g1_shift (W2 m ρ c)).trans (congrArg rowUp (((W2_of_ne m ρ c main_arg4 (by decide)).trans (keep_hostOps0 (W0 m ρ c) main_arg4 (by decide)))))
theorem x0 : W3 m ρ c (Proc.devRef .tc main_arg0) = (argsK m c).a0 := ((keep_hostOps1 (W2 m ρ c) main_arg0 (by decide)).trans (((W2_arr m ρ c 0).trans (((dat0 (V1 m ρ) c).arrAt_in 0 rfl _).trans (A_eq0 (V1 m ρ) c 0))).trans (keep_hostOps0 (W0 m ρ c) main_arg0 (by decide))))
theorem w0 : W3 m ρ c (Proc.devRef .tc main_arg5) = (argsK m c).a5 := ((keep_hostOps1 (W2 m ρ c) main_arg5 (by decide)).trans ((W2_of_ne m ρ c main_arg5 (by decide)).trans (keep_hostOps0 (W0 m ρ c) main_arg5 (by decide))))

/-- After the first normalise-and-multiply launch the first hidden array is the reference's. -/
theorem hid1 (hA : ArgsReal (argsK m c)) : W4 m ρ c (Proc.devRef .tc main_v13) = Cert.ReferenceIdeal.Spec.H1 (argsK m c) := by
  refine (W4_arr m ρ c 6).trans ((NormLinear1.final (V3 m ρ) c).trans ?_)
  show NormLinear1.normLinear (W3 m ρ c (Proc.devRef .tc main_arg0)) (W3 m ρ c (Proc.devRef .tc main_v6)) (W3 m ρ c (Proc.devRef .tc main_v10)) (W3 m ρ c (Proc.devRef .tc main_v11)) (W3 m ρ c (Proc.devRef .tc main_v12)) (W3 m ρ c (Proc.devRef .tc main_arg5)) = _
  rw [x0, mean0, var0, gain0, shift0, w0]
  exact Cert.LayerMath.layer_relu_eq _ hA.h0 _ _ _

theorem hid1_real (hA : ArgsReal (argsK m c)) (i) : IsReal (Cert.ReferenceIdeal.Spec.H1 (argsK m c) i) :=
  Cert.LayerMath.reluR_real _ (Cert.LayerMath.dotR_real _ (Cert.LayerMath.bnR_real _ hA.h0 _ _ hA.h3 hA.h4) _ hA.h5) i

/-! ## Rows and matrices cut out of real tables are real -/

theorem row0_real (A : (⟨Cert.ReferenceIdeal.S3x128, .f32⟩ : BufTy).Contents (Elt Ideal)) (h : ∀ i, IsReal (A i)) (i) : IsReal (Cert.ReferenceIdeal.Spec.row0 (F := Ideal) A i) := by
  unfold Cert.ReferenceIdeal.Spec.row0 shapeCast extractStridedSlice; exact h _
theorem mat0_real (A : (⟨Cert.ReferenceIdeal.S3x128x128, .f32⟩ : BufTy).Contents (Elt Ideal)) (h : ∀ i, IsReal (A i)) (i) : IsReal (Cert.ReferenceIdeal.Spec.mat0 (F := Ideal) A i) := by
  unfold Cert.ReferenceIdeal.Spec.mat0 shapeCast extractStridedSlice; exact h _
theorem row1_real (A : (⟨Cert.ReferenceIdeal.S3x128, .f32⟩ : BufTy).Contents (Elt Ideal)) (h : ∀ i, IsReal (A i)) (i) : IsReal (Cert.ReferenceIdeal.Spec.row1 (F := Ideal) A i) := by
  unfold Cert.ReferenceIdeal.Spec.row1 shapeCast extractStridedSlice; exact h _
theorem mat1_real (A : (⟨Cert.ReferenceIdeal.S3x128x128, .f32⟩ : BufTy).Contents (Elt Ideal)) (h : ∀ i, IsReal (A i)) (i) : IsReal (Cert.ReferenceIdeal.Spec.mat1 (F := Ideal) A i) := by
  unfold Cert.ReferenceIdeal.Spec.mat1 shapeCast extractStridedSlice; exact h _
theorem row2_real (A : (⟨Cert.ReferenceIdeal.S3x128, .f32⟩ : BufTy).Contents (Elt Ideal)) (h : ∀ i, IsReal (A i)) (i) : IsReal (Cert.ReferenceIdeal.Spec.row2 (F := Ideal) A i) := by
  unfold Cert.ReferenceIdeal.Spec.row2 shapeCast extractStridedSlice; exact h _
theorem mat2_real (A : (⟨Cert.ReferenceIdeal.S3x128x128, .f32⟩ : BufTy).Contents (Elt Ideal)) (h : ∀ i, IsReal (A i)) (i) : IsReal (Cert.ReferenceIdeal.Spec.mat2 (F := Ideal) A i) := by
  unfold Cert.ReferenceIdeal.Spec.mat2 shapeCast extractStridedSlice; exact h _

/-! ## Graph layer 1 -/

theorem sum1 (hA : ArgsReal (argsK m c)) : W5 m ρ c (Proc.devRef .tc main_v14_0) = Stats2.colSum (Cert.ReferenceIdeal.Spec.H1 (argsK m c)) :=
  (W5_arr m ρ c 1).trans ((Stats2.final1 (V4 m ρ) c).trans (congrArg Stats2.colSum (hid1 m ρ c hA)))
theorem sumsq1 (hA : ArgsReal (argsK m c)) : W5 m ρ c (Proc.devRef .tc main_v14_1) = Stats2.colSumSq (Cert.ReferenceIdeal.Spec.H1 (argsK m c)) :=
  (W5_arr m ρ c 2).trans ((Stats2.final2 (V4 m ρ) c).trans (congrArg Stats2.colSumSq (hid1 m ρ c hA)))
theorem hin1 (hA : ArgsReal (argsK m c)) : W6 m ρ c (Proc.devRef .tc main_v13) = (Cert.ReferenceIdeal.Spec.H1 (argsK m c)) :=
  (((keep_hostOps3 (W5 m ρ c) main_v13 (by decide)).trans ((W5_arr m ρ c 0).trans (((dat2 (V4 m ρ) c).arrAt_in 0 rfl _).trans (A_eq2 (V4 m ρ) c 0))))).trans (hid1 m ρ c hA)
theorem mean1 (hA : ArgsReal (argsK m c)) : W6 m ρ c (Proc.devRef .tc main_v16) = meanK (Stats2.colSum (Cert.ReferenceIdeal.Spec.H1 (argsK m c))) :=
  (l1_mean (W5 m ρ c)).trans (congrArg meanK (sum1 m ρ c hA))
theorem var1 (hA : ArgsReal (argsK m c)) : W6 m ρ c (Proc.devRef .tc main_v20) = varK (Stats2.colSum (Cert.ReferenceIdeal.Spec.H1 (argsK m c))) (Stats2.colSumSq (Cert.ReferenceIdeal.Spec.H1 (argsK m c))) :=
  (l1_var (W5 m ρ c)).trans (congrArg₂ varK (sum1 m ρ c hA) (sumsq1 m ρ c hA))
theorem gain1 : W6 m ρ c (Proc.devRef .tc main_v23) = rowUp (Cert.ReferenceIdeal.Spec.row0 (argsK m c).a6) :=
  (l1_gain (W5 m ρ c)).trans (congrArg (fun z => rowUp (Cert.ReferenceIdeal.Spec.row0 z)) (((W5_of_ne m ρ c main_arg6 (by decide)).trans ((W4_of_ne m ρ c main_arg6 (by decide)).trans ((keep_hostOps1 (W2 m ρ c) main_arg6 (by decide)).trans ((W2_of_ne m ρ c main_arg6 (by decide)).trans (keep_hostOps0 (W0 m ρ c) main_arg6 (by decide))))))))
theorem shift1 : W6 m ρ c (Proc.devRef .tc main_v26) = rowUp (Cert.ReferenceIdeal.Spec.row0 (argsK m c).a7) :=
  (l1_shift (W5 m ρ c)).trans (congrArg (fun z => rowUp (Cert.ReferenceIdeal.Spec.row0 z)) (((W5_of_ne m ρ c main_arg7 (by decide)).trans ((W4_of_ne m ρ c main_arg7 (by decide)).trans ((keep_hostOps1 (W2 m ρ c) main_arg7 (by decide)).trans ((W2_of_ne m ρ c main_arg7 (by decide)).trans (keep_hostOps0 (W0 m ρ c) main_arg7 (by decide))))))))
theorem mat1 : W6 m ρ c (Proc.devRef .tc main_v28) = Cert.ReferenceIdeal.Spec.mat0 (argsK m c).a8 :=
  (l1_mat (W5 m ρ c)).trans (congrArg (fun z => Cert.ReferenceIdeal.Spec.mat0 z) (((W5_of_ne m ρ c main_arg8 (by decide)).trans ((W4_of_ne m ρ c main_arg8 (by decide)).trans ((keep_hostOps1 (W2 m ρ c) main_arg8 (by decide)).trans ((W2_of_ne m ρ c main_arg8 (by decide)).trans (keep_hostOps0 (W0 m ρ c) main_arg8 (by decide))))))))

/-- After the layer's normalise-and-multiply launch its output is the reference's. -/
theorem xw1 (hA : ArgsReal (argsK m c)) : W7 m ρ c (Proc.devRef .tc main_v29) = Cert.ReferenceIdeal.Spec.XW1 (argsK m c) := by
  refine (W7_arr m ρ c 6).trans ((NormLinear3.final (V6 m ρ) c).trans ?_)
  show NormLinear3.normLinear (W6 m ρ c (Proc.devRef .tc main_v13)) (W6 m ρ c (Proc.devRef .tc main_v16)) (W6 m ρ c (Proc.devRef .tc main_v20)) (W6 m ρ c (Proc.devRef .tc main_v23)) (W6 m ρ c (Proc.devRef .tc main_v26)) (W6 m ρ c (Proc.devRef .tc main_v28)) = _
  rw [hin1 m ρ c hA, mean1 m ρ c hA, var1 m ρ c hA, gain1, shift1, mat1]
  exact Cert.LayerMath.layer_eq _ (hid1_real m c hA) _ _ _

theorem prop1 (hA : ArgsReal (argsK m c)) : W10 m ρ c (Proc.devRef .tc main_v68) = Cert.ReferenceIdeal.Spec.propR (Cert.ReferenceIdeal.Spec.XW1 (argsK m c)) (Cert.ReferenceIdeal.Spec.srcR (argsK m c).a1) (Cert.ReferenceIdeal.Spec.dstR (argsK m c).a1) := by
  refine (l1_prop (W7 m ρ c)).trans ?_
  rw [xw1 m ρ c hA, src7, dst7, Cert.LayerMath.norm_eq]
  rfl
theorem bias1 : W10 m ρ c (Proc.devRef .tc main_v71) = rowUp (Cert.ReferenceIdeal.Spec.row0 (argsK m c).a9) :=
  (l1_bias (W7 m ρ c)).trans (congrArg (fun z => rowUp (Cert.ReferenceIdeal.Spec.row0 z)) (((W7_of_ne m ρ c main_arg9 (by decide)).trans ((keep_hostOps3 (W5 m ρ c) main_arg9 (by decide)).trans ((W5_of_ne m ρ c main_arg9 (by decide)).trans ((W4_of_ne m ρ c main_arg9 (by decide)).trans ((keep_hostOps1 (W2 m ρ c) main_arg9 (by decide)).trans ((W2_of_ne m ρ c main_arg9 (by decide)).trans (keep_hostOps0 (W0 m ρ c) main_arg9 (by decide))))))))))

/-- After the layer's bias-and-rectify launch the next hidden array is the reference's. -/
theorem hid2 (hA : ArgsReal (argsK m c)) : W11 m ρ c (Proc.devRef .tc main_v72) = Cert.ReferenceIdeal.Spec.H2 (argsK m c) := by
  refine (W11_arr m ρ c 2).trans ((BiasRelu4.final (V10 m ρ) c).trans ?_)
  show BiasRelu4.biasRelu (W10 m ρ c (Proc.devRef .tc main_v68)) (W10 m ρ c (Proc.devRef .tc main_v71)) = _
  rw [prop1 m ρ c hA, bias1]
  exact Cert.LayerMath.bias_relu_eq _ _

theorem hid2_real (hA : ArgsReal (argsK m c)) (i) : IsReal (Cert.ReferenceIdeal.Spec.H2 (argsK m c) i) :=
  Cert.LayerMath.reluR_real _ (Cert.LayerMath.addBiasR_real _ (Cert.LayerMath.propR_real _ (Cert.LayerMath.dotR_real _ (Cert.LayerMath.bnR_real _ (hid1_real m c hA) _ _ (row0_real _ hA.h6) (row0_real _ hA.h7)) _ (mat0_real _ hA.h8)) _ _) _ (row0_real _ hA.h9)) i

/-! ## Graph layer 2 -/

theorem sum2 (hA : ArgsReal (argsK m c)) : W12 m ρ c (Proc.devRef .tc main_v73_0) = Stats5.colSum (Cert.ReferenceIdeal.Spec.H2 (argsK m c)) :=
  (W12_arr m ρ c 1).trans ((Stats5.final1 (V11 m ρ) c).trans (congrArg Stats5.colSum (hid2 m ρ c hA)))
theorem sumsq2 (hA : ArgsReal (argsK m c)) : W12 m ρ c (Proc.devRef .tc main_v73_1) = Stats5.colSumSq (Cert.ReferenceIdeal.Spec.H2 (argsK m c)) :=
  (W12_arr m ρ c 2).trans ((Stats5.final2 (V11 m ρ) c).trans (congrArg Stats5.colSumSq (hid2 m ρ c hA)))
theorem hin2 (hA : ArgsReal (argsK m c)) : W13 m ρ c (Proc.devRef .tc main_v72) = (Cert.ReferenceIdeal.Spec.H2 (argsK m c)) :=
  (((keep_hostOps6 (W12 m ρ c) main_v72 (by decide)).trans ((W12_arr m ρ c 0).trans (((dat5 (V11 m ρ) c).arrAt_in 0 rfl _).trans (A_eq5 (V11 m ρ) c 0))))).trans (hid2 m ρ c hA)
theorem mean2 (hA : ArgsReal (argsK m c)) : W13 m ρ c (Proc.devRef .tc main_v75) = meanK (Stats5.colSum (Cert.ReferenceIdeal.Spec.H2 (argsK m c))) :=
  (l2_mean (W12 m ρ c)).trans (congrArg meanK (sum2 m ρ c hA))
theorem var2 (hA : ArgsReal (argsK m c)) : W13 m ρ c (Proc.devRef .tc main_v79) = varK (Stats5.colSum (Cert.ReferenceIdeal.Spec.H2 (argsK m c))) (Stats5.colSumSq (Cert.ReferenceIdeal.Spec.H2 (argsK m c))) :=
  (l2_var (W12 m ρ c)).trans (congrArg₂ varK (sum2 m ρ c hA) (sumsq2 m ρ c hA))
theorem gain2 : W13 m ρ c (Proc.devRef .tc main_v82) = rowUp (Cert.ReferenceIdeal.Spec.row1 (argsK m c).a6) :=
  (l2_gain (W12 m ρ c)).trans (congrArg (fun z => rowUp (Cert.ReferenceIdeal.Spec.row1 z)) (((W12_of_ne m ρ c main_arg6 (by decide)).trans ((W11_of_ne m ρ c main_arg6 (by decide)).trans ((keep_hostOps4_2 (W9 m ρ c) main_arg6 (by decide)).trans ((keep_hostOps4_1 (W8 m ρ c) main_arg6 (by decide)).trans ((keep_hostOps4 (W7 m ρ c) main_arg6 (by decide)).trans ((W7_of_ne m ρ c main_arg6 (by decide)).trans ((keep_hostOps3 (W5 m ρ c) main_arg6 (by decide)).trans ((W5_of_ne m ρ c main_arg6 (by decide)).trans ((W4_of_ne m ρ c main_arg6 (by decide)).trans ((keep_hostOps1 (W2 m ρ c) main_arg6 (by decide)).trans ((W2_of_ne m ρ c main_arg6 (by decide)).trans (keep_hostOps0 (W0 m ρ c) main_arg6 (by decide)))))))))))))))
theorem shift2 : W13 m ρ c (Proc.devRef .tc main_v85) = rowUp (Cert.ReferenceIdeal.Spec.row1 (argsK m c).a7) :=
  (l2_shift (W12 m ρ c)).trans (congrArg (fun z => rowUp (Cert.ReferenceIdeal.Spec.row1 z)) (((W12_of_ne m ρ c main_arg7 (by decide)).trans ((W11_of_ne m ρ c main_arg7 (by decide)).trans ((keep_hostOps4_2 (W9 m ρ c) main_arg7 (by decide)).trans ((keep_hostOps4_1 (W8 m ρ c) main_arg7 (by decide)).trans ((keep_hostOps4 (W7 m ρ c) main_arg7 (by decide)).trans ((W7_of_ne m ρ c main_arg7 (by decide)).trans ((keep_hostOps3 (W5 m ρ c) main_arg7 (by decide)).trans ((W5_of_ne m ρ c main_arg7 (by decide)).trans ((W4_of_ne m ρ c main_arg7 (by decide)).trans ((keep_hostOps1 (W2 m ρ c) main_arg7 (by decide)).trans ((W2_of_ne m ρ c main_arg7 (by decide)).trans (keep_hostOps0 (W0 m ρ c) main_arg7 (by decide)))))))))))))))
theorem mat2 : W13 m ρ c (Proc.devRef .tc main_v87) = Cert.ReferenceIdeal.Spec.mat1 (argsK m c).a8 :=
  (l2_mat (W12 m ρ c)).trans (congrArg (fun z => Cert.ReferenceIdeal.Spec.mat1 z) (((W12_of_ne m ρ c main_arg8 (by decide)).trans ((W11_of_ne m ρ c main_arg8 (by decide)).trans ((keep_hostOps4_2 (W9 m ρ c) main_arg8 (by decide)).trans ((keep_hostOps4_1 (W8 m ρ c) main_arg8 (by decide)).trans ((keep_hostOps4 (W7 m ρ c) main_arg8 (by decide)).trans ((W7_of_ne m ρ c main_arg8 (by decide)).trans ((keep_hostOps3 (W5 m ρ c) main_arg8 (by decide)).trans ((W5_of_ne m ρ c main_arg8 (by decide)).trans ((W4_of_ne m ρ c main_arg8 (by decide)).trans ((keep_hostOps1 (W2 m ρ c) main_arg8 (by decide)).trans ((W2_of_ne m ρ c main_arg8 (by decide)).trans (keep_hostOps0 (W0 m ρ c) main_arg8 (by decide)))))))))))))))

/-- After the layer's normalise-and-multiply launch its output is the reference's. -/
theorem xw2 (hA : ArgsReal (argsK m c)) : W14 m ρ c (Proc.devRef .tc main_v88) = Cert.ReferenceIdeal.Spec.XW2 (argsK m c) := by
  refine (W14_arr m ρ c 6).trans ((NormLinear6.final (V13 m ρ) c).trans ?_)
  show NormLinear6.normLinear (W13 m ρ c (Proc.devRef .tc main_v72)) (W13 m ρ c (Proc.devRef .tc main_v75)) (W13 m ρ c (Proc.devRef .tc main_v79)) (W13 m ρ c (Proc.devRef .tc main_v82)) (W13 m ρ c (Proc.devRef .tc main_v85)) (W13 m ρ c (Proc.devRef .tc main_v87)) = _
  rw [hin2 m ρ c hA, mean2 m ρ c hA, var2 m ρ c hA, gain2, shift2, mat2]
  exact Cert.LayerMath.layer_eq _ (hid2_real m c hA) _ _ _

theorem prop2 (hA : ArgsReal (argsK m c)) : W17 m ρ c (Proc.devRef .tc main_v127) = Cert.ReferenceIdeal.Spec.propR (Cert.ReferenceIdeal.Spec.XW2 (argsK m c)) (Cert.ReferenceIdeal.Spec.srcR (argsK m c).a1) (Cert.ReferenceIdeal.Spec.dstR (argsK m c).a1) := by
  refine (l2_prop (W14 m ρ c)).trans ?_
  rw [xw2 m ρ c hA, src14, dst14, Cert.LayerMath.norm_eq]
  rfl
theorem bias2 : W17 m ρ c (Proc.devRef .tc main_v130) = rowUp (Cert.ReferenceIdeal.Spec.row1 (argsK m c).a9) :=
  (l2_bias (W14 m ρ c)).trans (congrArg (fun z => rowUp (Cert.ReferenceIdeal.Spec.row1 z)) (((W14_of_ne m ρ c main_arg9 (by decide)).trans ((keep_hostOps6 (W12 m ρ c) main_arg9 (by decide)).trans ((W12_of_ne m ρ c main_arg9 (by decide)).trans ((W11_of_ne m ρ c main_arg9 (by decide)).trans ((keep_hostOps4_2 (W9 m ρ c) main_arg9 (by decide)).trans ((keep_hostOps4_1 (W8 m ρ c) main_arg9 (by decide)).trans ((keep_hostOps4 (W7 m ρ c) main_arg9 (by decide)).trans ((W7_of_ne m ρ c main_arg9 (by decide)).trans ((keep_hostOps3 (W5 m ρ c) main_arg9 (by decide)).trans ((W5_of_ne m ρ c main_arg9 (by decide)).trans ((W4_of_ne m ρ c main_arg9 (by decide)).trans ((keep_hostOps1 (W2 m ρ c) main_arg9 (by decide)).trans ((W2_of_ne m ρ c main_arg9 (by decide)).trans (keep_hostOps0 (W0 m ρ c) main_arg9 (by decide)))))))))))))))))

/-- After the layer's bias-and-rectify launch the next hidden array is the reference's. -/
theorem hid3 (hA : ArgsReal (argsK m c)) : W18 m ρ c (Proc.devRef .tc main_v131) = Cert.ReferenceIdeal.Spec.H3 (argsK m c) := by
  refine (W18_arr m ρ c 2).trans ((BiasRelu7.final (V17 m ρ) c).trans ?_)
  show BiasRelu7.biasRelu (W17 m ρ c (Proc.devRef .tc main_v127)) (W17 m ρ c (Proc.devRef .tc main_v130)) = _
  rw [prop2 m ρ c hA, bias2]
  exact Cert.LayerMath.bias_relu_eq _ _

theorem hid3_real (hA : ArgsReal (argsK m c)) (i) : IsReal (Cert.ReferenceIdeal.Spec.H3 (argsK m c) i) :=
  Cert.LayerMath.reluR_real _ (Cert.LayerMath.addBiasR_real _ (Cert.LayerMath.propR_real _ (Cert.LayerMath.dotR_real _ (Cert.LayerMath.bnR_real _ (hid2_real m c hA) _ _ (row1_real _ hA.h6) (row1_real _ hA.h7)) _ (mat1_real _ hA.h8)) _ _) _ (row1_real _ hA.h9)) i

/-! ## Graph layer 3 -/

theorem sum3 (hA : ArgsReal (argsK m c)) : W19 m ρ c (Proc.devRef .tc main_v132_0) = Stats8.colSum (Cert.ReferenceIdeal.Spec.H3 (argsK m c)) :=
  (W19_arr m ρ c 1).trans ((Stats8.final1 (V18 m ρ) c).trans (congrArg Stats8.colSum (hid3 m ρ c hA)))
theorem sumsq3 (hA : ArgsReal (argsK m c)) : W19 m ρ c (Proc.devRef .tc main_v132_1) = Stats8.colSumSq (Cert.ReferenceIdeal.Spec.H3 (argsK m c)) :=
  (W19_arr m ρ c 2).trans ((Stats8.final2 (V18 m ρ) c).trans (congrArg Stats8.colSumSq (hid3 m ρ c hA)))
theorem hin3 (hA : ArgsReal (argsK m c)) : W20 m ρ c (Proc.devRef .tc main_v131) = (Cert.ReferenceIdeal.Spec.H3 (argsK m c)) :=
  (((keep_hostOps9 (W19 m ρ c) main_v131 (by decide)).trans ((W19_arr m ρ c 0).trans (((dat8 (V18 m ρ) c).arrAt_in 0 rfl _).trans (A_eq8 (V18 m ρ) c 0))))).trans (hid3 m ρ c hA)
theorem mean3 (hA : ArgsReal (argsK m c)) : W20 m ρ c (Proc.devRef .tc main_v134) = meanK (Stats8.colSum (Cert.ReferenceIdeal.Spec.H3 (argsK m c))) :=
  (l3_mean (W19 m ρ c)).trans (congrArg meanK (sum3 m ρ c hA))
theorem var3 (hA : ArgsReal (argsK m c)) : W20 m ρ c (Proc.devRef .tc main_v138) = varK (Stats8.colSum (Cert.ReferenceIdeal.Spec.H3 (argsK m c))) (Stats8.colSumSq (Cert.ReferenceIdeal.Spec.H3 (argsK m c))) :=
  (l3_var (W19 m ρ c)).trans (congrArg₂ varK (sum3 m ρ c hA) (sumsq3 m ρ c hA))
theorem gain3 : W20 m ρ c (Proc.devRef .tc main_v141) = rowUp (Cert.ReferenceIdeal.Spec.row2 (argsK m c).a6) :=
  (l3_gain (W19 m ρ c)).trans (congrArg (fun z => rowUp (Cert.ReferenceIdeal.Spec.row2 z)) (((W19_of_ne m ρ c main_arg6 (by decide)).trans ((W18_of_ne m ρ c main_arg6 (by decide)).trans ((keep_hostOps7_2 (W16 m ρ c) main_arg6 (by decide)).trans ((keep_hostOps7_1 (W15 m ρ c) main_arg6 (by decide)).trans ((keep_hostOps7 (W14 m ρ c) main_arg6 (by decide)).trans ((W14_of_ne m ρ c main_arg6 (by decide)).trans ((keep_hostOps6 (W12 m ρ c) main_arg6 (by decide)).trans ((W12_of_ne m ρ c main_arg6 (by decide)).trans ((W11_of_ne m ρ c main_arg6 (by decide)).trans ((keep_hostOps4_2 (W9 m ρ c) main_arg6 (by decide)).trans ((keep_hostOps4_1 (W8 m ρ c) main_arg6 (by decide)).trans ((keep_hostOps4 (W7 m ρ c) main_arg6 (by decide)).trans ((W7_of_ne m ρ c main_arg6 (by decide)).trans ((keep_hostOps3 (W5 m ρ c) main_arg6 (by decide)).trans ((W5_of_ne m ρ c main_arg6 (by decide)).trans ((W4_of_ne m ρ c main_arg6 (by decide)).trans ((keep_hostOps1 (W2 m ρ c) main_arg6 (by decide)).trans ((W2_of_ne m ρ c main_arg6 (by decide)).trans (keep_hostOps0 (W0 m ρ c) main_arg6 (by decide))))))))))))))))))))))
theorem shift3 : W20 m ρ c (Proc.devRef .tc main_v144) = rowUp (Cert.ReferenceIdeal.Spec.row2 (argsK m c).a7) :=
  (l3_shift (W19 m ρ c)).trans (congrArg (fun z => rowUp (Cert.ReferenceIdeal.Spec.row2 z)) (((W19_of_ne m ρ c main_arg7 (by decide)).trans ((W18_of_ne m ρ c main_arg7 (by decide)).trans ((keep_hostOps7_2 (W16 m ρ c) main_arg7 (by decide)).trans ((keep_hostOps7_1 (W15 m ρ c) main_arg7 (by decide)).trans ((keep_hostOps7 (W14 m ρ c) main_arg7 (by decide)).trans ((W14_of_ne m ρ c main_arg7 (by decide)).trans ((keep_hostOps6 (W12 m ρ c) main_arg7 (by decide)).trans ((W12_of_ne m ρ c main_arg7 (by decide)).trans ((W11_of_ne m ρ c main_arg7 (by decide)).trans ((keep_hostOps4_2 (W9 m ρ c) main_arg7 (by decide)).trans ((keep_hostOps4_1 (W8 m ρ c) main_arg7 (by decide)).trans ((keep_hostOps4 (W7 m ρ c) main_arg7 (by decide)).trans ((W7_of_ne m ρ c main_arg7 (by decide)).trans ((keep_hostOps3 (W5 m ρ c) main_arg7 (by decide)).trans ((W5_of_ne m ρ c main_arg7 (by decide)).trans ((W4_of_ne m ρ c main_arg7 (by decide)).trans ((keep_hostOps1 (W2 m ρ c) main_arg7 (by decide)).trans ((W2_of_ne m ρ c main_arg7 (by decide)).trans (keep_hostOps0 (W0 m ρ c) main_arg7 (by decide))))))))))))))))))))))
theorem mat3 : W20 m ρ c (Proc.devRef .tc main_v146) = Cert.ReferenceIdeal.Spec.mat2 (argsK m c).a8 :=
  (l3_mat (W19 m ρ c)).trans (congrArg (fun z => Cert.ReferenceIdeal.Spec.mat2 z) (((W19_of_ne m ρ c main_arg8 (by decide)).trans ((W18_of_ne m ρ c main_arg8 (by decide)).trans ((keep_hostOps7_2 (W16 m ρ c) main_arg8 (by decide)).trans ((keep_hostOps7_1 (W15 m ρ c) main_arg8 (by decide)).trans ((keep_hostOps7 (W14 m ρ c) main_arg8 (by decide)).trans ((W14_of_ne m ρ c main_arg8 (by decide)).trans ((keep_hostOps6 (W12 m ρ c) main_arg8 (by decide)).trans ((W12_of_ne m ρ c main_arg8 (by decide)).trans ((W11_of_ne m ρ c main_arg8 (by decide)).trans ((keep_hostOps4_2 (W9 m ρ c) main_arg8 (by decide)).trans ((keep_hostOps4_1 (W8 m ρ c) main_arg8 (by decide)).trans ((keep_hostOps4 (W7 m ρ c) main_arg8 (by decide)).trans ((W7_of_ne m ρ c main_arg8 (by decide)).trans ((keep_hostOps3 (W5 m ρ c) main_arg8 (by decide)).trans ((W5_of_ne m ρ c main_arg8 (by decide)).trans ((W4_of_ne m ρ c main_arg8 (by decide)).trans ((keep_hostOps1 (W2 m ρ c) main_arg8 (by decide)).trans ((W2_of_ne m ρ c main_arg8 (by decide)).trans (keep_hostOps0 (W0 m ρ c) main_arg8 (by decide))))))))))))))))))))))

/-- After the layer's normalise-and-multiply launch its output is the reference's. -/
theorem xw3 (hA : ArgsReal (argsK m c)) : W21 m ρ c (Proc.devRef .tc main_v147) = Cert.ReferenceIdeal.Spec.XW3 (argsK m c) := by
  refine (W21_arr m ρ c 6).trans ((NormLinear9.final (V20 m ρ) c).trans ?_)
  show NormLinear9.normLinear (W20 m ρ c (Proc.devRef .tc main_v131)) (W20 m ρ c (Proc.devRef .tc main_v134)) (W20 m ρ c (Proc.devRef .tc main_v138)) (W20 m ρ c (Proc.devRef .tc main_v141)) (W20 m ρ c (Proc.devRef .tc main_v144)) (W20 m ρ c (Proc.devRef .tc main_v146)) = _
  rw [hin3 m ρ c hA, mean3 m ρ c hA, var3 m ρ c hA, gain3, shift3, mat3]
  exact Cert.LayerMath.layer_eq _ (hid3_real m c hA) _ _ _

theorem prop3 (hA : ArgsReal (argsK m c)) : W24 m ρ c (Proc.devRef .tc main_v186) = Cert.ReferenceIdeal.Spec.propR (Cert.ReferenceIdeal.Spec.XW3 (argsK m c)) (Cert.ReferenceIdeal.Spec.srcR (argsK m c).a1) (Cert.ReferenceIdeal.Spec.dstR (argsK m c).a1) := by
  refine (l3_prop (W21 m ρ c)).trans ?_
  rw [xw3 m ρ c hA, src21, dst21, Cert.LayerMath.norm_eq]
  rfl
theorem bias3 : W24 m ρ c (Proc.devRef .tc main_v189) = rowUp (Cert.ReferenceIdeal.Spec.row2 (argsK m c).a9) :=
  (l3_bias (W21 m ρ c)).trans (congrArg (fun z => rowUp (Cert.ReferenceIdeal.Spec.row2 z)) (((W21_of_ne m ρ c main_arg9 (by decide)).trans ((keep_hostOps9 (W19 m ρ c) main_arg9 (by decide)).trans ((W19_of_ne m ρ c main_arg9 (by decide)).trans ((W18_of_ne m ρ c main_arg9 (by decide)).trans ((keep_hostOps7_2 (W16 m ρ c) main_arg9 (by decide)).trans ((keep_hostOps7_1 (W15 m ρ c) main_arg9 (by decide)).trans ((keep_hostOps7 (W14 m ρ c) main_arg9 (by decide)).trans ((W14_of_ne m ρ c main_arg9 (by decide)).trans ((keep_hostOps6 (W12 m ρ c) main_arg9 (by decide)).trans ((W12_of_ne m ρ c main_arg9 (by decide)).trans ((W11_of_ne m ρ c main_arg9 (by decide)).trans ((keep_hostOps4_2 (W9 m ρ c) main_arg9 (by decide)).trans ((keep_hostOps4_1 (W8 m ρ c) main_arg9 (by decide)).trans ((keep_hostOps4 (W7 m ρ c) main_arg9 (by decide)).trans ((W7_of_ne m ρ c main_arg9 (by decide)).trans ((keep_hostOps3 (W5 m ρ c) main_arg9 (by decide)).trans ((W5_of_ne m ρ c main_arg9 (by decide)).trans ((W4_of_ne m ρ c main_arg9 (by decide)).trans ((keep_hostOps1 (W2 m ρ c) main_arg9 (by decide)).trans ((W2_of_ne m ρ c main_arg9 (by decide)).trans (keep_hostOps0 (W0 m ρ c) main_arg9 (by decide))))))))))))))))))))))))

/-- After the layer's bias-and-rectify launch the next hidden array is the reference's. -/
theorem hid4 (hA : ArgsReal (argsK m c)) : W25 m ρ c (Proc.devRef .tc main_v190) = Cert.ReferenceIdeal.Spec.H4 (argsK m c) := by
  refine (W25_arr m ρ c 2).trans ((BiasRelu10.final (V24 m ρ) c).trans ?_)
  show BiasRelu10.biasRelu (W24 m ρ c (Proc.devRef .tc main_v186)) (W24 m ρ c (Proc.devRef .tc main_v189)) = _
  rw [prop3 m ρ c hA, bias3]
  exact Cert.LayerMath.bias_relu_eq _ _

theorem hid4_real (hA : ArgsReal (argsK m c)) (i) : IsReal (Cert.ReferenceIdeal.Spec.H4 (argsK m c) i) :=
  Cert.LayerMath.reluR_real _ (Cert.LayerMath.addBiasR_real _ (Cert.LayerMath.propR_real _ (Cert.LayerMath.dotR_real _ (Cert.LayerMath.bnR_real _ (hid3_real m c hA) _ _ (row2_real _ hA.h6) (row2_real _ hA.h7)) _ (mat2_real _ hA.h8)) _ _) _ (row2_real _ hA.h9)) i

/-! ## The result -/

/-- THE RESULT of the idealized kernel program on real input data: the reference's result function of the arguments. -/
theorem result (hA : ArgsReal (argsK m c)) : W33 m ρ c (Proc.devRef .tc main_v241) = Cert.ReferenceIdeal.Spec.OUT (argsK m c) := by
  refine (tail_out (W25 m ρ c)).trans ?_
  rw [hid4 m ρ c hA, show W25 m ρ c (Proc.devRef .tc main_arg2) = (argsK m c).a2 from ((W25_of_ne m ρ c main_arg2 (by decide)).trans ((keep_hostOps10_2 (W23 m ρ c) main_arg2 (by decide)).trans ((keep_hostOps10_1 (W22 m ρ c) main_arg2 (by decide)).trans ((keep_hostOps10 (W21 m ρ c) main_arg2 (by decide)).trans ((W21_of_ne m ρ c main_arg2 (by decide)).trans ((keep_hostOps9 (W19 m ρ c) main_arg2 (by decide)).trans ((W19_of_ne m ρ c main_arg2 (by decide)).trans ((W18_of_ne m ρ c main_arg2 (by decide)).trans ((keep_hostOps7_2 (W16 m ρ c) main_arg2 (by decide)).trans ((keep_hostOps7_1 (W15 m ρ c) main_arg2 (by decide)).trans ((keep_hostOps7 (W14 m ρ c) main_arg2 (by decide)).trans ((W14_of_ne m ρ c main_arg2 (by decide)).trans ((keep_hostOps6 (W12 m ρ c) main_arg2 (by decide)).trans ((W12_of_ne m ρ c main_arg2 (by decide)).trans ((W11_of_ne m ρ c main_arg2 (by decide)).trans ((keep_hostOps4_2 (W9 m ρ c) main_arg2 (by decide)).trans ((keep_hostOps4_1 (W8 m ρ c) main_arg2 (by decide)).trans ((keep_hostOps4 (W7 m ρ c) main_arg2 (by decide)).trans ((W7_of_ne m ρ c main_arg2 (by decide)).trans ((keep_hostOps3 (W5 m ρ c) main_arg2 (by decide)).trans ((W5_of_ne m ρ c main_arg2 (by decide)).trans ((W4_of_ne m ρ c main_arg2 (by decide)).trans ((keep_hostOps1 (W2 m ρ c) main_arg2 (by decide)).trans ((W2_of_ne m ρ c main_arg2 (by decide)).trans (keep_hostOps0 (W0 m ρ c) main_arg2 (by decide)))))))))))))))))))))))))),
    show W25 m ρ c (Proc.devRef .tc main_arg10) = (argsK m c).a10 from ((W25_of_ne m ρ c main_arg10 (by decide)).trans ((keep_hostOps10_2 (W23 m ρ c) main_arg10 (by decide)).trans ((keep_hostOps10_1 (W22 m ρ c) main_arg10 (by decide)).trans ((keep_hostOps10 (W21 m ρ c) main_arg10 (by decide)).trans ((W21_of_ne m ρ c main_arg10 (by decide)).trans ((keep_hostOps9 (W19 m ρ c) main_arg10 (by decide)).trans ((W19_of_ne m ρ c main_arg10 (by decide)).trans ((W18_of_ne m ρ c main_arg10 (by decide)).trans ((keep_hostOps7_2 (W16 m ρ c) main_arg10 (by decide)).trans ((keep_hostOps7_1 (W15 m ρ c) main_arg10 (by decide)).trans ((keep_hostOps7 (W14 m ρ c) main_arg10 (by decide)).trans ((W14_of_ne m ρ c main_arg10 (by decide)).trans ((keep_hostOps6 (W12 m ρ c) main_arg10 (by decide)).trans ((W12_of_ne m ρ c main_arg10 (by decide)).trans ((W11_of_ne m ρ c main_arg10 (by decide)).trans ((keep_hostOps4_2 (W9 m ρ c) main_arg10 (by decide)).trans ((keep_hostOps4_1 (W8 m ρ c) main_arg10 (by decide)).trans ((keep_hostOps4 (W7 m ρ c) main_arg10 (by decide)).trans ((W7_of_ne m ρ c main_arg10 (by decide)).trans ((keep_hostOps3 (W5 m ρ c) main_arg10 (by decide)).trans ((W5_of_ne m ρ c main_arg10 (by decide)).trans ((W4_of_ne m ρ c main_arg10 (by decide)).trans ((keep_hostOps1 (W2 m ρ c) main_arg10 (by decide)).trans ((W2_of_ne m ρ c main_arg10 (by decide)).trans (keep_hostOps0 (W0 m ρ c) main_arg10 (by decide)))))))))))))))))))))))))),
    show W25 m ρ c (Proc.devRef .tc main_arg11) = (argsK m c).a11 from ((W25_of_ne m ρ c main_arg11 (by decide)).trans ((keep_hostOps10_2 (W23 m ρ c) main_arg11 (by decide)).trans ((keep_hostOps10_1 (W22 m ρ c) main_arg11 (by decide)).trans ((keep_hostOps10 (W21 m ρ c) main_arg11 (by decide)).trans ((W21_of_ne m ρ c main_arg11 (by decide)).trans ((keep_hostOps9 (W19 m ρ c) main_arg11 (by decide)).trans ((W19_of_ne m ρ c main_arg11 (by decide)).trans ((W18_of_ne m ρ c main_arg11 (by decide)).trans ((keep_hostOps7_2 (W16 m ρ c) main_arg11 (by decide)).trans ((keep_hostOps7_1 (W15 m ρ c) main_arg11 (by decide)).trans ((keep_hostOps7 (W14 m ρ c) main_arg11 (by decide)).trans ((W14_of_ne m ρ c main_arg11 (by decide)).trans ((keep_hostOps6 (W12 m ρ c) main_arg11 (by decide)).trans ((W12_of_ne m ρ c main_arg11 (by decide)).trans ((W11_of_ne m ρ c main_arg11 (by decide)).trans ((keep_hostOps4_2 (W9 m ρ c) main_arg11 (by decide)).trans ((keep_hostOps4_1 (W8 m ρ c) main_arg11 (by decide)).trans ((keep_hostOps4 (W7 m ρ c) main_arg11 (by decide)).trans ((W7_of_ne m ρ c main_arg11 (by decide)).trans ((keep_hostOps3 (W5 m ρ c) main_arg11 (by decide)).trans ((W5_of_ne m ρ c main_arg11 (by decide)).trans ((W4_of_ne m ρ c main_arg11 (by decide)).trans ((keep_hostOps1 (W2 m ρ c) main_arg11 (by decide)).trans ((W2_of_ne m ρ c main_arg11 (by decide)).trans (keep_hostOps0 (W0 m ρ c) main_arg11 (by decide)))))))))))))))))))))))))),
    show W25 m ρ c (Proc.devRef .tc main_arg12) = (argsK m c).a12 from ((W25_of_ne m ρ c main_arg12 (by decide)).trans ((keep_hostOps10_2 (W23 m ρ c) main_arg12 (by decide)).trans ((keep_hostOps10_1 (W22 m ρ c) main_arg12 (by decide)).trans ((keep_hostOps10 (W21 m ρ c) main_arg12 (by decide)).trans ((W21_of_ne m ρ c main_arg12 (by decide)).trans ((keep_hostOps9 (W19 m ρ c) main_arg12 (by decide)).trans ((W19_of_ne m ρ c main_arg12 (by decide)).trans ((W18_of_ne m ρ c main_arg12 (by decide)).trans ((keep_hostOps7_2 (W16 m ρ c) main_arg12 (by decide)).trans ((keep_hostOps7_1 (W15 m ρ c) main_arg12 (by decide)).trans ((keep_hostOps7 (W14 m ρ c) main_arg12 (by decide)).trans ((W14_of_ne m ρ c main_arg12 (by decide)).trans ((keep_hostOps6 (W12 m ρ c) main_arg12 (by decide)).trans ((W12_of_ne m ρ c main_arg12 (by decide)).trans ((W11_of_ne m ρ c main_arg12 (by decide)).trans ((keep_hostOps4_2 (W9 m ρ c) main_arg12 (by decide)).trans ((keep_hostOps4_1 (W8 m ρ c) main_arg12 (by decide)).trans ((keep_hostOps4 (W7 m ρ c) main_arg12 (by decide)).trans ((W7_of_ne m ρ c main_arg12 (by decide)).trans ((keep_hostOps3 (W5 m ρ c) main_arg12 (by decide)).trans ((W5_of_ne m ρ c main_arg12 (by decide)).trans ((W4_of_ne m ρ c main_arg12 (by decide)).trans ((keep_hostOps1 (W2 m ρ c) main_arg12 (by decide)).trans ((W2_of_ne m ρ c main_arg12 (by decide)).trans (keep_hostOps0 (W0 m ρ c) main_arg12 (by decide)))))))))))))))))))))))))),
    show W25 m ρ c (Proc.devRef .tc main_arg13) = (argsK m c).a13 from ((W25_of_ne m ρ c main_arg13 (by decide)).trans ((keep_hostOps10_2 (W23 m ρ c) main_arg13 (by decide)).trans ((keep_hostOps10_1 (W22 m ρ c) main_arg13 (by decide)).trans ((keep_hostOps10 (W21 m ρ c) main_arg13 (by decide)).trans ((W21_of_ne m ρ c main_arg13 (by decide)).trans ((keep_hostOps9 (W19 m ρ c) main_arg13 (by decide)).trans ((W19_of_ne m ρ c main_arg13 (by decide)).trans ((W18_of_ne m ρ c main_arg13 (by decide)).trans ((keep_hostOps7_2 (W16 m ρ c) main_arg13 (by decide)).trans ((keep_hostOps7_1 (W15 m ρ c) main_arg13 (by decide)).trans ((keep_hostOps7 (W14 m ρ c) main_arg13 (by decide)).trans ((W14_of_ne m ρ c main_arg13 (by decide)).trans ((keep_hostOps6 (W12 m ρ c) main_arg13 (by decide)).trans ((W12_of_ne m ρ c main_arg13 (by decide)).trans ((W11_of_ne m ρ c main_arg13 (by decide)).trans ((keep_hostOps4_2 (W9 m ρ c) main_arg13 (by decide)).trans ((keep_hostOps4_1 (W8 m ρ c) main_arg13 (by decide)).trans ((keep_hostOps4 (W7 m ρ c) main_arg13 (by decide)).trans ((W7_of_ne m ρ c main_arg13 (by decide)).trans ((keep_hostOps3 (W5 m ρ c) main_arg13 (by decide)).trans ((W5_of_ne m ρ c main_arg13 (by decide)).trans ((W4_of_ne m ρ c main_arg13 (by decide)).trans ((keep_hostOps1 (W2 m ρ c) main_arg13 (by decide)).trans ((W2_of_ne m ρ c main_arg13 (by decide)).trans (keep_hostOps0 (W0 m ρ c) main_arg13 (by decide)))))))))))))))))))))))))),
    show W25 m ρ c (Proc.devRef .tc main_arg14) = (argsK m c).a14 from ((W25_of_ne m ρ c main_arg14 (by decide)).trans ((keep_hostOps10_2 (W23 m ρ c) main_arg14 (by decide)).trans ((keep_hostOps10_1 (W22 m ρ c) main_arg14 (by decide)).trans ((keep_hostOps10 (W21 m ρ c) main_arg14 (by decide)).trans ((W21_of_ne m ρ c main_arg14 (by decide)).trans ((keep_hostOps9 (W19 m ρ c) main_arg14 (by decide)).trans ((W19_of_ne m ρ c main_arg14 (by decide)).trans ((W18_of_ne m ρ c main_arg14 (by decide)).trans ((keep_hostOps7_2 (W16 m ρ c) main_arg14 (by decide)).trans ((keep_hostOps7_1 (W15 m ρ c) main_arg14 (by decide)).trans ((keep_hostOps7 (W14 m ρ c) main_arg14 (by decide)).trans ((W14_of_ne m ρ c main_arg14 (by decide)).trans ((keep_hostOps6 (W12 m ρ c) main_arg14 (by decide)).trans ((W12_of_ne m ρ c main_arg14 (by decide)).trans ((W11_of_ne m ρ c main_arg14 (by decide)).trans ((keep_hostOps4_2 (W9 m ρ c) main_arg14 (by decide)).trans ((keep_hostOps4_1 (W8 m ρ c) main_arg14 (by decide)).trans ((keep_hostOps4 (W7 m ρ c) main_arg14 (by decide)).trans ((W7_of_ne m ρ c main_arg14 (by decide)).trans ((keep_hostOps3 (W5 m ρ c) main_arg14 (by decide)).trans ((W5_of_ne m ρ c main_arg14 (by decide)).trans ((W4_of_ne m ρ c main_arg14 (by decide)).trans ((keep_hostOps1 (W2 m ρ c) main_arg14 (by decide)).trans ((W2_of_ne m ρ c main_arg14 (by decide)).trans (keep_hostOps0 (W0 m ρ c) main_arg14 (by decide)))))))))))))))))))))))))),
    show W25 m ρ c (Proc.devRef .tc main_arg15) = (argsK m c).a15 from ((W25_of_ne m ρ c main_arg15 (by decide)).trans ((keep_hostOps10_2 (W23 m ρ c) main_arg15 (by decide)).trans ((keep_hostOps10_1 (W22 m ρ c) main_arg15 (by decide)).trans ((keep_hostOps10 (W21 m ρ c) main_arg15 (by decide)).trans ((W21_of_ne m ρ c main_arg15 (by decide)).trans ((keep_hostOps9 (W19 m ρ c) main_arg15 (by decide)).trans ((W19_of_ne m ρ c main_arg15 (by decide)).trans ((W18_of_ne m ρ c main_arg15 (by decide)).trans ((keep_hostOps7_2 (W16 m ρ c) main_arg15 (by decide)).trans ((keep_hostOps7_1 (W15 m ρ c) main_arg15 (by decide)).trans ((keep_hostOps7 (W14 m ρ c) main_arg15 (by decide)).trans ((W14_of_ne m ρ c main_arg15 (by decide)).trans ((keep_hostOps6 (W12 m ρ c) main_arg15 (by decide)).trans ((W12_of_ne m ρ c main_arg15 (by decide)).trans ((W11_of_ne m ρ c main_arg15 (by decide)).trans ((keep_hostOps4_2 (W9 m ρ c) main_arg15 (by decide)).trans ((keep_hostOps4_1 (W8 m ρ c) main_arg15 (by decide)).trans ((keep_hostOps4 (W7 m ρ c) main_arg15 (by decide)).trans ((W7_of_ne m ρ c main_arg15 (by decide)).trans ((keep_hostOps3 (W5 m ρ c) main_arg15 (by decide)).trans ((W5_of_ne m ρ c main_arg15 (by decide)).trans ((W4_of_ne m ρ c main_arg15 (by decide)).trans ((keep_hostOps1 (W2 m ρ c) main_arg15 (by decide)).trans ((W2_of_ne m ρ c main_arg15 (by decide)).trans (keep_hostOps0 (W0 m ρ c) main_arg15 (by decide)))))))))))))))))))))))))),
    show W25 m ρ c (Proc.devRef .tc main_arg16) = (argsK m c).a16 from ((W25_of_ne m ρ c main_arg16 (by decide)).trans ((keep_hostOps10_2 (W23 m ρ c) main_arg16 (by decide)).trans ((keep_hostOps10_1 (W22 m ρ c) main_arg16 (by decide)).trans ((keep_hostOps10 (W21 m ρ c) main_arg16 (by decide)).trans ((W21_of_ne m ρ c main_arg16 (by decide)).trans ((keep_hostOps9 (W19 m ρ c) main_arg16 (by decide)).trans ((W19_of_ne m ρ c main_arg16 (by decide)).trans ((W18_of_ne m ρ c main_arg16 (by decide)).trans ((keep_hostOps7_2 (W16 m ρ c) main_arg16 (by decide)).trans ((keep_hostOps7_1 (W15 m ρ c) main_arg16 (by decide)).trans ((keep_hostOps7 (W14 m ρ c) main_arg16 (by decide)).trans ((W14_of_ne m ρ c main_arg16 (by decide)).trans ((keep_hostOps6 (W12 m ρ c) main_arg16 (by decide)).trans ((W12_of_ne m ρ c main_arg16 (by decide)).trans ((W11_of_ne m ρ c main_arg16 (by decide)).trans ((keep_hostOps4_2 (W9 m ρ c) main_arg16 (by decide)).trans ((keep_hostOps4_1 (W8 m ρ c) main_arg16 (by decide)).trans ((keep_hostOps4 (W7 m ρ c) main_arg16 (by decide)).trans ((W7_of_ne m ρ c main_arg16 (by decide)).trans ((keep_hostOps3 (W5 m ρ c) main_arg16 (by decide)).trans ((W5_of_ne m ρ c main_arg16 (by decide)).trans ((W4_of_ne m ρ c main_arg16 (by decide)).trans ((keep_hostOps1 (W2 m ρ c) main_arg16 (by decide)).trans ((W2_of_ne m ρ c main_arg16 (by decide)).trans (keep_hostOps0 (W0 m ρ c) main_arg16 (by decide)))))))))))))))))))))))))),
    show W25 m ρ c (Proc.devRef .tc main_arg17) = (argsK m c).a17 from ((W25_of_ne m ρ c main_arg17 (by decide)).trans ((keep_hostOps10_2 (W23 m ρ c) main_arg17 (by decide)).trans ((keep_hostOps10_1 (W22 m ρ c) main_arg17 (by decide)).trans ((keep_hostOps10 (W21 m ρ c) main_arg17 (by decide)).trans ((W21_of_ne m ρ c main_arg17 (by decide)).trans ((keep_hostOps9 (W19 m ρ c) main_arg17 (by decide)).trans ((W19_of_ne m ρ c main_arg17 (by decide)).trans ((W18_of_ne m ρ c main_arg17 (by decide)).trans ((keep_hostOps7_2 (W16 m ρ c) main_arg17 (by decide)).trans ((keep_hostOps7_1 (W15 m ρ c) main_arg17 (by decide)).trans ((keep_hostOps7 (W14 m ρ c) main_arg17 (by decide)).trans ((W14_of_ne m ρ c main_arg17 (by decide)).trans ((keep_hostOps6 (W12 m ρ c) main_arg17 (by decide)).trans ((W12_of_ne m ρ c main_arg17 (by decide)).trans ((W11_of_ne m ρ c main_arg17 (by decide)).trans ((keep_hostOps4_2 (W9 m ρ c) main_arg17 (by decide)).trans ((keep_hostOps4_1 (W8 m ρ c) main_arg17 (by decide)).trans ((keep_hostOps4 (W7 m ρ c) main_arg17 (by decide)).trans ((W7_of_ne m ρ c main_arg17 (by decide)).trans ((keep_hostOps3 (W5 m ρ c) main_arg17 (by decide)).trans ((W5_of_ne m ρ c main_arg17 (by decide)).trans ((W4_of_ne m ρ c main_arg17 (by decide)).trans ((keep_hostOps1 (W2 m ρ c) main_arg17 (by decide)).trans ((W2_of_ne m ρ c main_arg17 (by decide)).trans (keep_hostOps0 (W0 m ρ c) main_arg17 (by decide))))))))))))))))))))))))))]
  rfl

end Cert.KernelIdeal.KChain

end
-- ==== Proof.RefRun.lean ====
/-
  The reference program's run, read back as a fold over its host operations.

  The reference is one straight line of 506 host operations once the functions it calls (the variance, the
  rectifier, the selection, the logarithm of the softmax) are written out at their call sites. The line is cut where the
  printed program is cut and where one stage of the computation ends, into thirteen pieces; the program is the pieces in sequence, so every weakly fair execution
  terminates with each buffer at the fold of the operations over the launch contents.
  (The six lists below are the printed statements of @main, transcribed in order with each call replaced by the callee's
  statements over that call's buffers.)
-/
import proofs.«169240_j69947837383264_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Piece 0: operations 0 … 51. -/
abbrev q0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    binary main_arg0 main_cst main_v4 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_0 (constant S_ .f32 0x47435000#32),
    unary main_cst_0 main_v5 (broadcastInDim S128 ![] bcast_S_S128 : (⟨S_, .f32⟩ : BufTy).Contents (Elt F) → (⟨S128, .f32⟩ : BufTy).Contents (Elt F)),
    binary main_v4 main_v5 main_v6 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_arg0 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_arg0 : TRef sig ⟨S50000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0_call0.v0 id,
    TRef.unary main_call0_call0.v0 main_call0_call0.v1 (broadcastInDim S128 ![] bcast_S_S128),
    TRef.ternary main_call0.v12 main_call0.v11 main_call0_call0.v1 main_call0_call0.v2 (fun p a b => select (broadcastInDim S128 ![] bcast_S_S128 p) a b),
    unary main_v6 main_v8 (broadcastInDim S1x128 ![1] bcast_S128_S1x128_1 : (⟨S128, .f32⟩ : BufTy).Contents (Elt F) → (⟨S1x128, .f32⟩ : BufTy).Contents (Elt F)),
    unary main_v8 main_v9 (broadcastInDim S50000x128 ![0, 1] bcast_S1x128_S50000x128_0_1 : (⟨S1x128, .f32⟩ : BufTy).Contents (Elt F) → (⟨S50000x128, .f32⟩ : BufTy).Contents (Elt F)),
    binary main_arg0 main_v9 main_v10 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v11 (broadcastInDim S128 ![] bcast_S_S128 : (⟨S_, .f32⟩ : BufTy).Contents (Elt F) → (⟨S128, .f32⟩ : BufTy).Contents (Elt F)),
    binary main_v7 main_v11 main_v12 (addf : (⟨S128, .f32⟩ : BufTy).Contents (Elt F) → (⟨S128, .f32⟩ : BufTy).Contents (Elt F) → (⟨S128, .f32⟩ : BufTy).Contents (Elt F)),
    unary main_v12 main_v13 (Host.rsqrt : (⟨S128, .f32⟩ : BufTy).Contents (Elt F) → (⟨S128, .f32⟩ : BufTy).Contents (Elt F)),
    unary main_v13 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v10 main_v15 main_v16 (mulf : (⟨S50000x128, .f32⟩ : BufTy).Contents (Elt F) → (⟨S50000x128, .f32⟩ : BufTy).Contents (Elt F) → (⟨S50000x128, .f32⟩ : BufTy).Contents (Elt F)),
    unary main_arg3 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (mulf : (⟨S50000x128, .f32⟩ : BufTy).Contents (Elt F) → (⟨S50000x128, .f32⟩ : BufTy).Contents (Elt F) → (⟨S50000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (addf : (⟨S50000x128, .f32⟩ : BufTy).Contents (Elt F) → (⟨S50000x128, .f32⟩ : BufTy).Contents (Elt F) → (⟨S50000x128, .f32⟩ : BufTy).Contents (Elt F)),
    binary main_v22 main_arg5 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v23 : TRef sig ⟨S50000x128, .f32⟩) main_call1.v0 main_call1.v1 maximumf ]

/-- Piece 1: operations 52 … 103. -/
abbrev q1 : List (HloOp τ sig (Elt F)) :=
  [ unary main_arg6 main_v25 ((extractStridedSlice S1x128 ![0, 0] · slices_S3x128_S1x128_0_0) : (⟨S3x128, .f32⟩ : BufTy).Contents (Elt F) → (⟨S1x128, .f32⟩ : BufTy).Contents (Elt F)),
    reshape main_v25 main_v26 rfl shapeCasts_S1x128_S128,
    unary main_arg7 main_v27 ((extractStridedSlice S1x128 ![0, 0] · slices_S3x128_S1x128_0_0) : (⟨S3x128, .f32⟩ : BufTy).Contents (Elt F) → (⟨S1x128, .f32⟩ : BufTy).Contents (Elt F)),
    reshape main_v27 main_v28 rfl shapeCasts_S1x128_S128,
    nullary main_cst_2 (constant S_ .f32 0x00000000#32),
    binary main_v24 main_cst_2 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary (.of main_v24 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v24 : TRef sig ⟨S50000x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S128 ![] bcast_S_S128),
    TRef.ternary main_call2.v12 main_call2.v11 main_call2_call0.v1 main_call2_call0.v2 (fun p a b => select (broadcastInDim S128 ![] bcast_S_S128 p) a b),
    unary main_v31 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v24 main_v34 main_v35 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v36 (broadcastInDim S128 ![] bcast_S_S128 : (⟨S_, .f32⟩ : BufTy).Contents (Elt F) → (⟨S128, .f32⟩ : BufTy).Contents (Elt F)),
    binary main_v32 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v35 main_v40 main_v41 (mulf : (⟨S50000x128, .f32⟩ : BufTy).Contents (Elt F) → (⟨S50000x128, .f32⟩ : BufTy).Contents (Elt F) → (⟨S50000x128, .f32⟩ : BufTy).Contents (Elt F)),
    unary main_v26 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (mulf : (⟨S50000x128, .f32⟩ : BufTy).Contents (Elt F) → (⟨S50000x128, .f32⟩ : BufTy).Contents (Elt F) → (⟨S50000x128, .f32⟩ : BufTy).Contents (Elt F)),
    unary main_v28 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg8 main_v48 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v48 main_v49 rfl shapeCasts_S1x128x128_S128x128,
    unary main_arg9 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128 ]

/-- Piece 2: operations 104 … 104. -/
abbrev q2 : List (HloOp τ sig (Elt F)) :=
  [ binary main_v47 main_v49 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Piece 3: operations 105 … 163. -/
abbrev q3 : List (HloOp τ sig (Elt F)) :=
  [ nullary main_v53 (iotaInDim S50000 32 0),
    binary main_v1 main_v53 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v53 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_6 (constant S_ .f32 0x3F800000#32),
    unary main_cst_6 main_v56 (broadcastInDim S850000 ![] bcast_S_S850000 : (⟨S_, .f32⟩ : BufTy).Contents (Elt F) → (⟨S850000, .f32⟩ : BufTy).Contents (Elt F)),
    nullary main_cst_7 (constant S_ .f32 0x00000000#32),
    unary main_cst_7 main_v57 (broadcastInDim S50000 ![] bcast_S_S50000 : (⟨S_, .f32⟩ : BufTy).Contents (Elt F) → (⟨S50000, .f32⟩ : BufTy).Contents (Elt F)),
    unary main_v54 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_8 (constant S_ .f32 0x00000000#32),
    unary main_cst_8 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_9 (constant S_ .f32 0x00000000#32),
    TRef.unary (.of main_cst_9 : TRef sig ⟨S_, .f32⟩) main_call3.v0 id,
    TRef.unary main_call3.v0 main_call3.v1 (broadcastInDim S50000 ![] bcast_S_S50000),
    TRef.ternary (.of main_v61 : TRef sig ⟨S50000, .i1⟩) (.of main_v62 : TRef sig ⟨S50000, .f32⟩) main_call3.v1 main_call3.v2 select,
    nullary main_c_10 (constantI S_ 32 0#32),
    unary main_c_10 main_v64 (broadcastInDim S850000 ![] bcast_S_S850000 : (⟨S_, .i32⟩ : BufTy).Contents (Elt F) → (⟨S850000, .i32⟩ : BufTy).Contents (Elt F)),
    binary main_v54 main_v64 main_v65 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v66 (broadcastInDim S850000 ![] bcast_S_S850000 : (⟨S_, .i32⟩ : BufTy).Contents (Elt F) → (⟨S850000, .i32⟩ : BufTy).Contents (Elt F)),
    binary main_v54 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v54 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v56 main_v71 (mulf : (⟨S850000, .f32⟩ : BufTy).Contents (Elt F) → (⟨S850000, .f32⟩ : BufTy).Contents (Elt F) → (⟨S850000, .f32⟩ : BufTy).Contents (Elt F)),
    nullary main_c_12 (constantI S_ 32 0#32),
    unary main_c_12 main_v72 (broadcastInDim S850000 ![] bcast_S_S850000 : (⟨S_, .i32⟩ : BufTy).Contents (Elt F) → (⟨S850000, .i32⟩ : BufTy).Contents (Elt F)),
    binary main_v55 main_v72 main_v73 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v74 (broadcastInDim S850000 ![] bcast_S_S850000 : (⟨S_, .i32⟩ : BufTy).Contents (Elt F) → (⟨S850000, .i32⟩ : BufTy).Contents (Elt F)),
    binary main_v55 main_v74 main_v75 (addi : (⟨S850000, .i32⟩ : BufTy).Contents (Elt F) → (⟨S850000, .i32⟩ : BufTy).Contents (Elt F) → (⟨S850000, .i32⟩ : BufTy).Contents (Elt F)),
    ternary main_v73 main_v75 main_v55 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v76 main_v77 (broadcastInDim S850000x1 ![0] bcast_S850000_S850000x1_0 : (⟨S850000, .i32⟩ : BufTy).Contents (Elt F) → (⟨S850000x1, .i32⟩ : BufTy).Contents (Elt F)),
    binary main_v63 main_v77 main_v78 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v71 main_v78 main_v79 (mulf : (⟨S850000, .f32⟩ : BufTy).Contents (Elt F) → (⟨S850000, .f32⟩ : BufTy).Contents (Elt F) → (⟨S850000, .f32⟩ : BufTy).Contents (Elt F)),
    nullary main_c_14 (constantI S_ 32 0#32),
    unary main_c_14 main_v80 (broadcastInDim S850000 ![] bcast_S_S850000 : (⟨S_, .i32⟩ : BufTy).Contents (Elt F) → (⟨S850000, .i32⟩ : BufTy).Contents (Elt F)),
    binary main_v54 main_v80 main_v81 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v82 (broadcastInDim S850000 ![] bcast_S_S850000 : (⟨S_, .i32⟩ : BufTy).Contents (Elt F) → (⟨S850000, .i32⟩ : BufTy).Contents (Elt F)),
    binary main_v54 main_v82 main_v83 (addi : (⟨S850000, .i32⟩ : BufTy).Contents (Elt F) → (⟨S850000, .i32⟩ : BufTy).Contents (Elt F) → (⟨S850000, .i32⟩ : BufTy).Contents (Elt F)),
    ternary main_v81 main_v83 main_v54 main_v84 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v84 main_v85 (broadcastInDim S850000x1 ![0] bcast_S850000_S850000x1_0 : (⟨S850000, .i32⟩ : BufTy).Contents (Elt F) → (⟨S850000x1, .i32⟩ : BufTy).Contents (Elt F)),
    binary main_v52 main_v85 main_v86 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v79 main_v87 (broadcastInDim S850000x1 ![0] bcast_S850000_S850000x1_0 : (⟨S850000, .f32⟩ : BufTy).Contents (Elt F) → (⟨S850000x1, .f32⟩ : BufTy).Contents (Elt F)),
    unary main_v87 main_v88 (broadcastInDim S850000x128 ![0, 1] bcast_S850000x1_S850000x128_0_1 : (⟨S850000x1, .f32⟩ : BufTy).Contents (Elt F) → (⟨S850000x128, .f32⟩ : BufTy).Contents (Elt F)),
    binary main_v86 main_v88 main_v89 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v90 (broadcastInDim S50000x128 ![] bcast_S_S50000x128 : (⟨S_, .f32⟩ : BufTy).Contents (Elt F) → (⟨S50000x128, .f32⟩ : BufTy).Contents (Elt F)),
    unary main_v55 main_v91 (broadcastInDim S850000x1 ![0] bcast_S850000_S850000x1_0 : (⟨S850000, .i32⟩ : BufTy).Contents (Elt F) → (⟨S850000x1, .i32⟩ : BufTy).Contents (Elt F)),
    ternary main_v90 main_v91 main_v89 main_v92 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v51 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v95 : TRef sig ⟨S50000x128, .f32⟩) main_call4.v0 main_call4.v1 maximumf ]

/-- Piece 4: operations 164 … 167. -/
abbrev q4 : List (HloOp τ sig (Elt F)) :=
  [ unary main_arg6 main_v97 ((extractStridedSlice S1x128 ![1, 0] · slices_S3x128_S1x128_1_0) : (⟨S3x128, .f32⟩ : BufTy).Contents (Elt F) → (⟨S1x128, .f32⟩ : BufTy).Contents (Elt F)),
    reshape main_v97 main_v98 rfl shapeCasts_S1x128_S128,
    unary main_arg7 main_v99 ((extractStridedSlice S1x128 ![1, 0] · slices_S3x128_S1x128_1_0) : (⟨S3x128, .f32⟩ : BufTy).Contents (Elt F) → (⟨S1x128, .f32⟩ : BufTy).Contents (Elt F)),
    reshape main_v99 main_v100 rfl shapeCasts_S1x128_S128 ]

/-- Piece 5: operations 168 … 216. -/
abbrev q5 : List (HloOp τ sig (Elt F)) :=
  [ nullary main_cst_17 (constant S_ .f32 0x00000000#32),
    binary main_v96 main_cst_17 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)),
    nullary main_c_19 (constantI S_ 32 0#32),
    TRef.nullary main_call5.cst (constant S_ .f32 0x00000000#32),
    TRef.binary (.of main_v96 : TRef sig ⟨S50000x128, .f32⟩) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (.of main_v96 : TRef sig ⟨S50000x128, .f32⟩) main_call5.v4 main_call5.v5 subf,
    TRef.binary main_call5.v5 main_call5.v5 main_call5.v6 mulf,
    TRef.unary (.of main_c_19 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5_call0.v0 id,
    TRef.unary main_call5_call0.v0 main_call5_call0.v1 (broadcastInDim S128 ![] bcast_S_S128),
    TRef.ternary main_call5.v12 main_call5.v11 main_call5_call0.v1 main_call5_call0.v2 (fun p a b => select (broadcastInDim S128 ![] bcast_S_S128 p) a b),
    unary main_v103 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v96 main_v106 main_v107 (subf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3727C5AC#32),
    unary main_cst_20 main_v108 (broadcastInDim S128 ![] bcast_S_S128 : (⟨S_, .f32⟩ : BufTy).Contents (Elt F) → (⟨S128, .f32⟩ : BufTy).Contents (Elt F)),
    binary main_v104 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v107 main_v112 main_v113 (mulf : (⟨S50000x128, .f32⟩ : BufTy).Contents (Elt F) → (⟨S50000x128, .f32⟩ : BufTy).Contents (Elt F) → (⟨S50000x128, .f32⟩ : BufTy).Contents (Elt F)),
    unary main_v98 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (mulf : (⟨S50000x128, .f32⟩ : BufTy).Contents (Elt F) → (⟨S50000x128, .f32⟩ : BufTy).Contents (Elt F) → (⟨S50000x128, .f32⟩ : BufTy).Contents (Elt F)),
    unary main_v100 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    unary main_arg8 main_v120 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v120 main_v121 rfl shapeCasts_S1x128x128_S128x128,
    unary main_arg9 main_v122 ((extractStridedSlice S1x128 ![1, 0] · slices_S3x128_S1x128_1_0) : (⟨S3x128, .f32⟩ : BufTy).Contents (Elt F) → (⟨S1x128, .f32⟩ : BufTy).Contents (Elt F)),
    reshape main_v122 main_v123 rfl shapeCasts_S1x128_S128,
    binary main_v119 main_v121 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Piece 6: operations 217 … 250. -/
abbrev q6 : List (HloOp τ sig (Elt F)) :=
  [ nullary main_v125 (iotaInDim S50000 32 0),
    binary main_v1 main_v125 main_v126 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v125 main_v127 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_21 (constant S_ .f32 0x3F800000#32),
    unary main_cst_21 main_v128 (broadcastInDim S850000 ![] bcast_S_S850000 : (⟨S_, .f32⟩ : BufTy).Contents (Elt F) → (⟨S850000, .f32⟩ : BufTy).Contents (Elt F)),
    nullary main_cst_22 (constant S_ .f32 0x00000000#32),
    unary main_cst_22 main_v129 (broadcastInDim S50000 ![] bcast_S_S50000 : (⟨S_, .f32⟩ : BufTy).Contents (Elt F) → (⟨S50000, .f32⟩ : BufTy).Contents (Elt F)),
    unary main_v126 main_v130 (broadcastInDim S850000x1 ![0] bcast_S850000_S850000x1_0 : (⟨S850000, .i32⟩ : BufTy).Contents (Elt F) → (⟨S850000x1, .i32⟩ : BufTy).Contents (Elt F)),
    ternary main_v129 main_v130 main_v128 main_v131 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_23 (constant S_ .f32 0x00000000#32),
    unary main_cst_23 main_v132 (broadcastInDim S50000 ![] bcast_S_S50000 : (⟨S_, .f32⟩ : BufTy).Contents (Elt F) → (⟨S50000, .f32⟩ : BufTy).Contents (Elt F)),
    binary main_v131 main_v132 main_v133 (cmpf .ogt : (⟨S50000, .f32⟩ : BufTy).Contents (Elt F) → (⟨S50000, .f32⟩ : BufTy).Contents (Elt F) → (⟨S50000, .i1⟩ : BufTy).Contents (Elt F)),
    unary main_v131 main_v134 (Host.rsqrt : (⟨S50000, .f32⟩ : BufTy).Contents (Elt F) → (⟨S50000, .f32⟩ : BufTy).Contents (Elt F)),
    nullary main_cst_24 (constant S_ .f32 0x00000000#32),
    TRef.unary (.of main_cst_24 : TRef sig ⟨S_, .f32⟩) main_call6.v0 id,
    TRef.unary main_call6.v0 main_call6.v1 (broadcastInDim S50000 ![] bcast_S_S50000),
    TRef.ternary (.of main_v133 : TRef sig ⟨S50000, .i1⟩) (.of main_v134 : TRef sig ⟨S50000, .f32⟩) main_call6.v1 main_call6.v2 select,
    nullary main_c_25 (constantI S_ 32 0#32),
    unary main_c_25 main_v136 (broadcastInDim S850000 ![] bcast_S_S850000 : (⟨S_, .i32⟩ : BufTy).Contents (Elt F) → (⟨S850000, .i32⟩ : BufTy).Contents (Elt F)),
    binary main_v126 main_v136 main_v137 (cmpi .slt : (⟨S850000, .i32⟩ : BufTy).Contents (Elt F) → (⟨S850000, .i32⟩ : BufTy).Contents (Elt F) → (⟨S850000, .i1⟩ : BufTy).Contents (Elt F)),
    nullary main_c_26 (constantI S_ 32 50000#32),
    unary main_c_26 main_v138 (broadcastInDim S850000 ![] bcast_S_S850000 : (⟨S_, .i32⟩ : BufTy).Contents (Elt F) → (⟨S850000, .i32⟩ : BufTy).Contents (Elt F)),
    binary main_v126 main_v138 main_v139 (addi : (⟨S850000, .i32⟩ : BufTy).Contents (Elt F) → (⟨S850000, .i32⟩ : BufTy).Contents (Elt F) → (⟨S850000, .i32⟩ : BufTy).Contents (Elt F)),
    ternary main_v137 main_v139 main_v126 main_v140 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v140 main_v141 (broadcastInDim S850000x1 ![0] bcast_S850000_S850000x1_0 : (⟨S850000, .i32⟩ : BufTy).Contents (Elt F) → (⟨S850000x1, .i32⟩ : BufTy).Contents (Elt F)),
    binary main_v135 main_v141 main_v142 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v142 main_v128 main_v143 (mulf : (⟨S850000, .f32⟩ : BufTy).Contents (Elt F) → (⟨S850000, .f32⟩ : BufTy).Contents (Elt F) → (⟨S850000, .f32⟩ : BufTy).Contents (Elt F)),
    nullary main_c_27 (constantI S_ 32 0#32),
    unary main_c_27 main_v144 (broadcastInDim S850000 ![] bcast_S_S850000 : (⟨S_, .i32⟩ : BufTy).Contents (Elt F) → (⟨S850000, .i32⟩ : BufTy).Contents (Elt F)),
    binary main_v127 main_v144 main_v145 (cmpi .slt : (⟨S850000, .i32⟩ : BufTy).Contents (Elt F) → (⟨S850000, .i32⟩ : BufTy).Contents (Elt F) → (⟨S850000, .i1⟩ : BufTy).Contents (Elt F)),
    nullary main_c_28 (constantI S_ 32 50000#32),
    unary main_c_28 main_v146 (broadcastInDim S850000 ![] bcast_S_S850000 : (⟨S_, .i32⟩ : BufTy).Contents (Elt F) → (⟨S850000, .i32⟩ : BufTy).Contents (Elt F)),
    binary main_v127 main_v146 main_v147 (addi : (⟨S850000, .i32⟩ : BufTy).Contents (Elt F) → (⟨S850000, .i32⟩ : BufTy).Contents (Elt F) → (⟨S850000, .i32⟩ : BufTy).Contents (Elt F)),
    ternary main_v145 main_v147 main_v127 main_v148 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ]

/-- Piece 7: operations 251 … 275. -/
abbrev q7 : List (HloOp τ sig (Elt F)) :=
  [ unary main_v148 main_v149 (broadcastInDim S850000x1 ![0] bcast_S850000_S850000x1_0 : (⟨S850000, .i32⟩ : BufTy).Contents (Elt F) → (⟨S850000x1, .i32⟩ : BufTy).Contents (Elt F)),
    binary main_v135 main_v149 main_v150 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v143 main_v150 main_v151 (mulf : (⟨S850000, .f32⟩ : BufTy).Contents (Elt F) → (⟨S850000, .f32⟩ : BufTy).Contents (Elt F) → (⟨S850000, .f32⟩ : BufTy).Contents (Elt F)),
    nullary main_c_29 (constantI S_ 32 0#32),
    unary main_c_29 main_v152 (broadcastInDim S850000 ![] bcast_S_S850000 : (⟨S_, .i32⟩ : BufTy).Contents (Elt F) → (⟨S850000, .i32⟩ : BufTy).Contents (Elt F)),
    binary main_v126 main_v152 main_v153 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v154 (broadcastInDim S850000 ![] bcast_S_S850000 : (⟨S_, .i32⟩ : BufTy).Contents (Elt F) → (⟨S850000, .i32⟩ : BufTy).Contents (Elt F)),
    binary main_v126 main_v154 main_v155 (addi : (⟨S850000, .i32⟩ : BufTy).Contents (Elt F) → (⟨S850000, .i32⟩ : BufTy).Contents (Elt F) → (⟨S850000, .i32⟩ : BufTy).Contents (Elt F)),
    ternary main_v153 main_v155 main_v126 main_v156 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v156 main_v157 (broadcastInDim S850000x1 ![0] bcast_S850000_S850000x1_0 : (⟨S850000, .i32⟩ : BufTy).Contents (Elt F) → (⟨S850000x1, .i32⟩ : BufTy).Contents (Elt F)),
    binary main_v124 main_v157 main_v158 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v151 main_v159 (broadcastInDim S850000x1 ![0] bcast_S850000_S850000x1_0 : (⟨S850000, .f32⟩ : BufTy).Contents (Elt F) → (⟨S850000x1, .f32⟩ : BufTy).Contents (Elt F)),
    unary main_v159 main_v160 (broadcastInDim S850000x128 ![0, 1] bcast_S850000x1_S850000x128_0_1 : (⟨S850000x1, .f32⟩ : BufTy).Contents (Elt F) → (⟨S850000x128, .f32⟩ : BufTy).Contents (Elt F)),
    binary main_v158 main_v160 main_v161 (mulf : (⟨S850000x128, .f32⟩ : BufTy).Contents (Elt F) → (⟨S850000x128, .f32⟩ : BufTy).Contents (Elt F) → (⟨S850000x128, .f32⟩ : BufTy).Contents (Elt F)),
    nullary main_cst_31 (constant S_ .f32 0x00000000#32),
    unary main_cst_31 main_v162 (broadcastInDim S50000x128 ![] bcast_S_S50000x128 : (⟨S_, .f32⟩ : BufTy).Contents (Elt F) → (⟨S50000x128, .f32⟩ : BufTy).Contents (Elt F)),
    unary main_v127 main_v163 (broadcastInDim S850000x1 ![0] bcast_S850000_S850000x1_0 : (⟨S850000, .i32⟩ : BufTy).Contents (Elt F) → (⟨S850000x1, .i32⟩ : BufTy).Contents (Elt F)),
    ternary main_v162 main_v163 main_v161 main_v164 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v123 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v164 main_v166 main_v167 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v167 : TRef sig ⟨S50000x128, .f32⟩) main_call7.v0 main_call7.v1 maximumf ]

/-- Piece 8: operations 276 … 328. -/
abbrev q8 : List (HloOp τ sig (Elt F)) :=
  [ unary main_arg6 main_v169 ((extractStridedSlice S1x128 ![2, 0] · slices_S3x128_S1x128_2_0) : (⟨S3x128, .f32⟩ : BufTy).Contents (Elt F) → (⟨S1x128, .f32⟩ : BufTy).Contents (Elt F)),
    reshape main_v169 main_v170 rfl shapeCasts_S1x128_S128,
    unary main_arg7 main_v171 ((extractStridedSlice S1x128 ![2, 0] · slices_S3x128_S1x128_2_0) : (⟨S3x128, .f32⟩ : BufTy).Contents (Elt F) → (⟨S1x128, .f32⟩ : BufTy).Contents (Elt F)),
    reshape main_v171 main_v172 rfl shapeCasts_S1x128_S128,
    nullary main_cst_32 (constant S_ .f32 0x00000000#32),
    binary main_v168 main_cst_32 main_v173 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_33 (constant S_ .f32 0x47435000#32),
    unary main_cst_33 main_v174 (broadcastInDim S128 ![] bcast_S_S128 : (⟨S_, .f32⟩ : BufTy).Contents (Elt F) → (⟨S128, .f32⟩ : BufTy).Contents (Elt F)),
    binary main_v173 main_v174 main_v175 (Host.divf : (⟨S128, .f32⟩ : BufTy).Contents (Elt F) → (⟨S128, .f32⟩ : BufTy).Contents (Elt F) → (⟨S128, .f32⟩ : BufTy).Contents (Elt F)),
    nullary main_c_34 (constantI S_ 32 0#32),
    TRef.nullary main_call8.cst (constant S_ .f32 0x00000000#32),
    TRef.binary (.of main_v168 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v168 : TRef sig ⟨S50000x128, .f32⟩) main_call8.v4 main_call8.v5 subf,
    TRef.binary main_call8.v5 main_call8.v5 main_call8.v6 mulf,
    TRef.unary (.of main_c_34 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8_call0.v0 id,
    TRef.unary main_call8_call0.v0 main_call8_call0.v1 (broadcastInDim S128 ![] bcast_S_S128),
    TRef.ternary main_call8.v12 main_call8.v11 main_call8_call0.v1 main_call8_call0.v2 (fun p a b => select (broadcastInDim S128 ![] bcast_S_S128 p) a b),
    unary main_v175 main_v177 (broadcastInDim S1x128 ![1] bcast_S128_S1x128_1 : (⟨S128, .f32⟩ : BufTy).Contents (Elt F) → (⟨S1x128, .f32⟩ : BufTy).Contents (Elt F)),
    unary main_v177 main_v178 (broadcastInDim S50000x128 ![0, 1] bcast_S1x128_S50000x128_0_1 : (⟨S1x128, .f32⟩ : BufTy).Contents (Elt F) → (⟨S50000x128, .f32⟩ : BufTy).Contents (Elt F)),
    binary main_v168 main_v178 main_v179 (subf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3727C5AC#32),
    unary main_cst_35 main_v180 (broadcastInDim S128 ![] bcast_S_S128 : (⟨S_, .f32⟩ : BufTy).Contents (Elt F) → (⟨S128, .f32⟩ : BufTy).Contents (Elt F)),
    binary main_v176 main_v180 main_v181 (addf : (⟨S128, .f32⟩ : BufTy).Contents (Elt F) → (⟨S128, .f32⟩ : BufTy).Contents (Elt F) → (⟨S128, .f32⟩ : BufTy).Contents (Elt F)),
    unary main_v181 main_v182 (Host.rsqrt : (⟨S128, .f32⟩ : BufTy).Contents (Elt F) → (⟨S128, .f32⟩ : BufTy).Contents (Elt F)),
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S50000x128 ![0, 1] bcast_S1x128_S50000x128_0_1 : (⟨S1x128, .f32⟩ : BufTy).Contents (Elt F) → (⟨S50000x128, .f32⟩ : BufTy).Contents (Elt F)),
    binary main_v179 main_v184 main_v185 (mulf : (⟨S50000x128, .f32⟩ : BufTy).Contents (Elt F) → (⟨S50000x128, .f32⟩ : BufTy).Contents (Elt F) → (⟨S50000x128, .f32⟩ : BufTy).Contents (Elt F)),
    unary main_v170 main_v186 (broadcastInDim S1x128 ![1] bcast_S128_S1x128_1 : (⟨S128, .f32⟩ : BufTy).Contents (Elt F) → (⟨S1x128, .f32⟩ : BufTy).Contents (Elt F)),
    unary main_v186 main_v187 (broadcastInDim S50000x128 ![0, 1] bcast_S1x128_S50000x128_0_1 : (⟨S1x128, .f32⟩ : BufTy).Contents (Elt F) → (⟨S50000x128, .f32⟩ : BufTy).Contents (Elt F)),
    binary main_v185 main_v187 main_v188 (mulf : (⟨S50000x128, .f32⟩ : BufTy).Contents (Elt F) → (⟨S50000x128, .f32⟩ : BufTy).Contents (Elt F) → (⟨S50000x128, .f32⟩ : BufTy).Contents (Elt F)),
    unary main_v172 main_v189 (broadcastInDim S1x128 ![1] bcast_S128_S1x128_1 : (⟨S128, .f32⟩ : BufTy).Contents (Elt F) → (⟨S1x128, .f32⟩ : BufTy).Contents (Elt F)),
    unary main_v189 main_v190 (broadcastInDim S50000x128 ![0, 1] bcast_S1x128_S50000x128_0_1 : (⟨S1x128, .f32⟩ : BufTy).Contents (Elt F) → (⟨S50000x128, .f32⟩ : BufTy).Contents (Elt F)),
    binary main_v188 main_v190 main_v191 (addf : (⟨S50000x128, .f32⟩ : BufTy).Contents (Elt F) → (⟨S50000x128, .f32⟩ : BufTy).Contents (Elt F) → (⟨S50000x128, .f32⟩ : BufTy).Contents (Elt F)),
    unary main_arg8 main_v192 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v192 main_v193 rfl shapeCasts_S1x128x128_S128x128,
    unary main_arg9 main_v194 ((extractStridedSlice S1x128 ![2, 0] · slices_S3x128_S1x128_2_0) : (⟨S3x128, .f32⟩ : BufTy).Contents (Elt F) → (⟨S1x128, .f32⟩ : BufTy).Contents (Elt F)),
    reshape main_v194 main_v195 rfl shapeCasts_S1x128_S128,
    binary main_v191 main_v193 main_v196 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Piece 9: operations 329 … 333. -/
abbrev q9 : List (HloOp τ sig (Elt F)) :=
  [ nullary main_v197 (iotaInDim S50000 32 0),
    binary main_v1 main_v197 main_v198 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v197 main_v199 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_36 (constant S_ .f32 0x3F800000#32),
    unary main_cst_36 main_v200 (broadcastInDim S850000 ![] bcast_S_S850000 : (⟨S_, .f32⟩ : BufTy).Contents (Elt F) → (⟨S850000, .f32⟩ : BufTy).Contents (Elt F)) ]

/-- Piece 10: operations 334 … 387. -/
abbrev q10 : List (HloOp τ sig (Elt F)) :=
  [ nullary main_cst_37 (constant S_ .f32 0x00000000#32),
    unary main_cst_37 main_v201 (broadcastInDim S50000 ![] bcast_S_S50000 : (⟨S_, .f32⟩ : BufTy).Contents (Elt F) → (⟨S50000, .f32⟩ : BufTy).Contents (Elt F)),
    unary main_v198 main_v202 (broadcastInDim S850000x1 ![0] bcast_S850000_S850000x1_0 : (⟨S850000, .i32⟩ : BufTy).Contents (Elt F) → (⟨S850000x1, .i32⟩ : BufTy).Contents (Elt F)),
    ternary main_v201 main_v202 main_v200 main_v203 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_38 (constant S_ .f32 0x00000000#32),
    unary main_cst_38 main_v204 (broadcastInDim S50000 ![] bcast_S_S50000 : (⟨S_, .f32⟩ : BufTy).Contents (Elt F) → (⟨S50000, .f32⟩ : BufTy).Contents (Elt F)),
    binary main_v203 main_v204 main_v205 (cmpf .ogt : (⟨S50000, .f32⟩ : BufTy).Contents (Elt F) → (⟨S50000, .f32⟩ : BufTy).Contents (Elt F) → (⟨S50000, .i1⟩ : BufTy).Contents (Elt F)),
    unary main_v203 main_v206 (Host.rsqrt : (⟨S50000, .f32⟩ : BufTy).Contents (Elt F) → (⟨S50000, .f32⟩ : BufTy).Contents (Elt F)),
    nullary main_cst_39 (constant S_ .f32 0x00000000#32),
    TRef.unary (.of main_cst_39 : TRef sig ⟨S_, .f32⟩) main_call9.v0 id,
    TRef.unary main_call9.v0 main_call9.v1 (broadcastInDim S50000 ![] bcast_S_S50000),
    TRef.ternary (.of main_v205 : TRef sig ⟨S50000, .i1⟩) (.of main_v206 : TRef sig ⟨S50000, .f32⟩) main_call9.v1 main_call9.v2 select,
    nullary main_c_40 (constantI S_ 32 0#32),
    unary main_c_40 main_v208 (broadcastInDim S850000 ![] bcast_S_S850000 : (⟨S_, .i32⟩ : BufTy).Contents (Elt F) → (⟨S850000, .i32⟩ : BufTy).Contents (Elt F)),
    binary main_v198 main_v208 main_v209 (cmpi .slt : (⟨S850000, .i32⟩ : BufTy).Contents (Elt F) → (⟨S850000, .i32⟩ : BufTy).Contents (Elt F) → (⟨S850000, .i1⟩ : BufTy).Contents (Elt F)),
    nullary main_c_41 (constantI S_ 32 50000#32),
    unary main_c_41 main_v210 (broadcastInDim S850000 ![] bcast_S_S850000 : (⟨S_, .i32⟩ : BufTy).Contents (Elt F) → (⟨S850000, .i32⟩ : BufTy).Contents (Elt F)),
    binary main_v198 main_v210 main_v211 (addi : (⟨S850000, .i32⟩ : BufTy).Contents (Elt F) → (⟨S850000, .i32⟩ : BufTy).Contents (Elt F) → (⟨S850000, .i32⟩ : BufTy).Contents (Elt F)),
    ternary main_v209 main_v211 main_v198 main_v212 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v212 main_v213 (broadcastInDim S850000x1 ![0] bcast_S850000_S850000x1_0 : (⟨S850000, .i32⟩ : BufTy).Contents (Elt F) → (⟨S850000x1, .i32⟩ : BufTy).Contents (Elt F)),
    binary main_v207 main_v213 main_v214 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v214 main_v200 main_v215 (mulf : (⟨S850000, .f32⟩ : BufTy).Contents (Elt F) → (⟨S850000, .f32⟩ : BufTy).Contents (Elt F) → (⟨S850000, .f32⟩ : BufTy).Contents (Elt F)),
    nullary main_c_42 (constantI S_ 32 0#32),
    unary main_c_42 main_v216 (broadcastInDim S850000 ![] bcast_S_S850000 : (⟨S_, .i32⟩ : BufTy).Contents (Elt F) → (⟨S850000, .i32⟩ : BufTy).Contents (Elt F)),
    binary main_v199 main_v216 main_v217 (cmpi .slt : (⟨S850000, .i32⟩ : BufTy).Contents (Elt F) → (⟨S850000, .i32⟩ : BufTy).Contents (Elt F) → (⟨S850000, .i1⟩ : BufTy).Contents (Elt F)),
    nullary main_c_43 (constantI S_ 32 50000#32),
    unary main_c_43 main_v218 (broadcastInDim S850000 ![] bcast_S_S850000 : (⟨S_, .i32⟩ : BufTy).Contents (Elt F) → (⟨S850000, .i32⟩ : BufTy).Contents (Elt F)),
    binary main_v199 main_v218 main_v219 (addi : (⟨S850000, .i32⟩ : BufTy).Contents (Elt F) → (⟨S850000, .i32⟩ : BufTy).Contents (Elt F) → (⟨S850000, .i32⟩ : BufTy).Contents (Elt F)),
    ternary main_v217 main_v219 main_v199 main_v220 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v220 main_v221 (broadcastInDim S850000x1 ![0] bcast_S850000_S850000x1_0 : (⟨S850000, .i32⟩ : BufTy).Contents (Elt F) → (⟨S850000x1, .i32⟩ : BufTy).Contents (Elt F)),
    binary main_v207 main_v221 main_v222 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v215 main_v222 main_v223 (mulf : (⟨S850000, .f32⟩ : BufTy).Contents (Elt F) → (⟨S850000, .f32⟩ : BufTy).Contents (Elt F) → (⟨S850000, .f32⟩ : BufTy).Contents (Elt F)),
    nullary main_c_44 (constantI S_ 32 0#32),
    unary main_c_44 main_v224 (broadcastInDim S850000 ![] bcast_S_S850000 : (⟨S_, .i32⟩ : BufTy).Contents (Elt F) → (⟨S850000, .i32⟩ : BufTy).Contents (Elt F)),
    binary main_v198 main_v224 main_v225 (cmpi .slt : (⟨S850000, .i32⟩ : BufTy).Contents (Elt F) → (⟨S850000, .i32⟩ : BufTy).Contents (Elt F) → (⟨S850000, .i1⟩ : BufTy).Contents (Elt F)),
    nullary main_c_45 (constantI S_ 32 50000#32),
    unary main_c_45 main_v226 (broadcastInDim S850000 ![] bcast_S_S850000 : (⟨S_, .i32⟩ : BufTy).Contents (Elt F) → (⟨S850000, .i32⟩ : BufTy).Contents (Elt F)),
    binary main_v198 main_v226 main_v227 (addi : (⟨S850000, .i32⟩ : BufTy).Contents (Elt F) → (⟨S850000, .i32⟩ : BufTy).Contents (Elt F) → (⟨S850000, .i32⟩ : BufTy).Contents (Elt F)),
    ternary main_v225 main_v227 main_v198 main_v228 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v228 main_v229 (broadcastInDim S850000x1 ![0] bcast_S850000_S850000x1_0 : (⟨S850000, .i32⟩ : BufTy).Contents (Elt F) → (⟨S850000x1, .i32⟩ : BufTy).Contents (Elt F)),
    binary main_v196 main_v229 main_v230 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v223 main_v231 (broadcastInDim S850000x1 ![0] bcast_S850000_S850000x1_0 : (⟨S850000, .f32⟩ : BufTy).Contents (Elt F) → (⟨S850000x1, .f32⟩ : BufTy).Contents (Elt F)),
    unary main_v231 main_v232 (broadcastInDim S850000x128 ![0, 1] bcast_S850000x1_S850000x128_0_1 : (⟨S850000x1, .f32⟩ : BufTy).Contents (Elt F) → (⟨S850000x128, .f32⟩ : BufTy).Contents (Elt F)),
    binary main_v230 main_v232 main_v233 (mulf : (⟨S850000x128, .f32⟩ : BufTy).Contents (Elt F) → (⟨S850000x128, .f32⟩ : BufTy).Contents (Elt F) → (⟨S850000x128, .f32⟩ : BufTy).Contents (Elt F)),
    nullary main_cst_46 (constant S_ .f32 0x00000000#32),
    unary main_cst_46 main_v234 (broadcastInDim S50000x128 ![] bcast_S_S50000x128 : (⟨S_, .f32⟩ : BufTy).Contents (Elt F) → (⟨S50000x128, .f32⟩ : BufTy).Contents (Elt F)),
    unary main_v199 main_v235 (broadcastInDim S850000x1 ![0] bcast_S850000_S850000x1_0 : (⟨S850000, .i32⟩ : BufTy).Contents (Elt F) → (⟨S850000x1, .i32⟩ : BufTy).Contents (Elt F)),
    ternary main_v234 main_v235 main_v233 main_v236 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v195 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v236 main_v238 main_v239 (addf : (⟨S50000x128, .f32⟩ : BufTy).Contents (Elt F) → (⟨S50000x128, .f32⟩ : BufTy).Contents (Elt F) → (⟨S50000x128, .f32⟩ : BufTy).Contents (Elt F)),
    TRef.nullary main_call10.cst (constant S_ .f32 0x00000000#32),
    TRef.unary main_call10.cst main_call10.v0 (broadcastInDim S50000x128 ![] bcast_S_S50000x128),
    TRef.binary (.of main_v239 : TRef sig ⟨S50000x128, .f32⟩) main_call10.v0 main_call10.v1 maximumf ]

/-- Piece 11: operations 388 … 397. -/
abbrev q11 : List (HloOp τ sig (Elt F)) :=
  [ nullary main_cst_47 (constant S_ .f32 0x00000000#32),
    unary main_cst_47 main_v241 (broadcastInDim S500x128 ![] bcast_S_S500x128 : (⟨S_, .f32⟩ : BufTy).Contents (Elt F) → (⟨S500x128, .f32⟩ : BufTy).Contents (Elt F)),
    unary main_arg2 main_v242 (broadcastInDim S50000x1 ![0] bcast_S50000_S50000x1_0 : (⟨S50000, .i32⟩ : BufTy).Contents (Elt F) → (⟨S50000x1, .i32⟩ : BufTy).Contents (Elt F)),
    ternary main_v241 main_v242 main_v240 main_v243 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_48 (constant S_ .f32 0x00000000#32),
    binary main_v243 main_cst_48 main_v244 ((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)),
    nullary main_cst_49 (constant S_ .f32 0x43FA0000#32),
    unary main_cst_49 main_v245 (broadcastInDim S128 ![] bcast_S_S128 : (⟨S_, .f32⟩ : BufTy).Contents (Elt F) → (⟨S128, .f32⟩ : BufTy).Contents (Elt F)),
    binary main_v244 main_v245 main_v246 (Host.divf : (⟨S128, .f32⟩ : BufTy).Contents (Elt F) → (⟨S128, .f32⟩ : BufTy).Contents (Elt F) → (⟨S128, .f32⟩ : BufTy).Contents (Elt F)),
    nullary main_c_50 (constantI S_ 32 0#32) ]

/-- Piece 12: operations 398 … 505. -/
abbrev q12 : List (HloOp τ sig (Elt F)) :=
  [ TRef.nullary main_call11.cst (constant S_ .f32 0x00000000#32),
    TRef.binary (.of main_v243 : TRef sig ⟨S500x128, .f32⟩) main_call11.cst main_call11.v0 (fun x v => Host.reduceAdd x v reducesTo_S500x128_S128_d0 h_S_),
    TRef.unary main_call11.v0 main_call11.v1 (broadcastInDim S1x128 ![1] bcast_S128_S1x128_1),
    TRef.nullary main_call11.cst_0 (constant S_ .f32 0x43FA0000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S500x128 ![0, 1] bcast_S1x128_S500x128_0_1),
    TRef.binary (.of main_v243 : TRef sig ⟨S500x128, .f32⟩) main_call11.v4 main_call11.v5 subf,
    TRef.binary main_call11.v5 main_call11.v5 main_call11.v6 mulf,
    TRef.unary (.of main_c_50 : TRef sig ⟨S_, .i32⟩) main_call11.v7 (sitofp .f32),
    TRef.nullary main_call11.cst_1 (constant S_ .f32 0x43FA0000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S500x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11_call0.v0 id,
    TRef.unary main_call11_call0.v0 main_call11_call0.v1 (broadcastInDim S128 ![] bcast_S_S128),
    TRef.ternary main_call11.v12 main_call11.v11 main_call11_call0.v1 main_call11_call0.v2 (fun p a b => select (broadcastInDim S128 ![] bcast_S_S128 p) a b),
    unary main_v246 main_v248 (broadcastInDim S1x128 ![1] bcast_S128_S1x128_1 : (⟨S128, .f32⟩ : BufTy).Contents (Elt F) → (⟨S1x128, .f32⟩ : BufTy).Contents (Elt F)),
    unary main_v248 main_v249 (broadcastInDim S500x128 ![0, 1] bcast_S1x128_S500x128_0_1 : (⟨S1x128, .f32⟩ : BufTy).Contents (Elt F) → (⟨S500x128, .f32⟩ : BufTy).Contents (Elt F)),
    binary main_v243 main_v249 main_v250 (subf : (⟨S500x128, .f32⟩ : BufTy).Contents (Elt F) → (⟨S500x128, .f32⟩ : BufTy).Contents (Elt F) → (⟨S500x128, .f32⟩ : BufTy).Contents (Elt F)),
    nullary main_cst_51 (constant S_ .f32 0x3727C5AC#32),
    unary main_cst_51 main_v251 (broadcastInDim S128 ![] bcast_S_S128 : (⟨S_, .f32⟩ : BufTy).Contents (Elt F) → (⟨S128, .f32⟩ : BufTy).Contents (Elt F)),
    binary main_v247 main_v251 main_v252 (addf : (⟨S128, .f32⟩ : BufTy).Contents (Elt F) → (⟨S128, .f32⟩ : BufTy).Contents (Elt F) → (⟨S128, .f32⟩ : BufTy).Contents (Elt F)),
    unary main_v252 main_v253 (Host.rsqrt : (⟨S128, .f32⟩ : BufTy).Contents (Elt F) → (⟨S128, .f32⟩ : BufTy).Contents (Elt F)),
    unary main_v253 main_v254 (broadcastInDim S1x128 ![1] bcast_S128_S1x128_1 : (⟨S128, .f32⟩ : BufTy).Contents (Elt F) → (⟨S1x128, .f32⟩ : BufTy).Contents (Elt F)),
    unary main_v254 main_v255 (broadcastInDim S500x128 ![0, 1] bcast_S1x128_S500x128_0_1 : (⟨S1x128, .f32⟩ : BufTy).Contents (Elt F) → (⟨S500x128, .f32⟩ : BufTy).Contents (Elt F)),
    binary main_v250 main_v255 main_v256 (mulf : (⟨S500x128, .f32⟩ : BufTy).Contents (Elt F) → (⟨S500x128, .f32⟩ : BufTy).Contents (Elt F) → (⟨S500x128, .f32⟩ : BufTy).Contents (Elt F)),
    unary main_arg10 main_v257 (broadcastInDim S1x128 ![1] bcast_S128_S1x128_1 : (⟨S128, .f32⟩ : BufTy).Contents (Elt F) → (⟨S1x128, .f32⟩ : BufTy).Contents (Elt F)),
    unary main_v257 main_v258 (broadcastInDim S500x128 ![0, 1] bcast_S1x128_S500x128_0_1 : (⟨S1x128, .f32⟩ : BufTy).Contents (Elt F) → (⟨S500x128, .f32⟩ : BufTy).Contents (Elt F)),
    binary main_v256 main_v258 main_v259 (mulf : (⟨S500x128, .f32⟩ : BufTy).Contents (Elt F) → (⟨S500x128, .f32⟩ : BufTy).Contents (Elt F) → (⟨S500x128, .f32⟩ : BufTy).Contents (Elt F)),
    unary main_arg11 main_v260 (broadcastInDim S1x128 ![1] bcast_S128_S1x128_1 : (⟨S128, .f32⟩ : BufTy).Contents (Elt F) → (⟨S1x128, .f32⟩ : BufTy).Contents (Elt F)),
    unary main_v260 main_v261 (broadcastInDim S500x128 ![0, 1] bcast_S1x128_S500x128_0_1 : (⟨S1x128, .f32⟩ : BufTy).Contents (Elt F) → (⟨S500x128, .f32⟩ : BufTy).Contents (Elt F)),
    binary main_v259 main_v261 main_v262 (addf : (⟨S500x128, .f32⟩ : BufTy).Contents (Elt F) → (⟨S500x128, .f32⟩ : BufTy).Contents (Elt F) → (⟨S500x128, .f32⟩ : BufTy).Contents (Elt F)),
    binary main_v262 main_arg12 main_v263 ((fun l r => Host.dotGeneral dot_S500x128_S128x128_S500x128_1_0_0_1_n_n none l r) : (⟨S500x128, .f32⟩ : BufTy).Contents (Elt F) → (⟨S128x128, .f32⟩ : BufTy).Contents (Elt F) → (⟨S500x128, .f32⟩ : BufTy).Contents (Elt F)),
    unary main_arg13 main_v264 (broadcastInDim S1x128 ![1] bcast_S128_S1x128_1 : (⟨S128, .f32⟩ : BufTy).Contents (Elt F) → (⟨S1x128, .f32⟩ : BufTy).Contents (Elt F)),
    unary main_v264 main_v265 (broadcastInDim S500x128 ![0, 1] bcast_S1x128_S500x128_0_1 : (⟨S1x128, .f32⟩ : BufTy).Contents (Elt F) → (⟨S500x128, .f32⟩ : BufTy).Contents (Elt F)),
    binary main_v263 main_v265 main_v266 (addf : (⟨S500x128, .f32⟩ : BufTy).Contents (Elt F) → (⟨S500x128, .f32⟩ : BufTy).Contents (Elt F) → (⟨S500x128, .f32⟩ : BufTy).Contents (Elt F)),
    TRef.nullary main_call12.cst (constant S_ .f32 0x00000000#32),
    TRef.unary main_call12.cst main_call12.v0 (broadcastInDim S500x128 ![] bcast_S_S500x128),
    TRef.binary (.of main_v266 : TRef sig ⟨S500x128, .f32⟩) main_call12.v0 main_call12.v1 maximumf,
    nullary main_cst_52 (constant S_ .f32 0x00000000#32),
    binary main_v267 main_cst_52 main_v268 ((fun x v => Host.reduceAdd x v reducesTo_S500x128_S128_d0 h_S_) : (⟨S500x128, .f32⟩ : BufTy).Contents (Elt F) → (⟨S_, .f32⟩ : BufTy).Contents (Elt F) → (⟨S128, .f32⟩ : BufTy).Contents (Elt F)),
    nullary main_cst_53 (constant S_ .f32 0x43FA0000#32),
    unary main_cst_53 main_v269 (broadcastInDim S128 ![] bcast_S_S128 : (⟨S_, .f32⟩ : BufTy).Contents (Elt F) → (⟨S128, .f32⟩ : BufTy).Contents (Elt F)),
    binary main_v268 main_v269 main_v270 (Host.divf : (⟨S128, .f32⟩ : BufTy).Contents (Elt F) → (⟨S128, .f32⟩ : BufTy).Contents (Elt F) → (⟨S128, .f32⟩ : BufTy).Contents (Elt F)),
    nullary main_c_54 (constantI S_ 32 0#32),
    TRef.nullary main_call13.cst (constant S_ .f32 0x00000000#32),
    TRef.binary (.of main_v267 : TRef sig ⟨S500x128, .f32⟩) main_call13.cst main_call13.v0 (fun x v => Host.reduceAdd x v reducesTo_S500x128_S128_d0 h_S_),
    TRef.unary main_call13.v0 main_call13.v1 (broadcastInDim S1x128 ![1] bcast_S128_S1x128_1),
    TRef.nullary main_call13.cst_0 (constant S_ .f32 0x43FA0000#32),
    TRef.unary main_call13.cst_0 main_call13.v2 (broadcastInDim S1x128 ![] bcast_S_S1x128),
    TRef.binary main_call13.v1 main_call13.v2 main_call13.v3 Host.divf,
    TRef.unary main_call13.v3 main_call13.v4 (broadcastInDim S500x128 ![0, 1] bcast_S1x128_S500x128_0_1),
    TRef.binary (.of main_v267 : TRef sig ⟨S500x128, .f32⟩) main_call13.v4 main_call13.v5 subf,
    TRef.binary main_call13.v5 main_call13.v5 main_call13.v6 mulf,
    TRef.unary (.of main_c_54 : TRef sig ⟨S_, .i32⟩) main_call13.v7 (sitofp .f32),
    TRef.nullary main_call13.cst_1 (constant S_ .f32 0x43FA0000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S500x128_S128_d0 h_S_),
    TRef.unary main_call13.v8 main_call13.v10 (broadcastInDim S128 ![] bcast_S_S128),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13_call0.v0 id,
    TRef.unary main_call13_call0.v0 main_call13_call0.v1 (broadcastInDim S128 ![] bcast_S_S128),
    TRef.ternary main_call13.v12 main_call13.v11 main_call13_call0.v1 main_call13_call0.v2 (fun p a b => select (broadcastInDim S128 ![] bcast_S_S128 p) a b),
    unary main_v270 main_v272 (broadcastInDim S1x128 ![1] bcast_S128_S1x128_1 : (⟨S128, .f32⟩ : BufTy).Contents (Elt F) → (⟨S1x128, .f32⟩ : BufTy).Contents (Elt F)),
    unary main_v272 main_v273 (broadcastInDim S500x128 ![0, 1] bcast_S1x128_S500x128_0_1 : (⟨S1x128, .f32⟩ : BufTy).Contents (Elt F) → (⟨S500x128, .f32⟩ : BufTy).Contents (Elt F)),
    binary main_v267 main_v273 main_v274 (subf : (⟨S500x128, .f32⟩ : BufTy).Contents (Elt F) → (⟨S500x128, .f32⟩ : BufTy).Contents (Elt F) → (⟨S500x128, .f32⟩ : BufTy).Contents (Elt F)),
    nullary main_cst_55 (constant S_ .f32 0x3727C5AC#32),
    unary main_cst_55 main_v275 (broadcastInDim S128 ![] bcast_S_S128 : (⟨S_, .f32⟩ : BufTy).Contents (Elt F) → (⟨S128, .f32⟩ : BufTy).Contents (Elt F)),
    binary main_v271 main_v275 main_v276 (addf : (⟨S128, .f32⟩ : BufTy).Contents (Elt F) → (⟨S128, .f32⟩ : BufTy).Contents (Elt F) → (⟨S128, .f32⟩ : BufTy).Contents (Elt F)),
    unary main_v276 main_v277 (Host.rsqrt : (⟨S128, .f32⟩ : BufTy).Contents (Elt F) → (⟨S128, .f32⟩ : BufTy).Contents (Elt F)),
    unary main_v277 main_v278 (broadcastInDim S1x128 ![1] bcast_S128_S1x128_1 : (⟨S128, .f32⟩ : BufTy).Contents (Elt F) → (⟨S1x128, .f32⟩ : BufTy).Contents (Elt F)),
    unary main_v278 main_v279 (broadcastInDim S500x128 ![0, 1] bcast_S1x128_S500x128_0_1 : (⟨S1x128, .f32⟩ : BufTy).Contents (Elt F) → (⟨S500x128, .f32⟩ : BufTy).Contents (Elt F)),
    binary main_v274 main_v279 main_v280 (mulf : (⟨S500x128, .f32⟩ : BufTy).Contents (Elt F) → (⟨S500x128, .f32⟩ : BufTy).Contents (Elt F) → (⟨S500x128, .f32⟩ : BufTy).Contents (Elt F)),
    unary main_arg14 main_v281 (broadcastInDim S1x128 ![1] bcast_S128_S1x128_1 : (⟨S128, .f32⟩ : BufTy).Contents (Elt F) → (⟨S1x128, .f32⟩ : BufTy).Contents (Elt F)),
    unary main_v281 main_v282 (broadcastInDim S500x128 ![0, 1] bcast_S1x128_S500x128_0_1 : (⟨S1x128, .f32⟩ : BufTy).Contents (Elt F) → (⟨S500x128, .f32⟩ : BufTy).Contents (Elt F)),
    binary main_v280 main_v282 main_v283 (mulf : (⟨S500x128, .f32⟩ : BufTy).Contents (Elt F) → (⟨S500x128, .f32⟩ : BufTy).Contents (Elt F) → (⟨S500x128, .f32⟩ : BufTy).Contents (Elt F)),
    unary main_arg15 main_v284 (broadcastInDim S1x128 ![1] bcast_S128_S1x128_1 : (⟨S128, .f32⟩ : BufTy).Contents (Elt F) → (⟨S1x128, .f32⟩ : BufTy).Contents (Elt F)),
    unary main_v284 main_v285 (broadcastInDim S500x128 ![0, 1] bcast_S1x128_S500x128_0_1 : (⟨S1x128, .f32⟩ : BufTy).Contents (Elt F) → (⟨S500x128, .f32⟩ : BufTy).Contents (Elt F)),
    binary main_v283 main_v285 main_v286 (addf : (⟨S500x128, .f32⟩ : BufTy).Contents (Elt F) → (⟨S500x128, .f32⟩ : BufTy).Contents (Elt F) → (⟨S500x128, .f32⟩ : BufTy).Contents (Elt F)),
    binary main_v286 main_arg16 main_v287 ((fun l r => Host.dotGeneral dot_S500x128_S128x10_S500x10_1_0_0_1_n_n none l r) : (⟨S500x128, .f32⟩ : BufTy).Contents (Elt F) → (⟨S128x10, .f32⟩ : BufTy).Contents (Elt F) → (⟨S500x10, .f32⟩ : BufTy).Contents (Elt F)),
    unary main_arg17 main_v288 (broadcastInDim S1x10 ![1] bcast_S10_S1x10_1 : (⟨S10, .f32⟩ : BufTy).Contents (Elt F) → (⟨S1x10, .f32⟩ : BufTy).Contents (Elt F)),
    unary main_v288 main_v289 (broadcastInDim S500x10 ![0, 1] bcast_S1x10_S500x10_0_1 : (⟨S1x10, .f32⟩ : BufTy).Contents (Elt F) → (⟨S500x10, .f32⟩ : BufTy).Contents (Elt F)),
    binary main_v287 main_v289 main_v290 (addf : (⟨S500x10, .f32⟩ : BufTy).Contents (Elt F) → (⟨S500x10, .f32⟩ : BufTy).Contents (Elt F) → (⟨S500x10, .f32⟩ : BufTy).Contents (Elt F)),
    TRef.nullary main_call14.cst (constant S_ .f32 0xFF800000#32),
    TRef.binary (.of main_v290 : TRef sig ⟨S500x10, .f32⟩) main_call14.cst main_call14.v0 (fun x v => Host.reduce FloatOps.maximumf x v reducesTo_S500x10_S500_d1 h_S_),
    TRef.nullary main_call14.cst_0 (constant S_ .f32 0xFF800000#32),
    TRef.unary main_call14.cst_0 main_call14.v1 (broadcastInDim S500 ![] bcast_S_S500),
    TRef.binary main_call14.v1 main_call14.v0 main_call14.v2 maximumf,
    TRef.unary main_call14.v2 main_call14.v3 (broadcastInDim S500x1 ![0] bcast_S500_S500x1_0),
    TRef.unary main_call14.v3 main_call14.v4 (broadcastInDim S500x10 ![0, 1] bcast_S500x1_S500x10_0_1),
    TRef.binary (.of main_v290 : TRef sig ⟨S500x10, .f32⟩) main_call14.v4 main_call14.v5 subf,
    TRef.unary main_call14.v5 main_call14.v6 Host.exp,
    TRef.nullary main_call14.cst_1 (constant S_ .f32 0x00000000#32),
    TRef.binary main_call14.v6 main_call14.cst_1 main_call14.v7 (fun x v => Host.reduceAdd x v reducesTo_S500x10_S500_d1 h_S_),
    TRef.unary main_call14.v7 main_call14.v8 (broadcastInDim S500x1 ![0] bcast_S500_S500x1_0),
    TRef.unary main_call14.v8 main_call14.v9 Host.log,
    TRef.unary main_call14.v9 main_call14.v10 (broadcastInDim S500x10 ![0, 1] bcast_S500x1_S500x10_0_1),
    TRef.binary main_call14.v5 main_call14.v10 main_call14.v11 subf ]

/-- The operations of the printed stretch 0 of @main. -/
abbrev part0 : List (HloOp τ sig (Elt F)) := q0 ++ (q1)

/-- The operations of the printed stretch 1 of @main. -/
abbrev part1 : List (HloOp τ sig (Elt F)) := q2 ++ (q3 ++ (q4))

/-- The operations of the printed stretch 2 of @main. -/
abbrev part2 : List (HloOp τ sig (Elt F)) := q5 ++ (q6)

/-- The operations of the printed stretch 3 of @main. -/
abbrev part3 : List (HloOp τ sig (Elt F)) := q7 ++ (q8 ++ (q9))

/-- The operations of the printed stretch 4 of @main. -/
abbrev part4 : List (HloOp τ sig (Elt F)) := q10 ++ (q11)

/-- The operations of the printed stretch 5 of @main. -/
abbrev part5 : List (HloOp τ sig (Elt F)) := q12

/-- The whole line. -/
abbrev ops : List (HloOp τ sig (Elt F)) := part0 ++ (part1 ++ (part2 ++ (part3 ++ (part4 ++ part5))))

set_option maxRecDepth 16384 in
set_option maxHeartbeats 4000000 in
theorem part0_eq (c : Dev nD) : main_part0 (F := F) c = seq part0 := by
  simp only [main_part0, fn_where.body, fn_var.body, fn_relu.body, fn_var_0.body, fn_where_1.body, fn_var_2.body, fn_relu_3.body, fn_log_softmax.body, seq, bind_assoc, pure_bind]
  all_goals rfl

set_option maxRecDepth 16384 in
set_option maxHeartbeats 4000000 in
theorem part1_eq (c : Dev nD) : main_part1 (F := F) c = seq part1 := by
  simp only [main_part1, fn_where.body, fn_var.body, fn_relu.body, fn_var_0.body, fn_where_1.body, fn_var_2.body, fn_relu_3.body, fn_log_softmax.body, seq, bind_assoc, pure_bind]
  all_goals rfl

set_option maxRecDepth 16384 in
set_option maxHeartbeats 4000000 in
theorem part2_eq (c : Dev nD) : main_part2 (F := F) c = seq part2 := by
  simp only [main_part2, fn_where.body, fn_var.body, fn_relu.body, fn_var_0.body, fn_where_1.body, fn_var_2.body, fn_relu_3.body, fn_log_softmax.body, seq, bind_assoc, pure_bind]
  all_goals rfl

set_option maxRecDepth 16384 in
set_option maxHeartbeats 4000000 in
theorem part3_eq (c : Dev nD) : main_part3 (F := F) c = seq part3 := by
  simp only [main_part3, fn_where.body, fn_var.body, fn_relu.body, fn_var_0.body, fn_where_1.body, fn_var_2.body, fn_relu_3.body, fn_log_softmax.body, seq, bind_assoc, pure_bind]
  all_goals rfl

set_option maxRecDepth 16384 in
set_option maxHeartbeats 4000000 in
theorem part4_eq (c : Dev nD) : main_part4 (F := F) c = seq part4 := by
  simp only [main_part4, fn_where.body, fn_var.body, fn_relu.body, fn_var_0.body, fn_where_1.body, fn_var_2.body, fn_relu_3.body, fn_log_softmax.body, seq, bind_assoc, pure_bind]
  all_goals rfl

set_option maxRecDepth 16384 in
set_option maxHeartbeats 4000000 in
theorem part5_eq (c : Dev nD) : main_part5 (F := F) c = seq part5 := by
  simp only [main_part5, fn_where.body, fn_var.body, fn_relu.body, fn_var_0.body, fn_where_1.body, fn_var_2.body, fn_relu_3.body, fn_log_softmax.body, seq, bind_assoc, pure_bind]
  all_goals rfl

theorem main_eq (c : Dev nD) : main (F := F) c = seq ops := by
  show _ = seq (part0 ++ (part1 ++ (part2 ++ (part3 ++ (part4 ++ part5)))))
  rw [seq_append part0, seq_append part1, seq_append part2, seq_append part3, seq_append part4,
    ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem q0_sub : (q0 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

theorem q0_fresh : (q0 : List (HloOp τ sig (Elt F))).Forall fun op => op.fresh = ∅ := by
  simp only [List.Forall]; repeat' constructor

theorem q1_sub : (q1 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub ..⟩

theorem q1_fresh : (q1 : List (HloOp τ sig (Elt F))).Forall fun op => op.fresh = ∅ := by
  simp only [List.Forall]; repeat' constructor

theorem q2_sub : (q2 : List (HloOp τ sig (Elt F))).Forall fun op => op.bufs ⊆ tcRefs τ sig :=
  (binary_bufs_sub ..)

theorem q2_fresh : (q2 : List (HloOp τ sig (Elt F))).Forall fun op => op.fresh = ∅ := by
  simp only [List.Forall]; rfl

theorem q3_sub : (q3 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem q3_fresh : (q3 : List (HloOp τ sig (Elt F))).Forall fun op => op.fresh = ∅ := by
  simp only [List.Forall]; repeat' constructor

theorem q4_sub : (q4 : List (HloOp τ sig (Elt F))).Forall fun op => op.bufs ⊆ tcRefs τ sig :=
  ⟨unary_bufs_sub .., reshape_bufs_sub .., unary_bufs_sub .., reshape_bufs_sub ..⟩

theorem q4_fresh : (q4 : List (HloOp τ sig (Elt F))).Forall fun op => op.fresh = ∅ := by
  simp only [List.Forall]; repeat' constructor

theorem q5_sub : (q5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub ..⟩

theorem q5_fresh : (q5 : List (HloOp τ sig (Elt F))).Forall fun op => op.fresh = ∅ := by
  simp only [List.Forall]; repeat' constructor

theorem q6_sub : (q6 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

theorem q6_fresh : (q6 : List (HloOp τ sig (Elt F))).Forall fun op => op.fresh = ∅ := by
  simp only [List.Forall]; repeat' constructor

theorem q7_sub : (q7 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem q7_fresh : (q7 : List (HloOp τ sig (Elt F))).Forall fun op => op.fresh = ∅ := by
  simp only [List.Forall]; repeat' constructor

theorem q8_sub : (q8 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub ..⟩

theorem q8_fresh : (q8 : List (HloOp τ sig (Elt F))).Forall fun op => op.fresh = ∅ := by
  simp only [List.Forall]; repeat' constructor

theorem q9_sub : (q9 : List (HloOp τ sig (Elt F))).Forall fun op => op.bufs ⊆ tcRefs τ sig :=
  ⟨nullary_bufs_sub .., binary_bufs_sub .., binary_bufs_sub .., nullary_bufs_sub .., unary_bufs_sub ..⟩

theorem q9_fresh : (q9 : List (HloOp τ sig (Elt F))).Forall fun op => op.fresh = ∅ := by
  simp only [List.Forall]; repeat' constructor

theorem q10_sub : (q10 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem q10_fresh : (q10 : List (HloOp τ sig (Elt F))).Forall fun op => op.fresh = ∅ := by
  simp only [List.Forall]; repeat' constructor

theorem q11_sub : (q11 : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub .., nullary_bufs_sub ..⟩

theorem q11_fresh : (q11 : List (HloOp τ sig (Elt F))).Forall fun op => op.fresh = ∅ := by
  simp only [List.Forall]; repeat' constructor

theorem q12_sub : (q12 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem q12_fresh : (q12 : List (HloOp τ sig (Elt F))).Forall fun op => op.fresh = ∅ := by
  simp only [List.Forall]; repeat' constructor

theorem mem_ops {op : HloOp τ sig (Elt F)} (hop : op ∈ (ops : List (HloOp τ sig (Elt F)))) :
    op ∈ (q0 : List (HloOp τ sig (Elt F))) ∨ op ∈ (q1 : List (HloOp τ sig (Elt F))) ∨ op ∈ (q2 : List (HloOp τ sig (Elt F))) ∨ op ∈ (q3 : List (HloOp τ sig (Elt F))) ∨ op ∈ (q4 : List (HloOp τ sig (Elt F))) ∨ op ∈ (q5 : List (HloOp τ sig (Elt F))) ∨ op ∈ (q6 : List (HloOp τ sig (Elt F))) ∨ op ∈ (q7 : List (HloOp τ sig (Elt F))) ∨ op ∈ (q8 : List (HloOp τ sig (Elt F))) ∨ op ∈ (q9 : List (HloOp τ sig (Elt F))) ∨ op ∈ (q10 : List (HloOp τ sig (Elt F))) ∨ op ∈ (q11 : List (HloOp τ sig (Elt F))) ∨ op ∈ (q12 : List (HloOp τ sig (Elt F))) := by
  simp only [List.mem_append] at hop
  tauto

theorem ops_sub : (ops : List (HloOp τ sig (Elt F))).Forall fun op => op.bufs ⊆ tcRefs τ sig := by
  rw [List.forall_iff_forall_mem]
  intro op hop
  rcases mem_ops hop with h | h | h | h | h | h | h | h | h | h | h | h | h
  · exact List.forall_iff_forall_mem.mp q0_sub op h
  · exact List.forall_iff_forall_mem.mp q1_sub op h
  · exact List.forall_iff_forall_mem.mp q2_sub op h
  · exact List.forall_iff_forall_mem.mp q3_sub op h
  · exact List.forall_iff_forall_mem.mp q4_sub op h
  · exact List.forall_iff_forall_mem.mp q5_sub op h
  · exact List.forall_iff_forall_mem.mp q6_sub op h
  · exact List.forall_iff_forall_mem.mp q7_sub op h
  · exact List.forall_iff_forall_mem.mp q8_sub op h
  · exact List.forall_iff_forall_mem.mp q9_sub op h
  · exact List.forall_iff_forall_mem.mp q10_sub op h
  · exact List.forall_iff_forall_mem.mp q11_sub op h
  · exact List.forall_iff_forall_mem.mp q12_sub op h

theorem ops_fresh : ∀ op ∈ (ops : List (HloOp τ sig (Elt F))), op.fresh = ∅ := by
  intro op hop
  rcases mem_ops hop with h | h | h | h | h | h | h | h | h | h | h | h | h
  · exact List.forall_iff_forall_mem.mp q0_fresh op h
  · exact List.forall_iff_forall_mem.mp q1_fresh op h
  · exact List.forall_iff_forall_mem.mp q2_fresh op h
  · exact List.forall_iff_forall_mem.mp q3_fresh op h
  · exact List.forall_iff_forall_mem.mp q4_fresh op h
  · exact List.forall_iff_forall_mem.mp q5_fresh op h
  · exact List.forall_iff_forall_mem.mp q6_fresh op h
  · exact List.forall_iff_forall_mem.mp q7_fresh op h
  · exact List.forall_iff_forall_mem.mp q8_fresh op h
  · exact List.forall_iff_forall_mem.mp q9_fresh op h
  · exact List.forall_iff_forall_mem.mp q10_fresh op h
  · exact List.forall_iff_forall_mem.mp q11_fresh op h
  · exact List.forall_iff_forall_mem.mp q12_fresh op h

/-- Every weakly fair execution of the reference terminates, nothing faulting, with every TensorCore buffer at the fold of
    the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefVals.lean ====
/-
  The reference program's result as the composition of its stages.

  The reference's line of host operations is read stage by stage: after the first stretch the first hidden array; after
  each later pair of stretches the normalised and multiplied array of a graph layer and then the layer's output; after the
  last stretch the result. Between stretches a buffer that no operation of the stretch writes keeps its contents. Chained,
  the result buffer ends at the composition of the stage functions applied to the argument arrays.
-/
import proofs.«169240_j69947837383264_1_alg».proof.Proof.RefRun
import proofs.«169240_j69947837383264_1_alg».proof.Proof.RefSpec

set_option maxRecDepth 16384

noncomputable section

namespace Cert.ReferenceIdeal.RefVals

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.Spec

variable {F : FTy → Type} [FloatOps F]

/-- Two stretches in sequence: the fold of the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The buffers each piece writes -/

abbrev q0_W : List (Ref sig .tc) := [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18, main_v19, main_v20, main_v21, main_v22, main_v23, main_call1_cst, main_call1_v0, main_v24]
theorem q0_writes : (q0 : List (HloOp τ sig (Elt F))).Forall fun op => op.writes ⊆ (q0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 0 does not write keeps its contents through it. -/
theorem keep0 (W : Valuation τ sig (Elt F)) (r : Ref sig .tc) (h : r ∉ q0_W) :
    after q0 W (Proc.devRef .tc r) = W (Proc.devRef .tc r) :=
  after_of_writes_sub q0 W q0_writes h

abbrev q1_W : List (Ref sig .tc) := [main_v25, main_v26, main_v27, main_v28, main_cst_2, main_v29, main_cst_3, main_v30, main_v31, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v32, main_v33, main_v34, main_v35, main_cst_5, main_v36, main_v37, main_v38, main_v39, main_v40, main_v41, main_v42, main_v43, main_v44, main_v45, main_v46, main_v47, main_v48, main_v49, main_v50, main_v51]
theorem q1_writes : (q1 : List (HloOp τ sig (Elt F))).Forall fun op => op.writes ⊆ (q1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 1 does not write keeps its contents through it. -/
theorem keep1 (W : Valuation τ sig (Elt F)) (r : Ref sig .tc) (h : r ∉ q1_W) :
    after q1 W (Proc.devRef .tc r) = W (Proc.devRef .tc r) :=
  after_of_writes_sub q1 W q1_writes h

abbrev q2_W : List (Ref sig .tc) := [main_v52]
theorem q2_writes : (q2 : List (HloOp τ sig (Elt F))).Forall fun op => op.writes ⊆ (q2_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer piece 2 does not write keeps its contents through it. -/
theorem keep2 (W : Valuation τ sig (Elt F)) (r : Ref sig .tc) (h : r ∉ q2_W) :
    after q2 W (Proc.devRef .tc r) = W (Proc.devRef .tc r) :=
  after_of_writes_sub q2 W q2_writes h

abbrev q3_W : List (Ref sig .tc) := [main_v53, main_v54, main_v55, main_cst_6, main_v56, main_cst_7, main_v57, main_v58, main_v59, main_cst_8, main_v60, main_v61, main_v62, main_cst_9, main_call3_v0, main_call3_v1, main_v63, main_c_10, main_v64, main_v65, main_c_11, main_v66, main_v67, main_v68, main_v69, main_v70, main_v71, main_c_12, main_v72, main_v73, main_c_13, main_v74, main_v75, main_v76, main_v77, main_v78, main_v79, main_c_14, main_v80, main_v81, main_c_15, main_v82, main_v83, main_v84, main_v85, main_v86, main_v87, main_v88, main_v89, main_cst_16, main_v90, main_v91, main_v92, main_v93, main_v94, main_v95, main_call4_cst, main_call4_v0, main_v96]
theorem q3_writes : (q3 : List (HloOp τ sig (Elt F))).Forall fun op => op.writes ⊆ (q3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 3 does not write keeps its contents through it. -/
theorem keep3 (W : Valuation τ sig (Elt F)) (r : Ref sig .tc) (h : r ∉ q3_W) :
    after q3 W (Proc.devRef .tc r) = W (Proc.devRef .tc r) :=
  after_of_writes_sub q3 W q3_writes h

abbrev q4_W : List (Ref sig .tc) := [main_v97, main_v98, main_v99, main_v100]
theorem q4_writes : (q4 : List (HloOp τ sig (Elt F))).Forall fun op => op.writes ⊆ (q4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 4 does not write keeps its contents through it. -/
theorem keep4 (W : Valuation τ sig (Elt F)) (r : Ref sig .tc) (h : r ∉ q4_W) :
    after q4 W (Proc.devRef .tc r) = W (Proc.devRef .tc r) :=
  after_of_writes_sub q4 W q4_writes h

abbrev q5_W : List (Ref sig .tc) := [main_cst_17, main_v101, main_cst_18, main_v102, main_v103, main_c_19, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v104, main_v105, main_v106, main_v107, main_cst_20, main_v108, main_v109, main_v110, main_v111, main_v112, main_v113, main_v114, main_v115, main_v116, main_v117, main_v118, main_v119, main_v120, main_v121, main_v122, main_v123, main_v124]
theorem q5_writes : (q5 : List (HloOp τ sig (Elt F))).Forall fun op => op.writes ⊆ (q5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 5 does not write keeps its contents through it. -/
theorem keep5 (W : Valuation τ sig (Elt F)) (r : Ref sig .tc) (h : r ∉ q5_W) :
    after q5 W (Proc.devRef .tc r) = W (Proc.devRef .tc r) :=
  after_of_writes_sub q5 W q5_writes h

abbrev q6_W : List (Ref sig .tc) := [main_v125, main_v126, main_v127, main_cst_21, main_v128, main_cst_22, main_v129, main_v130, main_v131, main_cst_23, main_v132, main_v133, main_v134, main_cst_24, main_call6_v0, main_call6_v1, main_v135, main_c_25, main_v136, main_v137, main_c_26, main_v138, main_v139, main_v140, main_v141, main_v142, main_v143, main_c_27, main_v144, main_v145, main_c_28, main_v146, main_v147, main_v148]
theorem q6_writes : (q6 : List (HloOp τ sig (Elt F))).Forall fun op => op.writes ⊆ (q6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 6 does not write keeps its contents through it. -/
theorem keep6 (W : Valuation τ sig (Elt F)) (r : Ref sig .tc) (h : r ∉ q6_W) :
    after q6 W (Proc.devRef .tc r) = W (Proc.devRef .tc r) :=
  after_of_writes_sub q6 W q6_writes h

abbrev q7_W : List (Ref sig .tc) := [main_v149, main_v150, main_v151, main_c_29, main_v152, main_v153, main_c_30, main_v154, main_v155, main_v156, main_v157, main_v158, main_v159, main_v160, main_v161, main_cst_31, main_v162, main_v163, main_v164, main_v165, main_v166, main_v167, main_call7_cst, main_call7_v0, main_v168]
theorem q7_writes : (q7 : List (HloOp τ sig (Elt F))).Forall fun op => op.writes ⊆ (q7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 7 does not write keeps its contents through it. -/
theorem keep7 (W : Valuation τ sig (Elt F)) (r : Ref sig .tc) (h : r ∉ q7_W) :
    after q7 W (Proc.devRef .tc r) = W (Proc.devRef .tc r) :=
  after_of_writes_sub q7 W q7_writes h

abbrev q8_W : List (Ref sig .tc) := [main_v169, main_v170, main_v171, main_v172, main_cst_32, main_v173, main_cst_33, main_v174, main_v175, main_c_34, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v176, main_v177, main_v178, main_v179, main_cst_35, main_v180, main_v181, main_v182, main_v183, main_v184, main_v185, main_v186, main_v187, main_v188, main_v189, main_v190, main_v191, main_v192, main_v193, main_v194, main_v195, main_v196]
theorem q8_writes : (q8 : List (HloOp τ sig (Elt F))).Forall fun op => op.writes ⊆ (q8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 8 does not write keeps its contents through it. -/
theorem keep8 (W : Valuation τ sig (Elt F)) (r : Ref sig .tc) (h : r ∉ q8_W) :
    after q8 W (Proc.devRef .tc r) = W (Proc.devRef .tc r) :=
  after_of_writes_sub q8 W q8_writes h

abbrev q9_W : List (Ref sig .tc) := [main_v197, main_v198, main_v199, main_cst_36, main_v200]
theorem q9_writes : (q9 : List (HloOp τ sig (Elt F))).Forall fun op => op.writes ⊆ (q9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 9 does not write keeps its contents through it. -/
theorem keep9 (W : Valuation τ sig (Elt F)) (r : Ref sig .tc) (h : r ∉ q9_W) :
    after q9 W (Proc.devRef .tc r) = W (Proc.devRef .tc r) :=
  after_of_writes_sub q9 W q9_writes h

abbrev q10_W : List (Ref sig .tc) := [main_cst_37, main_v201, main_v202, main_v203, main_cst_38, main_v204, main_v205, main_v206, main_cst_39, main_call9_v0, main_call9_v1, main_v207, main_c_40, main_v208, main_v209, main_c_41, main_v210, main_v211, main_v212, main_v213, main_v214, main_v215, main_c_42, main_v216, main_v217, main_c_43, main_v218, main_v219, main_v220, main_v221, main_v222, main_v223, main_c_44, main_v224, main_v225, main_c_45, main_v226, main_v227, main_v228, main_v229, main_v230, main_v231, main_v232, main_v233, main_cst_46, main_v234, main_v235, main_v236, main_v237, main_v238, main_v239, main_call10_cst, main_call10_v0, main_v240]
theorem q10_writes : (q10 : List (HloOp τ sig (Elt F))).Forall fun op => op.writes ⊆ (q10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 10 does not write keeps its contents through it. -/
theorem keep10 (W : Valuation τ sig (Elt F)) (r : Ref sig .tc) (h : r ∉ q10_W) :
    after q10 W (Proc.devRef .tc r) = W (Proc.devRef .tc r) :=
  after_of_writes_sub q10 W q10_writes h

abbrev q11_W : List (Ref sig .tc) := [main_cst_47, main_v241, main_v242, main_v243, main_cst_48, main_v244, main_cst_49, main_v245, main_v246, main_c_50]
theorem q11_writes : (q11 : List (HloOp τ sig (Elt F))).Forall fun op => op.writes ⊆ (q11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 11 does not write keeps its contents through it. -/
theorem keep11 (W : Valuation τ sig (Elt F)) (r : Ref sig .tc) (h : r ∉ q11_W) :
    after q11 W (Proc.devRef .tc r) = W (Proc.devRef .tc r) :=
  after_of_writes_sub q11 W q11_writes h

abbrev q12_W : List (Ref sig .tc) := [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v247, main_v248, main_v249, main_v250, main_cst_51, main_v251, main_v252, main_v253, main_v254, main_v255, main_v256, main_v257, main_v258, main_v259, main_v260, main_v261, main_v262, main_v263, main_v264, main_v265, main_v266, main_call12_cst, main_call12_v0, main_v267, main_cst_52, main_v268, main_cst_53, main_v269, main_v270, main_c_54, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v271, main_v272, main_v273, main_v274, main_cst_55, main_v275, main_v276, main_v277, main_v278, main_v279, main_v280, main_v281, main_v282, main_v283, main_v284, main_v285, main_v286, main_v287, main_v288, main_v289, main_v290, main_call14_cst, main_call14_v0, main_call14_cst_0, main_call14_v1, main_call14_v2, main_call14_v3, main_call14_v4, main_call14_v5, main_call14_v6, main_call14_cst_1, main_call14_v7, main_call14_v8, main_call14_v9, main_call14_v10, main_v291]
theorem q12_writes : (q12 : List (HloOp τ sig (Elt F))).Forall fun op => op.writes ⊆ (q12_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 12 does not write keeps its contents through it. -/
theorem keep12 (W : Valuation τ sig (Elt F)) (r : Ref sig .tc) (h : r ∉ q12_W) :
    after q12 W (Proc.devRef .tc r) = W (Proc.devRef .tc r) :=
  after_of_writes_sub q12 W q12_writes h

/-! ## The stages, from any contents `W` before the stretch -/

section Stages

variable (W : Valuation τ sig (Elt F))

set_option maxHeartbeats 4000000 in
theorem st0_H : (after q0 W) (Proc.devRef .tc main_v24) = reluR (dotR (bnR (W (Proc.devRef .tc main_arg0)) (W (Proc.devRef .tc main_arg3)) (W (Proc.devRef .tc main_arg4))) (W (Proc.devRef .tc main_arg5))) := by
  simp only [q0]; after_results_simp; rfl
set_option maxHeartbeats 4000000 in
theorem st0_src : (after q0 W) (Proc.devRef .tc main_v1) = srcR (W (Proc.devRef .tc main_arg1)) := by
  simp only [q0]; after_results_simp; rfl
set_option maxHeartbeats 4000000 in
theorem st0_dst : (after q0 W) (Proc.devRef .tc main_v3) = dstR (W (Proc.devRef .tc main_arg1)) := by
  simp only [q0]; after_results_simp; rfl

set_option maxHeartbeats 4000000 in
theorem st1_XW : (after q2 (after q1 W)) (Proc.devRef .tc main_v52) = dotR (bnR (W (Proc.devRef .tc main_v24)) (row0 (W (Proc.devRef .tc main_arg6))) (row0 (W (Proc.devRef .tc main_arg7)))) (mat0 (W (Proc.devRef .tc main_arg8))) := by
  simp only [q1, q2]; after_results_simp; rfl
set_option maxHeartbeats 4000000 in
theorem st1_bias : (after q2 (after q1 W)) (Proc.devRef .tc main_v51) = row0 (W (Proc.devRef .tc main_arg9)) := by
  simp only [q1, q2]; after_results_simp; rfl
set_option maxHeartbeats 4000000 in
theorem st2_H : (after q3 W) (Proc.devRef .tc main_v96) = reluR (addBiasR (propR (W (Proc.devRef .tc main_v52)) (W (Proc.devRef .tc main_v1)) (W (Proc.devRef .tc main_v3))) (W (Proc.devRef .tc main_v51))) := by
  simp only [q3]; after_results_simp; rfl

set_option maxHeartbeats 4000000 in
theorem st3_XW : (after q5 (after q4 W)) (Proc.devRef .tc main_v124) = dotR (bnR (W (Proc.devRef .tc main_v96)) (row1 (W (Proc.devRef .tc main_arg6))) (row1 (W (Proc.devRef .tc main_arg7)))) (mat1 (W (Proc.devRef .tc main_arg8))) := by
  simp only [q4, q5]; after_results_simp; rfl
set_option maxHeartbeats 4000000 in
theorem st3_bias : (after q5 (after q4 W)) (Proc.devRef .tc main_v123) = row1 (W (Proc.devRef .tc main_arg9)) := by
  simp only [q4, q5]; after_results_simp; rfl
set_option maxHeartbeats 4000000 in
theorem st4_H : (after q7 (after q6 W)) (Proc.devRef .tc main_v168) = reluR (addBiasR (propR (W (Proc.devRef .tc main_v124)) (W (Proc.devRef .tc main_v1)) (W (Proc.devRef .tc main_v3))) (W (Proc.devRef .tc main_v123))) := by
  simp only [q6, q7]; after_results_simp; rfl

set_option maxHeartbeats 4000000 in
theorem st5_XW : (after q8 W) (Proc.devRef .tc main_v196) = dotR (bnR (W (Proc.devRef .tc main_v168)) (row2 (W (Proc.devRef .tc main_arg6))) (row2 (W (Proc.devRef .tc main_arg7)))) (mat2 (W (Proc.devRef .tc main_arg8))) := by
  simp only [q8]; after_results_simp; rfl
set_option maxHeartbeats 4000000 in
theorem st5_bias : (after q8 W) (Proc.devRef .tc main_v195) = row2 (W (Proc.devRef .tc main_arg9)) := by
  simp only [q8]; after_results_simp; rfl
set_option maxHeartbeats 4000000 in
theorem st6_H : (after q10 (after q9 W)) (Proc.devRef .tc main_v240) = reluR (addBiasR (propR (W (Proc.devRef .tc main_v196)) (W (Proc.devRef .tc main_v1)) (W (Proc.devRef .tc main_v3))) (W (Proc.devRef .tc main_v195))) := by
  simp only [q9, q10]; after_results_simp; rfl

set_option maxHeartbeats 8000000 in
theorem st7_out : (after q12 (after q11 W)) (Proc.devRef .tc main_v291) = tailR (W (Proc.devRef .tc main_v240)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  simp only [q11, q12]; after_results_simp; rfl

end Stages

/-! ## The chain of stretches -/

/-- The arguments as a valuation holds them. -/
def argsOf (V : Valuation τ sig (Elt F)) : Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17)⟩

/-- Every buffer some operation writes. -/
abbrev allW : List (Ref sig .tc) := q0_W ++ (q1_W ++ (q2_W ++ (q3_W ++ (q4_W ++ (q5_W ++ (q6_W ++ (q7_W ++ (q8_W ++ (q9_W ++ (q10_W ++ (q11_W ++ (q12_W))))))))))))

theorem keepA0 (W : Valuation τ sig (Elt F)) (r : Ref sig .tc) (h : r ∉ allW) : after q0 W (Proc.devRef .tc r) = W (Proc.devRef .tc r) :=
  keep0 W r (fun hm => h (by simp only [allW, List.mem_append]; tauto))
theorem keepA1 (W : Valuation τ sig (Elt F)) (r : Ref sig .tc) (h : r ∉ allW) : after q1 W (Proc.devRef .tc r) = W (Proc.devRef .tc r) :=
  keep1 W r (fun hm => h (by simp only [allW, List.mem_append]; tauto))
theorem keepA2 (W : Valuation τ sig (Elt F)) (r : Ref sig .tc) (h : r ∉ allW) : after q2 W (Proc.devRef .tc r) = W (Proc.devRef .tc r) :=
  keep2 W r (fun hm => h (by simp only [allW, List.mem_append]; tauto))
theorem keepA3 (W : Valuation τ sig (Elt F)) (r : Ref sig .tc) (h : r ∉ allW) : after q3 W (Proc.devRef .tc r) = W (Proc.devRef .tc r) :=
  keep3 W r (fun hm => h (by simp only [allW, List.mem_append]; tauto))
theorem keepA4 (W : Valuation τ sig (Elt F)) (r : Ref sig .tc) (h : r ∉ allW) : after q4 W (Proc.devRef .tc r) = W (Proc.devRef .tc r) :=
  keep4 W r (fun hm => h (by simp only [allW, List.mem_append]; tauto))
theorem keepA5 (W : Valuation τ sig (Elt F)) (r : Ref sig .tc) (h : r ∉ allW) : after q5 W (Proc.devRef .tc r) = W (Proc.devRef .tc r) :=
  keep5 W r (fun hm => h (by simp only [allW, List.mem_append]; tauto))
theorem keepA6 (W : Valuation τ sig (Elt F)) (r : Ref sig .tc) (h : r ∉ allW) : after q6 W (Proc.devRef .tc r) = W (Proc.devRef .tc r) :=
  keep6 W r (fun hm => h (by simp only [allW, List.mem_append]; tauto))
theorem keepA7 (W : Valuation τ sig (Elt F)) (r : Ref sig .tc) (h : r ∉ allW) : after q7 W (Proc.devRef .tc r) = W (Proc.devRef .tc r) :=
  keep7 W r (fun hm => h (by simp only [allW, List.mem_append]; tauto))
theorem keepA8 (W : Valuation τ sig (Elt F)) (r : Ref sig .tc) (h : r ∉ allW) : after q8 W (Proc.devRef .tc r) = W (Proc.devRef .tc r) :=
  keep8 W r (fun hm => h (by simp only [allW, List.mem_append]; tauto))
theorem keepA9 (W : Valuation τ sig (Elt F)) (r : Ref sig .tc) (h : r ∉ allW) : after q9 W (Proc.devRef .tc r) = W (Proc.devRef .tc r) :=
  keep9 W r (fun hm => h (by simp only [allW, List.mem_append]; tauto))
theorem keepA10 (W : Valuation τ sig (Elt F)) (r : Ref sig .tc) (h : r ∉ allW) : after q10 W (Proc.devRef .tc r) = W (Proc.devRef .tc r) :=
  keep10 W r (fun hm => h (by simp only [allW, List.mem_append]; tauto))
theorem keepA11 (W : Valuation τ sig (Elt F)) (r : Ref sig .tc) (h : r ∉ allW) : after q11 W (Proc.devRef .tc r) = W (Proc.devRef .tc r) :=
  keep11 W r (fun hm => h (by simp only [allW, List.mem_append]; tauto))
theorem keepA12 (W : Valuation τ sig (Elt F)) (r : Ref sig .tc) (h : r ∉ allW) : after q12 W (Proc.devRef .tc r) = W (Proc.devRef .tc r) :=
  keep12 W r (fun hm => h (by simp only [allW, List.mem_append]; tauto))

theorem arg0_nw : main_arg0 ∉ allW := by decide
theorem arg1_nw : main_arg1 ∉ allW := by decide
theorem arg2_nw : main_arg2 ∉ allW := by decide
theorem arg3_nw : main_arg3 ∉ allW := by decide
theorem arg4_nw : main_arg4 ∉ allW := by decide
theorem arg5_nw : main_arg5 ∉ allW := by decide
theorem arg6_nw : main_arg6 ∉ allW := by decide
theorem arg7_nw : main_arg7 ∉ allW := by decide
theorem arg8_nw : main_arg8 ∉ allW := by decide
theorem arg9_nw : main_arg9 ∉ allW := by decide
theorem arg10_nw : main_arg10 ∉ allW := by decide
theorem arg11_nw : main_arg11 ∉ allW := by decide
theorem arg12_nw : main_arg12 ∉ allW := by decide
theorem arg13_nw : main_arg13 ∉ allW := by decide
theorem arg14_nw : main_arg14 ∉ allW := by decide
theorem arg15_nw : main_arg15 ∉ allW := by decide
theorem arg16_nw : main_arg16 ∉ allW := by decide
theorem arg17_nw : main_arg17 ∉ allW := by decide

def U1 (V : Valuation τ sig (Elt F)) : Valuation τ sig (Elt F) := after q0 V
def U2 (V : Valuation τ sig (Elt F)) : Valuation τ sig (Elt F) := after q2 (after q1 (U1 V))
def U3 (V : Valuation τ sig (Elt F)) : Valuation τ sig (Elt F) := after q3 (U2 V)
def U4 (V : Valuation τ sig (Elt F)) : Valuation τ sig (Elt F) := after q5 (after q4 (U3 V))
def U5 (V : Valuation τ sig (Elt F)) : Valuation τ sig (Elt F) := after q7 (after q6 (U4 V))
def U6 (V : Valuation τ sig (Elt F)) : Valuation τ sig (Elt F) := after q8 (U5 V)
def U7 (V : Valuation τ sig (Elt F)) : Valuation τ sig (Elt F) := after q10 (after q9 (U6 V))
def U8 (V : Valuation τ sig (Elt F)) : Valuation τ sig (Elt F) := after q12 (after q11 (U7 V))

theorem after_ops (V : Valuation τ sig (Elt F)) : after ops V = U8 V := by
  unfold U8 U7 U6 U5 U4 U3 U2 U1
  simp only [ops, part0, part1, part2, part3, part4, part5, List.append_assoc, after_append]

section Chain

variable (V : Valuation τ sig (Elt F))

theorem U1_keep (r : Ref sig .tc) (h : r ∉ allW) : U1 V (Proc.devRef .tc r) = V (Proc.devRef .tc r) := keepA0 V r h
theorem U2_keep (r : Ref sig .tc) (h : r ∉ allW) : U2 V (Proc.devRef .tc r) = V (Proc.devRef .tc r) := by
  unfold U2; rw [keepA2 _ r h, keepA1 _ r h, U1_keep V r h]
theorem U3_keep (r : Ref sig .tc) (h : r ∉ allW) : U3 V (Proc.devRef .tc r) = V (Proc.devRef .tc r) := by
  unfold U3; rw [keepA3 _ r h, U2_keep V r h]
theorem U4_keep (r : Ref sig .tc) (h : r ∉ allW) : U4 V (Proc.devRef .tc r) = V (Proc.devRef .tc r) := by
  unfold U4; rw [keepA5 _ r h, keepA4 _ r h, U3_keep V r h]
theorem U5_keep (r : Ref sig .tc) (h : r ∉ allW) : U5 V (Proc.devRef .tc r) = V (Proc.devRef .tc r) := by
  unfold U5; rw [keepA7 _ r h, keepA6 _ r h, U4_keep V r h]
theorem U6_keep (r : Ref sig .tc) (h : r ∉ allW) : U6 V (Proc.devRef .tc r) = V (Proc.devRef .tc r) := by
  unfold U6; rw [keepA8 _ r h, U5_keep V r h]
theorem U7_keep (r : Ref sig .tc) (h : r ∉ allW) : U7 V (Proc.devRef .tc r) = V (Proc.devRef .tc r) := by
  unfold U7; rw [keepA10 _ r h, keepA9 _ r h, U6_keep V r h]
theorem U8_keep (r : Ref sig .tc) (h : r ∉ allW) : U8 V (Proc.devRef .tc r) = V (Proc.devRef .tc r) := by
  unfold U8; rw [keepA12 _ r h, keepA11 _ r h, U7_keep V r h]

theorem U1_H : U1 V (Proc.devRef .tc main_v24) = H1 (argsOf V) := st0_H V
theorem U1_src : U1 V (Proc.devRef .tc main_v1) = srcR (argsOf V).a1 := st0_src V
theorem U1_dst : U1 V (Proc.devRef .tc main_v3) = dstR (argsOf V).a1 := st0_dst V

theorem U2_XW : U2 V (Proc.devRef .tc main_v52) = XW1 (argsOf V) := by
  unfold U2; rw [st1_XW (U1 V), U1_H, U1_keep V main_arg6 arg6_nw, U1_keep V main_arg7 arg7_nw, U1_keep V main_arg8 arg8_nw]; rfl
theorem U2_bias : U2 V (Proc.devRef .tc main_v51) = row0 (argsOf V).a9 := by
  unfold U2; rw [st1_bias (U1 V), U1_keep V main_arg9 arg9_nw]; rfl
theorem U2_src : U2 V (Proc.devRef .tc main_v1) = srcR (argsOf V).a1 := by
  unfold U2; rw [keep2 _ main_v1 (by decide), keep1 _ main_v1 (by decide), U1_src]
theorem U2_dst : U2 V (Proc.devRef .tc main_v3) = dstR (argsOf V).a1 := by
  unfold U2; rw [keep2 _ main_v3 (by decide), keep1 _ main_v3 (by decide), U1_dst]
theorem U3_H : U3 V (Proc.devRef .tc main_v96) = H2 (argsOf V) := by
  unfold U3; rw [st2_H (U2 V), U2_XW, U2_src, U2_dst, U2_bias]; rfl
theorem U3_src : U3 V (Proc.devRef .tc main_v1) = srcR (argsOf V).a1 := by
  unfold U3; rw [keep3 _ main_v1 (by decide), U2_src]
theorem U3_dst : U3 V (Proc.devRef .tc main_v3) = dstR (argsOf V).a1 := by
  unfold U3; rw [keep3 _ main_v3 (by decide), U2_dst]

theorem U4_XW : U4 V (Proc.devRef .tc main_v124) = XW2 (argsOf V) := by
  unfold U4; rw [st3_XW (U3 V), U3_H, U3_keep V main_arg6 arg6_nw, U3_keep V main_arg7 arg7_nw, U3_keep V main_arg8 arg8_nw]; rfl
theorem U4_bias : U4 V (Proc.devRef .tc main_v123) = row1 (argsOf V).a9 := by
  unfold U4; rw [st3_bias (U3 V), U3_keep V main_arg9 arg9_nw]; rfl
theorem U4_src : U4 V (Proc.devRef .tc main_v1) = srcR (argsOf V).a1 := by
  unfold U4; rw [keep5 _ main_v1 (by decide), keep4 _ main_v1 (by decide), U3_src]
theorem U4_dst : U4 V (Proc.devRef .tc main_v3) = dstR (argsOf V).a1 := by
  unfold U4; rw [keep5 _ main_v3 (by decide), keep4 _ main_v3 (by decide), U3_dst]
theorem U5_H : U5 V (Proc.devRef .tc main_v168) = H3 (argsOf V) := by
  unfold U5; rw [st4_H (U4 V), U4_XW, U4_src, U4_dst, U4_bias]; rfl
theorem U5_src : U5 V (Proc.devRef .tc main_v1) = srcR (argsOf V).a1 := by
  unfold U5; rw [keep7 _ main_v1 (by decide), keep6 _ main_v1 (by decide), U4_src]
theorem U5_dst : U5 V (Proc.devRef .tc main_v3) = dstR (argsOf V).a1 := by
  unfold U5; rw [keep7 _ main_v3 (by decide), keep6 _ main_v3 (by decide), U4_dst]

theorem U6_XW : U6 V (Proc.devRef .tc main_v196) = XW3 (argsOf V) := by
  unfold U6; rw [st5_XW (U5 V), U5_H, U5_keep V main_arg6 arg6_nw, U5_keep V main_arg7 arg7_nw, U5_keep V main_arg8 arg8_nw]; rfl
theorem U6_bias : U6 V (Proc.devRef .tc main_v195) = row2 (argsOf V).a9 := by
  unfold U6; rw [st5_bias (U5 V), U5_keep V main_arg9 arg9_nw]; rfl
theorem U6_src : U6 V (Proc.devRef .tc main_v1) = srcR (argsOf V).a1 := by
  unfold U6; rw [keep8 _ main_v1 (by decide), U5_src]
theorem U6_dst : U6 V (Proc.devRef .tc main_v3) = dstR (argsOf V).a1 := by
  unfold U6; rw [keep8 _ main_v3 (by decide), U5_dst]
theorem U7_H : U7 V (Proc.devRef .tc main_v240) = H4 (argsOf V) := by
  unfold U7; rw [st6_H (U6 V), U6_XW, U6_src, U6_dst, U6_bias]; rfl
theorem U7_src : U7 V (Proc.devRef .tc main_v1) = srcR (argsOf V).a1 := by
  unfold U7; rw [keep10 _ main_v1 (by decide), keep9 _ main_v1 (by decide), U6_src]
theorem U7_dst : U7 V (Proc.devRef .tc main_v3) = dstR (argsOf V).a1 := by
  unfold U7; rw [keep10 _ main_v3 (by decide), keep9 _ main_v3 (by decide), U6_dst]

/-- THE RESULT of the reference, from any launch contents: the composition of the stages at the arguments. -/
theorem result : after ops V (Proc.devRef .tc main_v291) = OUT (argsOf V) := by
  rw [after_ops]; unfold U8
  rw [st7_out (U7 V), U7_H, U7_keep V main_arg2 arg2_nw, U7_keep V main_arg10 arg10_nw, U7_keep V main_arg11 arg11_nw, U7_keep V main_arg12 arg12_nw, U7_keep V main_arg13 arg13_nw, U7_keep V main_arg14 arg14_nw, U7_keep V main_arg15 arg15_nw, U7_keep V main_arg16 arg16_nw, U7_keep V main_arg17 arg17_nw]
  rfl

/-- An argument buffer ends as launched. -/
theorem result_arg (r : Ref sig .tc) (h : r ∉ allW) : after ops V (Proc.devRef .tc r) = V (Proc.devRef .tc r) := by
  rw [after_ops]; exact U8_keep V r h

end Chain

end Cert.ReferenceIdeal.RefVals

end
-- ==== Proof.PreReal.lean ====
/-
  From the precondition to real inputs.

  The precondition is one bit: the conjunction, over the sixteen float arguments, of "every entry's absolute value
  compares below the pattern of +∞". A conjunction is 1 only if both conjuncts are; an all-reduction by "and" is 1 only if
  every entry is; and an extended real whose absolute value is below +∞ is neither infinity, so it is a real number.
-/
import proofs.«169240_j69947837383264_1_alg».proof.Defs
import proofs.«169240_j69947837383264_1_alg».proof.Proof.Gen.Pre_finite_inputs
import proofs.«169240_j69947837383264_1_alg».proof.Proof.LibMoments
import Idealize.ShloMosaic.Lib.ReduceAll
import Idealize.ShloMosaic.Lib.Affine
import Idealize.ShloMosaic.Lib.ValueIdx

set_option maxRecDepth 16384

noncomputable section

namespace Cert.PreReal

open Idealize.ShloMosaic Idealize.ShloMosaic.ValueIdx Cert.LibMoments
open Cert.Pre_finite_inputs Cert.Pre_finite_inputs.Gen

instance : Subsingleton S_.Idx := ⟨fun a b => funext fun d => d.elim0⟩

theorem inf_bits : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) : IsReal x := by
  rw [inf_bits] at h
  unfold Ideal.cmp at h
  have hlt : max x (-x) < ⊤ := by
    by_contra hn
    simp [hn] at h
  refine IsReal.of_ne (fun ht => ?_) (fun hb => ?_)
  · rw [ht] at hlt; simp at hlt
  · rw [hb] at hlt; simp at hlt

/-- If the all-reduction of "absolute value below +∞" over an array is 1, every entry of the array is real. -/
theorem all_real {s : Shape} {axes : List (Fin s.rank)} (a : FVec Ideal s .f32) (dims : Fin S_.rank → Fin s.rank)
    (hb : S_.BroadcastsInDim s dims) (hR : s.ReducesTo axes S_) (hu : 0 < S_.numel)
    (e : Host.reduce IntOp.andi (cmpf (F := Ideal) .olt (Host.absf a) (broadcastInDim s dims hb (constant (F := Ideal) S_ .f32 0x7F800000#32)))
        (constantI S_ 1 1#1) hR hu ix0 = 1#1) (i : s.Idx) : IsReal (a i) :=
  real_of_abs_lt (a i) (Host.reduce_andi_all _ _ hR hu ix0 e i)

theorem vandi_eq_one (x y : IVec S_ 1) : andi x y ix0 = 1#1 ↔ x ix0 = 1#1 ∧ y ix0 = 1#1 := IntOp.andi_eq_one

/-- THE PRECONDITION GIVES REAL INPUTS: every entry of the eight float arguments the hidden arrays depend on. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i)) := by
  have h := congrFun (hpre c) ix0
  dsimp only [fn, fn_part1, fn_part2, fn_part3, fn_part4] at h
  obtain ⟨h, h17⟩ := (vandi_eq_one _ _).mp h
  obtain ⟨h, h16⟩ := (vandi_eq_one _ _).mp h
  obtain ⟨h, h15⟩ := (vandi_eq_one _ _).mp h
  obtain ⟨h, h14⟩ := (vandi_eq_one _ _).mp h
  obtain ⟨h, h13⟩ := (vandi_eq_one _ _).mp h
  obtain ⟨h, h12⟩ := (vandi_eq_one _ _).mp h
  obtain ⟨h, h11⟩ := (vandi_eq_one _ _).mp h
  obtain ⟨h, h10⟩ := (vandi_eq_one _ _).mp h
  obtain ⟨h, h9⟩ := (vandi_eq_one _ _).mp h
  obtain ⟨h, h8⟩ := (vandi_eq_one _ _).mp h
  obtain ⟨h, h7⟩ := (vandi_eq_one _ _).mp h
  obtain ⟨h, h6⟩ := (vandi_eq_one _ _).mp h
  obtain ⟨h, h5⟩ := (vandi_eq_one _ _).mp h
  obtain ⟨h, h4⟩ := (vandi_eq_one _ _).mp h
  obtain ⟨h, h3⟩ := (vandi_eq_one _ _).mp h
  exact ⟨all_real _ _ _ _ _ h, all_real _ _ _ _ _ h3, all_real _ _ _ _ _ h4, all_real _ _ _ _ _ h5, all_real _ _ _ _ _ h6,
    all_real _ _ _ _ _ h7, all_real _ _ _ _ _ h8, all_real _ _ _ _ _ h9⟩

end Cert.PreReal

end
-- ==== Proof.lean ====
/-
  The certificate: the kernel program, its idealization and the idealized reference all run to completion with their
  arguments unchanged, and on finite inputs the idealized kernel and the idealized reference end with the same result.

  The three runs are the generated frames of the two kernel programs and the reference's fold over its host operations.
  The idealization rewrote nothing, so what it preserves is nothing to prove. For the equality of results: the kernel
  program's result buffer ends at the reference's result function of the arguments (the boundary-by-boundary reading of its
  eleven launches and its host stretches, where the two forms of a column variance agree because every hidden array is
  real on finite inputs), and the reference's result buffer ends at the same function of arguments that agree.
-/
import proofs.«169240_j69947837383264_1_alg».proof.Defs
import proofs.«169240_j69947837383264_1_alg».proof.Proof.Gen.Kernel
import proofs.«169240_j69947837383264_1_alg».proof.Proof.Gen.Kernel.Skeleton
import proofs.«169240_j69947837383264_1_alg».proof.Proof.Gen.Kernel.Launch
import proofs.«169240_j69947837383264_1_alg».proof.Proof.Gen.Kernel.Points
import proofs.«169240_j69947837383264_1_alg».proof.Proof.Gen.Kernel.Frame
import proofs.«169240_j69947837383264_1_alg».proof.Proof.Gen.KernelIdeal
import proofs.«169240_j69947837383264_1_alg».proof.Proof.Gen.KernelIdeal.Skeleton
import proofs.«169240_j69947837383264_1_alg».proof.Proof.Gen.KernelIdeal.Launch
import proofs.«169240_j69947837383264_1_alg».proof.Proof.Gen.KernelIdeal.Points
import proofs.«169240_j69947837383264_1_alg».proof.Proof.Gen.KernelIdeal.Frame
import proofs.«169240_j69947837383264_1_alg».proof.Proof.Gen.ReferenceIdeal
import proofs.«169240_j69947837383264_1_alg».proof.Proof.Gen.Pre_finite_inputs
import proofs.«169240_j69947837383264_1_alg».proof.Proof.KernelRun
import proofs.«169240_j69947837383264_1_alg».proof.Proof.KChain
import proofs.«169240_j69947837383264_1_alg».proof.Proof.RefVals
import proofs.«169240_j69947837383264_1_alg».proof.Proof.PreReal
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with every argument read back: no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefVals.result_arg _ Cert.ReferenceIdeal.main_arg0 Cert.ReferenceIdeal.RefVals.arg0_nw),
     (h c Cert.ReferenceIdeal.main_arg1).trans (Cert.ReferenceIdeal.RefVals.result_arg _ Cert.ReferenceIdeal.main_arg1 Cert.ReferenceIdeal.RefVals.arg1_nw),
     (h c Cert.ReferenceIdeal.main_arg2).trans (Cert.ReferenceIdeal.RefVals.result_arg _ Cert.ReferenceIdeal.main_arg2 Cert.ReferenceIdeal.RefVals.arg2_nw),
     (h c Cert.ReferenceIdeal.main_arg3).trans (Cert.ReferenceIdeal.RefVals.result_arg _ Cert.ReferenceIdeal.main_arg3 Cert.ReferenceIdeal.RefVals.arg3_nw),
     (h c Cert.ReferenceIdeal.main_arg4).trans (Cert.ReferenceIdeal.RefVals.result_arg _ Cert.ReferenceIdeal.main_arg4 Cert.ReferenceIdeal.RefVals.arg4_nw),
     (h c Cert.ReferenceIdeal.main_arg5).trans (Cert.ReferenceIdeal.RefVals.result_arg _ Cert.ReferenceIdeal.main_arg5 Cert.ReferenceIdeal.RefVals.arg5_nw),
     (h c Cert.ReferenceIdeal.main_arg6).trans (Cert.ReferenceIdeal.RefVals.result_arg _ Cert.ReferenceIdeal.main_arg6 Cert.ReferenceIdeal.RefVals.arg6_nw),
     (h c Cert.ReferenceIdeal.main_arg7).trans (Cert.ReferenceIdeal.RefVals.result_arg _ Cert.ReferenceIdeal.main_arg7 Cert.ReferenceIdeal.RefVals.arg7_nw),
     (h c Cert.ReferenceIdeal.main_arg8).trans (Cert.ReferenceIdeal.RefVals.result_arg _ Cert.ReferenceIdeal.main_arg8 Cert.ReferenceIdeal.RefVals.arg8_nw),
     (h c Cert.ReferenceIdeal.main_arg9).trans (Cert.ReferenceIdeal.RefVals.result_arg _ Cert.ReferenceIdeal.main_arg9 Cert.ReferenceIdeal.RefVals.arg9_nw),
     (h c Cert.ReferenceIdeal.main_arg10).trans (Cert.ReferenceIdeal.RefVals.result_arg _ Cert.ReferenceIdeal.main_arg10 Cert.ReferenceIdeal.RefVals.arg10_nw),
     (h c Cert.ReferenceIdeal.main_arg11).trans (Cert.ReferenceIdeal.RefVals.result_arg _ Cert.ReferenceIdeal.main_arg11 Cert.ReferenceIdeal.RefVals.arg11_nw),
     (h c Cert.ReferenceIdeal.main_arg12).trans (Cert.ReferenceIdeal.RefVals.result_arg _ Cert.ReferenceIdeal.main_arg12 Cert.ReferenceIdeal.RefVals.arg12_nw),
     (h c Cert.ReferenceIdeal.main_arg13).trans (Cert.ReferenceIdeal.RefVals.result_arg _ Cert.ReferenceIdeal.main_arg13 Cert.ReferenceIdeal.RefVals.arg13_nw),
     (h c Cert.ReferenceIdeal.main_arg14).trans (Cert.ReferenceIdeal.RefVals.result_arg _ Cert.ReferenceIdeal.main_arg14 Cert.ReferenceIdeal.RefVals.arg14_nw),
     (h c Cert.ReferenceIdeal.main_arg15).trans (Cert.ReferenceIdeal.RefVals.result_arg _ Cert.ReferenceIdeal.main_arg15 Cert.ReferenceIdeal.RefVals.arg15_nw),
     (h c Cert.ReferenceIdeal.main_arg16).trans (Cert.ReferenceIdeal.RefVals.result_arg _ Cert.ReferenceIdeal.main_arg16 Cert.ReferenceIdeal.RefVals.arg16_nw),
     (h c Cert.ReferenceIdeal.main_arg17).trans (Cert.ReferenceIdeal.RefVals.result_arg _ Cert.ReferenceIdeal.main_arg17 Cert.ReferenceIdeal.RefVals.arg17_nw)⟩)
    (Cert.ReferenceIdeal.RefRun.run_all (F := Ideal) m ρ)

theorem preserves : Cert.preserves_Kernel_KernelIdeal := trivial

/-- On finite inputs the eight float arguments the hidden arrays depend on are real. -/
theorem args_real (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.KChain.ArgsReal (Cert.KernelIdeal.KChain.argsK m c) := by
  obtain ⟨r0, r3, r4, r5, r6, r7, r8, r9⟩ := Cert.PreReal.real_args m hpre c
  exact ⟨r0, r3, r4, r5, r6, r7, r8, r9⟩

theorem algebraic : Cert.algebraic_KernelIdeal_ReferenceIdeal := by
  intro m ρ m' ρ' hpre hagree
  refine ⟨fun c => Cert.ReferenceIdeal.Spec.OUT (Cert.KernelIdeal.KChain.argsK m c), ?_, ?_⟩
  · refine (θ_run Cert.KernelIdeal.defs _ _).mono (fun r h c => ?_) (Cert.KernelIdeal.RunValue.run_result (F := Ideal) m ρ)
    obtain ⟨h0, hrest⟩ := h c
    exact ⟨h0.trans (Cert.KernelIdeal.KChain.result m ρ c (args_real m hpre c)), hrest⟩
  · refine (θ_run Cert.ReferenceIdeal.defs _ _).mono (fun r h c => ?_) (Cert.ReferenceIdeal.RefRun.run_all (F := Ideal) m' ρ')
    have hargs : Cert.ReferenceIdeal.RefVals.argsOf (F := Ideal) (launchContents m' c) = Cert.KernelIdeal.KChain.argsK m c := by
      obtain ⟨e0, e1, e2, e3, e4, e5, e6, e7, e8, e9, e10, e11, e12, e13, e14, e15, e16, e17⟩ := hagree c
      show (⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17)⟩ : Cert.ReferenceIdeal.Spec.Args Ideal)
        = ⟨m ((c.tc : Thread Cert.KernelIdeal.nD Cert.KernelIdeal.τ).loc Cert.KernelIdeal.main_arg0), m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17)⟩
      rw [e0, e1, e2, e3, e4, e5, e6, e7, e8, e9, e10, e11, e12, e13, e14, e15, e16, e17]
    exact ⟨(h c Cert.ReferenceIdeal.main_v291).trans ((Cert.ReferenceIdeal.RefVals.result (launchContents m' c)).trans (congrArg Cert.ReferenceIdeal.Spec.OUT hargs)),
     (h c Cert.ReferenceIdeal.main_arg0).trans (Cert.ReferenceIdeal.RefVals.result_arg _ Cert.ReferenceIdeal.main_arg0 Cert.ReferenceIdeal.RefVals.arg0_nw),
     (h c Cert.ReferenceIdeal.main_arg1).trans (Cert.ReferenceIdeal.RefVals.result_arg _ Cert.ReferenceIdeal.main_arg1 Cert.ReferenceIdeal.RefVals.arg1_nw),
     (h c Cert.ReferenceIdeal.main_arg2).trans (Cert.ReferenceIdeal.RefVals.result_arg _ Cert.ReferenceIdeal.main_arg2 Cert.ReferenceIdeal.RefVals.arg2_nw),
     (h c Cert.ReferenceIdeal.main_arg3).trans (Cert.ReferenceIdeal.RefVals.result_arg _ Cert.ReferenceIdeal.main_arg3 Cert.ReferenceIdeal.RefVals.arg3_nw),
     (h c Cert.ReferenceIdeal.main_arg4).trans (Cert.ReferenceIdeal.RefVals.result_arg _ Cert.ReferenceIdeal.main_arg4 Cert.ReferenceIdeal.RefVals.arg4_nw),
     (h c Cert.ReferenceIdeal.main_arg5).trans (Cert.ReferenceIdeal.RefVals.result_arg _ Cert.ReferenceIdeal.main_arg5 Cert.ReferenceIdeal.RefVals.arg5_nw),
     (h c Cert.ReferenceIdeal.main_arg6).trans (Cert.ReferenceIdeal.RefVals.result_arg _ Cert.ReferenceIdeal.main_arg6 Cert.ReferenceIdeal.RefVals.arg6_nw),
     (h c Cert.ReferenceIdeal.main_arg7).trans (Cert.ReferenceIdeal.RefVals.result_arg _ Cert.ReferenceIdeal.main_arg7 Cert.ReferenceIdeal.RefVals.arg7_nw),
     (h c Cert.ReferenceIdeal.main_arg8).trans (Cert.ReferenceIdeal.RefVals.result_arg _ Cert.ReferenceIdeal.main_arg8 Cert.ReferenceIdeal.RefVals.arg8_nw),
     (h c Cert.ReferenceIdeal.main_arg9).trans (Cert.ReferenceIdeal.RefVals.result_arg _ Cert.ReferenceIdeal.main_arg9 Cert.ReferenceIdeal.RefVals.arg9_nw),
     (h c Cert.ReferenceIdeal.main_arg10).trans (Cert.ReferenceIdeal.RefVals.result_arg _ Cert.ReferenceIdeal.main_arg10 Cert.ReferenceIdeal.RefVals.arg10_nw),
     (h c Cert.ReferenceIdeal.main_arg11).trans (Cert.ReferenceIdeal.RefVals.result_arg _ Cert.ReferenceIdeal.main_arg11 Cert.ReferenceIdeal.RefVals.arg11_nw),
     (h c Cert.ReferenceIdeal.main_arg12).trans (Cert.ReferenceIdeal.RefVals.result_arg _ Cert.ReferenceIdeal.main_arg12 Cert.ReferenceIdeal.RefVals.arg12_nw),
     (h c Cert.ReferenceIdeal.main_arg13).trans (Cert.ReferenceIdeal.RefVals.result_arg _ Cert.ReferenceIdeal.main_arg13 Cert.ReferenceIdeal.RefVals.arg13_nw),
     (h c Cert.ReferenceIdeal.main_arg14).trans (Cert.ReferenceIdeal.RefVals.result_arg _ Cert.ReferenceIdeal.main_arg14 Cert.ReferenceIdeal.RefVals.arg14_nw),
     (h c Cert.ReferenceIdeal.main_arg15).trans (Cert.ReferenceIdeal.RefVals.result_arg _ Cert.ReferenceIdeal.main_arg15 Cert.ReferenceIdeal.RefVals.arg15_nw),
     (h c Cert.ReferenceIdeal.main_arg16).trans (Cert.ReferenceIdeal.RefVals.result_arg _ Cert.ReferenceIdeal.main_arg16 Cert.ReferenceIdeal.RefVals.arg16_nw),
     (h c Cert.ReferenceIdeal.main_arg17).trans (Cert.ReferenceIdeal.RefVals.result_arg _ Cert.ReferenceIdeal.main_arg17 Cert.ReferenceIdeal.RefVals.arg17_nw)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
